-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v65)) (v2 : (c : Dev Cert.KernelIdeal.nD) → Buf (Elt Ideal) ((c.tc : Thread Cert.KernelIdeal.nD Cert.KernelIdeal.τ).loc Cert.KernelIdeal.main_v78)) (v3 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_v78) = v2 c
          ∧ r.2.mem ((c.tc : Thread Cert.KernelIdeal.nD Cert.KernelIdeal.τ).loc Cert.KernelIdeal.main_v51) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S2x16384 : Shape := ⟨2, ![2, 16384]⟩
abbrev S1024 : Shape := ⟨1, ![1024]⟩
abbrev S256x128 : Shape := ⟨2, ![256, 128]⟩
abbrev S128 : Shape := ⟨1, ![128]⟩
abbrev S128x119 : Shape := ⟨2, ![128, 119]⟩
abbrev S119 : Shape := ⟨1, ![119]⟩
abbrev S512x256 : Shape := ⟨2, ![512, 256]⟩
abbrev S256 : Shape := ⟨1, ![256]⟩
abbrev S256x5 : Shape := ⟨2, ![256, 5]⟩
abbrev S5 : Shape := ⟨1, ![5]⟩
abbrev S375x256 : Shape := ⟨2, ![375, 256]⟩
abbrev S256x1 : Shape := ⟨2, ![256, 1]⟩
abbrev S1 : Shape := ⟨1, ![1]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x119 : S_.BroadcastsInDim S128x119 (![] : Fin 0 → Fin S128x119.rank)
  reducesTo_S128x119_S_d0_1 : S128x119.ReducesTo [0, 1] S_
  bcast_S_S119 : S_.BroadcastsInDim S119 (![] : Fin 0 → Fin S119.rank)
  reducesTo_S119_S_d0 : S119.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x5 : S_.BroadcastsInDim S256x5 (![] : Fin 0 → Fin S256x5.rank)
  reducesTo_S256x5_S_d0_1 : S256x5.ReducesTo [0, 1] S_
  bcast_S_S5 : S_.BroadcastsInDim S5 (![] : Fin 0 → Fin S5.rank)
  reducesTo_S5_S_d0 : S5.ReducesTo [0] S_
  bcast_S_S375x256 : S_.BroadcastsInDim S375x256 (![] : Fin 0 → Fin S375x256.rank)
  reducesTo_S375x256_S_d0_1 : S375x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S256x1 .f32) (main_arg14 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x1 .f32 := Host.absf main_arg13
  let main_cst_20 : FVec F S_ .f32 := constant S_ .f32 0x7F800000#32
  let main_v55 : FVec F S256x1 .f32 := broadcastInDim S256x1 ![] bcast_S_S256x1 main_cst_20
  let main_v56 : IVec S256x1 1 := cmpf .olt main_v54 main_v55
  let main_c_21 : IVec S_ 1 := constantI S_ 1 1#1
  let main_v57 : IVec S_ 1 := (fun x v => Host.reduce IntOp.andi x v reducesTo_S256x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S256x5 .f32) (main_arg10 : FVec F S5 .f32) (main_arg11 : FVec F S375x256 .f32) (main_arg12 : FVec F S256 .f32) (main_arg13 : FVec F S256x1 .f32) (main_arg14 : FVec F S1 .f32) (main_v33 : IVec S_ 1) : IVec S_ 1 :=
  let main_v34 : FVec F S256x5 .f32 := Host.absf main_arg9
  let main_cst_12 : FVec F S_ .f32 := constant S_ .f32 0x7F800000#32
  let main_v35 : FVec F S256x5 .f32 := broadcastInDim S256x5 ![] bcast_S_S256x5 main_cst_12
  let main_v36 : IVec S256x5 1 := cmpf .olt main_v34 main_v35
  let main_c_13 : IVec S_ 1 := constantI S_ 1 1#1
  let main_v37 : IVec S_ 1 := (fun x v => Host.reduce IntOp.andi x v reducesTo_S256x5_S_d0_1 h_S_) main_v36 main_c_13
  let main_v38 : IVec S_ 1 := andi main_v33 main_v37
  let main_v39 : FVec F S5 .f32 := Host.absf main_arg10
  let main_cst_14 : FVec F S_ .f32 := constant S_ .f32 0x7F800000#32
  let main_v40 : FVec F S5 .f32 := broadcastInDim S5 ![] bcast_S_S5 main_cst_14
  let main_v41 : IVec S5 1 := cmpf .olt main_v39 main_v40
  let main_c_15 : IVec S_ 1 := constantI S_ 1 1#1
  let main_v42 : IVec S_ 1 := (fun x v => Host.reduce IntOp.andi x v reducesTo_S5_S_d0 h_S_) main_v41 main_c_15
  let main_v43 : IVec S_ 1 := andi main_v38 main_v42
  let main_v44 : FVec F S375x256 .f32 := Host.absf main_arg11
  let main_cst_16 : FVec F S_ .f32 := constant S_ .f32 0x7F800000#32
  let main_v45 : FVec F S375x256 .f32 := broadcastInDim S375x256 ![] bcast_S_S375x256 main_cst_16
  let main_v46 : IVec S375x256 1 := cmpf .olt main_v44 main_v45
  let main_c_17 : IVec S_ 1 := constantI S_ 1 1#1
  let main_v47 : IVec S_ 1 := (fun x v => Host.reduce IntOp.andi x v reducesTo_S375x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_v48 main_v49 main_v50

def fn_part1 {F : FTy → Type} [FloatOps F] (main_arg6 : FVec F S119 .f32) (main_arg7 : FVec F S512x256 .f32) (main_arg8 : FVec F S256 .f32) (main_arg9 : FVec F S256x5 .f32) (main_arg10 : FVec F S5 .f32) (main_arg11 : FVec F S375x256 .f32) (main_arg12 : FVec F S256 .f32) (main_arg13 : FVec F S256x1 .f32) (main_arg14 : FVec F S1 .f32) (main_v13 : IVec S_ 1) (main_v16 : IVec S128x119 1) : IVec S_ 1 :=
  let main_c_5 : IVec S_ 1 := constantI S_ 1 1#1
  let main_v17 : IVec S_ 1 := (fun x v => Host.reduce IntOp.andi x v reducesTo_S128x119_S_d0_1 h_S_) main_v16 main_c_5
  let main_v18 : IVec S_ 1 := andi main_v13 main_v17
  let main_v19 : FVec F S119 .f32 := Host.absf main_arg6
  let main_cst_6 : FVec F S_ .f32 := constant S_ .f32 0x7F800000#32
  let main_v20 : FVec F S119 .f32 := broadcastInDim S119 ![] bcast_S_S119 main_cst_6
  let main_v21 : IVec S119 1 := cmpf .olt main_v19 main_v20
  let main_c_7 : IVec S_ 1 := constantI S_ 1 1#1
  let main_v22 : IVec S_ 1 := (fun x v => Host.reduce IntOp.andi x v reducesTo_S119_S_d0 h_S_) main_v21 main_c_7
  let main_v23 : IVec S_ 1 := andi main_v18 main_v22
  let main_v24 : FVec F S512x256 .f32 := Host.absf main_arg7
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S1024x256 .f32) (main_arg1 : IVec S2x16384 32) (main_arg2 : IVec S1024 32) (main_arg3 : FVec F S256x128 .f32) (main_arg4 : FVec F S128 .f32) (main_arg5 : FVec F S128x119 .f32) (main_arg6 : FVec F S119 .f32) (main_arg7 : FVec F S512x256 .f32) (main_arg8 : FVec F S256 .f32) (main_arg9 : FVec F S256x5 .f32) (main_arg10 : FVec F S5 .f32) (main_arg11 : FVec F S375x256 .f32) (main_arg12 : FVec F S256 .f32) (main_arg13 : FVec F S256x1 .f32) (main_arg14 : FVec F S1 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x119 .f32 := Host.absf main_arg5
  let main_cst_4 : FVec F S_ .f32 := constant S_ .f32 0x7F800000#32
  let main_v15 : FVec F S128x119 .f32 := broadcastInDim S128x119 ![] bcast_S_S128x119 main_cst_4
  let main_v16 : IVec S128x119 1 := cmpf .olt main_v14 main_v15
  fn_part1 (F := F) main_arg6 main_arg7 main_arg8 main_arg9 main_arg10 main_arg11 main_arg12 main_arg13 main_arg14 main_v13 main_v16
-- ==== Kernel.lean ====
abbrev S1024x256 : Shape := ⟨2, ![1024, 256]⟩
abbrev S2x16384 : Shape := ⟨2, ![2, 16384]⟩
abbrev S1024 : Shape := ⟨1, ![1024]⟩
abbrev S256x128 : Shape := ⟨2, ![256, 128]⟩
abbrev S128 : Shape := ⟨1, ![128]⟩
abbrev S128x119 : Shape := ⟨2, ![128, 119]⟩
abbrev S119 : Shape := ⟨1, ![119]⟩
abbrev S512x256 : Shape := ⟨2, ![512, 256]⟩
abbrev S256 : Shape := ⟨1, ![256]⟩
abbrev S256x5 : Shape := ⟨2, ![256, 5]⟩
abbrev S5 : Shape := ⟨1, ![5]⟩
abbrev S375x256 : Shape := ⟨2, ![375, 256]⟩
abbrev S256x1 : Shape := ⟨2, ![256, 1]⟩
abbrev S1 : Shape := ⟨1, ![1]⟩
abbrev S1024x128 : Shape := ⟨2, ![1024, 128]⟩
abbrev S1x128 : Shape := ⟨2, ![1, 128]⟩
abbrev S_ : Shape := ⟨0, ![]⟩
abbrev S1024x119 : Shape := ⟨2, ![1024, 119]⟩
abbrev S1x119 : Shape := ⟨2, ![1, 119]⟩
abbrev S1024x1 : Shape := ⟨2, ![1024, 1]⟩
abbrev S256x256 : Shape := ⟨2, ![256, 256]⟩
abbrev S1x256 : Shape := ⟨2, ![1, 256]⟩
abbrev S1x5 : Shape := ⟨2, ![1, 5]⟩
abbrev S1024x1024x5 : Shape := ⟨3, ![1024, 1024, 5]⟩
abbrev S32x256 : Shape := ⟨2, ![32, 256]⟩
abbrev S128x256 : Shape := ⟨2, ![128, 256]⟩
abbrev S32x128x5 : Shape := ⟨3, ![32, 128, 5]⟩
abbrev S32x1x256 : Shape := ⟨3, ![32, 1, 256]⟩
abbrev S32x128x256 : Shape := ⟨3, ![32, 128, 256]⟩
abbrev S1x128x256 : Shape := ⟨3, ![1, 128, 256]⟩
abbrev S4096x256 : Shape := ⟨2, ![4096, 256]⟩
abbrev S4096x5 : Shape := ⟨2, ![4096, 5]⟩
abbrev S1024x1024 : Shape := ⟨2, ![1024, 1024]⟩
abbrev S1048576 : Shape := ⟨1, ![1048576]⟩
abbrev S523776 : Shape := ⟨1, ![523776]⟩
abbrev S1048576x1 : Shape := ⟨2, ![1048576, 1]⟩
abbrev S523776x1 : Shape := ⟨2, ![523776, 1]⟩
abbrev S523776x2 : Shape := ⟨2, ![523776, 2]⟩
abbrev S523776x5 : Shape := ⟨2, ![523776, 5]⟩
abbrev S119x256 : Shape := ⟨2, ![119, 256]⟩
abbrev S1x1 : Shape := ⟨2, ![1, 1]⟩

abbrev nBuf : Space → Nat
  | .hbm => 214
  | .vmem => 8
  | .smem => 0
  | _ => 0

abbrev hbmTy0_0 (i : Nat) : BufTy := match i % 128 with
  | 0 => ⟨S1024x256, .f32⟩
  | 1 => ⟨S2x16384, .i32⟩
  | 2 => ⟨S1024, .i32⟩
  | 3 => ⟨S256x128, .f32⟩
  | 4 => ⟨S128, .f32⟩
  | 5 => ⟨S128x119, .f32⟩
  | 6 => ⟨S119, .f32⟩
  | 7 => ⟨S512x256, .f32⟩
  | 8 => ⟨S256, .f32⟩
  | 9 => ⟨S256x5, .f32⟩
  | 10 => ⟨S5, .f32⟩
  | 11 => ⟨S375x256, .f32⟩
  | 12 => ⟨S256, .f32⟩
  | 13 => ⟨S256x1, .f32⟩
  | 14 => ⟨S1, .f32⟩
  | 15 => ⟨S1024x128, .f32⟩
  | 16 => ⟨S1x128, .f32⟩
  | 17 => ⟨S1024x128, .f32⟩
  | 18 => ⟨S1024x128, .f32⟩
  | 19 => ⟨S1024x128, .f32⟩
  | 20 => ⟨S1024x128, .f32⟩
  | 21 => ⟨S_, .f32⟩
  | 22 => ⟨S1024x128, .f32⟩
  | 23 => ⟨S1024x128, .f32⟩
  | 24 => ⟨S_, .f32⟩
  | 25 => ⟨S1024x128, .f32⟩
  | 26 => ⟨S1024x128, .f32⟩
  | 27 => ⟨S1024x128, .f32⟩
  | 28 => ⟨S1024x119, .f32⟩
  | 29 => ⟨S1x119, .f32⟩
  | 30 => ⟨S1024x119, .f32⟩
  | 31 => ⟨S1024x119, .f32⟩
  | 32 => ⟨S_, .f32⟩
  | 33 => ⟨S1024, .f32⟩
  | 34 => ⟨S_, .f32⟩
  | 35 => ⟨S1024, .f32⟩
  | 36 => ⟨S1024, .f32⟩
  | 37 => ⟨S1024x1, .f32⟩
  | 38 => ⟨S1024x119, .f32⟩
  | 39 => ⟨S1024x119, .f32⟩
  | 40 => ⟨S1024x119, .f32⟩
  | 41 => ⟨S_, .f32⟩
  | 42 => ⟨S1024, .f32⟩
  | 43 => ⟨S1024x1, .f32⟩
  | 44 => ⟨S1024x119, .f32⟩
  | 45 => ⟨S1024x119, .f32⟩
  | 46 => ⟨S256x256, .f32⟩
  | 47 => ⟨S1024x256, .f32⟩
  | 48 => ⟨S1x256, .f32⟩
  | 49 => ⟨S1024x256, .f32⟩
  | 50 => ⟨S1024x256, .f32⟩
  | 51 => ⟨S256x256, .f32⟩
  | 52 => ⟨S1024x256, .f32⟩
  | 53 => ⟨S1x5, .f32⟩
  | 54 => ⟨S1024x1024x5, .f32⟩
  | 55 => ⟨S_, .f32⟩
  | 56 => ⟨S1024x1024, .f32⟩
  | 57 => ⟨S1024x1024, .i32⟩
  | 58 => ⟨S_, .i32⟩
  | 59 => ⟨S1024x1024, .i32⟩
  | 60 => ⟨S1024x1024, .i32⟩
  | 61 => ⟨S1024x1024, .i32⟩
  | 62 => ⟨S1024x1024, .i1⟩
  | 63 => ⟨S_, .f32⟩
  | 64 => ⟨S1024x1024, .f32⟩
  | 65 => ⟨S1024x1024, .f32⟩
  | 66 => ⟨S_, .f32⟩
  | 67 => ⟨S1024x1024, .f32⟩
  | 68 => ⟨S1024x1024, .i1⟩
  | 69 => ⟨S1048576, .i1⟩
  | 70 => ⟨S1048576, .i32⟩
  | 71 => ⟨S_, .i32⟩
  | 72 => ⟨S_, .i32⟩
  | 73 => ⟨S1048576, .i32⟩
  | 74 => ⟨S_, .i32⟩
  | 75 => ⟨S523776, .i32⟩
  | 76 => ⟨S_, .i32⟩
  | 77 => ⟨S_, .i32⟩
  | 78 => ⟨S1048576, .i32⟩
  | 79 => ⟨S1048576, .i32⟩
  | 80 => ⟨S_, .i32⟩
  | 81 => ⟨S1048576, .i32⟩
  | 82 => ⟨S1048576, .i1⟩
  | 83 => ⟨S_, .i32⟩
  | 84 => ⟨S1048576, .i32⟩
  | 85 => ⟨S1048576, .i32⟩
  | 86 => ⟨S1048576, .i32⟩
  | 87 => ⟨S1048576x1, .i32⟩
  | 88 => ⟨S_, .i32⟩
  | 89 => ⟨S1048576, .i32⟩
  | 90 => ⟨S523776, .i32⟩
  | 91 => ⟨S_, .i32⟩
  | 92 => ⟨S_, .i32⟩
  | 93 => ⟨S523776, .i32⟩
  | 94 => ⟨S_, .i32⟩
  | 95 => ⟨S523776, .i32⟩
  | 96 => ⟨S523776, .i32⟩
  | 97 => ⟨S523776, .i32⟩
  | 98 => ⟨S_, .i32⟩
  | 99 => ⟨S523776, .i32⟩
  | 100 => ⟨S523776, .i1⟩
  | 101 => ⟨S523776, .i32⟩
  | 102 => ⟨S523776, .i32⟩
  | 103 => ⟨S_, .i32⟩
  | 104 => ⟨S523776, .i32⟩
  | 105 => ⟨S523776, .i1⟩
  | 106 => ⟨S523776, .i1⟩
  | 107 => ⟨S_, .i32⟩
  | 108 => ⟨S523776, .i32⟩
  | 109 => ⟨S523776, .i32⟩
  | 110 => ⟨S523776, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S523776, .i32⟩
  | 118 => ⟨S523776, .i32⟩
  | 119 => ⟨S_, .i32⟩
  | 120 => ⟨S523776, .i32⟩
  | 121 => ⟨S523776, .i1⟩
  | 122 => ⟨S_, .i32⟩
  | 123 => ⟨S523776, .i32⟩
  | 124 => ⟨S523776, .i1⟩
  | 125 => ⟨S_, .i32⟩
  | 126 => ⟨S_, .i1⟩
  | 127 => ⟨S523776, .i1⟩
  | _ => ⟨S1024x256, .f32⟩

abbrev hbmTy0_1 (i : Nat) : BufTy := match i % 128 with
  | 0 => ⟨S523776, .i1⟩
  | 1 => ⟨S523776, .i1⟩
  | 2 => ⟨S523776, .i32⟩
  | 3 => ⟨S523776, .i32⟩
  | 4 => ⟨S523776, .i32⟩
  | 5 => ⟨S_, .i32⟩
  | 6 => ⟨S523776, .i32⟩
  | 7 => ⟨S523776, .i32⟩
  | 8 => ⟨S523776, .i32⟩
  | 9 => ⟨S_, .i32⟩
  | 10 => ⟨S523776, .i32⟩
  | 11 => ⟨S523776, .i1⟩
  | 12 => ⟨S523776, .i32⟩
  | 13 => ⟨S523776, .i32⟩
  | 14 => ⟨S_, .i32⟩
  | 15 => ⟨S523776, .i32⟩
  | 16 => ⟨S523776, .i1⟩
  | 17 => ⟨S523776, .i1⟩
  | 18 => ⟨S_, .i32⟩
  | 19 => ⟨S523776, .i32⟩
  | 20 => ⟨S523776, .i32⟩
  | 21 => ⟨S523776, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S523776, .i32⟩
  | 29 => ⟨S523776, .i32⟩
  | 30 => ⟨S_, .i32⟩
  | 31 => ⟨S523776, .i32⟩
  | 32 => ⟨S523776, .i1⟩
  | 33 => ⟨S_, .i32⟩
  | 34 => ⟨S523776, .i32⟩
  | 35 => ⟨S523776, .i1⟩
  | 36 => ⟨S_, .i32⟩
  | 37 => ⟨S_, .i1⟩
  | 38 => ⟨S523776, .i1⟩
  | 39 => ⟨S523776, .i1⟩
  | 40 => ⟨S523776, .i1⟩
  | 41 => ⟨S523776, .i32⟩
  | 42 => ⟨S523776, .i32⟩
  | 43 => ⟨S523776, .i32⟩
  | 44 => ⟨S523776x1, .i32⟩
  | 45 => ⟨S523776x1, .i32⟩
  | 46 => ⟨S523776x2, .i32⟩
  | 47 => ⟨S_, .i32⟩
  | 48 => ⟨S523776, .i32⟩
  | 49 => ⟨S523776, .i1⟩
  | 50 => ⟨S_, .i32⟩
  | 51 => ⟨S523776, .i32⟩
  | 52 => ⟨S523776, .i32⟩
  | 53 => ⟨S523776, .i32⟩
  | 54 => ⟨S_, .i32⟩
  | 55 => ⟨S523776, .i32⟩
  | 56 => ⟨S523776, .i1⟩
  | 57 => ⟨S_, .i32⟩
  | 58 => ⟨S523776, .i32⟩
  | 59 => ⟨S523776, .i32⟩
  | 60 => ⟨S523776, .i32⟩
  | 61 => ⟨S523776x1, .i32⟩
  | 62 => ⟨S523776x1, .i32⟩
  | 63 => ⟨S523776x2, .i32⟩
  | 64 => ⟨S523776x5, .f32⟩
  | 65 => ⟨S256x256, .f32⟩
  | 66 => ⟨S1024x256, .f32⟩
  | 67 => ⟨S119x256, .f32⟩
  | 68 => ⟨S1024x256, .f32⟩
  | 69 => ⟨S1024x256, .f32⟩
  | 70 => ⟨S1x256, .f32⟩
  | 71 => ⟨S1024x256, .f32⟩
  | 72 => ⟨S1024x256, .f32⟩
  | 73 => ⟨S1024x256, .f32⟩
  | 74 => ⟨S1024x256, .f32⟩
  | 75 => ⟨S_, .f32⟩
  | 76 => ⟨S1024x256, .f32⟩
  | 77 => ⟨S1024x256, .f32⟩
  | 78 => ⟨S_, .f32⟩
  | 79 => ⟨S1024x256, .f32⟩
  | 80 => ⟨S1024x256, .f32⟩
  | 81 => ⟨S1024x256, .f32⟩
  | 82 => ⟨S1024x1, .f32⟩
  | 83 => ⟨S1x1, .f32⟩
  | 84 => ⟨S1024x1, .f32⟩
  | 85 => ⟨S1024x1, .f32⟩
  | _ => ⟨S1024x256, .f32⟩

abbrev hbmTy (i : Nat) : BufTy := match i / 128 with
  | 0 => hbmTy0_0 i
  | 1 => hbmTy0_1 i
  | _ => ⟨S1024x256, .f32⟩

abbrev bufTy : (tb : Table) → Fin (tcTables nBuf tb) → BufTy
  | .hbm, ⟨i, _⟩ => hbmTy i
  | .local _ .vmem, ⟨0, _⟩ => ⟨S32x256, .f32⟩
  | .local _ .vmem, ⟨1, _⟩ => ⟨S32x256, .f32⟩
  | .local _ .vmem, ⟨2, _⟩ => ⟨S128x256, .f32⟩
  | .local _ .vmem, ⟨3, _⟩ => ⟨S128x256, .f32⟩
  | .local _ .vmem, ⟨4, _⟩ => ⟨S256x5, .f32⟩
  | .local _ .vmem, ⟨5, _⟩ => ⟨S1x5, .f32⟩
  | .local _ .vmem, ⟨6, _⟩ => ⟨S32x128x5, .f32⟩
  | .local _ .vmem, ⟨7, _⟩ => ⟨S32x128x5, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst : Ref sig .tc := ⟨.hbm, 32, rfl⟩
abbrev main_v9 : Ref sig .tc := ⟨.hbm, 33, rfl⟩
abbrev main_cst_0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_2 : Ref sig .tc := ⟨.hbm, 55, rfl⟩
abbrev main_v29 : Ref sig .tc := ⟨.hbm, 56, rfl⟩
abbrev main_call1_v0 : Ref sig .tc := ⟨.hbm, 57, rfl⟩
abbrev main_call1_c : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_cst : Ref sig .tc := ⟨.hbm, 63, rfl⟩
abbrev main_call1_v5 : Ref sig .tc := ⟨.hbm, 64, rfl⟩
abbrev main_v30 : Ref sig .tc := ⟨.hbm, 65, rfl⟩
abbrev main_cst_3 : Ref sig .tc := ⟨.hbm, 66, rfl⟩
abbrev main_v31 : Ref sig .tc := ⟨.hbm, 67, rfl⟩
abbrev main_v32 : Ref sig .tc := ⟨.hbm, 68, rfl⟩
abbrev main_call2_v0 : Ref sig .tc := ⟨.hbm, 69, rfl⟩
abbrev main_call2_v1 : Ref sig .tc := ⟨.hbm, 70, rfl⟩
abbrev main_call2_call0_c : Ref sig .tc := ⟨.hbm, 71, rfl⟩
abbrev main_call2_call0_v0 : Ref sig .tc := ⟨.hbm, 72, rfl⟩
abbrev main_v33 : Ref sig .tc := ⟨.hbm, 73, rfl⟩
abbrev main_c : Ref sig .tc := ⟨.hbm, 74, rfl⟩
abbrev main_v34 : Ref sig .tc := ⟨.hbm, 75, rfl⟩
abbrev main_c_4 : Ref sig .tc := ⟨.hbm, 76, rfl⟩
abbrev main_call3_v0 : Ref sig .tc := ⟨.hbm, 77, rfl⟩
abbrev main_call3_v1 : Ref sig .tc := ⟨.hbm, 78, rfl⟩
abbrev main_v35 : Ref sig .tc := ⟨.hbm, 79, rfl⟩
abbrev main_c_5 : Ref sig .tc := ⟨.hbm, 80, rfl⟩
abbrev main_v36 : Ref sig .tc := ⟨.hbm, 81, rfl⟩
abbrev main_v37 : Ref sig .tc := ⟨.hbm, 82, rfl⟩
abbrev main_c_6 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_c_7 : Ref sig .tc := ⟨.hbm, 88, rfl⟩
abbrev main_v42 : Ref sig .tc := ⟨.hbm, 89, rfl⟩
abbrev main_v43 : Ref sig .tc := ⟨.hbm, 90, rfl⟩
abbrev main_call4_call0_c : Ref sig .tc := ⟨.hbm, 91, rfl⟩
abbrev main_call4_call0_v0 : Ref sig .tc := ⟨.hbm, 92, rfl⟩
abbrev main_v44 : Ref sig .tc := ⟨.hbm, 93, rfl⟩
abbrev main_c_8 : Ref sig .tc := ⟨.hbm, 94, rfl⟩
abbrev main_call5_v0 : Ref sig .tc := ⟨.hbm, 95, rfl⟩
abbrev main_call5_v1 : Ref sig .tc := ⟨.hbm, 96, rfl⟩
abbrev main_call5_v2 : Ref sig .tc := ⟨.hbm, 97, rfl⟩
abbrev main_call5_v3 : Ref sig .tc := ⟨.hbm, 98, rfl⟩
abbrev main_call5_v4 : Ref sig .tc := ⟨.hbm, 99, rfl⟩
abbrev main_call5_v5 : Ref sig .tc := ⟨.hbm, 100, rfl⟩
abbrev main_call5_v6 : Ref sig .tc := ⟨.hbm, 101, rfl⟩
abbrev main_call5_v7 : Ref sig .tc := ⟨.hbm, 102, rfl⟩
abbrev main_call5_c : Ref sig .tc := ⟨.hbm, 103, rfl⟩
abbrev main_call5_v8 : Ref sig .tc := ⟨.hbm, 104, rfl⟩
abbrev main_call5_v9 : Ref sig .tc := ⟨.hbm, 105, rfl⟩
abbrev main_call5_v10 : Ref sig .tc := ⟨.hbm, 106, rfl⟩
abbrev main_call5_c_0 : Ref sig .tc := ⟨.hbm, 107, rfl⟩
abbrev main_call5_v11 : Ref sig .tc := ⟨.hbm, 108, rfl⟩
abbrev main_call5_v12 : Ref sig .tc := ⟨.hbm, 109, rfl⟩
abbrev main_v45 : Ref sig .tc := ⟨.hbm, 110, rfl⟩
abbrev main_c_9 : Ref sig .tc := ⟨.hbm, 111, rfl⟩
abbrev main_call6_v0 : Ref sig .tc := ⟨.hbm, 112, rfl⟩
abbrev main_call6_c : Ref sig .tc := ⟨.hbm, 113, rfl⟩
abbrev main_call6_v1 : Ref sig .tc := ⟨.hbm, 114, rfl⟩
abbrev main_call6_c_0 : Ref sig .tc := ⟨.hbm, 115, rfl⟩
abbrev main_call6_v2 : Ref sig .tc := ⟨.hbm, 116, rfl⟩
abbrev main_call6_v3 : Ref sig .tc := ⟨.hbm, 117, rfl⟩
abbrev main_call6_v4 : Ref sig .tc := ⟨.hbm, 118, rfl⟩
abbrev main_call6_c_1 : Ref sig .tc := ⟨.hbm, 119, rfl⟩
abbrev main_call6_v5 : Ref sig .tc := ⟨.hbm, 120, rfl⟩
abbrev main_call6_v6 : Ref sig .tc := ⟨.hbm, 121, rfl⟩
abbrev main_call6_c_2 : Ref sig .tc := ⟨.hbm, 122, rfl⟩
abbrev main_call6_v7 : Ref sig .tc := ⟨.hbm, 123, rfl⟩
abbrev main_call6_v8 : Ref sig .tc := ⟨.hbm, 124, rfl⟩
abbrev main_call6_c_3 : Ref sig .tc := ⟨.hbm, 125, rfl⟩
abbrev main_call6_v9 : Ref sig .tc := ⟨.hbm, 126, rfl⟩
abbrev main_call6_v10 : Ref sig .tc := ⟨.hbm, 127, rfl⟩
abbrev main_call6_v11 : Ref sig .tc := ⟨.hbm, 128, rfl⟩
abbrev main_call6_v12 : Ref sig .tc := ⟨.hbm, 129, rfl⟩
abbrev main_call6_v13 : Ref sig .tc := ⟨.hbm, 130, rfl⟩
abbrev main_call6_v14 : Ref sig .tc := ⟨.hbm, 131, rfl⟩
abbrev main_v46 : Ref sig .tc := ⟨.hbm, 132, rfl⟩
abbrev main_c_10 : Ref sig .tc := ⟨.hbm, 133, rfl⟩
abbrev main_call7_v0 : Ref sig .tc := ⟨.hbm, 134, rfl⟩
abbrev main_call7_v1 : Ref sig .tc := ⟨.hbm, 135, rfl⟩
abbrev main_call7_v2 : Ref sig .tc := ⟨.hbm, 136, rfl⟩
abbrev main_call7_v3 : Ref sig .tc := ⟨.hbm, 137, rfl⟩
abbrev main_call7_v4 : Ref sig .tc := ⟨.hbm, 138, rfl⟩
abbrev main_call7_v5 : Ref sig .tc := ⟨.hbm, 139, rfl⟩
abbrev main_call7_v6 : Ref sig .tc := ⟨.hbm, 140, rfl⟩
abbrev main_call7_v7 : Ref sig .tc := ⟨.hbm, 141, rfl⟩
abbrev main_call7_c : Ref sig .tc := ⟨.hbm, 142, rfl⟩
abbrev main_call7_v8 : Ref sig .tc := ⟨.hbm, 143, rfl⟩
abbrev main_call7_v9 : Ref sig .tc := ⟨.hbm, 144, rfl⟩
abbrev main_call7_v10 : Ref sig .tc := ⟨.hbm, 145, rfl⟩
abbrev main_call7_c_0 : Ref sig .tc := ⟨.hbm, 146, rfl⟩
abbrev main_call7_v11 : Ref sig .tc := ⟨.hbm, 147, rfl⟩
abbrev main_call7_v12 : Ref sig .tc := ⟨.hbm, 148, rfl⟩
abbrev main_v47 : Ref sig .tc := ⟨.hbm, 149, rfl⟩
abbrev main_c_11 : Ref sig .tc := ⟨.hbm, 150, rfl⟩
abbrev main_call8_v0 : Ref sig .tc := ⟨.hbm, 151, rfl⟩
abbrev main_call8_c : Ref sig .tc := ⟨.hbm, 152, rfl⟩
abbrev main_call8_v1 : Ref sig .tc := ⟨.hbm, 153, rfl⟩
abbrev main_call8_c_0 : Ref sig .tc := ⟨.hbm, 154, rfl⟩
abbrev main_call8_v2 : Ref sig .tc := ⟨.hbm, 155, rfl⟩
abbrev main_call8_v3 : Ref sig .tc := ⟨.hbm, 156, rfl⟩
abbrev main_call8_v4 : Ref sig .tc := ⟨.hbm, 157, rfl⟩
abbrev main_call8_c_1 : Ref sig .tc := ⟨.hbm, 158, rfl⟩
abbrev main_call8_v5 : Ref sig .tc := ⟨.hbm, 159, rfl⟩
abbrev main_call8_v6 : Ref sig .tc := ⟨.hbm, 160, rfl⟩
abbrev main_call8_c_2 : Ref sig .tc := ⟨.hbm, 161, rfl⟩
abbrev main_call8_v7 : Ref sig .tc := ⟨.hbm, 162, rfl⟩
abbrev main_call8_v8 : Ref sig .tc := ⟨.hbm, 163, rfl⟩
abbrev main_call8_c_3 : Ref sig .tc := ⟨.hbm, 164, rfl⟩
abbrev main_call8_v9 : Ref sig .tc := ⟨.hbm, 165, rfl⟩
abbrev main_call8_v10 : Ref sig .tc := ⟨.hbm, 166, rfl⟩
abbrev main_call8_v11 : Ref sig .tc := ⟨.hbm, 167, rfl⟩
abbrev main_call8_v12 : Ref sig .tc := ⟨.hbm, 168, rfl⟩
abbrev main_call8_v13 : Ref sig .tc := ⟨.hbm, 169, rfl⟩
abbrev main_call8_v14 : Ref sig .tc := ⟨.hbm, 170, rfl⟩
abbrev main_v48 : Ref sig .tc := ⟨.hbm, 171, rfl⟩
abbrev main_v49 : Ref sig .tc := ⟨.hbm, 172, rfl⟩
abbrev main_v50 : Ref sig .tc := ⟨.hbm, 173, rfl⟩
abbrev main_v51 : Ref sig .tc := ⟨.hbm, 174, rfl⟩
abbrev main_c_12 : Ref sig .tc := ⟨.hbm, 175, rfl⟩
abbrev main_v52 : Ref sig .tc := ⟨.hbm, 176, rfl⟩
abbrev main_v53 : Ref sig .tc := ⟨.hbm, 177, rfl⟩
abbrev main_c_13 : Ref sig .tc := ⟨.hbm, 178, rfl⟩
abbrev main_v54 : Ref sig .tc := ⟨.hbm, 179, rfl⟩
abbrev main_v55 : Ref sig .tc := ⟨.hbm, 180, rfl⟩
abbrev main_v56 : Ref sig .tc := ⟨.hbm, 181, rfl⟩
abbrev main_c_14 : Ref sig .tc := ⟨.hbm, 182, rfl⟩
abbrev main_v57 : Ref sig .tc := ⟨.hbm, 183, rfl⟩
abbrev main_v58 : Ref sig .tc := ⟨.hbm, 184, rfl⟩
abbrev main_c_15 : Ref sig .tc := ⟨.hbm, 185, rfl⟩
abbrev main_v59 : Ref sig .tc := ⟨.hbm, 186, rfl⟩
abbrev main_v60 : Ref sig .tc := ⟨.hbm, 187, rfl⟩
abbrev main_v61 : Ref sig .tc := ⟨.hbm, 188, rfl⟩
abbrev main_v62 : Ref sig .tc := ⟨.hbm, 189, rfl⟩
abbrev main_v63 : Ref sig .tc := ⟨.hbm, 190, rfl⟩
abbrev main_v64 : Ref sig .tc := ⟨.hbm, 191, rfl⟩
abbrev main_v65 : Ref sig .tc := ⟨.hbm, 192, rfl⟩
abbrev main_v66 : Ref sig .tc := ⟨.hbm, 193, rfl⟩
abbrev main_v67 : Ref sig .tc := ⟨.hbm, 194, rfl⟩
abbrev main_v68 : Ref sig .tc := ⟨.hbm, 195, rfl⟩
abbrev main_v69 : Ref sig .tc := ⟨.hbm, 196, rfl⟩
abbrev main_v70 : Ref sig .tc := ⟨.hbm, 197, rfl⟩
abbrev main_v71 : Ref sig .tc := ⟨.hbm, 198, rfl⟩
abbrev main_v72 : Ref sig .tc := ⟨.hbm, 199, rfl⟩
abbrev main_v73 : Ref sig .tc := ⟨.hbm, 200, rfl⟩
abbrev main_call9_v0 : Ref sig .tc := ⟨.hbm, 201, rfl⟩
abbrev main_call9_v1 : Ref sig .tc := ⟨.hbm, 202, rfl⟩
abbrev main_call9_cst : Ref sig .tc := ⟨.hbm, 203, rfl⟩
abbrev main_call9_v2 : Ref sig .tc := ⟨.hbm, 204, rfl⟩
abbrev main_call9_v3 : Ref sig .tc := ⟨.hbm, 205, rfl⟩
abbrev main_call9_cst_0 : Ref sig .tc := ⟨.hbm, 206, rfl⟩
abbrev main_call9_v4 : Ref sig .tc := ⟨.hbm, 207, rfl⟩
abbrev main_call9_v5 : Ref sig .tc := ⟨.hbm, 208, rfl⟩
abbrev main_v74 : Ref sig .tc := ⟨.hbm, 209, rfl⟩
abbrev main_v75 : Ref sig .tc := ⟨.hbm, 210, rfl⟩
abbrev main_v76 : Ref sig .tc := ⟨.hbm, 211, rfl⟩
abbrev main_v77 : Ref sig .tc := ⟨.hbm, 212, rfl⟩
abbrev main_v78 : Ref sig .tc := ⟨.hbm, 213, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x128x5 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  bcast_S119_S1x119_1 : S119.BroadcastsInDim S1x119 (![1] : Fin 1 → Fin S1x119.rank)
  bcast_S1x119_S1024x119_0_1 : S1x119.BroadcastsInDim S1024x119 (![0, 1] : Fin 2 → Fin S1024x119.rank)
  reducesTo_S1024x119_S1024_d1 : S1024x119.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x119_0_1 : S1024x1.BroadcastsInDim S1024x119 (![0, 1] : Fin 2 → Fin S1024x119.rank)
  slices_S512x256_S256x256_0_0 : S512x256.Slices ![0, 0] S256x256
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  slices_S512x256_S256x256_256_0 : S512x256.Slices ![256, 0] S256x256
  shapeCasts_S5_S1x5 : S5.ShapeCasts S1x5
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S32x256_S32x1x256 : S32x256.ShapeCasts S32x1x256
  shapeCasts_S32x1x256_S32x1x256 : S32x1x256.ShapeCasts S32x1x256
  broadcasts_S32x1x256_S32x128x256 : S32x1x256.Broadcasts S32x128x256
  shapeCasts_S128x256_S1x128x256 : S128x256.ShapeCasts S1x128x256
  shapeCasts_S1x128x256_S1x128x256 : S1x128x256.ShapeCasts S1x128x256
  broadcasts_S1x128x256_S32x128x256 : S1x128x256.Broadcasts S32x128x256
  bitsLt_bf16_f32 : FTy.bits .bf16 < FTy.bits .f32
  shapeCasts_S32x128x256_S4096x256 : S32x128x256.ShapeCasts S4096x256
  inb_S256x5_S256x5_0_0 : ∀ a, (![0, 0] : Fin 2 → Nat) a + S256x5.size a ≤ S256x5.size a
  h_S256x5 : 0 < S256x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S4096x5 : S1x5.Broadcasts S4096x5
  shapeCasts_S4096x5_S32x128x5 : S4096x5.ShapeCasts S32x128x5
  inb_S32x128x5_S32x128x5_0_0_0 : ∀ a, (![0, 0, 0] : Fin 3 → Nat) a + S32x128x5.size a ≤ S32x128x5.size a
  h_S32x128x5 : 0 < S32x128x5.numel
  bcast_S_S1024x1024 : S_.BroadcastsInDim S1024x1024 (![] : Fin 0 → Fin S1024x1024.rank)
  shapeCasts_S1024x1024_S1048576 : S1024x1024.ShapeCasts S1048576
  natLt_1_32 : 1 < 32
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  bcast_S_S523776 : S_.BroadcastsInDim S523776 (![] : Fin 0 → Fin S523776.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  reduceWindows_S523776_S523776_w523776s1p523775_0 : S523776.ReduceWindows (![523776] : Fin 1 → Nat) ![1] ![523775] ![0] S523776
  bcast_S523776_S523776x1_0 : S523776.BroadcastsInDim S523776x1 (![0] : Fin 1 → Fin S523776x1.rank)
  concatenates_S523776x1_S523776x1_S523776x2_d1 : Shape.Concatenates [S523776x1, S523776x1] S523776x2 1
  slices_S375x256_S256x256_0_0 : S375x256.Slices ![0, 0] S256x256
  slices_S375x256_S119x256_256_0 : S375x256.Slices ![256, 0] S119x256
  bcast_S_S1024x256 : S_.BroadcastsInDim S1024x256 (![] : Fin 0 → Fin S1024x256.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  dot_S1024x256_S256x128_S1024x128_1_0_0_1_n_n_wf : DotDims.WF S1024x256 S256x128 S1024x128 [1] [0] [0] [1] [] []
  dot_S1024x128_S128x119_S1024x119_1_0_0_1_n_n_wf : DotDims.WF S1024x128 S128x119 S1024x119 [1] [0] [0] [1] [] []
  dot_S1024x256_S256x256_S1024x256_1_0_0_1_n_n_wf : DotDims.WF S1024x256 S256x256 S1024x256 [1] [0] [0] [1] [] []
  dot_S4096x256_S256x5_S4096x5_1_0_0_1_n_n_wf : DotDims.WF S4096x256 S256x5 S4096x5 [1] [0] [0] [1] [] []
  scatter_S523776_S1048576x1_S1048576_n_0_0_1_wf : ScatterDims.WF S523776 S1048576x1 S1048576 [] [0] [0] 1
  gather_S1024x1024x5_S523776x2_S523776x5_1_01_n_n_01_1_115_wf : GatherDims.WF S1024x1024x5 S523776x2 S523776x5 [1] [0, 1] [] [0, 1] [] 1 ![1, 1, 5]
  dot_S1024x119_S119x256_S1024x256_1_0_0_1_n_n_wf : DotDims.WF S1024x119 S119x256 S1024x256 [1] [0] [0] [1] [] []
  dot_S1024x256_S256x1_S1024x1_1_0_0_1_n_n_wf : DotDims.WF S1024x256 S256x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S1024x256.size a
  hwx0_0 : ∀ i : grid0.Coords, EltTy.bits .f32 = 32 ∨ (Rect.block (s := S1024x256) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S1024x256.size a
  hwx0_1 : ∀ i : grid0.Coords, EltTy.bits .f32 = 32 ∨ (Rect.block (s := S1024x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x5.size a ≤ S256x5.size a
  hwx0_2 : ∀ i : grid0.Coords, EltTy.bits .f32 = 32 ∨ (Rect.block (s := S256x5) S256x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x5.size a ≤ S1x5.size a
  hwx0_3 : ∀ i : grid0.Coords, EltTy.bits .f32 = 32 ∨ (Rect.block (s := S1x5) S1x5.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128x5.size a ≤ S1024x1024x5.size a
  hwx0_4 : ∀ i : grid0.Coords, EltTy.bits .f32 = 32 ∨ (Rect.block (s := S1024x1024x5) S32x128x5.size (cc0_transform_4 i) (hinb0_4 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x119_S1024x119_1_0_0_1_n_n : DotDims S1024x128 S128x119 S1024x119 where
  lhsContracting := [1]
  rhsContracting := [0]
  lhsNonContracting := [0]
  rhsNonContracting := [1]
  lhsBatch := []
  rhsBatch := []
  wf := dot_S1024x128_S128x119_S1024x119_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S4096x256_S256x5_S4096x5_1_0_0_1_n_n : DotDims S4096x256 S256x5 S4096x5 where
  lhsContracting := [1]
  rhsContracting := [0]
  lhsNonContracting := [0]
  rhsNonContracting := [1]
  lhsBatch := []
  rhsBatch := []
  wf := dot_S4096x256_S256x5_S4096x5_1_0_0_1_n_n_wf
def scatter_S523776_S1048576x1_S1048576_n_0_0_1 : ScatterDims S523776 S1048576x1 S1048576 where
  updateWindowDims := []
  insertedWindowDims := [0]
  scatterDimsToOperandDims := [0]
  indexVectorDim := 1
  wf := scatter_S523776_S1048576x1_S1048576_n_0_0_1_wf
def gather_S1024x1024x5_S523776x2_S523776x5_1_01_n_n_01_1_115 : GatherDims S1024x1024x5 S523776x2 S523776x5 where
  offsetDims := [1]
  collapsedSliceDims := [0, 1]
  operandBatchingDims := []
  startIndicesBatchingDims := []
  startIndexMap := [0, 1]
  indexVectorDim := 1
  sliceSizes := ![1, 1, 5]
  wf := gather_S1024x1024x5_S523776x2_S523776x5_1_01_n_n_01_1_115_wf
def dot_S1024x119_S119x256_S1024x256_1_0_0_1_n_n : DotDims S1024x119 S119x256 S1024x256 where
  lhsContracting := [1]
  rhsContracting := [0]
  lhsNonContracting := [0]
  rhsNonContracting := [1]
  lhsBatch := []
  rhsBatch := []
  wf := dot_S1024x119_S119x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.ofSpec (Memref.whole main_v24) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S256x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S32x128x5.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x256 : Shape := ⟨2, ![1024, 256]⟩
abbrev S2x16384 : Shape := ⟨2, ![2, 16384]⟩
abbrev S1024 : Shape := ⟨1, ![1024]⟩
abbrev S256x128 : Shape := ⟨2, ![256, 128]⟩
abbrev S128 : Shape := ⟨1, ![128]⟩
abbrev S128x119 : Shape := ⟨2, ![128, 119]⟩
abbrev S119 : Shape := ⟨1, ![119]⟩
abbrev S512x256 : Shape := ⟨2, ![512, 256]⟩
abbrev S256 : Shape := ⟨1, ![256]⟩
abbrev S256x5 : Shape := ⟨2, ![256, 5]⟩
abbrev S5 : Shape := ⟨1, ![5]⟩
abbrev S375x256 : Shape := ⟨2, ![375, 256]⟩
abbrev S256x1 : Shape := ⟨2, ![256, 1]⟩
abbrev S1 : Shape := ⟨1, ![1]⟩
abbrev S1024x128 : Shape := ⟨2, ![1024, 128]⟩
abbrev S1x128 : Shape := ⟨2, ![1, 128]⟩
abbrev S_ : Shape := ⟨0, ![]⟩
abbrev S1024x119 : Shape := ⟨2, ![1024, 119]⟩
abbrev S1x119 : Shape := ⟨2, ![1, 119]⟩
abbrev S1024x1 : Shape := ⟨2, ![1024, 1]⟩
abbrev S1024x1024 : Shape := ⟨2, ![1024, 1024]⟩
abbrev S1048576 : Shape := ⟨1, ![1048576]⟩
abbrev S523776 : Shape := ⟨1, ![523776]⟩
abbrev S1048576x1 : Shape := ⟨2, ![1048576, 1]⟩
abbrev S523776x1 : Shape := ⟨2, ![523776, 1]⟩
abbrev S523776x2 : Shape := ⟨2, ![523776, 2]⟩
abbrev S523776x256 : Shape := ⟨2, ![523776, 256]⟩
abbrev S256x256 : Shape := ⟨2, ![256, 256]⟩
abbrev S1x256 : Shape := ⟨2, ![1, 256]⟩
abbrev S523776x5 : Shape := ⟨2, ![523776, 5]⟩
abbrev S1x5 : Shape := ⟨2, ![1, 5]⟩
abbrev S119x256 : Shape := ⟨2, ![119, 256]⟩
abbrev S1x1 : Shape := ⟨2, ![1, 1]⟩

abbrev nBuf : Space → Nat
  | .hbm => 226
  | .vmem => 0
  | .smem => 0
  | _ => 0

abbrev hbmTy0_0 (i : Nat) : BufTy := match i % 128 with
  | 0 => ⟨S1024x256, .f32⟩
  | 1 => ⟨S2x16384, .i32⟩
  | 2 => ⟨S1024, .i32⟩
  | 3 => ⟨S256x128, .f32⟩
  | 4 => ⟨S128, .f32⟩
  | 5 => ⟨S128x119, .f32⟩
  | 6 => ⟨S119, .f32⟩
  | 7 => ⟨S512x256, .f32⟩
  | 8 => ⟨S256, .f32⟩
  | 9 => ⟨S256x5, .f32⟩
  | 10 => ⟨S5, .f32⟩
  | 11 => ⟨S375x256, .f32⟩
  | 12 => ⟨S256, .f32⟩
  | 13 => ⟨S256x1, .f32⟩
  | 14 => ⟨S1, .f32⟩
  | 15 => ⟨S1024x128, .f32⟩
  | 16 => ⟨S1x128, .f32⟩
  | 17 => ⟨S1024x128, .f32⟩
  | 18 => ⟨S1024x128, .f32⟩
  | 19 => ⟨S1024x128, .f32⟩
  | 20 => ⟨S1024x128, .f32⟩
  | 21 => ⟨S_, .f32⟩
  | 22 => ⟨S1024x128, .f32⟩
  | 23 => ⟨S1024x128, .f32⟩
  | 24 => ⟨S_, .f32⟩
  | 25 => ⟨S1024x128, .f32⟩
  | 26 => ⟨S1024x128, .f32⟩
  | 27 => ⟨S1024x128, .f32⟩
  | 28 => ⟨S1024x119, .f32⟩
  | 29 => ⟨S1x119, .f32⟩
  | 30 => ⟨S1024x119, .f32⟩
  | 31 => ⟨S1024x119, .f32⟩
  | 32 => ⟨S_, .f32⟩
  | 33 => ⟨S1024, .f32⟩
  | 34 => ⟨S_, .f32⟩
  | 35 => ⟨S1024, .f32⟩
  | 36 => ⟨S1024, .f32⟩
  | 37 => ⟨S1024x1, .f32⟩
  | 38 => ⟨S1024x119, .f32⟩
  | 39 => ⟨S1024x119, .f32⟩
  | 40 => ⟨S1024x119, .f32⟩
  | 41 => ⟨S_, .f32⟩
  | 42 => ⟨S1024, .f32⟩
  | 43 => ⟨S1024x1, .f32⟩
  | 44 => ⟨S1024x119, .f32⟩
  | 45 => ⟨S1024x119, .f32⟩
  | 46 => ⟨S_, .f32⟩
  | 47 => ⟨S1024x1024, .f32⟩
  | 48 => ⟨S1024x1024, .i32⟩
  | 49 => ⟨S_, .i32⟩
  | 50 => ⟨S1024x1024, .i32⟩
  | 51 => ⟨S1024x1024, .i32⟩
  | 52 => ⟨S1024x1024, .i32⟩
  | 53 => ⟨S1024x1024, .i1⟩
  | 54 => ⟨S_, .f32⟩
  | 55 => ⟨S1024x1024, .f32⟩
  | 56 => ⟨S1024x1024, .f32⟩
  | 57 => ⟨S_, .f32⟩
  | 58 => ⟨S1024x1024, .f32⟩
  | 59 => ⟨S1024x1024, .i1⟩
  | 60 => ⟨S1048576, .i1⟩
  | 61 => ⟨S1048576, .i32⟩
  | 62 => ⟨S_, .i32⟩
  | 63 => ⟨S_, .i32⟩
  | 64 => ⟨S1048576, .i32⟩
  | 65 => ⟨S_, .i32⟩
  | 66 => ⟨S523776, .i32⟩
  | 67 => ⟨S_, .i32⟩
  | 68 => ⟨S_, .i32⟩
  | 69 => ⟨S1048576, .i32⟩
  | 70 => ⟨S1048576, .i32⟩
  | 71 => ⟨S_, .i32⟩
  | 72 => ⟨S1048576, .i32⟩
  | 73 => ⟨S1048576, .i1⟩
  | 74 => ⟨S_, .i32⟩
  | 75 => ⟨S1048576, .i32⟩
  | 76 => ⟨S1048576, .i32⟩
  | 77 => ⟨S1048576, .i32⟩
  | 78 => ⟨S1048576x1, .i32⟩
  | 79 => ⟨S_, .i32⟩
  | 80 => ⟨S1048576, .i32⟩
  | 81 => ⟨S523776, .i32⟩
  | 82 => ⟨S_, .i32⟩
  | 83 => ⟨S_, .i32⟩
  | 84 => ⟨S523776, .i32⟩
  | 85 => ⟨S_, .i32⟩
  | 86 => ⟨S523776, .i32⟩
  | 87 => ⟨S523776, .i32⟩
  | 88 => ⟨S523776, .i32⟩
  | 89 => ⟨S_, .i32⟩
  | 90 => ⟨S523776, .i32⟩
  | 91 => ⟨S523776, .i1⟩
  | 92 => ⟨S523776, .i32⟩
  | 93 => ⟨S523776, .i32⟩
  | 94 => ⟨S_, .i32⟩
  | 95 => ⟨S523776, .i32⟩
  | 96 => ⟨S523776, .i1⟩
  | 97 => ⟨S523776, .i1⟩
  | 98 => ⟨S_, .i32⟩
  | 99 => ⟨S523776, .i32⟩
  | 100 => ⟨S523776, .i32⟩
  | 101 => ⟨S523776, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S523776, .i32⟩
  | 109 => ⟨S523776, .i32⟩
  | 110 => ⟨S_, .i32⟩
  | 111 => ⟨S523776, .i32⟩
  | 112 => ⟨S523776, .i1⟩
  | 113 => ⟨S_, .i32⟩
  | 114 => ⟨S523776, .i32⟩
  | 115 => ⟨S523776, .i1⟩
  | 116 => ⟨S_, .i32⟩
  | 117 => ⟨S_, .i1⟩
  | 118 => ⟨S523776, .i1⟩
  | 119 => ⟨S523776, .i1⟩
  | 120 => ⟨S523776, .i1⟩
  | 121 => ⟨S523776, .i32⟩
  | 122 => ⟨S523776, .i32⟩
  | 123 => ⟨S523776, .i32⟩
  | 124 => ⟨S_, .i32⟩
  | 125 => ⟨S523776, .i32⟩
  | 126 => ⟨S523776, .i32⟩
  | 127 => ⟨S523776, .i32⟩
  | _ => ⟨S1024x256, .f32⟩

abbrev hbmTy0_1 (i : Nat) : BufTy := match i % 128 with
  | 0 => ⟨S_, .i32⟩
  | 1 => ⟨S523776, .i32⟩
  | 2 => ⟨S523776, .i1⟩
  | 3 => ⟨S523776, .i32⟩
  | 4 => ⟨S523776, .i32⟩
  | 5 => ⟨S_, .i32⟩
  | 6 => ⟨S523776, .i32⟩
  | 7 => ⟨S523776, .i1⟩
  | 8 => ⟨S523776, .i1⟩
  | 9 => ⟨S_, .i32⟩
  | 10 => ⟨S523776, .i32⟩
  | 11 => ⟨S523776, .i32⟩
  | 12 => ⟨S523776, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S523776, .i32⟩
  | 20 => ⟨S523776, .i32⟩
  | 21 => ⟨S_, .i32⟩
  | 22 => ⟨S523776, .i32⟩
  | 23 => ⟨S523776, .i1⟩
  | 24 => ⟨S_, .i32⟩
  | 25 => ⟨S523776, .i32⟩
  | 26 => ⟨S523776, .i1⟩
  | 27 => ⟨S_, .i32⟩
  | 28 => ⟨S_, .i1⟩
  | 29 => ⟨S523776, .i1⟩
  | 30 => ⟨S523776, .i1⟩
  | 31 => ⟨S523776, .i1⟩
  | 32 => ⟨S523776, .i32⟩
  | 33 => ⟨S523776, .i32⟩
  | 34 => ⟨S523776, .i32⟩
  | 35 => ⟨S523776x1, .i32⟩
  | 36 => ⟨S523776x1, .i32⟩
  | 37 => ⟨S523776x2, .i32⟩
  | 38 => ⟨S_, .i32⟩
  | 39 => ⟨S523776, .i32⟩
  | 40 => ⟨S523776, .i1⟩
  | 41 => ⟨S_, .i32⟩
  | 42 => ⟨S523776, .i32⟩
  | 43 => ⟨S523776, .i32⟩
  | 44 => ⟨S523776, .i32⟩
  | 45 => ⟨S523776x1, .i32⟩
  | 46 => ⟨S523776x256, .f32⟩
  | 47 => ⟨S256x256, .f32⟩
  | 48 => ⟨S523776x256, .f32⟩
  | 49 => ⟨S_, .i32⟩
  | 50 => ⟨S523776, .i32⟩
  | 51 => ⟨S523776, .i1⟩
  | 52 => ⟨S_, .i32⟩
  | 53 => ⟨S523776, .i32⟩
  | 54 => ⟨S523776, .i32⟩
  | 55 => ⟨S523776, .i32⟩
  | 56 => ⟨S523776x1, .i32⟩
  | 57 => ⟨S523776x256, .f32⟩
  | 58 => ⟨S256x256, .f32⟩
  | 59 => ⟨S523776x256, .f32⟩
  | 60 => ⟨S523776x256, .f32⟩
  | 61 => ⟨S1x256, .f32⟩
  | 62 => ⟨S523776x256, .f32⟩
  | 63 => ⟨S523776x256, .f32⟩
  | 64 => ⟨S523776x256, .f32⟩
  | 65 => ⟨S523776x256, .f32⟩
  | 66 => ⟨S_, .f32⟩
  | 67 => ⟨S523776x256, .f32⟩
  | 68 => ⟨S523776x256, .f32⟩
  | 69 => ⟨S_, .f32⟩
  | 70 => ⟨S523776x256, .f32⟩
  | 71 => ⟨S523776x256, .f32⟩
  | 72 => ⟨S523776x256, .f32⟩
  | 73 => ⟨S523776x5, .f32⟩
  | 74 => ⟨S1x5, .f32⟩
  | 75 => ⟨S523776x5, .f32⟩
  | 76 => ⟨S523776x5, .f32⟩
  | 77 => ⟨S256x256, .f32⟩
  | 78 => ⟨S1024x256, .f32⟩
  | 79 => ⟨S119x256, .f32⟩
  | 80 => ⟨S1024x256, .f32⟩
  | 81 => ⟨S1024x256, .f32⟩
  | 82 => ⟨S1x256, .f32⟩
  | 83 => ⟨S1024x256, .f32⟩
  | 84 => ⟨S1024x256, .f32⟩
  | 85 => ⟨S1024x256, .f32⟩
  | 86 => ⟨S1024x256, .f32⟩
  | 87 => ⟨S_, .f32⟩
  | 88 => ⟨S1024x256, .f32⟩
  | 89 => ⟨S1024x256, .f32⟩
  | 90 => ⟨S_, .f32⟩
  | 91 => ⟨S1024x256, .f32⟩
  | 92 => ⟨S1024x256, .f32⟩
  | 93 => ⟨S1024x256, .f32⟩
  | 94 => ⟨S1024x1, .f32⟩
  | 95 => ⟨S1x1, .f32⟩
  | 96 => ⟨S1024x1, .f32⟩
  | 97 => ⟨S1024x1, .f32⟩
  | _ => ⟨S1024x256, .f32⟩

abbrev hbmTy (i : Nat) : BufTy := match i / 128 with
  | 0 => hbmTy0_0 i
  | 1 => hbmTy0_1 i
  | _ => ⟨S1024x256, .f32⟩

abbrev bufTy : (tb : Table) → Fin (tcTables nBuf tb) → BufTy
  | .hbm, ⟨i, _⟩ => hbmTy i
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst : Ref sig .tc := ⟨.hbm, 32, rfl⟩
abbrev main_v9 : Ref sig .tc := ⟨.hbm, 33, rfl⟩
abbrev main_cst_0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_2 : Ref sig .tc := ⟨.hbm, 46, rfl⟩
abbrev main_v20 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_cst : Ref sig .tc := ⟨.hbm, 54, rfl⟩
abbrev main_call1_v5 : Ref sig .tc := ⟨.hbm, 55, rfl⟩
abbrev main_v21 : Ref sig .tc := ⟨.hbm, 56, rfl⟩
abbrev main_cst_3 : Ref sig .tc := ⟨.hbm, 57, rfl⟩
abbrev main_v22 : Ref sig .tc := ⟨.hbm, 58, rfl⟩
abbrev main_v23 : Ref sig .tc := ⟨.hbm, 59, rfl⟩
abbrev main_call2_v0 : Ref sig .tc := ⟨.hbm, 60, rfl⟩
abbrev main_call2_v1 : Ref sig .tc := ⟨.hbm, 61, rfl⟩
abbrev main_call2_call0_c : Ref sig .tc := ⟨.hbm, 62, rfl⟩
abbrev main_call2_call0_v0 : Ref sig .tc := ⟨.hbm, 63, rfl⟩
abbrev main_v24 : Ref sig .tc := ⟨.hbm, 64, rfl⟩
abbrev main_c : Ref sig .tc := ⟨.hbm, 65, rfl⟩
abbrev main_v25 : Ref sig .tc := ⟨.hbm, 66, rfl⟩
abbrev main_c_4 : Ref sig .tc := ⟨.hbm, 67, rfl⟩
abbrev main_call3_v0 : Ref sig .tc := ⟨.hbm, 68, rfl⟩
abbrev main_call3_v1 : Ref sig .tc := ⟨.hbm, 69, rfl⟩
abbrev main_v26 : Ref sig .tc := ⟨.hbm, 70, rfl⟩
abbrev main_c_5 : Ref sig .tc := ⟨.hbm, 71, rfl⟩
abbrev main_v27 : Ref sig .tc := ⟨.hbm, 72, rfl⟩
abbrev main_v28 : Ref sig .tc := ⟨.hbm, 73, rfl⟩
abbrev main_c_6 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_c_7 : Ref sig .tc := ⟨.hbm, 79, rfl⟩
abbrev main_v33 : Ref sig .tc := ⟨.hbm, 80, rfl⟩
abbrev main_v34 : Ref sig .tc := ⟨.hbm, 81, rfl⟩
abbrev main_call4_call0_c : Ref sig .tc := ⟨.hbm, 82, rfl⟩
abbrev main_call4_call0_v0 : Ref sig .tc := ⟨.hbm, 83, rfl⟩
abbrev main_v35 : Ref sig .tc := ⟨.hbm, 84, rfl⟩
abbrev main_c_8 : Ref sig .tc := ⟨.hbm, 85, rfl⟩
abbrev main_call5_v0 : Ref sig .tc := ⟨.hbm, 86, rfl⟩
abbrev main_call5_v1 : Ref sig .tc := ⟨.hbm, 87, rfl⟩
abbrev main_call5_v2 : Ref sig .tc := ⟨.hbm, 88, rfl⟩
abbrev main_call5_v3 : Ref sig .tc := ⟨.hbm, 89, rfl⟩
abbrev main_call5_v4 : Ref sig .tc := ⟨.hbm, 90, rfl⟩
abbrev main_call5_v5 : Ref sig .tc := ⟨.hbm, 91, rfl⟩
abbrev main_call5_v6 : Ref sig .tc := ⟨.hbm, 92, rfl⟩
abbrev main_call5_v7 : Ref sig .tc := ⟨.hbm, 93, rfl⟩
abbrev main_call5_c : Ref sig .tc := ⟨.hbm, 94, rfl⟩
abbrev main_call5_v8 : Ref sig .tc := ⟨.hbm, 95, rfl⟩
abbrev main_call5_v9 : Ref sig .tc := ⟨.hbm, 96, rfl⟩
abbrev main_call5_v10 : Ref sig .tc := ⟨.hbm, 97, rfl⟩
abbrev main_call5_c_0 : Ref sig .tc := ⟨.hbm, 98, rfl⟩
abbrev main_call5_v11 : Ref sig .tc := ⟨.hbm, 99, rfl⟩
abbrev main_call5_v12 : Ref sig .tc := ⟨.hbm, 100, rfl⟩
abbrev main_v36 : Ref sig .tc := ⟨.hbm, 101, rfl⟩
abbrev main_c_9 : Ref sig .tc := ⟨.hbm, 102, rfl⟩
abbrev main_call6_v0 : Ref sig .tc := ⟨.hbm, 103, rfl⟩
abbrev main_call6_c : Ref sig .tc := ⟨.hbm, 104, rfl⟩
abbrev main_call6_v1 : Ref sig .tc := ⟨.hbm, 105, rfl⟩
abbrev main_call6_c_0 : Ref sig .tc := ⟨.hbm, 106, rfl⟩
abbrev main_call6_v2 : Ref sig .tc := ⟨.hbm, 107, rfl⟩
abbrev main_call6_v3 : Ref sig .tc := ⟨.hbm, 108, rfl⟩
abbrev main_call6_v4 : Ref sig .tc := ⟨.hbm, 109, rfl⟩
abbrev main_call6_c_1 : Ref sig .tc := ⟨.hbm, 110, rfl⟩
abbrev main_call6_v5 : Ref sig .tc := ⟨.hbm, 111, rfl⟩
abbrev main_call6_v6 : Ref sig .tc := ⟨.hbm, 112, rfl⟩
abbrev main_call6_c_2 : Ref sig .tc := ⟨.hbm, 113, rfl⟩
abbrev main_call6_v7 : Ref sig .tc := ⟨.hbm, 114, rfl⟩
abbrev main_call6_v8 : Ref sig .tc := ⟨.hbm, 115, rfl⟩
abbrev main_call6_c_3 : Ref sig .tc := ⟨.hbm, 116, rfl⟩
abbrev main_call6_v9 : Ref sig .tc := ⟨.hbm, 117, rfl⟩
abbrev main_call6_v10 : Ref sig .tc := ⟨.hbm, 118, rfl⟩
abbrev main_call6_v11 : Ref sig .tc := ⟨.hbm, 119, rfl⟩
abbrev main_call6_v12 : Ref sig .tc := ⟨.hbm, 120, rfl⟩
abbrev main_call6_v13 : Ref sig .tc := ⟨.hbm, 121, rfl⟩
abbrev main_call6_v14 : Ref sig .tc := ⟨.hbm, 122, rfl⟩
abbrev main_v37 : Ref sig .tc := ⟨.hbm, 123, rfl⟩
abbrev main_c_10 : Ref sig .tc := ⟨.hbm, 124, rfl⟩
abbrev main_call7_v0 : Ref sig .tc := ⟨.hbm, 125, rfl⟩
abbrev main_call7_v1 : Ref sig .tc := ⟨.hbm, 126, rfl⟩
abbrev main_call7_v2 : Ref sig .tc := ⟨.hbm, 127, rfl⟩
abbrev main_call7_v3 : Ref sig .tc := ⟨.hbm, 128, rfl⟩
abbrev main_call7_v4 : Ref sig .tc := ⟨.hbm, 129, rfl⟩
abbrev main_call7_v5 : Ref sig .tc := ⟨.hbm, 130, rfl⟩
abbrev main_call7_v6 : Ref sig .tc := ⟨.hbm, 131, rfl⟩
abbrev main_call7_v7 : Ref sig .tc := ⟨.hbm, 132, rfl⟩
abbrev main_call7_c : Ref sig .tc := ⟨.hbm, 133, rfl⟩
abbrev main_call7_v8 : Ref sig .tc := ⟨.hbm, 134, rfl⟩
abbrev main_call7_v9 : Ref sig .tc := ⟨.hbm, 135, rfl⟩
abbrev main_call7_v10 : Ref sig .tc := ⟨.hbm, 136, rfl⟩
abbrev main_call7_c_0 : Ref sig .tc := ⟨.hbm, 137, rfl⟩
abbrev main_call7_v11 : Ref sig .tc := ⟨.hbm, 138, rfl⟩
abbrev main_call7_v12 : Ref sig .tc := ⟨.hbm, 139, rfl⟩
abbrev main_v38 : Ref sig .tc := ⟨.hbm, 140, rfl⟩
abbrev main_c_11 : Ref sig .tc := ⟨.hbm, 141, rfl⟩
abbrev main_call8_v0 : Ref sig .tc := ⟨.hbm, 142, rfl⟩
abbrev main_call8_c : Ref sig .tc := ⟨.hbm, 143, rfl⟩
abbrev main_call8_v1 : Ref sig .tc := ⟨.hbm, 144, rfl⟩
abbrev main_call8_c_0 : Ref sig .tc := ⟨.hbm, 145, rfl⟩
abbrev main_call8_v2 : Ref sig .tc := ⟨.hbm, 146, rfl⟩
abbrev main_call8_v3 : Ref sig .tc := ⟨.hbm, 147, rfl⟩
abbrev main_call8_v4 : Ref sig .tc := ⟨.hbm, 148, rfl⟩
abbrev main_call8_c_1 : Ref sig .tc := ⟨.hbm, 149, rfl⟩
abbrev main_call8_v5 : Ref sig .tc := ⟨.hbm, 150, rfl⟩
abbrev main_call8_v6 : Ref sig .tc := ⟨.hbm, 151, rfl⟩
abbrev main_call8_c_2 : Ref sig .tc := ⟨.hbm, 152, rfl⟩
abbrev main_call8_v7 : Ref sig .tc := ⟨.hbm, 153, rfl⟩
abbrev main_call8_v8 : Ref sig .tc := ⟨.hbm, 154, rfl⟩
abbrev main_call8_c_3 : Ref sig .tc := ⟨.hbm, 155, rfl⟩
abbrev main_call8_v9 : Ref sig .tc := ⟨.hbm, 156, rfl⟩
abbrev main_call8_v10 : Ref sig .tc := ⟨.hbm, 157, rfl⟩
abbrev main_call8_v11 : Ref sig .tc := ⟨.hbm, 158, rfl⟩
abbrev main_call8_v12 : Ref sig .tc := ⟨.hbm, 159, rfl⟩
abbrev main_call8_v13 : Ref sig .tc := ⟨.hbm, 160, rfl⟩
abbrev main_call8_v14 : Ref sig .tc := ⟨.hbm, 161, rfl⟩
abbrev main_v39 : Ref sig .tc := ⟨.hbm, 162, rfl⟩
abbrev main_v40 : Ref sig .tc := ⟨.hbm, 163, rfl⟩
abbrev main_v41 : Ref sig .tc := ⟨.hbm, 164, rfl⟩
abbrev main_v42 : Ref sig .tc := ⟨.hbm, 165, rfl⟩
abbrev main_c_12 : Ref sig .tc := ⟨.hbm, 166, rfl⟩
abbrev main_v43 : Ref sig .tc := ⟨.hbm, 167, rfl⟩
abbrev main_v44 : Ref sig .tc := ⟨.hbm, 168, rfl⟩
abbrev main_c_13 : Ref sig .tc := ⟨.hbm, 169, rfl⟩
abbrev main_v45 : Ref sig .tc := ⟨.hbm, 170, rfl⟩
abbrev main_v46 : Ref sig .tc := ⟨.hbm, 171, rfl⟩
abbrev main_v47 : Ref sig .tc := ⟨.hbm, 172, rfl⟩
abbrev main_v48 : Ref sig .tc := ⟨.hbm, 173, rfl⟩
abbrev main_v49 : Ref sig .tc := ⟨.hbm, 174, rfl⟩
abbrev main_v50 : Ref sig .tc := ⟨.hbm, 175, rfl⟩
abbrev main_v51 : Ref sig .tc := ⟨.hbm, 176, rfl⟩
abbrev main_c_14 : Ref sig .tc := ⟨.hbm, 177, rfl⟩
abbrev main_v52 : Ref sig .tc := ⟨.hbm, 178, rfl⟩
abbrev main_v53 : Ref sig .tc := ⟨.hbm, 179, rfl⟩
abbrev main_c_15 : Ref sig .tc := ⟨.hbm, 180, rfl⟩
abbrev main_v54 : Ref sig .tc := ⟨.hbm, 181, rfl⟩
abbrev main_v55 : Ref sig .tc := ⟨.hbm, 182, rfl⟩
abbrev main_v56 : Ref sig .tc := ⟨.hbm, 183, rfl⟩
abbrev main_v57 : Ref sig .tc := ⟨.hbm, 184, rfl⟩
abbrev main_v58 : Ref sig .tc := ⟨.hbm, 185, rfl⟩
abbrev main_v59 : Ref sig .tc := ⟨.hbm, 186, rfl⟩
abbrev main_v60 : Ref sig .tc := ⟨.hbm, 187, rfl⟩
abbrev main_v61 : Ref sig .tc := ⟨.hbm, 188, rfl⟩
abbrev main_v62 : Ref sig .tc := ⟨.hbm, 189, rfl⟩
abbrev main_v63 : Ref sig .tc := ⟨.hbm, 190, rfl⟩
abbrev main_v64 : Ref sig .tc := ⟨.hbm, 191, rfl⟩
abbrev main_call9_v0 : Ref sig .tc := ⟨.hbm, 192, rfl⟩
abbrev main_call9_v1 : Ref sig .tc := ⟨.hbm, 193, rfl⟩
abbrev main_call9_cst : Ref sig .tc := ⟨.hbm, 194, rfl⟩
abbrev main_call9_v2 : Ref sig .tc := ⟨.hbm, 195, rfl⟩
abbrev main_call9_v3 : Ref sig .tc := ⟨.hbm, 196, rfl⟩
abbrev main_call9_cst_0 : Ref sig .tc := ⟨.hbm, 197, rfl⟩
abbrev main_call9_v4 : Ref sig .tc := ⟨.hbm, 198, rfl⟩
abbrev main_call9_v5 : Ref sig .tc := ⟨.hbm, 199, rfl⟩
abbrev main_v65 : Ref sig .tc := ⟨.hbm, 200, rfl⟩
abbrev main_v66 : Ref sig .tc := ⟨.hbm, 201, rfl⟩
abbrev main_v67 : Ref sig .tc := ⟨.hbm, 202, rfl⟩
abbrev main_v68 : Ref sig .tc := ⟨.hbm, 203, rfl⟩
abbrev main_v69 : Ref sig .tc := ⟨.hbm, 204, rfl⟩
abbrev main_v70 : Ref sig .tc := ⟨.hbm, 205, rfl⟩
abbrev main_v71 : Ref sig .tc := ⟨.hbm, 206, rfl⟩
abbrev main_v72 : Ref sig .tc := ⟨.hbm, 207, rfl⟩
abbrev main_v73 : Ref sig .tc := ⟨.hbm, 208, rfl⟩
abbrev main_v74 : Ref sig .tc := ⟨.hbm, 209, rfl⟩
abbrev main_v75 : Ref sig .tc := ⟨.hbm, 210, rfl⟩
abbrev main_v76 : Ref sig .tc := ⟨.hbm, 211, rfl⟩
abbrev main_v77 : Ref sig .tc := ⟨.hbm, 212, rfl⟩
abbrev main_call10_v0 : Ref sig .tc := ⟨.hbm, 213, rfl⟩
abbrev main_call10_v1 : Ref sig .tc := ⟨.hbm, 214, rfl⟩
abbrev main_call10_cst : Ref sig .tc := ⟨.hbm, 215, rfl⟩
abbrev main_call10_v2 : Ref sig .tc := ⟨.hbm, 216, rfl⟩
abbrev main_call10_v3 : Ref sig .tc := ⟨.hbm, 217, rfl⟩
abbrev main_call10_cst_0 : Ref sig .tc := ⟨.hbm, 218, rfl⟩
abbrev main_call10_v4 : Ref sig .tc := ⟨.hbm, 219, rfl⟩
abbrev main_call10_v5 : Ref sig .tc := ⟨.hbm, 220, rfl⟩
abbrev main_v78 : Ref sig .tc := ⟨.hbm, 221, rfl⟩
abbrev main_v79 : Ref sig .tc := ⟨.hbm, 222, rfl⟩
abbrev main_v80 : Ref sig .tc := ⟨.hbm, 223, rfl⟩
abbrev main_v81 : Ref sig .tc := ⟨.hbm, 224, rfl⟩
abbrev main_v82 : Ref sig .tc := ⟨.hbm, 225, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  bcast_S119_S1x119_1 : S119.BroadcastsInDim S1x119 (![1] : Fin 1 → Fin S1x119.rank)
  bcast_S1x119_S1024x119_0_1 : S1x119.BroadcastsInDim S1024x119 (![0, 1] : Fin 2 → Fin S1024x119.rank)
  reducesTo_S1024x119_S1024_d1 : S1024x119.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x119_0_1 : S1024x1.BroadcastsInDim S1024x119 (![0, 1] : Fin 2 → Fin S1024x119.rank)
  bcast_S_S1024x1024 : S_.BroadcastsInDim S1024x1024 (![] : Fin 0 → Fin S1024x1024.rank)
  shapeCasts_S1024x1024_S1048576 : S1024x1024.ShapeCasts S1048576
  natLt_1_32 : 1 < 32
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  bcast_S_S523776 : S_.BroadcastsInDim S523776 (![] : Fin 0 → Fin S523776.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  reduceWindows_S523776_S523776_w523776s1p523775_0 : S523776.ReduceWindows (![523776] : Fin 1 → Nat) ![1] ![523775] ![0] S523776
  bcast_S523776_S523776x1_0 : S523776.BroadcastsInDim S523776x1 (![0] : Fin 1 → Fin S523776x1.rank)
  concatenates_S523776x1_S523776x1_S523776x2_d1 : Shape.Concatenates [S523776x1, S523776x1] S523776x2 1
  slices_S512x256_S256x256_0_0 : S512x256.Slices ![0, 0] S256x256
  slices_S512x256_S256x256_256_0 : S512x256.Slices ![256, 0] S256x256
  bcast_S256_S1x256_1 : S256.BroadcastsInDim S1x256 (![1] : Fin 1 → Fin S1x256.rank)
  bcast_S1x256_S523776x256_0_1 : S1x256.BroadcastsInDim S523776x256 (![0, 1] : Fin 2 → Fin S523776x256.rank)
  bcast_S_S523776x256 : S_.BroadcastsInDim S523776x256 (![] : Fin 0 → Fin S523776x256.rank)
  bcast_S5_S1x5_1 : S5.BroadcastsInDim S1x5 (![1] : Fin 1 → Fin S1x5.rank)
  bcast_S1x5_S523776x5_0_1 : S1x5.BroadcastsInDim S523776x5 (![0, 1] : Fin 2 → Fin S523776x5.rank)
  slices_S375x256_S256x256_0_0 : S375x256.Slices ![0, 0] S256x256
  slices_S375x256_S119x256_256_0 : S375x256.Slices ![256, 0] S119x256
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  dot_S1024x256_S256x128_S1024x128_1_0_0_1_n_n_wf : DotDims.WF S1024x256 S256x128 S1024x128 [1] [0] [0] [1] [] []
  dot_S1024x128_S128x119_S1024x119_1_0_0_1_n_n_wf : DotDims.WF S1024x128 S128x119 S1024x119 [1] [0] [0] [1] [] []
  scatter_S523776_S1048576x1_S1048576_n_0_0_1_wf : ScatterDims.WF S523776 S1048576x1 S1048576 [] [0] [0] 1
  gather_S1024x256_S523776x1_S523776x256_1_0_n_n_0_1_1256_wf : GatherDims.WF S1024x256 S523776x1 S523776x256 [1] [0] [] [0] [] 1 ![1, 256]
  dot_S523776x256_S256x256_S523776x256_1_0_0_1_n_n_wf : DotDims.WF S523776x256 S256x256 S523776x256 [1] [0] [0] [1] [] []
  dot_S523776x256_S256x5_S523776x5_1_0_0_1_n_n_wf : DotDims.WF S523776x256 S256x5 S523776x5 [1] [0] [0] [1] [] []
  dot_S1024x256_S256x256_S1024x256_1_0_0_1_n_n_wf : DotDims.WF S1024x256 S256x256 S1024x256 [1] [0] [0] [1] [] []
  dot_S1024x119_S119x256_S1024x256_1_0_0_1_n_n_wf : DotDims.WF S1024x119 S119x256 S1024x256 [1] [0] [0] [1] [] []
  dot_S1024x256_S256x1_S1024x1_1_0_0_1_n_n_wf : DotDims.WF S1024x256 S256x1 S1024x1 [1] [0] [0] [1] [] []

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x119_S1024x119_1_0_0_1_n_n : DotDims S1024x128 S128x119 S1024x119 where
  lhsContracting := [1]
  rhsContracting := [0]
  lhsNonContracting := [0]
  rhsNonContracting := [1]
  lhsBatch := []
  rhsBatch := []
  wf := dot_S1024x128_S128x119_S1024x119_1_0_0_1_n_n_wf
def scatter_S523776_S1048576x1_S1048576_n_0_0_1 : ScatterDims S523776 S1048576x1 S1048576 where
  updateWindowDims := []
  insertedWindowDims := [0]
  scatterDimsToOperandDims := [0]
  indexVectorDim := 1
  wf := scatter_S523776_S1048576x1_S1048576_n_0_0_1_wf
def gather_S1024x256_S523776x1_S523776x256_1_0_n_n_0_1_1256 : GatherDims S1024x256 S523776x1 S523776x256 where
  offsetDims := [1]
  collapsedSliceDims := [0]
  operandBatchingDims := []
  startIndicesBatchingDims := []
  startIndexMap := [0]
  indexVectorDim := 1
  sliceSizes := ![1, 256]
  wf := gather_S1024x256_S523776x1_S523776x256_1_0_n_n_0_1_1256_wf
def dot_S523776x256_S256x256_S523776x256_1_0_0_1_n_n : DotDims S523776x256 S256x256 S523776x256 where
  lhsContracting := [1]
  rhsContracting := [0]
  lhsNonContracting := [0]
  rhsNonContracting := [1]
  lhsBatch := []
  rhsBatch := []
  wf := dot_S523776x256_S256x256_S523776x256_1_0_0_1_n_n_wf
def dot_S523776x256_S256x5_S523776x5_1_0_0_1_n_n : DotDims S523776x256 S256x5 S523776x5 where
  lhsContracting := [1]
  rhsContracting := [0]
  lhsNonContracting := [0]
  rhsNonContracting := [1]
  lhsBatch := []
  rhsBatch := []
  wf := dot_S523776x256_S256x5_S523776x5_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x119_S119x256_S1024x256_1_0_0_1_n_n : DotDims S1024x119 S119x256 S1024x256 where
  lhsContracting := [1]
  rhsContracting := [0]
  lhsNonContracting := [0]
  rhsNonContracting := [1]
  lhsBatch := []
  rhsBatch := []
  wf := dot_S1024x119_S119x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

class Facts : Prop extends Facts₀ where

variable [Facts]
-- ==== Proof.KernelFrame.Writes.lean ====
import proofs.«122468_j35184372089134_1_alg».proof.Proof.Gen.Kernel.Launch
import Idealize.ShloMosaic.Lib.StableHlo.Run

noncomputable section

namespace Cert.Kernel.Hand

open Idealize.ShloMosaic Idealize.ShloMosaic.TcCoe
open Idealize.SL Idealize.SL.Sem
open Cert.Kernel.Gen

variable {F : FTy → Type} [FloatOps F]

/-! # What the host operations around the region write

Every host operation of @main writes exactly one buffer, its result. Listing the results stretch by stretch turns
"no operation writes buffer `r`" into "`r` is not in the list", which is decided once per buffer over references,
instead of one inequality per operation and buffer. -/

/-- An operation whose one written buffer is the reference `y`, a member of the list `W`, writes within `W`. -/
theorem writes_sub_of_mem {Val : EltTy → Type} {W : List (Ref sig .tc)} {op : HloOp τ sig Val} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- Stretch by stretch, each operation of `opss` writes within the matching list of `Ws`. -/
abbrev WritesWithin {Val : EltTy → Type} (opss : List (List (HloOp τ sig Val))) (Ws : List (List (Ref sig .tc))) : Prop :=
  List.Forall₂ (fun ops W => ops.Forall fun op => op.writes ⊆ (W.map (Proc.devRef (τ := τ) .tc)).toFinset) opss Ws

/-- A reference in none of the lists is written by no operation of any stretch. -/
theorem not_written_of_not_mem {Val : EltTy → Type} {opss : List (List (HloOp τ sig Val))} {Ws : List (List (Ref sig .tc))}
    (h : WritesWithin opss Ws) {r : Ref sig .tc} (hr : r ∉ Ws.flatten) :
    ∀ ops ∈ opss, ∀ op ∈ ops, Proc.devRef (τ := τ) .tc r ∉ op.writes := by
  induction h with
  | nil => intro ops hops; exact absurd hops List.not_mem_nil
  | cons hW _ ih =>
    intro ops hops op hop hw
    rw [List.flatten_cons, List.mem_append, not_or] at hr
    rcases List.mem_cons.mp hops with rfl | hops
    · obtain ⟨y, hy, he⟩ := List.mem_map.mp (List.mem_toFinset.mp ((List.forall_iff_forall_mem.mp hW) op hop hw))
      exact hr.1 (Proc.devRef_injective _ he ▸ hy)
    · exact ih hr.2 ops hops op hop hw

/-- So it keeps its contents through all the stretches run in order. -/
theorem after_flatten_of_not_mem {Val : EltTy → Type} {opss : List (List (HloOp τ sig Val))} {Ws : List (List (Ref sig .tc))}
    (h : WritesWithin opss Ws) {r : Ref sig .tc} (hr : r ∉ Ws.flatten) (V : Valuation τ sig Val) :
    StableHlo.after opss.flatten V (Proc.devRef .tc r) = V (Proc.devRef .tc r) :=
  StableHlo.after_of_forall_not_mem _ _ fun op hop => by
    obtain ⟨ops, hops, hop'⟩ := List.mem_flatten.mp hop
    exact not_written_of_not_mem h hr ops hops op hop'

/-! ## Stretch by stretch -/

/-- The references the operations of `hostOps0` write: each operation's one result buffer, in order. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  ⟨writes_sub_of_mem (y := main_v0) rfl (by decide),
   writes_sub_of_mem (y := main_v1) rfl (by decide),
   writes_sub_of_mem (y := main_v2) rfl (by decide),
   writes_sub_of_mem (y := main_v3) rfl (by decide)⟩
theorem hostOps0_fresh : (hostOps0 : List (HloOp τ sig (Elt F))).Forall fun op => op.fresh = ∅ :=
  ⟨rfl, rfl, rfl, rfl⟩

/-- The references the operations of `hostOps0_1` write: each operation's one result buffer, in order. -/
abbrev hostOps0_1_W : List (Ref sig .tc) := [main_call0_v0, main_call0_v1, main_call0_cst, main_call0_v2, main_call0_v3, main_call0_cst_0, main_call0_v4, main_call0_v5, main_v4]
theorem hostOps0_1_writes : (hostOps0_1 : List (HloOp τ sig (Elt F))).Forall fun op => op.writes ⊆ (hostOps0_1_W.map (Proc.devRef (τ := τ) .tc)).toFinset :=
  ⟨writes_sub_of_mem (y := main_call0_v0) rfl (by decide),
   writes_sub_of_mem (y := main_call0_v1) rfl (by decide),
   writes_sub_of_mem (y := main_call0_cst) rfl (by decide),
   writes_sub_of_mem (y := main_call0_v2) rfl (by decide),
   writes_sub_of_mem (y := main_call0_v3) rfl (by decide),
   writes_sub_of_mem (y := main_call0_cst_0) rfl (by decide),
   writes_sub_of_mem (y := main_call0_v4) rfl (by decide),
   writes_sub_of_mem (y := main_call0_v5) rfl (by decide),
   writes_sub_of_mem (y := main_v4) rfl (by decide)⟩
theorem hostOps0_1_fresh : (hostOps0_1 : List (HloOp τ sig (Elt F))).Forall fun op => op.fresh = ∅ :=
  ⟨rfl, rfl, rfl, rfl, rfl, rfl, rfl, rfl, rfl⟩

/-- The references the operations of `hostOps0_2` write: each operation's one result buffer, in order. -/
abbrev hostOps0_2_W : List (Ref sig .tc) := [main_v5, main_v6, main_v7, main_v8, main_cst, main_v9, main_cst_0, main_v10, main_v11, main_v12, main_v13, main_v14, main_v15, main_cst_1, main_v16, main_v17, main_v18, main_v19, main_v20, main_v21, main_v22, main_v23, main_v24, main_v25, main_v26, main_v27]
theorem hostOps0_2_writes : (hostOps0_2 : List (HloOp τ sig (Elt F))).Forall fun op => op.writes ⊆ (hostOps0_2_W.map (Proc.devRef (τ := τ) .tc)).toFinset :=
  ⟨writes_sub_of_mem (y := main_v5) rfl (by decide),
   writes_sub_of_mem (y := main_v6) rfl (by decide),
   writes_sub_of_mem (y := main_v7) rfl (by decide),
   writes_sub_of_mem (y := main_v8) rfl (by decide),
   writes_sub_of_mem (y := main_cst) rfl (by decide),
   writes_sub_of_mem (y := main_v9) rfl (by decide),
   writes_sub_of_mem (y := main_cst_0) rfl (by decide),
   writes_sub_of_mem (y := main_v10) rfl (by decide),
   writes_sub_of_mem (y := main_v11) rfl (by decide),
   writes_sub_of_mem (y := main_v12) rfl (by decide),
   writes_sub_of_mem (y := main_v13) rfl (by decide),
   writes_sub_of_mem (y := main_v14) rfl (by decide),
   writes_sub_of_mem (y := main_v15) rfl (by decide),
   writes_sub_of_mem (y := main_cst_1) rfl (by decide),
   writes_sub_of_mem (y := main_v16) rfl (by decide),
   writes_sub_of_mem (y := main_v17) rfl (by decide),
   writes_sub_of_mem (y := main_v18) rfl (by decide),
   writes_sub_of_mem (y := main_v19) rfl (by decide),
   writes_sub_of_mem (y := main_v20) rfl (by decide),
   writes_sub_of_mem (y := main_v21) rfl (by decide),
   writes_sub_of_mem (y := main_v22) rfl (by decide),
   writes_sub_of_mem (y := main_v23) rfl (by decide),
   writes_sub_of_mem (y := main_v24) rfl (by decide),
   writes_sub_of_mem (y := main_v25) rfl (by decide),
   writes_sub_of_mem (y := main_v26) rfl (by decide),
   writes_sub_of_mem (y := main_v27) rfl (by decide)⟩
theorem hostOps0_2_fresh : (hostOps0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The references the operations of `hostOps1` write: each operation's one result buffer, in order. -/
abbrev hostOps1_W : List (Ref sig .tc) := [main_cst_2, main_v29]
theorem hostOps1_writes : (hostOps1 : List (HloOp τ sig (Elt F))).Forall fun op => op.writes ⊆ (hostOps1_W.map (Proc.devRef (τ := τ) .tc)).toFinset :=
  ⟨writes_sub_of_mem (y := main_cst_2) rfl (by decide),
   writes_sub_of_mem (y := main_v29) rfl (by decide)⟩
theorem hostOps1_fresh : (hostOps1 : List (HloOp τ sig (Elt F))).Forall fun op => op.fresh = ∅ :=
  ⟨rfl, rfl⟩

/-- The references the operations of `hostOps1_1` write: each operation's one result buffer, in order. -/
abbrev hostOps1_1_W : List (Ref sig .tc) := [main_call1_v0, main_call1_c, main_call1_v1, main_call1_v2, main_call1_v3, main_call1_v4, main_call1_cst, main_call1_v5, main_v30]
theorem hostOps1_1_writes : (hostOps1_1 : List (HloOp τ sig (Elt F))).Forall fun op => op.writes ⊆ (hostOps1_1_W.map (Proc.devRef (τ := τ) .tc)).toFinset :=
  ⟨writes_sub_of_mem (y := main_call1_v0) rfl (by decide),
   writes_sub_of_mem (y := main_call1_c) rfl (by decide),
   writes_sub_of_mem (y := main_call1_v1) rfl (by decide),
   writes_sub_of_mem (y := main_call1_v2) rfl (by decide),
   writes_sub_of_mem (y := main_call1_v3) rfl (by decide),
   writes_sub_of_mem (y := main_call1_v4) rfl (by decide),
   writes_sub_of_mem (y := main_call1_cst) rfl (by decide),
   writes_sub_of_mem (y := main_call1_v5) rfl (by decide),
   writes_sub_of_mem (y := main_v30) rfl (by decide)⟩
theorem hostOps1_1_fresh : (hostOps1_1 : List (HloOp τ sig (Elt F))).Forall fun op => op.fresh = ∅ :=
  ⟨rfl, rfl, rfl, rfl, rfl, rfl, rfl, rfl, rfl⟩

/-- The references the operations of `hostOps1_2` write: each operation's one result buffer, in order. -/
abbrev hostOps1_2_W : List (Ref sig .tc) := [main_cst_3, main_v31, main_v32]
theorem hostOps1_2_writes : (hostOps1_2 : List (HloOp τ sig (Elt F))).Forall fun op => op.writes ⊆ (hostOps1_2_W.map (Proc.devRef (τ := τ) .tc)).toFinset :=
  ⟨writes_sub_of_mem (y := main_cst_3) rfl (by decide),
   writes_sub_of_mem (y := main_v31) rfl (by decide),
   writes_sub_of_mem (y := main_v32) rfl (by decide)⟩
theorem hostOps1_2_fresh : (hostOps1_2 : List (HloOp τ sig (Elt F))).Forall fun op => op.fresh = ∅ :=
  ⟨rfl, rfl, rfl⟩

/-- The references the operations of `hostOps1_3` write: each operation's one result buffer, in order. -/
abbrev hostOps1_3_W : List (Ref sig .tc) := [main_call2_v0, main_call2_v1, main_call2_call0_c, main_call2_call0_v0, main_v33]
theorem hostOps1_3_writes : (hostOps1_3 : List (HloOp τ sig (Elt F))).Forall fun op => op.writes ⊆ (hostOps1_3_W.map (Proc.devRef (τ := τ) .tc)).toFinset :=
  ⟨writes_sub_of_mem (y := main_call2_v0) rfl (by decide),
   writes_sub_of_mem (y := main_call2_v1) rfl (by decide),
   writes_sub_of_mem (y := main_call2_call0_c) rfl (by decide),
   writes_sub_of_mem (y := main_call2_call0_v0) rfl (by decide),
   writes_sub_of_mem (y := main_v33) rfl (by decide)⟩
theorem hostOps1_3_fresh : (hostOps1_3 : List (HloOp τ sig (Elt F))).Forall fun op => op.fresh = ∅ :=
  ⟨rfl, rfl, rfl, rfl, rfl⟩

/-- The references the operations of `hostOps1_4` write: each operation's one result buffer, in order. -/
abbrev hostOps1_4_W : List (Ref sig .tc) := [main_c, main_v34, main_c_4]
theorem hostOps1_4_writes : (hostOps1_4 : List (HloOp τ sig (Elt F))).Forall fun op => op.writes ⊆ (hostOps1_4_W.map (Proc.devRef (τ := τ) .tc)).toFinset :=
  ⟨writes_sub_of_mem (y := main_c) rfl (by decide),
   writes_sub_of_mem (y := main_v34) rfl (by decide),
   writes_sub_of_mem (y := main_c_4) rfl (by decide)⟩
theorem hostOps1_4_fresh : (hostOps1_4 : List (HloOp τ sig (Elt F))).Forall fun op => op.fresh = ∅ :=
  ⟨rfl, rfl, rfl⟩

/-- The references the operations of `hostOps1_5` write: each operation's one result buffer, in order. -/
abbrev hostOps1_5_W : List (Ref sig .tc) := [main_call3_v0, main_call3_v1, main_v35]
theorem hostOps1_5_writes : (hostOps1_5 : List (HloOp τ sig (Elt F))).Forall fun op => op.writes ⊆ (hostOps1_5_W.map (Proc.devRef (τ := τ) .tc)).toFinset :=
  ⟨writes_sub_of_mem (y := main_call3_v0) rfl (by decide),
   writes_sub_of_mem (y := main_call3_v1) rfl (by decide),
   writes_sub_of_mem (y := main_v35) rfl (by decide)⟩
theorem hostOps1_5_fresh : (hostOps1_5 : List (HloOp τ sig (Elt F))).Forall fun op => op.fresh = ∅ :=
  ⟨rfl, rfl, rfl⟩

/-- The references the operations of `hostOps1_6` write: each operation's one result buffer, in order. -/
abbrev hostOps1_6_W : List (Ref sig .tc) := [main_c_5, main_v36, main_v37, main_c_6, main_v38, main_v39, main_v40, main_v41, main_c_7, main_v42, main_v43]
theorem hostOps1_6_writes : (hostOps1_6 : List (HloOp τ sig (Elt F))).Forall fun op => op.writes ⊆ (hostOps1_6_W.map (Proc.devRef (τ := τ) .tc)).toFinset :=
  ⟨writes_sub_of_mem (y := main_c_5) rfl (by decide),
   writes_sub_of_mem (y := main_v36) rfl (by decide),
   writes_sub_of_mem (y := main_v37) rfl (by decide),
   writes_sub_of_mem (y := main_c_6) rfl (by decide),
   writes_sub_of_mem (y := main_v38) rfl (by decide),
   writes_sub_of_mem (y := main_v39) rfl (by decide),
   writes_sub_of_mem (y := main_v40) rfl (by decide),
   writes_sub_of_mem (y := main_v41) rfl (by decide),
   writes_sub_of_mem (y := main_c_7) rfl (by decide),
   writes_sub_of_mem (y := main_v42) rfl (by decide),
   writes_sub_of_mem (y := main_v43) rfl (by decide)⟩
theorem hostOps1_6_fresh : (hostOps1_6 : List (HloOp τ sig (Elt F))).Forall fun op => op.fresh = ∅ :=
  ⟨rfl, rfl, rfl, rfl, rfl, rfl, rfl, rfl, rfl, rfl, rfl⟩

/-- The references the operations of `hostOps1_7` write: each operation's one result buffer, in order. -/
abbrev hostOps1_7_W : List (Ref sig .tc) := [main_call4_call0_c, main_call4_call0_v0, main_v44]
theorem hostOps1_7_writes : (hostOps1_7 : List (HloOp τ sig (Elt F))).Forall fun op => op.writes ⊆ (hostOps1_7_W.map (Proc.devRef (τ := τ) .tc)).toFinset :=
  ⟨writes_sub_of_mem (y := main_call4_call0_c) rfl (by decide),
   writes_sub_of_mem (y := main_call4_call0_v0) rfl (by decide),
   writes_sub_of_mem (y := main_v44) rfl (by decide)⟩
theorem hostOps1_7_fresh : (hostOps1_7 : List (HloOp τ sig (Elt F))).Forall fun op => op.fresh = ∅ :=
  ⟨rfl, rfl, rfl⟩

/-- The references the operations of `hostOps1_8` write: each operation's one result buffer, in order. -/
abbrev hostOps1_8_W : List (Ref sig .tc) := [main_c_8]
theorem hostOps1_8_writes : (hostOps1_8 : List (HloOp τ sig (Elt F))).Forall fun op => op.writes ⊆ (hostOps1_8_W.map (Proc.devRef (τ := τ) .tc)).toFinset :=
  writes_sub_of_mem (y := main_c_8) rfl (by decide)
theorem hostOps1_8_fresh : (hostOps1_8 : List (HloOp τ sig (Elt F))).Forall fun op => op.fresh = ∅ :=
  rfl

/-- The references the operations of `hostOps1_9` write: each operation's one result buffer, in order. -/
abbrev hostOps1_9_W : List (Ref sig .tc) := [main_call5_v0, main_call5_v1, main_call5_v2, main_call5_v3, main_call5_v4, main_call5_v5, main_call5_v6, main_call5_v7, main_call5_c, main_call5_v8, main_call5_v9, main_call5_v10, main_call5_c_0, main_call5_v11, main_call5_v12, main_v45]
theorem hostOps1_9_writes : (hostOps1_9 : List (HloOp τ sig (Elt F))).Forall fun op => op.writes ⊆ (hostOps1_9_W.map (Proc.devRef (τ := τ) .tc)).toFinset :=
  ⟨writes_sub_of_mem (y := main_call5_v0) rfl (by decide),
   writes_sub_of_mem (y := main_call5_v1) rfl (by decide),
   writes_sub_of_mem (y := main_call5_v2) rfl (by decide),
   writes_sub_of_mem (y := main_call5_v3) rfl (by decide),
   writes_sub_of_mem (y := main_call5_v4) rfl (by decide),
   writes_sub_of_mem (y := main_call5_v5) rfl (by decide),
   writes_sub_of_mem (y := main_call5_v6) rfl (by decide),
   writes_sub_of_mem (y := main_call5_v7) rfl (by decide),
   writes_sub_of_mem (y := main_call5_c) rfl (by decide),
   writes_sub_of_mem (y := main_call5_v8) rfl (by decide),
   writes_sub_of_mem (y := main_call5_v9) rfl (by decide),
   writes_sub_of_mem (y := main_call5_v10) rfl (by decide),
   writes_sub_of_mem (y := main_call5_c_0) rfl (by decide),
   writes_sub_of_mem (y := main_call5_v11) rfl (by decide),
   writes_sub_of_mem (y := main_call5_v12) rfl (by decide),
   writes_sub_of_mem (y := main_v45) rfl (by decide)⟩
theorem hostOps1_9_fresh : (hostOps1_9 : List (HloOp τ sig (Elt F))).Forall fun op => op.fresh = ∅ :=
  ⟨rfl, rfl, rfl, rfl, rfl, rfl, rfl, rfl, rfl, rfl, rfl, rfl, rfl, rfl, rfl, rfl⟩

/-- The references the operations of `hostOps1_10` write: each operation's one result buffer, in order. -/
abbrev hostOps1_10_W : List (Ref sig .tc) := [main_c_9]
theorem hostOps1_10_writes : (hostOps1_10 : List (HloOp τ sig (Elt F))).Forall fun op => op.writes ⊆ (hostOps1_10_W.map (Proc.devRef (τ := τ) .tc)).toFinset :=
  writes_sub_of_mem (y := main_c_9) rfl (by decide)
theorem hostOps1_10_fresh : (hostOps1_10 : List (HloOp τ sig (Elt F))).Forall fun op => op.fresh = ∅ :=
  rfl

/-- The references the operations of `hostOps1_11` write: each operation's one result buffer, in order. -/
abbrev hostOps1_11_W : List (Ref sig .tc) := [main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v46]
theorem hostOps1_11_writes : (hostOps1_11 : List (HloOp τ sig (Elt F))).Forall fun op => op.writes ⊆ (hostOps1_11_W.map (Proc.devRef (τ := τ) .tc)).toFinset :=
  ⟨writes_sub_of_mem (y := main_call6_v0) rfl (by decide),
   writes_sub_of_mem (y := main_call6_c) rfl (by decide),
   writes_sub_of_mem (y := main_call6_v1) rfl (by decide),
   writes_sub_of_mem (y := main_call6_c_0) rfl (by decide),
   writes_sub_of_mem (y := main_call6_v2) rfl (by decide),
   writes_sub_of_mem (y := main_call6_v3) rfl (by decide),
   writes_sub_of_mem (y := main_call6_v4) rfl (by decide),
   writes_sub_of_mem (y := main_call6_c_1) rfl (by decide),
   writes_sub_of_mem (y := main_call6_v5) rfl (by decide),
   writes_sub_of_mem (y := main_call6_v6) rfl (by decide),
   writes_sub_of_mem (y := main_call6_c_2) rfl (by decide),
   writes_sub_of_mem (y := main_call6_v7) rfl (by decide),
   writes_sub_of_mem (y := main_call6_v8) rfl (by decide),
   writes_sub_of_mem (y := main_call6_c_3) rfl (by decide),
   writes_sub_of_mem (y := main_call6_v9) rfl (by decide),
   writes_sub_of_mem (y := main_call6_v10) rfl (by decide),
   writes_sub_of_mem (y := main_call6_v11) rfl (by decide),
   writes_sub_of_mem (y := main_call6_v12) rfl (by decide),
   writes_sub_of_mem (y := main_call6_v13) rfl (by decide),
   writes_sub_of_mem (y := main_call6_v14) rfl (by decide),
   writes_sub_of_mem (y := main_v46) rfl (by decide)⟩
theorem hostOps1_11_fresh : (hostOps1_11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The references the operations of `hostOps1_12` write: each operation's one result buffer, in order. -/
abbrev hostOps1_12_W : List (Ref sig .tc) := [main_c_10]
theorem hostOps1_12_writes : (hostOps1_12 : List (HloOp τ sig (Elt F))).Forall fun op => op.writes ⊆ (hostOps1_12_W.map (Proc.devRef (τ := τ) .tc)).toFinset :=
  writes_sub_of_mem (y := main_c_10) rfl (by decide)
theorem hostOps1_12_fresh : (hostOps1_12 : List (HloOp τ sig (Elt F))).Forall fun op => op.fresh = ∅ :=
  rfl

/-- The references the operations of `hostOps1_13` write: each operation's one result buffer, in order. -/
abbrev hostOps1_13_W : List (Ref sig .tc) := [main_call7_v0, main_call7_v1, main_call7_v2, main_call7_v3, main_call7_v4, main_call7_v5, main_call7_v6, main_call7_v7, main_call7_c, main_call7_v8, main_call7_v9, main_call7_v10, main_call7_c_0, main_call7_v11, main_call7_v12, main_v47]
theorem hostOps1_13_writes : (hostOps1_13 : List (HloOp τ sig (Elt F))).Forall fun op => op.writes ⊆ (hostOps1_13_W.map (Proc.devRef (τ := τ) .tc)).toFinset :=
  ⟨writes_sub_of_mem (y := main_call7_v0) rfl (by decide),
   writes_sub_of_mem (y := main_call7_v1) rfl (by decide),
   writes_sub_of_mem (y := main_call7_v2) rfl (by decide),
   writes_sub_of_mem (y := main_call7_v3) rfl (by decide),
   writes_sub_of_mem (y := main_call7_v4) rfl (by decide),
   writes_sub_of_mem (y := main_call7_v5) rfl (by decide),
   writes_sub_of_mem (y := main_call7_v6) rfl (by decide),
   writes_sub_of_mem (y := main_call7_v7) rfl (by decide),
   writes_sub_of_mem (y := main_call7_c) rfl (by decide),
   writes_sub_of_mem (y := main_call7_v8) rfl (by decide),
   writes_sub_of_mem (y := main_call7_v9) rfl (by decide),
   writes_sub_of_mem (y := main_call7_v10) rfl (by decide),
   writes_sub_of_mem (y := main_call7_c_0) rfl (by decide),
   writes_sub_of_mem (y := main_call7_v11) rfl (by decide),
   writes_sub_of_mem (y := main_call7_v12) rfl (by decide),
   writes_sub_of_mem (y := main_v47) rfl (by decide)⟩
theorem hostOps1_13_fresh : (hostOps1_13 : List (HloOp τ sig (Elt F))).Forall fun op => op.fresh = ∅ :=
  ⟨rfl, rfl, rfl, rfl, rfl, rfl, rfl, rfl, rfl, rfl, rfl, rfl, rfl, rfl, rfl, rfl⟩

/-- The references the operations of `hostOps1_14` write: each operation's one result buffer, in order. -/
abbrev hostOps1_14_W : List (Ref sig .tc) := [main_c_11]
theorem hostOps1_14_writes : (hostOps1_14 : List (HloOp τ sig (Elt F))).Forall fun op => op.writes ⊆ (hostOps1_14_W.map (Proc.devRef (τ := τ) .tc)).toFinset :=
  writes_sub_of_mem (y := main_c_11) rfl (by decide)
theorem hostOps1_14_fresh : (hostOps1_14 : List (HloOp τ sig (Elt F))).Forall fun op => op.fresh = ∅ :=
  rfl

/-- The references the operations of `hostOps1_15` write: each operation's one result buffer, in order. -/
abbrev hostOps1_15_W : List (Ref sig .tc) := [main_call8_v0, main_call8_c, main_call8_v1, main_call8_c_0, main_call8_v2, main_call8_v3, main_call8_v4, main_call8_c_1, main_call8_v5, main_call8_v6, main_call8_c_2, main_call8_v7, main_call8_v8, main_call8_c_3, main_call8_v9, main_call8_v10, main_call8_v11, main_call8_v12, main_call8_v13, main_call8_v14, main_v48]
theorem hostOps1_15_writes : (hostOps1_15 : List (HloOp τ sig (Elt F))).Forall fun op => op.writes ⊆ (hostOps1_15_W.map (Proc.devRef (τ := τ) .tc)).toFinset :=
  ⟨writes_sub_of_mem (y := main_call8_v0) rfl (by decide),
   writes_sub_of_mem (y := main_call8_c) rfl (by decide),
   writes_sub_of_mem (y := main_call8_v1) rfl (by decide),
   writes_sub_of_mem (y := main_call8_c_0) rfl (by decide),
   writes_sub_of_mem (y := main_call8_v2) rfl (by decide),
   writes_sub_of_mem (y := main_call8_v3) rfl (by decide),
   writes_sub_of_mem (y := main_call8_v4) rfl (by decide),
   writes_sub_of_mem (y := main_call8_c_1) rfl (by decide),
   writes_sub_of_mem (y := main_call8_v5) rfl (by decide),
   writes_sub_of_mem (y := main_call8_v6) rfl (by decide),
   writes_sub_of_mem (y := main_call8_c_2) rfl (by decide),
   writes_sub_of_mem (y := main_call8_v7) rfl (by decide),
   writes_sub_of_mem (y := main_call8_v8) rfl (by decide),
   writes_sub_of_mem (y := main_call8_c_3) rfl (by decide),
   writes_sub_of_mem (y := main_call8_v9) rfl (by decide),
   writes_sub_of_mem (y := main_call8_v10) rfl (by decide),
   writes_sub_of_mem (y := main_call8_v11) rfl (by decide),
   writes_sub_of_mem (y := main_call8_v12) rfl (by decide),
   writes_sub_of_mem (y := main_call8_v13) rfl (by decide),
   writes_sub_of_mem (y := main_call8_v14) rfl (by decide),
   writes_sub_of_mem (y := main_v48) rfl (by decide)⟩
theorem hostOps1_15_fresh : (hostOps1_15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The references the operations of `hostOps1_16` write: each operation's one result buffer, in order. -/
abbrev hostOps1_16_W : List (Ref sig .tc) := [main_v49, main_v50, main_v51, main_c_12, main_v52, main_v53, main_c_13, main_v54, main_v55, main_v56, main_c_14, main_v57, main_v58, main_c_15, main_v59, main_v60, main_v61, main_v62, main_v63, main_v64, main_v65, main_v66, main_v67, main_v68, main_v69, main_v70, main_v71, main_v72, main_v73]
theorem hostOps1_16_writes : (hostOps1_16 : List (HloOp τ sig (Elt F))).Forall fun op => op.writes ⊆ (hostOps1_16_W.map (Proc.devRef (τ := τ) .tc)).toFinset :=
  ⟨writes_sub_of_mem (y := main_v49) rfl (by decide),
   writes_sub_of_mem (y := main_v50) rfl (by decide),
   writes_sub_of_mem (y := main_v51) rfl (by decide),
   writes_sub_of_mem (y := main_c_12) rfl (by decide),
   writes_sub_of_mem (y := main_v52) rfl (by decide),
   writes_sub_of_mem (y := main_v53) rfl (by decide),
   writes_sub_of_mem (y := main_c_13) rfl (by decide),
   writes_sub_of_mem (y := main_v54) rfl (by decide),
   writes_sub_of_mem (y := main_v55) rfl (by decide),
   writes_sub_of_mem (y := main_v56) rfl (by decide),
   writes_sub_of_mem (y := main_c_14) rfl (by decide),
   writes_sub_of_mem (y := main_v57) rfl (by decide),
   writes_sub_of_mem (y := main_v58) rfl (by decide),
   writes_sub_of_mem (y := main_c_15) rfl (by decide),
   writes_sub_of_mem (y := main_v59) rfl (by decide),
   writes_sub_of_mem (y := main_v60) rfl (by decide),
   writes_sub_of_mem (y := main_v61) rfl (by decide),
   writes_sub_of_mem (y := main_v62) rfl (by decide),
   writes_sub_of_mem (y := main_v63) rfl (by decide),
   writes_sub_of_mem (y := main_v64) rfl (by decide),
   writes_sub_of_mem (y := main_v65) rfl (by decide),
   writes_sub_of_mem (y := main_v66) rfl (by decide),
   writes_sub_of_mem (y := main_v67) rfl (by decide),
   writes_sub_of_mem (y := main_v68) rfl (by decide),
   writes_sub_of_mem (y := main_v69) rfl (by decide),
   writes_sub_of_mem (y := main_v70) rfl (by decide),
   writes_sub_of_mem (y := main_v71) rfl (by decide),
   writes_sub_of_mem (y := main_v72) rfl (by decide),
   writes_sub_of_mem (y := main_v73) rfl (by decide)⟩
theorem hostOps1_16_fresh : (hostOps1_16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the operations of `hostOps1_17` write: each operation's one result buffer, in order. -/
abbrev hostOps1_17_W : List (Ref sig .tc) := [main_call9_v0, main_call9_v1, main_call9_cst, main_call9_v2, main_call9_v3, main_call9_cst_0, main_call9_v4, main_call9_v5, main_v74]
theorem hostOps1_17_writes : (hostOps1_17 : List (HloOp τ sig (Elt F))).Forall fun op => op.writes ⊆ (hostOps1_17_W.map (Proc.devRef (τ := τ) .tc)).toFinset :=
  ⟨writes_sub_of_mem (y := main_call9_v0) rfl (by decide),
   writes_sub_of_mem (y := main_call9_v1) rfl (by decide),
   writes_sub_of_mem (y := main_call9_cst) rfl (by decide),
   writes_sub_of_mem (y := main_call9_v2) rfl (by decide),
   writes_sub_of_mem (y := main_call9_v3) rfl (by decide),
   writes_sub_of_mem (y := main_call9_cst_0) rfl (by decide),
   writes_sub_of_mem (y := main_call9_v4) rfl (by decide),
   writes_sub_of_mem (y := main_call9_v5) rfl (by decide),
   writes_sub_of_mem (y := main_v74) rfl (by decide)⟩
theorem hostOps1_17_fresh : (hostOps1_17 : List (HloOp τ sig (Elt F))).Forall fun op => op.fresh = ∅ :=
  ⟨rfl, rfl, rfl, rfl, rfl, rfl, rfl, rfl, rfl⟩

/-- The references the operations of `hostOps1_18` write: each operation's one result buffer, in order. -/
abbrev hostOps1_18_W : List (Ref sig .tc) := [main_v75, main_v76, main_v77, main_v78]
theorem hostOps1_18_writes : (hostOps1_18 : List (HloOp τ sig (Elt F))).Forall fun op => op.writes ⊆ (hostOps1_18_W.map (Proc.devRef (τ := τ) .tc)).toFinset :=
  ⟨writes_sub_of_mem (y := main_v75) rfl (by decide),
   writes_sub_of_mem (y := main_v76) rfl (by decide),
   writes_sub_of_mem (y := main_v77) rfl (by decide),
   writes_sub_of_mem (y := main_v78) rfl (by decide)⟩
theorem hostOps1_18_fresh : (hostOps1_18 : List (HloOp τ sig (Elt F))).Forall fun op => op.fresh = ∅ :=
  ⟨rfl, rfl, rfl, rfl⟩

/-! ## The stretches before the region and after it -/

/-- The host stretches @main runs before the region, in order. -/
abbrev preOps : List (List (HloOp τ sig (Elt F))) := [hostOps0, hostOps0_1, hostOps0_2]
/-- The host stretches @main runs after the region, in order. -/
abbrev tailOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18]
/-- What they write, stretch by stretch. -/
abbrev preWs : List (List (Ref sig .tc)) := [hostOps0_W, hostOps0_1_W, hostOps0_2_W]
abbrev tailWs : List (List (Ref sig .tc)) := [hostOps1_W, hostOps1_1_W, hostOps1_2_W, hostOps1_3_W, hostOps1_4_W, hostOps1_5_W, hostOps1_6_W, hostOps1_7_W, hostOps1_8_W, hostOps1_9_W, hostOps1_10_W, hostOps1_11_W, hostOps1_12_W, hostOps1_13_W, hostOps1_14_W, hostOps1_15_W, hostOps1_16_W, hostOps1_17_W, hostOps1_18_W]

theorem pre_writes : WritesWithin (preOps (F := F)) preWs :=
  .cons hostOps0_writes (.cons hostOps0_1_writes (.cons hostOps0_2_writes (.nil)))
theorem tail_writes : WritesWithin (tailOps (F := F)) tailWs :=
  .cons hostOps1_writes (.cons hostOps1_1_writes (.cons hostOps1_2_writes (.cons hostOps1_3_writes (.cons hostOps1_4_writes (.cons hostOps1_5_writes (.cons hostOps1_6_writes (.cons hostOps1_7_writes (.cons hostOps1_8_writes (.cons hostOps1_9_writes (.cons hostOps1_10_writes (.cons hostOps1_11_writes (.cons hostOps1_12_writes (.cons hostOps1_13_writes (.cons hostOps1_14_writes (.cons hostOps1_15_writes (.cons hostOps1_16_writes (.cons hostOps1_17_writes (.cons hostOps1_18_writes (.nil)))))))))))))))))))

/-- Every operation before the region touches TensorCore references only, -/
theorem pre_sub : (preOps (F := F)).Forall fun ops => ops.Forall fun op => op.bufs ⊆ StableHlo.tcRefs τ sig :=
  ⟨hostOps0_sub, hostOps0_1_sub, hostOps0_2_sub⟩
/-- and allocates nothing. -/
theorem pre_fresh : (preOps (F := F)).Forall fun ops => ops.Forall fun op => op.fresh = ∅ :=
  ⟨hostOps0_fresh, hostOps0_1_fresh, hostOps0_2_fresh⟩
/-- The same of every operation after the region. -/
theorem tail_sub : (tailOps (F := F)).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub⟩
theorem tail_fresh : (tailOps (F := F)).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh, hostOps1_17_fresh, hostOps1_18_fresh⟩

/-- A reference no stretch before the region lists is written by none of their operations; -/
theorem pre_not_written {r : Ref sig .tc} (hr : r ∉ preWs.flatten) :
    ∀ ops ∈ (preOps : List (List (HloOp τ sig (Elt F)))), ∀ op ∈ ops, Proc.devRef (τ := τ) .tc r ∉ op.writes :=
  not_written_of_not_mem pre_writes hr
/-- likewise after the region. -/
theorem tail_not_written {r : Ref sig .tc} (hr : r ∉ tailWs.flatten) :
    ∀ ops ∈ (tailOps : List (List (HloOp τ sig (Elt F)))), ∀ op ∈ ops, Proc.devRef (τ := τ) .tc r ∉ op.writes :=
  not_written_of_not_mem tail_writes hr

end Cert.Kernel.Hand

end
-- ==== Proof.KernelFrame.Body.lean ====
import proofs.«122468_j35184372089134_1_alg».proof.Proof.Gen.Kernel.Launch
import proofs.«122468_j35184372089134_1_alg».proof.Proof.Gen.Kernel.Skeleton
import proofs.«122468_j35184372089134_1_alg».proof.Proof.Gen.Kernel.Points
import Idealize.ShloMosaic.Lib.Pipeline.FrameBody
import Idealize.ShloMosaic.Lib.Ring
import Idealize.ShloMosaic.Lib.Tactic

-- membership in a rectangle of these extents is checked by a structural recursion once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

/-! # The kernel body on its five staging buffers

The body reads each of its four input blocks whole, computes one value from them (`k0_pay1`: the pairwise sum of the
two row blocks, broadcast against each other, through x·σ(x), rounded to bf16, times the rounded weight block, plus the
bias row), and stores that value over the whole output block. -/

/-- The whole-block rectangles the body reads and writes through. -/
abbrev rRows : Rect S32x256 := Rect.unit (s := S32x256) ![0, 0] S32x256.size inb_S32x256_S32x256_0_0
abbrev rCols : Rect S128x256 := Rect.unit (s := S128x256) ![0, 0] S128x256.size inb_S128x256_S128x256_0_0
abbrev rWeight : Rect S256x5 := Rect.unit (s := S256x5) ![0, 0] S256x5.size inb_S256x5_S256x5_0_0
abbrev rBias : Rect S1x5 := Rect.unit (s := S1x5) ![0, 0] S1x5.size inb_S1x5_S1x5_0_0
abbrev rOut : Rect S32x128x5 := Rect.unit (s := S32x128x5) ![0, 0, 0] S32x128x5.size inb_S32x128x5_S32x128x5_0_0_0

/-- What the body leaves in the output block's buffer, from the four input blocks: its one store, over the whole
    block, of the value computed from the four whole-block loads. -/
def bondBlock (x0 : Vec F S32x256 .f32) (x1 : Vec F S128x256 .f32) (x2 : Vec F S256x5 .f32) (x3 : Vec F S1x5 .f32) :
    Vec F S32x128x5 .f32 :=
  View.canon [⟨rOut, k0_pay1 (View.ld x0 rRows) (View.ld x1 rCols) (View.ld x2 rWeight) (View.ld x3 rBias)⟩]

/-- The one store is of the whole block, so it covers it. -/
theorem cover_out (p0 : Vec F S32x128x5 .f32) (y : S32x128x5.Idx) :
    ∃ pc ∈ ([⟨rOut, p0⟩] : List (View.Piece (Elt F) S32x128x5 .f32)), y ∈ pc.1.set :=
  View.cover_of_tiled [⟨rOut, p0⟩] S32x128x5.size (by rfl) y

set_option maxHeartbeats 1000000 in
/-- The kernel body on whole staging memrefs, the inputs' at read contents `x0 … x3` and the output's at anything, runs
    to the continuation holding the inputs' as they were and the output's at `bondBlock` of the inputs': the printed
    function is its skeleton of memory operations, which the executor runs one by one; the value stored is never unfolded. -/
theorem sound_kernel (c : Dev nD) (E : Set ℕ) (i : grid0.Coords)
    (arg2 : Memref sig .tc .vmem S32x256 .f32) (harg2 : arg2.IsWhole) (arg3 : Memref sig .tc .vmem S128x256 .f32) (harg3 : arg3.IsWhole)
    (arg4 : Memref sig .tc .vmem S256x5 .f32) (harg4 : arg4.IsWhole) (arg5 : Memref sig .tc .vmem S1x5 .f32) (harg5 : arg5.IsWhole)
    (arg6 : Memref sig .tc .vmem S32x128x5 .f32) (harg6 : arg6.IsWhole)
    (x0 : Vec F S32x256 .f32) (x1 : Vec F S128x256 .f32) (x2 : Vec F S256x5 .f32) (x3 : Vec F S1x5 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (bondBlock x0 x1 x2 x3)) -∗ K ⟨⟩))
      ⊢ wp frame (wpE (defs₀ (F := F)) Variants.none c none) E
          (cc0_bond_pair_kernel i arg2 harg2 arg3 harg3 arg4 harg4 arg5 harg5 arg6 harg6) K := by
  simp only [cc0_bond_pair_kernel_eq_skeleton]; unfold cc0_bond_pair_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

end Cert.Kernel.Hand

end
-- ==== Proof.KernelFrame.lean ====
import proofs.«122468_j35184372089134_1_alg».proof.Proof.Gen.Kernel.Launch
import proofs.«122468_j35184372089134_1_alg».proof.Proof.Gen.Kernel.Skeleton
import proofs.«122468_j35184372089134_1_alg».proof.Proof.Gen.Kernel.Points
import proofs.«122468_j35184372089134_1_alg».proof.Proof.KernelFrame.Writes
import proofs.«122468_j35184372089134_1_alg».proof.Proof.KernelFrame.Body
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The frame of the program: @main around its one region

@main runs three stretches of host operations, the region (one pipelined kernel over a 32 × 8 grid), and nineteen more
stretches. The host operations write their own result buffers only, so every argument array ends as launched; the
region's arrays end at what the pipeline's proof data says, the body at each point storing `bondBlock` of the four
input blocks over the output block. -/

/-! ## @main around the region -/

/-- Core `c`'s buffer contents when the region is entered, as a valuation: after the host stretches before it. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

/-- @main is the host stretches before the region, the region, and the host stretches after it: it reduces to the
    region continued by the later stretches, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main preOps tailOps pre_sub pre_fresh main_chain

/-- The stretches after the region touch the pipeline's arrays and the buffers that bypass it only: each operation's
    buffers are unscoped TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp tail_sub) ops hops)) op hop)
/-- They allocate nothing. -/
theorem sfx_fresh : ∀ ops ∈ (tailOps : List (List (HloOp τ sig (Elt F)))), ∀ op ∈ ops, op.fresh = ∅ :=
  fun ops hops op hop => (List.forall_iff_forall_mem.mp ((List.forall_iff_forall_mem.mp tail_fresh) ops hops)) op hop
/-- And they write no array of the pipeline: none of the five arrays is a result buffer of theirs. -/
theorem sfx_keeps : ∀ ops ∈ (tailOps : List (List (HloOp τ sig (Elt F)))), ∀ op ∈ ops,
    ∀ w, Proc.devRef .tc (Pipeline.arrRef spec0 w) ∉ op.writes :=
  fun ops hops op hop w => tail_not_written ((by decide : ∀ w, Pipeline.arrRef spec0 w ∉ tailWs.flatten) w) ops hops op hop

/-! ## No host operation writes an argument -/

/-- A buffer no stretch before the region writes is found by the region as launched. -/
theorem V_of_not_written (c : Dev nD) {r : Ref sig .tc} (hr : r ∉ preWs.flatten) :
    V m c r = m ((c : Thread nD τ).loc r) :=
  after_flatten_of_not_mem pre_writes hr _

/-- A buffer that is no array of the pipeline and that no stretch writes, before the region or after it, ends as launched. -/
theorem W_of_not_written (dats : (p : Fin 1) → (c : Dev nD) → Dat τ (Elt F) Unit ℕ (UR sig nD τ) ℕ (cfgs p) c) (c : Dev nD)
    {r : Ref sig .tc} (hpre : r ∉ preWs.flatten) (htail : r ∉ tailWs.flatten) (harr : ∀ w, Pipeline.arrRef spec0 w ≠ r) :
    Pipeline.afterTail₀ cfgs dats 0 (V0 m) tailOps c r = m ((c : Thread nD τ).loc r) := by
  unfold Pipeline.afterTail₀
  rw [after_flatten_of_not_mem tail_writes htail, Pipeline.withArrays_of_ne _ c (V0 m c) _ r harr]
  exact V_of_not_written m c hpre

theorem V_main_arg0 (c : Dev nD) : V m c main_arg0 = m ((c : Thread nD τ).loc main_arg0) := V_of_not_written m c (by decide)
theorem V_main_arg1 (c : Dev nD) : V m c main_arg1 = m ((c : Thread nD τ).loc main_arg1) := V_of_not_written m c (by decide)
theorem V_main_arg2 (c : Dev nD) : V m c main_arg2 = m ((c : Thread nD τ).loc main_arg2) := V_of_not_written m c (by decide)
theorem V_main_arg3 (c : Dev nD) : V m c main_arg3 = m ((c : Thread nD τ).loc main_arg3) := V_of_not_written m c (by decide)
theorem V_main_arg4 (c : Dev nD) : V m c main_arg4 = m ((c : Thread nD τ).loc main_arg4) := V_of_not_written m c (by decide)
theorem V_main_arg5 (c : Dev nD) : V m c main_arg5 = m ((c : Thread nD τ).loc main_arg5) := V_of_not_written m c (by decide)
theorem V_main_arg6 (c : Dev nD) : V m c main_arg6 = m ((c : Thread nD τ).loc main_arg6) := V_of_not_written m c (by decide)
theorem V_main_arg7 (c : Dev nD) : V m c main_arg7 = m ((c : Thread nD τ).loc main_arg7) := V_of_not_written m c (by decide)
theorem V_main_arg8 (c : Dev nD) : V m c main_arg8 = m ((c : Thread nD τ).loc main_arg8) := V_of_not_written m c (by decide)
theorem V_main_arg9 (c : Dev nD) : V m c main_arg9 = m ((c : Thread nD τ).loc main_arg9) := V_of_not_written m c (by decide)
theorem V_main_arg10 (c : Dev nD) : V m c main_arg10 = m ((c : Thread nD τ).loc main_arg10) := V_of_not_written m c (by decide)
theorem V_main_arg11 (c : Dev nD) : V m c main_arg11 = m ((c : Thread nD τ).loc main_arg11) := V_of_not_written m c (by decide)
theorem V_main_arg12 (c : Dev nD) : V m c main_arg12 = m ((c : Thread nD τ).loc main_arg12) := V_of_not_written m c (by decide)
theorem V_main_arg13 (c : Dev nD) : V m c main_arg13 = m ((c : Thread nD τ).loc main_arg13) := V_of_not_written m c (by decide)
theorem V_main_arg14 (c : Dev nD) : V m c main_arg14 = m ((c : Thread nD τ).loc main_arg14) := V_of_not_written m c (by decide)

theorem W_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) :=
  W_of_not_written m dats c (by decide) (by decide) (by decide)
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  W_of_not_written m dats c (by decide) (by decide) (by decide)
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  W_of_not_written m dats c (by decide) (by decide) (by decide)
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) :=
  W_of_not_written m dats c (by decide) (by decide) (by decide)
theorem W_main_arg4 (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) :=
  W_of_not_written m dats c (by decide) (by decide) (by decide)
theorem W_main_arg5 (dats : (p : Fin 1) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) :=
  W_of_not_written m dats c (by decide) (by decide) (by decide)
theorem W_main_arg6 (dats : (p : Fin 1) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) :=
  W_of_not_written m dats c (by decide) (by decide) (by decide)
theorem W_main_arg7 (dats : (p : Fin 1) → (c : Dev nD) → Dat τ (Elt F) Unit ℕ (UR sig nD τ) ℕ (cfgs p) c) (c : Dev nD) :
    Pipeline.afterTail₀ cfgs dats 0 (V0 m) tailOps c main_arg7 = m ((c : Thread nD τ).loc main_arg7) :=
  W_of_not_written m dats c (by decide) (by decide) (by decide)
theorem W_main_arg8 (dats : (p : Fin 1) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) :=
  W_of_not_written m dats c (by decide) (by decide) (by decide)
theorem W_main_arg10 (dats : (p : Fin 1) → (c : Dev nD) → Dat τ (Elt F) Unit ℕ (UR sig nD τ) ℕ (cfgs p) c) (c : Dev nD) :
    Pipeline.afterTail₀ cfgs dats 0 (V0 m) tailOps c main_arg10 = m ((c : Thread nD τ).loc main_arg10) :=
  W_of_not_written m dats c (by decide) (by decide) (by decide)
theorem W_main_arg11 (dats : (p : Fin 1) → (c : Dev nD) → Dat τ (Elt F) Unit ℕ (UR sig nD τ) ℕ (cfgs p) c) (c : Dev nD) :
    Pipeline.afterTail₀ cfgs dats 0 (V0 m) tailOps c main_arg11 = m ((c : Thread nD τ).loc main_arg11) :=
  W_of_not_written m dats c (by decide) (by decide) (by decide)
theorem W_main_arg12 (dats : (p : Fin 1) → (c : Dev nD) → Dat τ (Elt F) Unit ℕ (UR sig nD τ) ℕ (cfgs p) c) (c : Dev nD) :
    Pipeline.afterTail₀ cfgs dats 0 (V0 m) tailOps c main_arg12 = m ((c : Thread nD τ).loc main_arg12) :=
  W_of_not_written m dats c (by decide) (by decide) (by decide)
theorem W_main_arg13 (dats : (p : Fin 1) → (c : Dev nD) → Dat τ (Elt F) Unit ℕ (UR sig nD τ) ℕ (cfgs p) c) (c : Dev nD) :
    Pipeline.afterTail₀ cfgs dats 0 (V0 m) tailOps c main_arg13 = m ((c : Thread nD τ).loc main_arg13) :=
  W_of_not_written m dats c (by decide) (by decide) (by decide)
theorem W_main_arg14 (dats : (p : Fin 1) → (c : Dev nD) → Dat τ (Elt F) Unit ℕ (UR sig nD τ) ℕ (cfgs p) c) (c : Dev nD) :
    Pipeline.afterTail₀ cfgs dats 0 (V0 m) tailOps c main_arg14 = m ((c : Thread nD τ).loc main_arg14) :=
  W_of_not_written m dats c (by decide) (by decide) (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, its block
    index has not moved), for any proof data whose array is `V`'s and whose body leaves the block in place; the window
    is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, its block
    index has not moved), for any proof data whose array is `V`'s and whose body leaves the block in place; the window
    is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, its block
    index has not moved), for any proof data whose array is `V`'s and whose body leaves the block in place; the window
    is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, its block
    index has not moved), for any proof data whose array is `V`'s and whose body leaves the block in place; the window
    is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post, read at the
    fifteen argument arrays, is the frame claim's post: `main_arg9` is an input array of the pipeline, which ends at
    its entry contents; every other argument bypasses the region and no stretch writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).1 2).trans (((dats 0 c).arrAt_in 2 rfl _).trans ((hA c 2).trans (V_main_arg9 m c))),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c)⟩) h

/-! ## The pipeline's proof data -/

/-- The proof data of the one pipeline on core `c`: the arrays as the region finds them (`V`); after the body at
    point `t` each input's buffer at its block and the output's at `bondBlock` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => bondBlock (iblk m c 0 t) (iblk m c 1 t) (iblk m c 2 t) (iblk m c 3 t)
  Φ _ := Pipeline.ΦA spec0 c
  q _ := fullShare
  owed _ := 0

/-- The proof data's arrays are the region-entry contents (projected, never unfolding `V`). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = bondBlock (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the stretches after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME, at any `F`: @main terminates from any memory with zero counters and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Hand

end
-- ==== Proof.KernelIdealFrame.Writes.lean ====
import proofs.«122468_j35184372089134_1_alg».proof.Proof.Gen.KernelIdeal.Launch
import Idealize.ShloMosaic.Lib.StableHlo.Run

noncomputable section

namespace Cert.KernelIdeal.Hand

open Idealize.ShloMosaic Idealize.ShloMosaic.TcCoe
open Idealize.SL Idealize.SL.Sem
open Cert.KernelIdeal.Gen

variable {F : FTy → Type} [FloatOps F]

/-! # What the host operations around the region write

Every host operation of @main writes exactly one buffer, its result. Listing the results stretch by stretch turns
"no operation writes buffer `r`" into "`r` is not in the list", which is decided once per buffer over references,
instead of one inequality per operation and buffer. -/

/-- An operation whose one written buffer is the reference `y`, a member of the list `W`, writes within `W`. -/
theorem writes_sub_of_mem {Val : EltTy → Type} {W : List (Ref sig .tc)} {op : HloOp τ sig Val} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- Stretch by stretch, each operation of `opss` writes within the matching list of `Ws`. -/
abbrev WritesWithin {Val : EltTy → Type} (opss : List (List (HloOp τ sig Val))) (Ws : List (List (Ref sig .tc))) : Prop :=
  List.Forall₂ (fun ops W => ops.Forall fun op => op.writes ⊆ (W.map (Proc.devRef (τ := τ) .tc)).toFinset) opss Ws

/-- A reference in none of the lists is written by no operation of any stretch. -/
theorem not_written_of_not_mem {Val : EltTy → Type} {opss : List (List (HloOp τ sig Val))} {Ws : List (List (Ref sig .tc))}
    (h : WritesWithin opss Ws) {r : Ref sig .tc} (hr : r ∉ Ws.flatten) :
    ∀ ops ∈ opss, ∀ op ∈ ops, Proc.devRef (τ := τ) .tc r ∉ op.writes := by
  induction h with
  | nil => intro ops hops; exact absurd hops List.not_mem_nil
  | cons hW _ ih =>
    intro ops hops op hop hw
    rw [List.flatten_cons, List.mem_append, not_or] at hr
    rcases List.mem_cons.mp hops with rfl | hops
    · obtain ⟨y, hy, he⟩ := List.mem_map.mp (List.mem_toFinset.mp ((List.forall_iff_forall_mem.mp hW) op hop hw))
      exact hr.1 (Proc.devRef_injective _ he ▸ hy)
    · exact ih hr.2 ops hops op hop hw

/-- So it keeps its contents through all the stretches run in order. -/
theorem after_flatten_of_not_mem {Val : EltTy → Type} {opss : List (List (HloOp τ sig Val))} {Ws : List (List (Ref sig .tc))}
    (h : WritesWithin opss Ws) {r : Ref sig .tc} (hr : r ∉ Ws.flatten) (V : Valuation τ sig Val) :
    StableHlo.after opss.flatten V (Proc.devRef .tc r) = V (Proc.devRef .tc r) :=
  StableHlo.after_of_forall_not_mem _ _ fun op hop => by
    obtain ⟨ops, hops, hop'⟩ := List.mem_flatten.mp hop
    exact not_written_of_not_mem h hr ops hops op hop'

/-! ## Stretch by stretch -/

/-- The references the operations of `hostOps0` write: each operation's one result buffer, in order. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  ⟨writes_sub_of_mem (y := main_v0) rfl (by decide),
   writes_sub_of_mem (y := main_v1) rfl (by decide),
   writes_sub_of_mem (y := main_v2) rfl (by decide),
   writes_sub_of_mem (y := main_v3) rfl (by decide)⟩
theorem hostOps0_fresh : (hostOps0 : List (HloOp τ sig (Elt F))).Forall fun op => op.fresh = ∅ :=
  ⟨rfl, rfl, rfl, rfl⟩

/-- The references the operations of `hostOps0_1` write: each operation's one result buffer, in order. -/
abbrev hostOps0_1_W : List (Ref sig .tc) := [main_call0_v0, main_call0_v1, main_call0_cst, main_call0_v2, main_call0_v3, main_call0_cst_0, main_call0_v4, main_call0_v5, main_v4]
theorem hostOps0_1_writes : (hostOps0_1 : List (HloOp τ sig (Elt F))).Forall fun op => op.writes ⊆ (hostOps0_1_W.map (Proc.devRef (τ := τ) .tc)).toFinset :=
  ⟨writes_sub_of_mem (y := main_call0_v0) rfl (by decide),
   writes_sub_of_mem (y := main_call0_v1) rfl (by decide),
   writes_sub_of_mem (y := main_call0_cst) rfl (by decide),
   writes_sub_of_mem (y := main_call0_v2) rfl (by decide),
   writes_sub_of_mem (y := main_call0_v3) rfl (by decide),
   writes_sub_of_mem (y := main_call0_cst_0) rfl (by decide),
   writes_sub_of_mem (y := main_call0_v4) rfl (by decide),
   writes_sub_of_mem (y := main_call0_v5) rfl (by decide),
   writes_sub_of_mem (y := main_v4) rfl (by decide)⟩
theorem hostOps0_1_fresh : (hostOps0_1 : List (HloOp τ sig (Elt F))).Forall fun op => op.fresh = ∅ :=
  ⟨rfl, rfl, rfl, rfl, rfl, rfl, rfl, rfl, rfl⟩

/-- The references the operations of `hostOps0_2` write: each operation's one result buffer, in order. -/
abbrev hostOps0_2_W : List (Ref sig .tc) := [main_v5, main_v6, main_v7, main_v8, main_cst, main_v9, main_cst_0, main_v10, main_v11, main_v12, main_v13, main_v14, main_v15, main_cst_1, main_v16, main_v17, main_v18, main_v19, main_v20, main_v21, main_v22, main_v23, main_v24, main_v25, main_v26, main_v27]
theorem hostOps0_2_writes : (hostOps0_2 : List (HloOp τ sig (Elt F))).Forall fun op => op.writes ⊆ (hostOps0_2_W.map (Proc.devRef (τ := τ) .tc)).toFinset :=
  ⟨writes_sub_of_mem (y := main_v5) rfl (by decide),
   writes_sub_of_mem (y := main_v6) rfl (by decide),
   writes_sub_of_mem (y := main_v7) rfl (by decide),
   writes_sub_of_mem (y := main_v8) rfl (by decide),
   writes_sub_of_mem (y := main_cst) rfl (by decide),
   writes_sub_of_mem (y := main_v9) rfl (by decide),
   writes_sub_of_mem (y := main_cst_0) rfl (by decide),
   writes_sub_of_mem (y := main_v10) rfl (by decide),
   writes_sub_of_mem (y := main_v11) rfl (by decide),
   writes_sub_of_mem (y := main_v12) rfl (by decide),
   writes_sub_of_mem (y := main_v13) rfl (by decide),
   writes_sub_of_mem (y := main_v14) rfl (by decide),
   writes_sub_of_mem (y := main_v15) rfl (by decide),
   writes_sub_of_mem (y := main_cst_1) rfl (by decide),
   writes_sub_of_mem (y := main_v16) rfl (by decide),
   writes_sub_of_mem (y := main_v17) rfl (by decide),
   writes_sub_of_mem (y := main_v18) rfl (by decide),
   writes_sub_of_mem (y := main_v19) rfl (by decide),
   writes_sub_of_mem (y := main_v20) rfl (by decide),
   writes_sub_of_mem (y := main_v21) rfl (by decide),
   writes_sub_of_mem (y := main_v22) rfl (by decide),
   writes_sub_of_mem (y := main_v23) rfl (by decide),
   writes_sub_of_mem (y := main_v24) rfl (by decide),
   writes_sub_of_mem (y := main_v25) rfl (by decide),
   writes_sub_of_mem (y := main_v26) rfl (by decide),
   writes_sub_of_mem (y := main_v27) rfl (by decide)⟩
theorem hostOps0_2_fresh : (hostOps0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The references the operations of `hostOps1` write: each operation's one result buffer, in order. -/
abbrev hostOps1_W : List (Ref sig .tc) := [main_cst_2, main_v29]
theorem hostOps1_writes : (hostOps1 : List (HloOp τ sig (Elt F))).Forall fun op => op.writes ⊆ (hostOps1_W.map (Proc.devRef (τ := τ) .tc)).toFinset :=
  ⟨writes_sub_of_mem (y := main_cst_2) rfl (by decide),
   writes_sub_of_mem (y := main_v29) rfl (by decide)⟩
theorem hostOps1_fresh : (hostOps1 : List (HloOp τ sig (Elt F))).Forall fun op => op.fresh = ∅ :=
  ⟨rfl, rfl⟩

/-- The references the operations of `hostOps1_1` write: each operation's one result buffer, in order. -/
abbrev hostOps1_1_W : List (Ref sig .tc) := [main_call1_v0, main_call1_c, main_call1_v1, main_call1_v2, main_call1_v3, main_call1_v4, main_call1_cst, main_call1_v5, main_v30]
theorem hostOps1_1_writes : (hostOps1_1 : List (HloOp τ sig (Elt F))).Forall fun op => op.writes ⊆ (hostOps1_1_W.map (Proc.devRef (τ := τ) .tc)).toFinset :=
  ⟨writes_sub_of_mem (y := main_call1_v0) rfl (by decide),
   writes_sub_of_mem (y := main_call1_c) rfl (by decide),
   writes_sub_of_mem (y := main_call1_v1) rfl (by decide),
   writes_sub_of_mem (y := main_call1_v2) rfl (by decide),
   writes_sub_of_mem (y := main_call1_v3) rfl (by decide),
   writes_sub_of_mem (y := main_call1_v4) rfl (by decide),
   writes_sub_of_mem (y := main_call1_cst) rfl (by decide),
   writes_sub_of_mem (y := main_call1_v5) rfl (by decide),
   writes_sub_of_mem (y := main_v30) rfl (by decide)⟩
theorem hostOps1_1_fresh : (hostOps1_1 : List (HloOp τ sig (Elt F))).Forall fun op => op.fresh = ∅ :=
  ⟨rfl, rfl, rfl, rfl, rfl, rfl, rfl, rfl, rfl⟩

/-- The references the operations of `hostOps1_2` write: each operation's one result buffer, in order. -/
abbrev hostOps1_2_W : List (Ref sig .tc) := [main_cst_3, main_v31, main_v32]
theorem hostOps1_2_writes : (hostOps1_2 : List (HloOp τ sig (Elt F))).Forall fun op => op.writes ⊆ (hostOps1_2_W.map (Proc.devRef (τ := τ) .tc)).toFinset :=
  ⟨writes_sub_of_mem (y := main_cst_3) rfl (by decide),
   writes_sub_of_mem (y := main_v31) rfl (by decide),
   writes_sub_of_mem (y := main_v32) rfl (by decide)⟩
theorem hostOps1_2_fresh : (hostOps1_2 : List (HloOp τ sig (Elt F))).Forall fun op => op.fresh = ∅ :=
  ⟨rfl, rfl, rfl⟩

/-- The references the operations of `hostOps1_3` write: each operation's one result buffer, in order. -/
abbrev hostOps1_3_W : List (Ref sig .tc) := [main_call2_v0, main_call2_v1, main_call2_call0_c, main_call2_call0_v0, main_v33]
theorem hostOps1_3_writes : (hostOps1_3 : List (HloOp τ sig (Elt F))).Forall fun op => op.writes ⊆ (hostOps1_3_W.map (Proc.devRef (τ := τ) .tc)).toFinset :=
  ⟨writes_sub_of_mem (y := main_call2_v0) rfl (by decide),
   writes_sub_of_mem (y := main_call2_v1) rfl (by decide),
   writes_sub_of_mem (y := main_call2_call0_c) rfl (by decide),
   writes_sub_of_mem (y := main_call2_call0_v0) rfl (by decide),
   writes_sub_of_mem (y := main_v33) rfl (by decide)⟩
theorem hostOps1_3_fresh : (hostOps1_3 : List (HloOp τ sig (Elt F))).Forall fun op => op.fresh = ∅ :=
  ⟨rfl, rfl, rfl, rfl, rfl⟩

/-- The references the operations of `hostOps1_4` write: each operation's one result buffer, in order. -/
abbrev hostOps1_4_W : List (Ref sig .tc) := [main_c, main_v34, main_c_4]
theorem hostOps1_4_writes : (hostOps1_4 : List (HloOp τ sig (Elt F))).Forall fun op => op.writes ⊆ (hostOps1_4_W.map (Proc.devRef (τ := τ) .tc)).toFinset :=
  ⟨writes_sub_of_mem (y := main_c) rfl (by decide),
   writes_sub_of_mem (y := main_v34) rfl (by decide),
   writes_sub_of_mem (y := main_c_4) rfl (by decide)⟩
theorem hostOps1_4_fresh : (hostOps1_4 : List (HloOp τ sig (Elt F))).Forall fun op => op.fresh = ∅ :=
  ⟨rfl, rfl, rfl⟩

/-- The references the operations of `hostOps1_5` write: each operation's one result buffer, in order. -/
abbrev hostOps1_5_W : List (Ref sig .tc) := [main_call3_v0, main_call3_v1, main_v35]
theorem hostOps1_5_writes : (hostOps1_5 : List (HloOp τ sig (Elt F))).Forall fun op => op.writes ⊆ (hostOps1_5_W.map (Proc.devRef (τ := τ) .tc)).toFinset :=
  ⟨writes_sub_of_mem (y := main_call3_v0) rfl (by decide),
   writes_sub_of_mem (y := main_call3_v1) rfl (by decide),
   writes_sub_of_mem (y := main_v35) rfl (by decide)⟩
theorem hostOps1_5_fresh : (hostOps1_5 : List (HloOp τ sig (Elt F))).Forall fun op => op.fresh = ∅ :=
  ⟨rfl, rfl, rfl⟩

/-- The references the operations of `hostOps1_6` write: each operation's one result buffer, in order. -/
abbrev hostOps1_6_W : List (Ref sig .tc) := [main_c_5, main_v36, main_v37, main_c_6, main_v38, main_v39, main_v40, main_v41, main_c_7, main_v42, main_v43]
theorem hostOps1_6_writes : (hostOps1_6 : List (HloOp τ sig (Elt F))).Forall fun op => op.writes ⊆ (hostOps1_6_W.map (Proc.devRef (τ := τ) .tc)).toFinset :=
  ⟨writes_sub_of_mem (y := main_c_5) rfl (by decide),
   writes_sub_of_mem (y := main_v36) rfl (by decide),
   writes_sub_of_mem (y := main_v37) rfl (by decide),
   writes_sub_of_mem (y := main_c_6) rfl (by decide),
   writes_sub_of_mem (y := main_v38) rfl (by decide),
   writes_sub_of_mem (y := main_v39) rfl (by decide),
   writes_sub_of_mem (y := main_v40) rfl (by decide),
   writes_sub_of_mem (y := main_v41) rfl (by decide),
   writes_sub_of_mem (y := main_c_7) rfl (by decide),
   writes_sub_of_mem (y := main_v42) rfl (by decide),
   writes_sub_of_mem (y := main_v43) rfl (by decide)⟩
theorem hostOps1_6_fresh : (hostOps1_6 : List (HloOp τ sig (Elt F))).Forall fun op => op.fresh = ∅ :=
  ⟨rfl, rfl, rfl, rfl, rfl, rfl, rfl, rfl, rfl, rfl, rfl⟩

/-- The references the operations of `hostOps1_7` write: each operation's one result buffer, in order. -/
abbrev hostOps1_7_W : List (Ref sig .tc) := [main_call4_call0_c, main_call4_call0_v0, main_v44]
theorem hostOps1_7_writes : (hostOps1_7 : List (HloOp τ sig (Elt F))).Forall fun op => op.writes ⊆ (hostOps1_7_W.map (Proc.devRef (τ := τ) .tc)).toFinset :=
  ⟨writes_sub_of_mem (y := main_call4_call0_c) rfl (by decide),
   writes_sub_of_mem (y := main_call4_call0_v0) rfl (by decide),
   writes_sub_of_mem (y := main_v44) rfl (by decide)⟩
theorem hostOps1_7_fresh : (hostOps1_7 : List (HloOp τ sig (Elt F))).Forall fun op => op.fresh = ∅ :=
  ⟨rfl, rfl, rfl⟩

/-- The references the operations of `hostOps1_8` write: each operation's one result buffer, in order. -/
abbrev hostOps1_8_W : List (Ref sig .tc) := [main_c_8]
theorem hostOps1_8_writes : (hostOps1_8 : List (HloOp τ sig (Elt F))).Forall fun op => op.writes ⊆ (hostOps1_8_W.map (Proc.devRef (τ := τ) .tc)).toFinset :=
  writes_sub_of_mem (y := main_c_8) rfl (by decide)
theorem hostOps1_8_fresh : (hostOps1_8 : List (HloOp τ sig (Elt F))).Forall fun op => op.fresh = ∅ :=
  rfl

/-- The references the operations of `hostOps1_9` write: each operation's one result buffer, in order. -/
abbrev hostOps1_9_W : List (Ref sig .tc) := [main_call5_v0, main_call5_v1, main_call5_v2, main_call5_v3, main_call5_v4, main_call5_v5, main_call5_v6, main_call5_v7, main_call5_c, main_call5_v8, main_call5_v9, main_call5_v10, main_call5_c_0, main_call5_v11, main_call5_v12, main_v45]
theorem hostOps1_9_writes : (hostOps1_9 : List (HloOp τ sig (Elt F))).Forall fun op => op.writes ⊆ (hostOps1_9_W.map (Proc.devRef (τ := τ) .tc)).toFinset :=
  ⟨writes_sub_of_mem (y := main_call5_v0) rfl (by decide),
   writes_sub_of_mem (y := main_call5_v1) rfl (by decide),
   writes_sub_of_mem (y := main_call5_v2) rfl (by decide),
   writes_sub_of_mem (y := main_call5_v3) rfl (by decide),
   writes_sub_of_mem (y := main_call5_v4) rfl (by decide),
   writes_sub_of_mem (y := main_call5_v5) rfl (by decide),
   writes_sub_of_mem (y := main_call5_v6) rfl (by decide),
   writes_sub_of_mem (y := main_call5_v7) rfl (by decide),
   writes_sub_of_mem (y := main_call5_c) rfl (by decide),
   writes_sub_of_mem (y := main_call5_v8) rfl (by decide),
   writes_sub_of_mem (y := main_call5_v9) rfl (by decide),
   writes_sub_of_mem (y := main_call5_v10) rfl (by decide),
   writes_sub_of_mem (y := main_call5_c_0) rfl (by decide),
   writes_sub_of_mem (y := main_call5_v11) rfl (by decide),
   writes_sub_of_mem (y := main_call5_v12) rfl (by decide),
   writes_sub_of_mem (y := main_v45) rfl (by decide)⟩
theorem hostOps1_9_fresh : (hostOps1_9 : List (HloOp τ sig (Elt F))).Forall fun op => op.fresh = ∅ :=
  ⟨rfl, rfl, rfl, rfl, rfl, rfl, rfl, rfl, rfl, rfl, rfl, rfl, rfl, rfl, rfl, rfl⟩

/-- The references the operations of `hostOps1_10` write: each operation's one result buffer, in order. -/
abbrev hostOps1_10_W : List (Ref sig .tc) := [main_c_9]
theorem hostOps1_10_writes : (hostOps1_10 : List (HloOp τ sig (Elt F))).Forall fun op => op.writes ⊆ (hostOps1_10_W.map (Proc.devRef (τ := τ) .tc)).toFinset :=
  writes_sub_of_mem (y := main_c_9) rfl (by decide)
theorem hostOps1_10_fresh : (hostOps1_10 : List (HloOp τ sig (Elt F))).Forall fun op => op.fresh = ∅ :=
  rfl

/-- The references the operations of `hostOps1_11` write: each operation's one result buffer, in order. -/
abbrev hostOps1_11_W : List (Ref sig .tc) := [main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v46]
theorem hostOps1_11_writes : (hostOps1_11 : List (HloOp τ sig (Elt F))).Forall fun op => op.writes ⊆ (hostOps1_11_W.map (Proc.devRef (τ := τ) .tc)).toFinset :=
  ⟨writes_sub_of_mem (y := main_call6_v0) rfl (by decide),
   writes_sub_of_mem (y := main_call6_c) rfl (by decide),
   writes_sub_of_mem (y := main_call6_v1) rfl (by decide),
   writes_sub_of_mem (y := main_call6_c_0) rfl (by decide),
   writes_sub_of_mem (y := main_call6_v2) rfl (by decide),
   writes_sub_of_mem (y := main_call6_v3) rfl (by decide),
   writes_sub_of_mem (y := main_call6_v4) rfl (by decide),
   writes_sub_of_mem (y := main_call6_c_1) rfl (by decide),
   writes_sub_of_mem (y := main_call6_v5) rfl (by decide),
   writes_sub_of_mem (y := main_call6_v6) rfl (by decide),
   writes_sub_of_mem (y := main_call6_c_2) rfl (by decide),
   writes_sub_of_mem (y := main_call6_v7) rfl (by decide),
   writes_sub_of_mem (y := main_call6_v8) rfl (by decide),
   writes_sub_of_mem (y := main_call6_c_3) rfl (by decide),
   writes_sub_of_mem (y := main_call6_v9) rfl (by decide),
   writes_sub_of_mem (y := main_call6_v10) rfl (by decide),
   writes_sub_of_mem (y := main_call6_v11) rfl (by decide),
   writes_sub_of_mem (y := main_call6_v12) rfl (by decide),
   writes_sub_of_mem (y := main_call6_v13) rfl (by decide),
   writes_sub_of_mem (y := main_call6_v14) rfl (by decide),
   writes_sub_of_mem (y := main_v46) rfl (by decide)⟩
theorem hostOps1_11_fresh : (hostOps1_11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The references the operations of `hostOps1_12` write: each operation's one result buffer, in order. -/
abbrev hostOps1_12_W : List (Ref sig .tc) := [main_c_10]
theorem hostOps1_12_writes : (hostOps1_12 : List (HloOp τ sig (Elt F))).Forall fun op => op.writes ⊆ (hostOps1_12_W.map (Proc.devRef (τ := τ) .tc)).toFinset :=
  writes_sub_of_mem (y := main_c_10) rfl (by decide)
theorem hostOps1_12_fresh : (hostOps1_12 : List (HloOp τ sig (Elt F))).Forall fun op => op.fresh = ∅ :=
  rfl

/-- The references the operations of `hostOps1_13` write: each operation's one result buffer, in order. -/
abbrev hostOps1_13_W : List (Ref sig .tc) := [main_call7_v0, main_call7_v1, main_call7_v2, main_call7_v3, main_call7_v4, main_call7_v5, main_call7_v6, main_call7_v7, main_call7_c, main_call7_v8, main_call7_v9, main_call7_v10, main_call7_c_0, main_call7_v11, main_call7_v12, main_v47]
theorem hostOps1_13_writes : (hostOps1_13 : List (HloOp τ sig (Elt F))).Forall fun op => op.writes ⊆ (hostOps1_13_W.map (Proc.devRef (τ := τ) .tc)).toFinset :=
  ⟨writes_sub_of_mem (y := main_call7_v0) rfl (by decide),
   writes_sub_of_mem (y := main_call7_v1) rfl (by decide),
   writes_sub_of_mem (y := main_call7_v2) rfl (by decide),
   writes_sub_of_mem (y := main_call7_v3) rfl (by decide),
   writes_sub_of_mem (y := main_call7_v4) rfl (by decide),
   writes_sub_of_mem (y := main_call7_v5) rfl (by decide),
   writes_sub_of_mem (y := main_call7_v6) rfl (by decide),
   writes_sub_of_mem (y := main_call7_v7) rfl (by decide),
   writes_sub_of_mem (y := main_call7_c) rfl (by decide),
   writes_sub_of_mem (y := main_call7_v8) rfl (by decide),
   writes_sub_of_mem (y := main_call7_v9) rfl (by decide),
   writes_sub_of_mem (y := main_call7_v10) rfl (by decide),
   writes_sub_of_mem (y := main_call7_c_0) rfl (by decide),
   writes_sub_of_mem (y := main_call7_v11) rfl (by decide),
   writes_sub_of_mem (y := main_call7_v12) rfl (by decide),
   writes_sub_of_mem (y := main_v47) rfl (by decide)⟩
theorem hostOps1_13_fresh : (hostOps1_13 : List (HloOp τ sig (Elt F))).Forall fun op => op.fresh = ∅ :=
  ⟨rfl, rfl, rfl, rfl, rfl, rfl, rfl, rfl, rfl, rfl, rfl, rfl, rfl, rfl, rfl, rfl⟩

/-- The references the operations of `hostOps1_14` write: each operation's one result buffer, in order. -/
abbrev hostOps1_14_W : List (Ref sig .tc) := [main_c_11]
theorem hostOps1_14_writes : (hostOps1_14 : List (HloOp τ sig (Elt F))).Forall fun op => op.writes ⊆ (hostOps1_14_W.map (Proc.devRef (τ := τ) .tc)).toFinset :=
  writes_sub_of_mem (y := main_c_11) rfl (by decide)
theorem hostOps1_14_fresh : (hostOps1_14 : List (HloOp τ sig (Elt F))).Forall fun op => op.fresh = ∅ :=
  rfl

/-- The references the operations of `hostOps1_15` write: each operation's one result buffer, in order. -/
abbrev hostOps1_15_W : List (Ref sig .tc) := [main_call8_v0, main_call8_c, main_call8_v1, main_call8_c_0, main_call8_v2, main_call8_v3, main_call8_v4, main_call8_c_1, main_call8_v5, main_call8_v6, main_call8_c_2, main_call8_v7, main_call8_v8, main_call8_c_3, main_call8_v9, main_call8_v10, main_call8_v11, main_call8_v12, main_call8_v13, main_call8_v14, main_v48]
theorem hostOps1_15_writes : (hostOps1_15 : List (HloOp τ sig (Elt F))).Forall fun op => op.writes ⊆ (hostOps1_15_W.map (Proc.devRef (τ := τ) .tc)).toFinset :=
  ⟨writes_sub_of_mem (y := main_call8_v0) rfl (by decide),
   writes_sub_of_mem (y := main_call8_c) rfl (by decide),
   writes_sub_of_mem (y := main_call8_v1) rfl (by decide),
   writes_sub_of_mem (y := main_call8_c_0) rfl (by decide),
   writes_sub_of_mem (y := main_call8_v2) rfl (by decide),
   writes_sub_of_mem (y := main_call8_v3) rfl (by decide),
   writes_sub_of_mem (y := main_call8_v4) rfl (by decide),
   writes_sub_of_mem (y := main_call8_c_1) rfl (by decide),
   writes_sub_of_mem (y := main_call8_v5) rfl (by decide),
   writes_sub_of_mem (y := main_call8_v6) rfl (by decide),
   writes_sub_of_mem (y := main_call8_c_2) rfl (by decide),
   writes_sub_of_mem (y := main_call8_v7) rfl (by decide),
   writes_sub_of_mem (y := main_call8_v8) rfl (by decide),
   writes_sub_of_mem (y := main_call8_c_3) rfl (by decide),
   writes_sub_of_mem (y := main_call8_v9) rfl (by decide),
   writes_sub_of_mem (y := main_call8_v10) rfl (by decide),
   writes_sub_of_mem (y := main_call8_v11) rfl (by decide),
   writes_sub_of_mem (y := main_call8_v12) rfl (by decide),
   writes_sub_of_mem (y := main_call8_v13) rfl (by decide),
   writes_sub_of_mem (y := main_call8_v14) rfl (by decide),
   writes_sub_of_mem (y := main_v48) rfl (by decide)⟩
theorem hostOps1_15_fresh : (hostOps1_15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The references the operations of `hostOps1_16` write: each operation's one result buffer, in order. -/
abbrev hostOps1_16_W : List (Ref sig .tc) := [main_v49, main_v50, main_v51, main_c_12, main_v52, main_v53, main_c_13, main_v54, main_v55, main_v56, main_c_14, main_v57, main_v58, main_c_15, main_v59, main_v60, main_v61, main_v62, main_v63, main_v64, main_v65, main_v66, main_v67, main_v68, main_v69, main_v70, main_v71, main_v72, main_v73]
theorem hostOps1_16_writes : (hostOps1_16 : List (HloOp τ sig (Elt F))).Forall fun op => op.writes ⊆ (hostOps1_16_W.map (Proc.devRef (τ := τ) .tc)).toFinset :=
  ⟨writes_sub_of_mem (y := main_v49) rfl (by decide),
   writes_sub_of_mem (y := main_v50) rfl (by decide),
   writes_sub_of_mem (y := main_v51) rfl (by decide),
   writes_sub_of_mem (y := main_c_12) rfl (by decide),
   writes_sub_of_mem (y := main_v52) rfl (by decide),
   writes_sub_of_mem (y := main_v53) rfl (by decide),
   writes_sub_of_mem (y := main_c_13) rfl (by decide),
   writes_sub_of_mem (y := main_v54) rfl (by decide),
   writes_sub_of_mem (y := main_v55) rfl (by decide),
   writes_sub_of_mem (y := main_v56) rfl (by decide),
   writes_sub_of_mem (y := main_c_14) rfl (by decide),
   writes_sub_of_mem (y := main_v57) rfl (by decide),
   writes_sub_of_mem (y := main_v58) rfl (by decide),
   writes_sub_of_mem (y := main_c_15) rfl (by decide),
   writes_sub_of_mem (y := main_v59) rfl (by decide),
   writes_sub_of_mem (y := main_v60) rfl (by decide),
   writes_sub_of_mem (y := main_v61) rfl (by decide),
   writes_sub_of_mem (y := main_v62) rfl (by decide),
   writes_sub_of_mem (y := main_v63) rfl (by decide),
   writes_sub_of_mem (y := main_v64) rfl (by decide),
   writes_sub_of_mem (y := main_v65) rfl (by decide),
   writes_sub_of_mem (y := main_v66) rfl (by decide),
   writes_sub_of_mem (y := main_v67) rfl (by decide),
   writes_sub_of_mem (y := main_v68) rfl (by decide),
   writes_sub_of_mem (y := main_v69) rfl (by decide),
   writes_sub_of_mem (y := main_v70) rfl (by decide),
   writes_sub_of_mem (y := main_v71) rfl (by decide),
   writes_sub_of_mem (y := main_v72) rfl (by decide),
   writes_sub_of_mem (y := main_v73) rfl (by decide)⟩
theorem hostOps1_16_fresh : (hostOps1_16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the operations of `hostOps1_17` write: each operation's one result buffer, in order. -/
abbrev hostOps1_17_W : List (Ref sig .tc) := [main_call9_v0, main_call9_v1, main_call9_cst, main_call9_v2, main_call9_v3, main_call9_cst_0, main_call9_v4, main_call9_v5, main_v74]
theorem hostOps1_17_writes : (hostOps1_17 : List (HloOp τ sig (Elt F))).Forall fun op => op.writes ⊆ (hostOps1_17_W.map (Proc.devRef (τ := τ) .tc)).toFinset :=
  ⟨writes_sub_of_mem (y := main_call9_v0) rfl (by decide),
   writes_sub_of_mem (y := main_call9_v1) rfl (by decide),
   writes_sub_of_mem (y := main_call9_cst) rfl (by decide),
   writes_sub_of_mem (y := main_call9_v2) rfl (by decide),
   writes_sub_of_mem (y := main_call9_v3) rfl (by decide),
   writes_sub_of_mem (y := main_call9_cst_0) rfl (by decide),
   writes_sub_of_mem (y := main_call9_v4) rfl (by decide),
   writes_sub_of_mem (y := main_call9_v5) rfl (by decide),
   writes_sub_of_mem (y := main_v74) rfl (by decide)⟩
theorem hostOps1_17_fresh : (hostOps1_17 : List (HloOp τ sig (Elt F))).Forall fun op => op.fresh = ∅ :=
  ⟨rfl, rfl, rfl, rfl, rfl, rfl, rfl, rfl, rfl⟩

/-- The references the operations of `hostOps1_18` write: each operation's one result buffer, in order. -/
abbrev hostOps1_18_W : List (Ref sig .tc) := [main_v75, main_v76, main_v77, main_v78]
theorem hostOps1_18_writes : (hostOps1_18 : List (HloOp τ sig (Elt F))).Forall fun op => op.writes ⊆ (hostOps1_18_W.map (Proc.devRef (τ := τ) .tc)).toFinset :=
  ⟨writes_sub_of_mem (y := main_v75) rfl (by decide),
   writes_sub_of_mem (y := main_v76) rfl (by decide),
   writes_sub_of_mem (y := main_v77) rfl (by decide),
   writes_sub_of_mem (y := main_v78) rfl (by decide)⟩
theorem hostOps1_18_fresh : (hostOps1_18 : List (HloOp τ sig (Elt F))).Forall fun op => op.fresh = ∅ :=
  ⟨rfl, rfl, rfl, rfl⟩

/-! ## The stretches before the region and after it -/

/-- The host stretches @main runs before the region, in order. -/
abbrev preOps : List (List (HloOp τ sig (Elt F))) := [hostOps0, hostOps0_1, hostOps0_2]
/-- The host stretches @main runs after the region, in order. -/
abbrev tailOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18]
/-- What they write, stretch by stretch. -/
abbrev preWs : List (List (Ref sig .tc)) := [hostOps0_W, hostOps0_1_W, hostOps0_2_W]
abbrev tailWs : List (List (Ref sig .tc)) := [hostOps1_W, hostOps1_1_W, hostOps1_2_W, hostOps1_3_W, hostOps1_4_W, hostOps1_5_W, hostOps1_6_W, hostOps1_7_W, hostOps1_8_W, hostOps1_9_W, hostOps1_10_W, hostOps1_11_W, hostOps1_12_W, hostOps1_13_W, hostOps1_14_W, hostOps1_15_W, hostOps1_16_W, hostOps1_17_W, hostOps1_18_W]

theorem pre_writes : WritesWithin (preOps (F := F)) preWs :=
  .cons hostOps0_writes (.cons hostOps0_1_writes (.cons hostOps0_2_writes (.nil)))
theorem tail_writes : WritesWithin (tailOps (F := F)) tailWs :=
  .cons hostOps1_writes (.cons hostOps1_1_writes (.cons hostOps1_2_writes (.cons hostOps1_3_writes (.cons hostOps1_4_writes (.cons hostOps1_5_writes (.cons hostOps1_6_writes (.cons hostOps1_7_writes (.cons hostOps1_8_writes (.cons hostOps1_9_writes (.cons hostOps1_10_writes (.cons hostOps1_11_writes (.cons hostOps1_12_writes (.cons hostOps1_13_writes (.cons hostOps1_14_writes (.cons hostOps1_15_writes (.cons hostOps1_16_writes (.cons hostOps1_17_writes (.cons hostOps1_18_writes (.nil)))))))))))))))))))

/-- Every operation before the region touches TensorCore references only, -/
theorem pre_sub : (preOps (F := F)).Forall fun ops => ops.Forall fun op => op.bufs ⊆ StableHlo.tcRefs τ sig :=
  ⟨hostOps0_sub, hostOps0_1_sub, hostOps0_2_sub⟩
/-- and allocates nothing. -/
theorem pre_fresh : (preOps (F := F)).Forall fun ops => ops.Forall fun op => op.fresh = ∅ :=
  ⟨hostOps0_fresh, hostOps0_1_fresh, hostOps0_2_fresh⟩
/-- The same of every operation after the region. -/
theorem tail_sub : (tailOps (F := F)).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub⟩
theorem tail_fresh : (tailOps (F := F)).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh, hostOps1_17_fresh, hostOps1_18_fresh⟩

/-- A reference no stretch before the region lists is written by none of their operations; -/
theorem pre_not_written {r : Ref sig .tc} (hr : r ∉ preWs.flatten) :
    ∀ ops ∈ (preOps : List (List (HloOp τ sig (Elt F)))), ∀ op ∈ ops, Proc.devRef (τ := τ) .tc r ∉ op.writes :=
  not_written_of_not_mem pre_writes hr
/-- likewise after the region. -/
theorem tail_not_written {r : Ref sig .tc} (hr : r ∉ tailWs.flatten) :
    ∀ ops ∈ (tailOps : List (List (HloOp τ sig (Elt F)))), ∀ op ∈ ops, Proc.devRef (τ := τ) .tc r ∉ op.writes :=
  not_written_of_not_mem tail_writes hr

end Cert.KernelIdeal.Hand

end
-- ==== Proof.KernelIdealFrame.Body.lean ====
import proofs.«122468_j35184372089134_1_alg».proof.Proof.Gen.KernelIdeal.Launch
import proofs.«122468_j35184372089134_1_alg».proof.Proof.Gen.KernelIdeal.Skeleton
import proofs.«122468_j35184372089134_1_alg».proof.Proof.Gen.KernelIdeal.Points
import Idealize.ShloMosaic.Lib.Pipeline.FrameBody
import Idealize.ShloMosaic.Lib.Ring
import Idealize.ShloMosaic.Lib.Tactic

-- membership in a rectangle of these extents is checked by a structural recursion once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-! # The kernel body on its five staging buffers

The body reads each of its four input blocks whole, computes one value from them (`k0_pay1`: the pairwise sum of the
two row blocks, broadcast against each other, through x·σ(x), rounded to bf16, times the rounded weight block, plus the
bias row), and stores that value over the whole output block. -/

/-- The whole-block rectangles the body reads and writes through. -/
abbrev rRows : Rect S32x256 := Rect.unit (s := S32x256) ![0, 0] S32x256.size inb_S32x256_S32x256_0_0
abbrev rCols : Rect S128x256 := Rect.unit (s := S128x256) ![0, 0] S128x256.size inb_S128x256_S128x256_0_0
abbrev rWeight : Rect S256x5 := Rect.unit (s := S256x5) ![0, 0] S256x5.size inb_S256x5_S256x5_0_0
abbrev rBias : Rect S1x5 := Rect.unit (s := S1x5) ![0, 0] S1x5.size inb_S1x5_S1x5_0_0
abbrev rOut : Rect S32x128x5 := Rect.unit (s := S32x128x5) ![0, 0, 0] S32x128x5.size inb_S32x128x5_S32x128x5_0_0_0

/-- What the body leaves in the output block's buffer, from the four input blocks: its one store, over the whole
    block, of the value computed from the four whole-block loads. -/
def bondBlock (x0 : Vec F S32x256 .f32) (x1 : Vec F S128x256 .f32) (x2 : Vec F S256x5 .f32) (x3 : Vec F S1x5 .f32) :
    Vec F S32x128x5 .f32 :=
  View.canon [⟨rOut, k0_pay1 (View.ld x0 rRows) (View.ld x1 rCols) (View.ld x2 rWeight) (View.ld x3 rBias)⟩]

/-- The one store is of the whole block, so it covers it. -/
theorem cover_out (p0 : Vec F S32x128x5 .f32) (y : S32x128x5.Idx) :
    ∃ pc ∈ ([⟨rOut, p0⟩] : List (View.Piece (Elt F) S32x128x5 .f32)), y ∈ pc.1.set :=
  View.cover_of_tiled [⟨rOut, p0⟩] S32x128x5.size (by rfl) y

set_option maxHeartbeats 1000000 in
/-- The kernel body on whole staging memrefs, the inputs' at read contents `x0 … x3` and the output's at anything, runs
    to the continuation holding the inputs' as they were and the output's at `bondBlock` of the inputs': the printed
    function is its skeleton of memory operations, which the executor runs one by one; the value stored is never unfolded. -/
theorem sound_kernel (c : Dev nD) (E : Set ℕ) (i : grid0.Coords)
    (arg2 : Memref sig .tc .vmem S32x256 .f32) (harg2 : arg2.IsWhole) (arg3 : Memref sig .tc .vmem S128x256 .f32) (harg3 : arg3.IsWhole)
    (arg4 : Memref sig .tc .vmem S256x5 .f32) (harg4 : arg4.IsWhole) (arg5 : Memref sig .tc .vmem S1x5 .f32) (harg5 : arg5.IsWhole)
    (arg6 : Memref sig .tc .vmem S32x128x5 .f32) (harg6 : arg6.IsWhole)
    (x0 : Vec F S32x256 .f32) (x1 : Vec F S128x256 .f32) (x2 : Vec F S256x5 .f32) (x3 : Vec F S1x5 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (bondBlock x0 x1 x2 x3)) -∗ K ⟨⟩))
      ⊢ wp frame (wpE (defs₀ (F := F)) Variants.none c none) E
          (cc0_bond_pair_kernel i arg2 harg2 arg3 harg3 arg4 harg4 arg5 harg5 arg6 harg6) K := by
  simp only [cc0_bond_pair_kernel_eq_skeleton]; unfold cc0_bond_pair_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

end Cert.KernelIdeal.Hand

end
-- ==== Proof.KernelIdealFrame.lean ====
import proofs.«122468_j35184372089134_1_alg».proof.Proof.Gen.KernelIdeal.Launch
import proofs.«122468_j35184372089134_1_alg».proof.Proof.Gen.KernelIdeal.Skeleton
import proofs.«122468_j35184372089134_1_alg».proof.Proof.Gen.KernelIdeal.Points
import proofs.«122468_j35184372089134_1_alg».proof.Proof.KernelIdealFrame.Writes
import proofs.«122468_j35184372089134_1_alg».proof.Proof.KernelIdealFrame.Body
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The frame of the program: @main around its one region

@main runs three stretches of host operations, the region (one pipelined kernel over a 32 × 8 grid), and nineteen more
stretches. The host operations write their own result buffers only, so every argument array ends as launched; the
region's arrays end at what the pipeline's proof data says, the body at each point storing `bondBlock` of the four
input blocks over the output block. -/

/-! ## @main around the region -/

/-- Core `c`'s buffer contents when the region is entered, as a valuation: after the host stretches before it. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

/-- @main is the host stretches before the region, the region, and the host stretches after it: it reduces to the
    region continued by the later stretches, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main preOps tailOps pre_sub pre_fresh main_chain

/-- The stretches after the region touch the pipeline's arrays and the buffers that bypass it only: each operation's
    buffers are unscoped TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp tail_sub) ops hops)) op hop)
/-- They allocate nothing. -/
theorem sfx_fresh : ∀ ops ∈ (tailOps : List (List (HloOp τ sig (Elt F)))), ∀ op ∈ ops, op.fresh = ∅ :=
  fun ops hops op hop => (List.forall_iff_forall_mem.mp ((List.forall_iff_forall_mem.mp tail_fresh) ops hops)) op hop
/-- And they write no array of the pipeline: none of the five arrays is a result buffer of theirs. -/
theorem sfx_keeps : ∀ ops ∈ (tailOps : List (List (HloOp τ sig (Elt F)))), ∀ op ∈ ops,
    ∀ w, Proc.devRef .tc (Pipeline.arrRef spec0 w) ∉ op.writes :=
  fun ops hops op hop w => tail_not_written ((by decide : ∀ w, Pipeline.arrRef spec0 w ∉ tailWs.flatten) w) ops hops op hop

/-! ## No host operation writes an argument -/

/-- A buffer no stretch before the region writes is found by the region as launched. -/
theorem V_of_not_written (c : Dev nD) {r : Ref sig .tc} (hr : r ∉ preWs.flatten) :
    V m c r = m ((c : Thread nD τ).loc r) :=
  after_flatten_of_not_mem pre_writes hr _

/-- A buffer that is no array of the pipeline and that no stretch writes, before the region or after it, ends as launched. -/
theorem W_of_not_written (dats : (p : Fin 1) → (c : Dev nD) → Dat τ (Elt F) Unit ℕ (UR sig nD τ) ℕ (cfgs p) c) (c : Dev nD)
    {r : Ref sig .tc} (hpre : r ∉ preWs.flatten) (htail : r ∉ tailWs.flatten) (harr : ∀ w, Pipeline.arrRef spec0 w ≠ r) :
    Pipeline.afterTail₀ cfgs dats 0 (V0 m) tailOps c r = m ((c : Thread nD τ).loc r) := by
  unfold Pipeline.afterTail₀
  rw [after_flatten_of_not_mem tail_writes htail, Pipeline.withArrays_of_ne _ c (V0 m c) _ r harr]
  exact V_of_not_written m c hpre

theorem V_main_arg0 (c : Dev nD) : V m c main_arg0 = m ((c : Thread nD τ).loc main_arg0) := V_of_not_written m c (by decide)
theorem V_main_arg1 (c : Dev nD) : V m c main_arg1 = m ((c : Thread nD τ).loc main_arg1) := V_of_not_written m c (by decide)
theorem V_main_arg2 (c : Dev nD) : V m c main_arg2 = m ((c : Thread nD τ).loc main_arg2) := V_of_not_written m c (by decide)
theorem V_main_arg3 (c : Dev nD) : V m c main_arg3 = m ((c : Thread nD τ).loc main_arg3) := V_of_not_written m c (by decide)
theorem V_main_arg4 (c : Dev nD) : V m c main_arg4 = m ((c : Thread nD τ).loc main_arg4) := V_of_not_written m c (by decide)
theorem V_main_arg5 (c : Dev nD) : V m c main_arg5 = m ((c : Thread nD τ).loc main_arg5) := V_of_not_written m c (by decide)
theorem V_main_arg6 (c : Dev nD) : V m c main_arg6 = m ((c : Thread nD τ).loc main_arg6) := V_of_not_written m c (by decide)
theorem V_main_arg7 (c : Dev nD) : V m c main_arg7 = m ((c : Thread nD τ).loc main_arg7) := V_of_not_written m c (by decide)
theorem V_main_arg8 (c : Dev nD) : V m c main_arg8 = m ((c : Thread nD τ).loc main_arg8) := V_of_not_written m c (by decide)
theorem V_main_arg9 (c : Dev nD) : V m c main_arg9 = m ((c : Thread nD τ).loc main_arg9) := V_of_not_written m c (by decide)
theorem V_main_arg10 (c : Dev nD) : V m c main_arg10 = m ((c : Thread nD τ).loc main_arg10) := V_of_not_written m c (by decide)
theorem V_main_arg11 (c : Dev nD) : V m c main_arg11 = m ((c : Thread nD τ).loc main_arg11) := V_of_not_written m c (by decide)
theorem V_main_arg12 (c : Dev nD) : V m c main_arg12 = m ((c : Thread nD τ).loc main_arg12) := V_of_not_written m c (by decide)
theorem V_main_arg13 (c : Dev nD) : V m c main_arg13 = m ((c : Thread nD τ).loc main_arg13) := V_of_not_written m c (by decide)
theorem V_main_arg14 (c : Dev nD) : V m c main_arg14 = m ((c : Thread nD τ).loc main_arg14) := V_of_not_written m c (by decide)

theorem W_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) :=
  W_of_not_written m dats c (by decide) (by decide) (by decide)
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  W_of_not_written m dats c (by decide) (by decide) (by decide)
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  W_of_not_written m dats c (by decide) (by decide) (by decide)
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) :=
  W_of_not_written m dats c (by decide) (by decide) (by decide)
theorem W_main_arg4 (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) :=
  W_of_not_written m dats c (by decide) (by decide) (by decide)
theorem W_main_arg5 (dats : (p : Fin 1) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) :=
  W_of_not_written m dats c (by decide) (by decide) (by decide)
theorem W_main_arg6 (dats : (p : Fin 1) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) :=
  W_of_not_written m dats c (by decide) (by decide) (by decide)
theorem W_main_arg7 (dats : (p : Fin 1) → (c : Dev nD) → Dat τ (Elt F) Unit ℕ (UR sig nD τ) ℕ (cfgs p) c) (c : Dev nD) :
    Pipeline.afterTail₀ cfgs dats 0 (V0 m) tailOps c main_arg7 = m ((c : Thread nD τ).loc main_arg7) :=
  W_of_not_written m dats c (by decide) (by decide) (by decide)
theorem W_main_arg8 (dats : (p : Fin 1) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) :=
  W_of_not_written m dats c (by decide) (by decide) (by decide)
theorem W_main_arg10 (dats : (p : Fin 1) → (c : Dev nD) → Dat τ (Elt F) Unit ℕ (UR sig nD τ) ℕ (cfgs p) c) (c : Dev nD) :
    Pipeline.afterTail₀ cfgs dats 0 (V0 m) tailOps c main_arg10 = m ((c : Thread nD τ).loc main_arg10) :=
  W_of_not_written m dats c (by decide) (by decide) (by decide)
theorem W_main_arg11 (dats : (p : Fin 1) → (c : Dev nD) → Dat τ (Elt F) Unit ℕ (UR sig nD τ) ℕ (cfgs p) c) (c : Dev nD) :
    Pipeline.afterTail₀ cfgs dats 0 (V0 m) tailOps c main_arg11 = m ((c : Thread nD τ).loc main_arg11) :=
  W_of_not_written m dats c (by decide) (by decide) (by decide)
theorem W_main_arg12 (dats : (p : Fin 1) → (c : Dev nD) → Dat τ (Elt F) Unit ℕ (UR sig nD τ) ℕ (cfgs p) c) (c : Dev nD) :
    Pipeline.afterTail₀ cfgs dats 0 (V0 m) tailOps c main_arg12 = m ((c : Thread nD τ).loc main_arg12) :=
  W_of_not_written m dats c (by decide) (by decide) (by decide)
theorem W_main_arg13 (dats : (p : Fin 1) → (c : Dev nD) → Dat τ (Elt F) Unit ℕ (UR sig nD τ) ℕ (cfgs p) c) (c : Dev nD) :
    Pipeline.afterTail₀ cfgs dats 0 (V0 m) tailOps c main_arg13 = m ((c : Thread nD τ).loc main_arg13) :=
  W_of_not_written m dats c (by decide) (by decide) (by decide)
theorem W_main_arg14 (dats : (p : Fin 1) → (c : Dev nD) → Dat τ (Elt F) Unit ℕ (UR sig nD τ) ℕ (cfgs p) c) (c : Dev nD) :
    Pipeline.afterTail₀ cfgs dats 0 (V0 m) tailOps c main_arg14 = m ((c : Thread nD τ).loc main_arg14) :=
  W_of_not_written m dats c (by decide) (by decide) (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, its block
    index has not moved), for any proof data whose array is `V`'s and whose body leaves the block in place; the window
    is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, its block
    index has not moved), for any proof data whose array is `V`'s and whose body leaves the block in place; the window
    is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, its block
    index has not moved), for any proof data whose array is `V`'s and whose body leaves the block in place; the window
    is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, its block
    index has not moved), for any proof data whose array is `V`'s and whose body leaves the block in place; the window
    is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post, read at the
    fifteen argument arrays, is the frame claim's post: `main_arg9` is an input array of the pipeline, which ends at
    its entry contents; every other argument bypasses the region and no stretch writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).1 2).trans (((dats 0 c).arrAt_in 2 rfl _).trans ((hA c 2).trans (V_main_arg9 m c))),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c)⟩) h

/-! ## The pipeline's proof data -/

/-- The proof data of the one pipeline on core `c`: the arrays as the region finds them (`V`); after the body at
    point `t` each input's buffer at its block and the output's at `bondBlock` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => bondBlock (iblk m c 0 t) (iblk m c 1 t) (iblk m c 2 t) (iblk m c 3 t)
  Φ _ := Pipeline.ΦA spec0 c
  q _ := fullShare
  owed _ := 0

/-- The proof data's arrays are the region-entry contents (projected, never unfolding `V`). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = bondBlock (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the stretches after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME, at any `F`: @main terminates from any memory with zero counters and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Hand

end
-- ==== Proof.KernelIdealPost.lean ====
import proofs.«122468_j35184372089134_1_alg».proof.Proof.KernelIdealFrame

noncomputable section

namespace Cert.KernelIdeal.Hand

open Idealize.ShloMosaic Idealize.ShloMosaic.TcCoe
open Idealize.SL Idealize.SL.Sem
open Idealize.ShloMosaic.Pipeline (Dat Cfg Window)
open Cert.KernelIdeal.Gen

variable {F : FTy → Type} [FloatOps F]

variable (m : (ℓ : Loc nD τ sig) → Buf (Elt F) ℓ)

/-! # The frame post read at one final state

The frame run's post speaks of every core of a final state: each array of the pipeline at what the proof data says,
every other unscoped buffer as the stretches after the region leave it. Read at one state and one core it gives the
fifteen argument arrays as launched, and each bypassing buffer at its contents after the tail. -/

/-- At a final state satisfying the frame post, on any core, the fifteen argument arrays are as launched:
    `main_arg9` is an input array of the pipeline, which ends at its entry contents; every other argument bypasses
    the region and no stretch writes it. -/
theorem args_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F))
    (h : Pipeline.FramePost cfgs dats 0 (Pipeline.afterTail₀ cfgs dats 0 (V0 m) tailOps) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14) :=
  ⟨((h c).2 main_arg0 (Pipeline.mem_restRefs_of main_arg0 (by decide) (by decide))).trans (W_main_arg0 m dats c),
   ((h c).2 main_arg1 (Pipeline.mem_restRefs_of main_arg1 (by decide) (by decide))).trans (W_main_arg1 m dats c),
   ((h c).2 main_arg2 (Pipeline.mem_restRefs_of main_arg2 (by decide) (by decide))).trans (W_main_arg2 m dats c),
   ((h c).2 main_arg3 (Pipeline.mem_restRefs_of main_arg3 (by decide) (by decide))).trans (W_main_arg3 m dats c),
   ((h c).2 main_arg4 (Pipeline.mem_restRefs_of main_arg4 (by decide) (by decide))).trans (W_main_arg4 m dats c),
   ((h c).2 main_arg5 (Pipeline.mem_restRefs_of main_arg5 (by decide) (by decide))).trans (W_main_arg5 m dats c),
   ((h c).2 main_arg6 (Pipeline.mem_restRefs_of main_arg6 (by decide) (by decide))).trans (W_main_arg6 m dats c),
   ((h c).2 main_arg7 (Pipeline.mem_restRefs_of main_arg7 (by decide) (by decide))).trans (W_main_arg7 m dats c),
   ((h c).2 main_arg8 (Pipeline.mem_restRefs_of main_arg8 (by decide) (by decide))).trans (W_main_arg8 m dats c),
   ((h c).1 2).trans (((dats 0 c).arrAt_in 2 rfl _).trans ((hA c 2).trans (V_main_arg9 m c))),
   ((h c).2 main_arg10 (Pipeline.mem_restRefs_of main_arg10 (by decide) (by decide))).trans (W_main_arg10 m dats c),
   ((h c).2 main_arg11 (Pipeline.mem_restRefs_of main_arg11 (by decide) (by decide))).trans (W_main_arg11 m dats c),
   ((h c).2 main_arg12 (Pipeline.mem_restRefs_of main_arg12 (by decide) (by decide))).trans (W_main_arg12 m dats c),
   ((h c).2 main_arg13 (Pipeline.mem_restRefs_of main_arg13 (by decide) (by decide))).trans (W_main_arg13 m dats c),
   ((h c).2 main_arg14 (Pipeline.mem_restRefs_of main_arg14 (by decide) (by decide))).trans (W_main_arg14 m dats c)⟩

/-- At such a state, a buffer that bypasses the region holds what the stretches after the region leave in it. -/
theorem rest_of_post (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (V0 m) tailOps) r) (c : Dev nD)
    (b : Ref sig .tc) (hb : b ∈ Pipeline.restRefs sig spec0) :
    r.2.mem ((c.tc : Thread nD τ).loc b) = Pipeline.afterTail₀ cfgs dats 0 (V0 m) tailOps c b :=
  (h c).2 b hb

/-- And an array of the pipeline holds what the library computes from the proof data. -/
theorem arr_of_post (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (V0 m) tailOps) r) (c : Dev nD) (w : Fin cfg0.W) :
    r.2.mem ((spec0 w).arr.view.loc (c.tc : Thread nD τ)) = (dats 0 c).arrAt w cfg0.N :=
  (h c).1 w

end Cert.KernelIdeal.Hand

end
-- ==== Proof.ReferenceRun.Ops.lean ====
/- The reference program's host operations, listed: @main's statements in program order, each call of a
   module-local function replaced by the callee's operations over the call's own buffers and operands (a call
   executes the callee's body on its operands, so the substitution is what the call denotes). One list per stretch
   of the computation, named for what it computes; beside each, that every operation of it touches TensorCore
   references only, that none of them allocates, and the references it writes (one per operation, in order). -/
import proofs.«122468_j35184372089134_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The atom head's hidden pre-activation `h · Wa1 + ba1` (the bias broadcast along rows). (4 operations.) -/
abbrev opsAtomHidden : List (HloOp τ sig (Elt F)) :=
  [ StableHlo.binary main_arg0 main_arg3 main_v0 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    StableHlo.unary main_arg4 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S1024x128 ![0, 1] bcast_S1x128_S1024x128_0_1 : (⟨S1x128, .f32⟩ : BufTy).Contents (Elt F) → (⟨S1024x128, .f32⟩ : BufTy).Contents (Elt F)),
    StableHlo.binary main_v0 main_v2 main_v3 (addf : (⟨S1024x128, .f32⟩ : BufTy).Contents (Elt F) → (⟨S1024x128, .f32⟩ : BufTy).Contents (Elt F) → (⟨S1024x128, .f32⟩ : BufTy).Contents (Elt F)) ]
theorem opsAtomHidden_sub : (opsAtomHidden : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
theorem opsAtomHidden_fresh : (opsAtomHidden : List (HloOp τ sig (Elt F))).Forall fun op => op.fresh = ∅ :=
  ⟨rfl, rfl, rfl, rfl⟩
/-- The references `opsAtomHidden` writes, one per operation, in order. -/
abbrev wAtomHidden : List (Ref sig .tc) :=
  [main_v0, main_v1, main_v2, main_v3]

/-- `silu` of it, `x ↦ x · (1 / (1 + exp (-x)))`, element by element. (9 operations.) -/
abbrev opsAtomSilu : List (HloOp τ sig (Elt F)) :=
  [ StableHlo.TRef.unary (.of main_v3 : StableHlo.TRef sig ⟨S1024x128, .f32⟩) (.of main_call0_v0 : StableHlo.TRef sig ⟨S1024x128, .f32⟩) Host.negf,
    StableHlo.TRef.unary (.of main_call0_v0 : StableHlo.TRef sig ⟨S1024x128, .f32⟩) (.of main_call0_v1 : StableHlo.TRef sig ⟨S1024x128, .f32⟩) Host.exp,
    StableHlo.TRef.nullary (.of main_call0_cst : StableHlo.TRef sig ⟨S_, .f32⟩) (constant S_ .f32 0x3F800000#32),
    StableHlo.TRef.unary (.of main_call0_cst : StableHlo.TRef sig ⟨S_, .f32⟩) (.of main_call0_v2 : StableHlo.TRef sig ⟨S1024x128, .f32⟩) (broadcastInDim S1024x128 ![] bcast_S_S1024x128),
    StableHlo.TRef.binary (.of main_call0_v2 : StableHlo.TRef sig ⟨S1024x128, .f32⟩) (.of main_call0_v1 : StableHlo.TRef sig ⟨S1024x128, .f32⟩) (.of main_call0_v3 : StableHlo.TRef sig ⟨S1024x128, .f32⟩) addf,
    StableHlo.TRef.nullary (.of main_call0_cst_0 : StableHlo.TRef sig ⟨S_, .f32⟩) (constant S_ .f32 0x3F800000#32),
    StableHlo.TRef.unary (.of main_call0_cst_0 : StableHlo.TRef sig ⟨S_, .f32⟩) (.of main_call0_v4 : StableHlo.TRef sig ⟨S1024x128, .f32⟩) (broadcastInDim S1024x128 ![] bcast_S_S1024x128),
    StableHlo.TRef.binary (.of main_call0_v4 : StableHlo.TRef sig ⟨S1024x128, .f32⟩) (.of main_call0_v3 : StableHlo.TRef sig ⟨S1024x128, .f32⟩) (.of main_call0_v5 : StableHlo.TRef sig ⟨S1024x128, .f32⟩) Host.divf,
    StableHlo.TRef.binary (.of main_v3 : StableHlo.TRef sig ⟨S1024x128, .f32⟩) (.of main_call0_v5 : StableHlo.TRef sig ⟨S1024x128, .f32⟩) (.of main_v4 : StableHlo.TRef sig ⟨S1024x128, .f32⟩) mulf ]
theorem opsAtomSilu_sub : (opsAtomSilu : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩
theorem opsAtomSilu_fresh : (opsAtomSilu : List (HloOp τ sig (Elt F))).Forall fun op => op.fresh = ∅ :=
  ⟨rfl, rfl, rfl, rfl, rfl, rfl, rfl, rfl, rfl⟩
/-- The references `opsAtomSilu` writes, one per operation, in order. -/
abbrev wAtomSilu : List (Ref sig .tc) :=
  [main_call0_v0, main_call0_v1, main_call0_cst, main_call0_v2, main_call0_v3, main_call0_cst_0, main_call0_v4, main_call0_v5, main_v4]

/-- The atom logits `silu(…) · Wa2 + ba2`: the first result. (4 operations.) -/
abbrev opsAtomLogits : List (HloOp τ sig (Elt F)) :=
  [ StableHlo.binary main_v4 main_arg5 main_v5 ((fun l r => Host.dotGeneral dot_S1024x128_S128x119_S1024x119_1_0_0_1_n_n none l r) : (⟨S1024x128, .f32⟩ : BufTy).Contents (Elt F) → (⟨S128x119, .f32⟩ : BufTy).Contents (Elt F) → (⟨S1024x119, .f32⟩ : BufTy).Contents (Elt F)),
    StableHlo.unary main_arg6 main_v6 (broadcastInDim S1x119 ![1] bcast_S119_S1x119_1 : (⟨S119, .f32⟩ : BufTy).Contents (Elt F) → (⟨S1x119, .f32⟩ : BufTy).Contents (Elt F)),
    StableHlo.unary main_v6 main_v7 (broadcastInDim S1024x119 ![0, 1] bcast_S1x119_S1024x119_0_1 : (⟨S1x119, .f32⟩ : BufTy).Contents (Elt F) → (⟨S1024x119, .f32⟩ : BufTy).Contents (Elt F)),
    StableHlo.binary main_v5 main_v7 main_v8 (addf : (⟨S1024x119, .f32⟩ : BufTy).Contents (Elt F) → (⟨S1024x119, .f32⟩ : BufTy).Contents (Elt F) → (⟨S1024x119, .f32⟩ : BufTy).Contents (Elt F)) ]
theorem opsAtomLogits_sub : (opsAtomLogits : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
theorem opsAtomLogits_fresh : (opsAtomLogits : List (HloOp τ sig (Elt F))).Forall fun op => op.fresh = ∅ :=
  ⟨rfl, rfl, rfl, rfl⟩
/-- The references `opsAtomLogits` writes, one per operation, in order. -/
abbrev wAtomLogits : List (Ref sig .tc) :=
  [main_v5, main_v6, main_v7, main_v8]

/-- The row softmax of the atom logits: the row maximum (from `-∞`), the shifted exponentials, their row sums, the quotient. (14 operations.) -/
abbrev opsSoftmax : List (HloOp τ sig (Elt F)) :=
  [ StableHlo.nullary main_cst (constant S_ .f32 0xFF800000#32),
    StableHlo.binary main_v8 main_cst main_v9 ((fun x v => Host.reduce FloatOps.maximumf x v reducesTo_S1024x119_S1024_d1 h_S_) : (⟨S1024x119, .f32⟩ : BufTy).Contents (Elt F) → (⟨S_, .f32⟩ : BufTy).Contents (Elt F) → (⟨S1024, .f32⟩ : BufTy).Contents (Elt F)),
    StableHlo.nullary main_cst_0 (constant S_ .f32 0xFF800000#32),
    StableHlo.unary main_cst_0 main_v10 (broadcastInDim S1024 ![] bcast_S_S1024 : (⟨S_, .f32⟩ : BufTy).Contents (Elt F) → (⟨S1024, .f32⟩ : BufTy).Contents (Elt F)),
    StableHlo.binary main_v10 main_v9 main_v11 (maximumf : (⟨S1024, .f32⟩ : BufTy).Contents (Elt F) → (⟨S1024, .f32⟩ : BufTy).Contents (Elt F) → (⟨S1024, .f32⟩ : BufTy).Contents (Elt F)),
    StableHlo.unary main_v11 main_v12 (broadcastInDim S1024x1 ![0] bcast_S1024_S1024x1_0 : (⟨S1024, .f32⟩ : BufTy).Contents (Elt F) → (⟨S1024x1, .f32⟩ : BufTy).Contents (Elt F)),
    StableHlo.unary main_v12 main_v13 (broadcastInDim S1024x119 ![0, 1] bcast_S1024x1_S1024x119_0_1 : (⟨S1024x1, .f32⟩ : BufTy).Contents (Elt F) → (⟨S1024x119, .f32⟩ : BufTy).Contents (Elt F)),
    StableHlo.binary main_v8 main_v13 main_v14 (subf : (⟨S1024x119, .f32⟩ : BufTy).Contents (Elt F) → (⟨S1024x119, .f32⟩ : BufTy).Contents (Elt F) → (⟨S1024x119, .f32⟩ : BufTy).Contents (Elt F)),
    StableHlo.unary main_v14 main_v15 (Host.exp : (⟨S1024x119, .f32⟩ : BufTy).Contents (Elt F) → (⟨S1024x119, .f32⟩ : BufTy).Contents (Elt F)),
    StableHlo.nullary main_cst_1 (constant S_ .f32 0x00000000#32),
    StableHlo.binary main_v15 main_cst_1 main_v16 ((fun x v => Host.reduceAdd x v reducesTo_S1024x119_S1024_d1 h_S_) : (⟨S1024x119, .f32⟩ : BufTy).Contents (Elt F) → (⟨S_, .f32⟩ : BufTy).Contents (Elt F) → (⟨S1024, .f32⟩ : BufTy).Contents (Elt F)),
    StableHlo.unary main_v16 main_v17 (broadcastInDim S1024x1 ![0] bcast_S1024_S1024x1_0 : (⟨S1024, .f32⟩ : BufTy).Contents (Elt F) → (⟨S1024x1, .f32⟩ : BufTy).Contents (Elt F)),
    StableHlo.unary main_v17 main_v18 (broadcastInDim S1024x119 ![0, 1] bcast_S1024x1_S1024x119_0_1 : (⟨S1024x1, .f32⟩ : BufTy).Contents (Elt F) → (⟨S1024x119, .f32⟩ : BufTy).Contents (Elt F)),
    StableHlo.binary main_v15 main_v18 main_v19 (Host.divf : (⟨S1024x119, .f32⟩ : BufTy).Contents (Elt F) → (⟨S1024x119, .f32⟩ : BufTy).Contents (Elt F) → (⟨S1024x119, .f32⟩ : BufTy).Contents (Elt F)) ]
theorem opsSoftmax_sub : (opsSoftmax : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩
theorem opsSoftmax_fresh : (opsSoftmax : List (HloOp τ sig (Elt F))).Forall fun op => op.fresh = ∅ :=
  ⟨rfl, rfl, rfl, rfl, rfl, rfl, rfl, rfl, rfl, rfl, rfl, rfl, rfl, rfl⟩
/-- The references `opsSoftmax` writes, one per operation, in order. -/
abbrev wSoftmax : List (Ref sig .tc) :=
  [main_cst, main_v9, main_cst_0, main_v10, main_v11, main_v12, main_v13, main_v14, main_v15, main_cst_1, main_v16, main_v17, main_v18, main_v19]

/-- The all-ones `1024 × 1024` matrix. (2 operations.) -/
abbrev opsOnes : List (HloOp τ sig (Elt F)) :=
  [ StableHlo.nullary main_cst_2 (constant S_ .f32 0x3F800000#32),
    StableHlo.unary main_cst_2 main_v20 (broadcastInDim S1024x1024 ![] bcast_S_S1024x1024 : (⟨S_, .f32⟩ : BufTy).Contents (Elt F) → (⟨S1024x1024, .f32⟩ : BufTy).Contents (Elt F)) ]
theorem opsOnes_sub : (opsOnes : List (HloOp τ sig (Elt F))).Forall fun op => op.bufs ⊆ StableHlo.tcRefs τ sig :=
  ⟨StableHlo.nullary_bufs_sub .., StableHlo.unary_bufs_sub ..⟩
theorem opsOnes_fresh : (opsOnes : List (HloOp τ sig (Elt F))).Forall fun op => op.fresh = ∅ :=
  ⟨rfl, rfl⟩
/-- The references `opsOnes` writes, one per operation, in order. -/
abbrev wOnes : List (Ref sig .tc) :=
  [main_cst_2, main_v20]

/-- Its strict upper triangle: zero where the row index is at least the column index. (9 operations.) -/
abbrev opsTriu : List (HloOp τ sig (Elt F)) :=
  [ StableHlo.TRef.nullary (.of main_call1_v0 : StableHlo.TRef sig ⟨S1024x1024, .i32⟩) (iotaInDim S1024x1024 32 0),
    StableHlo.TRef.nullary (.of main_call1_c : StableHlo.TRef sig ⟨S_, .i32⟩) (constantI S_ 32 0#32),
    StableHlo.TRef.unary (.of main_call1_c : StableHlo.TRef sig ⟨S_, .i32⟩) (.of main_call1_v1 : StableHlo.TRef sig ⟨S1024x1024, .i32⟩) (broadcastInDim S1024x1024 ![] bcast_S_S1024x1024),
    StableHlo.TRef.binary (.of main_call1_v0 : StableHlo.TRef sig ⟨S1024x1024, .i32⟩) (.of main_call1_v1 : StableHlo.TRef sig ⟨S1024x1024, .i32⟩) (.of main_call1_v2 : StableHlo.TRef sig ⟨S1024x1024, .i32⟩) addi,
    StableHlo.TRef.nullary (.of main_call1_v3 : StableHlo.TRef sig ⟨S1024x1024, .i32⟩) (iotaInDim S1024x1024 32 1),
    StableHlo.TRef.binary (.of main_call1_v2 : StableHlo.TRef sig ⟨S1024x1024, .i32⟩) (.of main_call1_v3 : StableHlo.TRef sig ⟨S1024x1024, .i32⟩) (.of main_call1_v4 : StableHlo.TRef sig ⟨S1024x1024, .i1⟩) (cmpi .sge),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v5 : StableHlo.TRef sig ⟨S1024x1024, .f32⟩) (broadcastInDim S1024x1024 ![] bcast_S_S1024x1024),
    StableHlo.TRef.ternary (.of main_call1_v4 : StableHlo.TRef sig ⟨S1024x1024, .i1⟩) (.of main_call1_v5 : StableHlo.TRef sig ⟨S1024x1024, .f32⟩) (.of main_v20 : StableHlo.TRef sig ⟨S1024x1024, .f32⟩) (.of main_v21 : StableHlo.TRef sig ⟨S1024x1024, .f32⟩) select ]
theorem opsTriu_sub : (opsTriu : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub ..⟩
theorem opsTriu_fresh : (opsTriu : List (HloOp τ sig (Elt F))).Forall fun op => op.fresh = ∅ :=
  ⟨rfl, rfl, rfl, rfl, rfl, rfl, rfl, rfl, rfl⟩
/-- The references `opsTriu` writes, one per operation, in order. -/
abbrev wTriu : List (Ref sig .tc) :=
  [main_call1_v0, main_call1_c, main_call1_v1, main_call1_v2, main_call1_v3, main_call1_v4, main_call1_cst, main_call1_v5, main_v21]

/-- The mask of the nonzero entries of that triangle: `i < j`. (3 operations.) -/
abbrev opsTriuMask : List (HloOp τ sig (Elt F)) :=
  [ StableHlo.nullary main_cst_3 (constant S_ .f32 0x00000000#32),
    StableHlo.unary main_cst_3 main_v22 (broadcastInDim S1024x1024 ![] bcast_S_S1024x1024 : (⟨S_, .f32⟩ : BufTy).Contents (Elt F) → (⟨S1024x1024, .f32⟩ : BufTy).Contents (Elt F)),
    StableHlo.binary main_v21 main_v22 main_v23 (cmpf .une : (⟨S1024x1024, .f32⟩ : BufTy).Contents (Elt F) → (⟨S1024x1024, .f32⟩ : BufTy).Contents (Elt F) → (⟨S1024x1024, .i1⟩ : BufTy).Contents (Elt F)) ]
theorem opsTriuMask_sub : (opsTriuMask : List (HloOp τ sig (Elt F))).Forall fun op => op.bufs ⊆ StableHlo.tcRefs τ sig :=
  ⟨StableHlo.nullary_bufs_sub .., StableHlo.unary_bufs_sub .., StableHlo.binary_bufs_sub ..⟩
theorem opsTriuMask_fresh : (opsTriuMask : List (HloOp τ sig (Elt F))).Forall fun op => op.fresh = ∅ :=
  ⟨rfl, rfl, rfl⟩
/-- The references `opsTriuMask` writes, one per operation, in order. -/
abbrev wTriuMask : List (Ref sig .tc) :=
  [main_cst_3, main_v22, main_v23]

/-- The running count of mask entries in row-major order (the mask flattened, as integers, summed over each prefix). (5 operations.) -/
abbrev opsCumsumMask : List (HloOp τ sig (Elt F)) :=
  [ StableHlo.TRef.reshape (.of main_v23 : StableHlo.TRef sig ⟨S1024x1024, .i1⟩) (.of main_call2_v0 : StableHlo.TRef sig ⟨S1048576, .i1⟩) rfl shapeCasts_S1024x1024_S1048576,
    StableHlo.TRef.unary (.of main_call2_v0 : StableHlo.TRef sig ⟨S1048576, .i1⟩) (.of main_call2_v1 : StableHlo.TRef sig ⟨S1048576, .i32⟩) (extui 32 · natLt_1_32),
    StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_call2_v1 : StableHlo.TRef sig ⟨S1048576, .i32⟩) (.of main_call2_call0_v0 : StableHlo.TRef sig ⟨S_, .i32⟩) (.of main_v24 : StableHlo.TRef sig ⟨S1048576, .i32⟩) (fun x v => Host.reduceWindow IntOp.addi ![1048576] ![1] ![1048575] ![0] x v reduceWindows_S1048576_S1048576_w1048576s1p1048575_0 h_S_) ]
theorem opsCumsumMask_sub : (opsCumsumMask : List (HloOp τ sig (Elt F))).Forall fun op => op.bufs ⊆ StableHlo.tcRefs τ sig :=
  ⟨StableHlo.reshape_bufs_sub .., StableHlo.unary_bufs_sub .., StableHlo.nullary_bufs_sub .., StableHlo.unary_bufs_sub .., StableHlo.binary_bufs_sub ..⟩
theorem opsCumsumMask_fresh : (opsCumsumMask : List (HloOp τ sig (Elt F))).Forall fun op => op.fresh = ∅ :=
  ⟨rfl, rfl, rfl, rfl, rfl⟩
/-- The references `opsCumsumMask` writes, one per operation, in order. -/
abbrev wCumsumMask : List (Ref sig .tc) :=
  [main_call2_v0, main_call2_v1, main_call2_call0_c, main_call2_call0_v0, main_v24]

/-- The zero vector the pair positions are counted into, and the lower clipping bound `0`. (3 operations.) -/
abbrev opsScatterInit : List (HloOp τ sig (Elt F)) :=
  [ StableHlo.nullary main_c (constantI S_ 32 0#32),
    StableHlo.unary main_c main_v25 (broadcastInDim S523776 ![] bcast_S_S523776 : (⟨S_, .i32⟩ : BufTy).Contents (Elt F) → (⟨S523776, .i32⟩ : BufTy).Contents (Elt F)),
    StableHlo.nullary main_c_4 (constantI S_ 32 0#32) ]
theorem opsScatterInit_sub : (opsScatterInit : List (HloOp τ sig (Elt F))).Forall fun op => op.bufs ⊆ StableHlo.tcRefs τ sig :=
  ⟨StableHlo.nullary_bufs_sub .., StableHlo.unary_bufs_sub .., StableHlo.nullary_bufs_sub ..⟩
theorem opsScatterInit_fresh : (opsScatterInit : List (HloOp τ sig (Elt F))).Forall fun op => op.fresh = ∅ :=
  ⟨rfl, rfl, rfl⟩
/-- The references `opsScatterInit` writes, one per operation, in order. -/
abbrev wScatterInit : List (Ref sig .tc) :=
  [main_c, main_v25, main_c_4]

/-- The running count clipped below at `0`. (3 operations.) -/
abbrev opsClip : List (HloOp τ sig (Elt F)) :=
  [ StableHlo.TRef.unary (.of main_c_4 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S1048576, .i32⟩) (broadcastInDim S1048576 ![] bcast_S_S1048576),
    StableHlo.TRef.binary (.of main_call3_v1 : StableHlo.TRef sig ⟨S1048576, .i32⟩) (.of main_v24 : StableHlo.TRef sig ⟨S1048576, .i32⟩) (.of main_v26 : StableHlo.TRef sig ⟨S1048576, .i32⟩) maxsi ]
theorem opsClip_sub : (opsClip : List (HloOp τ sig (Elt F))).Forall fun op => op.bufs ⊆ StableHlo.tcRefs τ sig :=
  ⟨StableHlo.unary_bufs_sub .., StableHlo.unary_bufs_sub .., StableHlo.binary_bufs_sub ..⟩
theorem opsClip_fresh : (opsClip : List (HloOp τ sig (Elt F))).Forall fun op => op.fresh = ∅ :=
  ⟨rfl, rfl, rfl⟩
/-- The references `opsClip` writes, one per operation, in order. -/
abbrev wClip : List (Ref sig .tc) :=
  [main_call3_v0, main_call3_v1, main_v26]

/-- The count of flat positions whose running count is a given pair number: each running count (a negative one wrapped by the number of pairs) scattered as `+1` at its own value. (11 operations.) -/
abbrev opsScatter : List (HloOp τ sig (Elt F)) :=
  [ StableHlo.nullary main_c_5 (constantI S_ 32 0#32),
    StableHlo.unary main_c_5 main_v27 (broadcastInDim S1048576 ![] bcast_S_S1048576 : (⟨S_, .i32⟩ : BufTy).Contents (Elt F) → (⟨S1048576, .i32⟩ : BufTy).Contents (Elt F)),
    StableHlo.binary main_v26 main_v27 main_v28 (cmpi .slt : (⟨S1048576, .i32⟩ : BufTy).Contents (Elt F) → (⟨S1048576, .i32⟩ : BufTy).Contents (Elt F) → (⟨S1048576, .i1⟩ : BufTy).Contents (Elt F)),
    StableHlo.nullary main_c_6 (constantI S_ 32 523776#32),
    StableHlo.unary main_c_6 main_v29 (broadcastInDim S1048576 ![] bcast_S_S1048576 : (⟨S_, .i32⟩ : BufTy).Contents (Elt F) → (⟨S1048576, .i32⟩ : BufTy).Contents (Elt F)),
    StableHlo.binary main_v26 main_v29 main_v30 (addi : (⟨S1048576, .i32⟩ : BufTy).Contents (Elt F) → (⟨S1048576, .i32⟩ : BufTy).Contents (Elt F) → (⟨S1048576, .i32⟩ : BufTy).Contents (Elt F)),
    StableHlo.ternary main_v28 main_v30 main_v26 main_v31 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v31 main_v32 (broadcastInDim S1048576x1 ![0] bcast_S1048576_S1048576x1_0 : (⟨S1048576, .i32⟩ : BufTy).Contents (Elt F) → (⟨S1048576x1, .i32⟩ : BufTy).Contents (Elt F)),
    StableHlo.nullary main_c_7 (constantI S_ 32 1#32),
    StableHlo.unary main_c_7 main_v33 (broadcastInDim S1048576 ![] bcast_S_S1048576 : (⟨S_, .i32⟩ : BufTy).Contents (Elt F) → (⟨S1048576, .i32⟩ : BufTy).Contents (Elt F)),
    StableHlo.ternary main_v25 main_v32 main_v33 main_v34 ((fun x i u => Host.scatter scatter_S523776_S1048576x1_S1048576_n_0_0_1 IntOp.addi x i u) : (⟨S523776, .i32⟩ : BufTy).Contents (Elt F) → (⟨S1048576x1, .i32⟩ : BufTy).Contents (Elt F) → (⟨S1048576, .i32⟩ : BufTy).Contents (Elt F) → (⟨S523776, .i32⟩ : BufTy).Contents (Elt F)) ]
theorem opsScatter_sub : (opsScatter : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩
theorem opsScatter_fresh : (opsScatter : List (HloOp τ sig (Elt F))).Forall fun op => op.fresh = ∅ :=
  ⟨rfl, rfl, rfl, rfl, rfl, rfl, rfl, rfl, rfl, rfl, rfl⟩
/-- The references `opsScatter` writes, one per operation, in order. -/
abbrev wScatter : List (Ref sig .tc) :=
  [main_c_5, main_v27, main_v28, main_c_6, main_v29, main_v30, main_v31, main_v32, main_c_7, main_v33, main_v34]

/-- The prefix sums of those counts: the flat row-major position of each pair `i < j`. (3 operations.) -/
abbrev opsCumsumScatter : List (HloOp τ sig (Elt F)) :=
  [ StableHlo.TRef.nullary (.of main_call4_call0_c : StableHlo.TRef sig ⟨S_, .i32⟩) (constantI S_ 32 0#32),
    StableHlo.TRef.unary (.of main_call4_call0_c : StableHlo.TRef sig ⟨S_, .i32⟩) (.of main_call4_call0_v0 : StableHlo.TRef sig ⟨S_, .i32⟩) (broadcastInDim S_ ![] bcast_S_S_),
    StableHlo.TRef.binary (.of main_v34 : StableHlo.TRef sig ⟨S523776, .i32⟩) (.of main_call4_call0_v0 : StableHlo.TRef sig ⟨S_, .i32⟩) (.of main_v35 : StableHlo.TRef sig ⟨S523776, .i32⟩) (fun x v => Host.reduceWindow IntOp.addi ![523776] ![1] ![523775] ![0] x v reduceWindows_S523776_S523776_w523776s1p523775_0 h_S_) ]
theorem opsCumsumScatter_sub : (opsCumsumScatter : List (HloOp τ sig (Elt F))).Forall fun op => op.bufs ⊆ StableHlo.tcRefs τ sig :=
  ⟨StableHlo.nullary_bufs_sub .., StableHlo.unary_bufs_sub .., StableHlo.binary_bufs_sub ..⟩
theorem opsCumsumScatter_fresh : (opsCumsumScatter : List (HloOp τ sig (Elt F))).Forall fun op => op.fresh = ∅ :=
  ⟨rfl, rfl, rfl⟩
/-- The references `opsCumsumScatter` writes, one per operation, in order. -/
abbrev wCumsumScatter : List (Ref sig .tc) :=
  [main_call4_call0_c, main_call4_call0_v0, main_v35]

/-- The flat position floor-divided by the row length `1024`. (17 operations.) -/
abbrev opsRowQuot : List (HloOp τ sig (Elt F)) :=
  [ StableHlo.nullary main_c_8 (constantI S_ 32 1024#32),
    StableHlo.TRef.unary (.of main_c_8 : StableHlo.TRef sig ⟨S_, .i32⟩) (.of main_call5_v0 : StableHlo.TRef sig ⟨S523776, .i32⟩) (broadcastInDim S523776 ![] bcast_S_S523776),
    StableHlo.TRef.binary (.of main_v35 : StableHlo.TRef sig ⟨S523776, .i32⟩) (.of main_call5_v0 : StableHlo.TRef sig ⟨S523776, .i32⟩) (.of main_call5_v1 : StableHlo.TRef sig ⟨S523776, .i32⟩) Host.divsi,
    StableHlo.TRef.unary (.of main_v35 : StableHlo.TRef sig ⟨S523776, .i32⟩) (.of main_call5_v2 : StableHlo.TRef sig ⟨S523776, .i32⟩) signi,
    StableHlo.TRef.unary (.of main_c_8 : StableHlo.TRef sig ⟨S_, .i32⟩) (.of main_call5_v3 : StableHlo.TRef sig ⟨S_, .i32⟩) signi,
    StableHlo.TRef.unary (.of main_call5_v3 : StableHlo.TRef sig ⟨S_, .i32⟩) (.of main_call5_v4 : StableHlo.TRef sig ⟨S523776, .i32⟩) (broadcastInDim S523776 ![] bcast_S_S523776),
    StableHlo.TRef.binary (.of main_call5_v2 : StableHlo.TRef sig ⟨S523776, .i32⟩) (.of main_call5_v4 : StableHlo.TRef sig ⟨S523776, .i32⟩) (.of main_call5_v5 : StableHlo.TRef sig ⟨S523776, .i1⟩) (cmpi .ne),
    StableHlo.TRef.unary (.of main_c_8 : StableHlo.TRef sig ⟨S_, .i32⟩) (.of main_call5_v6 : StableHlo.TRef sig ⟨S523776, .i32⟩) (broadcastInDim S523776 ![] bcast_S_S523776),
    StableHlo.TRef.binary (.of main_v35 : StableHlo.TRef sig ⟨S523776, .i32⟩) (.of main_call5_v6 : StableHlo.TRef sig ⟨S523776, .i32⟩) (.of main_call5_v7 : StableHlo.TRef sig ⟨S523776, .i32⟩) Host.remsi,
    StableHlo.TRef.nullary (.of main_call5_c : StableHlo.TRef sig ⟨S_, .i32⟩) (constantI S_ 32 0#32),
    StableHlo.TRef.unary (.of main_call5_c : StableHlo.TRef sig ⟨S_, .i32⟩) (.of main_call5_v8 : StableHlo.TRef sig ⟨S523776, .i32⟩) (broadcastInDim S523776 ![] bcast_S_S523776),
    StableHlo.TRef.binary (.of main_call5_v7 : StableHlo.TRef sig ⟨S523776, .i32⟩) (.of main_call5_v8 : StableHlo.TRef sig ⟨S523776, .i32⟩) (.of main_call5_v9 : StableHlo.TRef sig ⟨S523776, .i1⟩) (cmpi .ne),
    StableHlo.TRef.binary (.of main_call5_v5 : StableHlo.TRef sig ⟨S523776, .i1⟩) (.of main_call5_v9 : StableHlo.TRef sig ⟨S523776, .i1⟩) (.of main_call5_v10 : StableHlo.TRef sig ⟨S523776, .i1⟩) andi,
    StableHlo.TRef.nullary (.of main_call5_c_0 : StableHlo.TRef sig ⟨S_, .i32⟩) (constantI S_ 32 1#32),
    StableHlo.TRef.unary (.of main_call5_c_0 : StableHlo.TRef sig ⟨S_, .i32⟩) (.of main_call5_v11 : StableHlo.TRef sig ⟨S523776, .i32⟩) (broadcastInDim S523776 ![] bcast_S_S523776),
    StableHlo.TRef.binary (.of main_call5_v1 : StableHlo.TRef sig ⟨S523776, .i32⟩) (.of main_call5_v11 : StableHlo.TRef sig ⟨S523776, .i32⟩) (.of main_call5_v12 : StableHlo.TRef sig ⟨S523776, .i32⟩) subi,
    StableHlo.TRef.ternary (.of main_call5_v10 : StableHlo.TRef sig ⟨S523776, .i1⟩) (.of main_call5_v12 : StableHlo.TRef sig ⟨S523776, .i32⟩) (.of main_call5_v1 : StableHlo.TRef sig ⟨S523776, .i32⟩) (.of main_v36 : StableHlo.TRef sig ⟨S523776, .i32⟩) select ]
theorem opsRowQuot_sub : (opsRowQuot : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem opsRowQuot_fresh : (opsRowQuot : List (HloOp τ sig (Elt F))).Forall fun op => op.fresh = ∅ :=
  ⟨rfl, rfl, rfl, rfl, rfl, rfl, rfl, rfl, rfl, rfl, rfl, rfl, rfl, rfl, rfl, rfl, rfl⟩
/-- The references `opsRowQuot` writes, one per operation, in order. -/
abbrev wRowQuot : List (Ref sig .tc) :=
  [main_c_8, main_call5_v0, main_call5_v1, main_call5_v2, main_call5_v3, main_call5_v4, main_call5_v5, main_call5_v6, main_call5_v7, main_call5_c, main_call5_v8, main_call5_v9, main_call5_v10, main_call5_c_0, main_call5_v11, main_call5_v12, main_v36]

/-- That quotient modulo `1024` (the sign of the divisor): the pair's row `i`. (22 operations.) -/
abbrev opsRowIndex : List (HloOp τ sig (Elt F)) :=
  [ StableHlo.nullary main_c_9 (constantI S_ 32 1024#32),
    StableHlo.TRef.unary (.of main_c_9 : StableHlo.TRef sig ⟨S_, .i32⟩) (.of main_call6_v0 : StableHlo.TRef sig ⟨S_, .i32⟩) id,
    StableHlo.TRef.nullary (.of main_call6_c : StableHlo.TRef sig ⟨S_, .i32⟩) (constantI S_ 32 0#32),
    StableHlo.TRef.binary (.of main_call6_v0 : StableHlo.TRef sig ⟨S_, .i32⟩) (.of main_call6_c : StableHlo.TRef sig ⟨S_, .i32⟩) (.of main_call6_v1 : StableHlo.TRef sig ⟨S_, .i1⟩) (cmpi .eq),
    StableHlo.TRef.nullary (.of main_call6_c_0 : StableHlo.TRef sig ⟨S_, .i32⟩) (constantI S_ 32 1#32),
    StableHlo.TRef.ternary (.of main_call6_v1 : StableHlo.TRef sig ⟨S_, .i1⟩) (.of main_call6_c_0 : StableHlo.TRef sig ⟨S_, .i32⟩) (.of main_call6_v0 : StableHlo.TRef sig ⟨S_, .i32⟩) (.of main_call6_v2 : StableHlo.TRef sig ⟨S_, .i32⟩) select,
    StableHlo.TRef.unary (.of main_call6_v2 : StableHlo.TRef sig ⟨S_, .i32⟩) (.of main_call6_v3 : StableHlo.TRef sig ⟨S523776, .i32⟩) (broadcastInDim S523776 ![] bcast_S_S523776),
    StableHlo.TRef.binary (.of main_v36 : StableHlo.TRef sig ⟨S523776, .i32⟩) (.of main_call6_v3 : StableHlo.TRef sig ⟨S523776, .i32⟩) (.of main_call6_v4 : StableHlo.TRef sig ⟨S523776, .i32⟩) Host.remsi,
    StableHlo.TRef.nullary (.of main_call6_c_1 : StableHlo.TRef sig ⟨S_, .i32⟩) (constantI S_ 32 0#32),
    StableHlo.TRef.unary (.of main_call6_c_1 : StableHlo.TRef sig ⟨S_, .i32⟩) (.of main_call6_v5 : StableHlo.TRef sig ⟨S523776, .i32⟩) (broadcastInDim S523776 ![] bcast_S_S523776),
    StableHlo.TRef.binary (.of main_call6_v4 : StableHlo.TRef sig ⟨S523776, .i32⟩) (.of main_call6_v5 : StableHlo.TRef sig ⟨S523776, .i32⟩) (.of main_call6_v6 : StableHlo.TRef sig ⟨S523776, .i1⟩) (cmpi .ne),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v7 : StableHlo.TRef sig ⟨S523776, .i32⟩) (broadcastInDim S523776 ![] bcast_S_S523776),
    StableHlo.TRef.binary (.of main_call6_v4 : StableHlo.TRef sig ⟨S523776, .i32⟩) (.of main_call6_v7 : StableHlo.TRef sig ⟨S523776, .i32⟩) (.of main_call6_v8 : StableHlo.TRef sig ⟨S523776, .i1⟩) (cmpi .slt),
    StableHlo.TRef.nullary (.of main_call6_c_3 : StableHlo.TRef sig ⟨S_, .i32⟩) (constantI S_ 32 0#32),
    StableHlo.TRef.binary (.of main_call6_v2 : StableHlo.TRef sig ⟨S_, .i32⟩) (.of main_call6_c_3 : StableHlo.TRef sig ⟨S_, .i32⟩) (.of main_call6_v9 : StableHlo.TRef sig ⟨S_, .i1⟩) (cmpi .slt),
    StableHlo.TRef.unary (.of main_call6_v9 : StableHlo.TRef sig ⟨S_, .i1⟩) (.of main_call6_v10 : StableHlo.TRef sig ⟨S523776, .i1⟩) (broadcastInDim S523776 ![] bcast_S_S523776),
    StableHlo.TRef.binary (.of main_call6_v8 : StableHlo.TRef sig ⟨S523776, .i1⟩) (.of main_call6_v10 : StableHlo.TRef sig ⟨S523776, .i1⟩) (.of main_call6_v11 : StableHlo.TRef sig ⟨S523776, .i1⟩) (cmpi .ne),
    StableHlo.TRef.binary (.of main_call6_v11 : StableHlo.TRef sig ⟨S523776, .i1⟩) (.of main_call6_v6 : StableHlo.TRef sig ⟨S523776, .i1⟩) (.of main_call6_v12 : StableHlo.TRef sig ⟨S523776, .i1⟩) andi,
    StableHlo.TRef.unary (.of main_call6_v2 : StableHlo.TRef sig ⟨S_, .i32⟩) (.of main_call6_v13 : StableHlo.TRef sig ⟨S523776, .i32⟩) (broadcastInDim S523776 ![] bcast_S_S523776),
    StableHlo.TRef.binary (.of main_call6_v4 : StableHlo.TRef sig ⟨S523776, .i32⟩) (.of main_call6_v13 : StableHlo.TRef sig ⟨S523776, .i32⟩) (.of main_call6_v14 : StableHlo.TRef sig ⟨S523776, .i32⟩) addi,
    StableHlo.TRef.ternary (.of main_call6_v12 : StableHlo.TRef sig ⟨S523776, .i1⟩) (.of main_call6_v14 : StableHlo.TRef sig ⟨S523776, .i32⟩) (.of main_call6_v4 : StableHlo.TRef sig ⟨S523776, .i32⟩) (.of main_v37 : StableHlo.TRef sig ⟨S523776, .i32⟩) select ]
theorem opsRowIndex_sub : (opsRowIndex : List (HloOp τ sig (Elt F))).Forall fun op => op.bufs ⊆ StableHlo.tcRefs τ sig :=
  ⟨StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem opsRowIndex_fresh : (opsRowIndex : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
/-- The references `opsRowIndex` writes, one per operation, in order. -/
abbrev wRowIndex : List (Ref sig .tc) :=
  [main_c_9, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v37]

/-- The flat position floor-divided by `1`. (17 operations.) -/
abbrev opsColQuot : List (HloOp τ sig (Elt F)) :=
  [ StableHlo.nullary main_c_10 (constantI S_ 32 1#32),
    StableHlo.TRef.unary (.of main_c_10 : StableHlo.TRef sig ⟨S_, .i32⟩) (.of main_call7_v0 : StableHlo.TRef sig ⟨S523776, .i32⟩) (broadcastInDim S523776 ![] bcast_S_S523776),
    StableHlo.TRef.binary (.of main_v35 : StableHlo.TRef sig ⟨S523776, .i32⟩) (.of main_call7_v0 : StableHlo.TRef sig ⟨S523776, .i32⟩) (.of main_call7_v1 : StableHlo.TRef sig ⟨S523776, .i32⟩) Host.divsi,
    StableHlo.TRef.unary (.of main_v35 : StableHlo.TRef sig ⟨S523776, .i32⟩) (.of main_call7_v2 : StableHlo.TRef sig ⟨S523776, .i32⟩) signi,
    StableHlo.TRef.unary (.of main_c_10 : StableHlo.TRef sig ⟨S_, .i32⟩) (.of main_call7_v3 : StableHlo.TRef sig ⟨S_, .i32⟩) signi,
    StableHlo.TRef.unary (.of main_call7_v3 : StableHlo.TRef sig ⟨S_, .i32⟩) (.of main_call7_v4 : StableHlo.TRef sig ⟨S523776, .i32⟩) (broadcastInDim S523776 ![] bcast_S_S523776),
    StableHlo.TRef.binary (.of main_call7_v2 : StableHlo.TRef sig ⟨S523776, .i32⟩) (.of main_call7_v4 : StableHlo.TRef sig ⟨S523776, .i32⟩) (.of main_call7_v5 : StableHlo.TRef sig ⟨S523776, .i1⟩) (cmpi .ne),
    StableHlo.TRef.unary (.of main_c_10 : StableHlo.TRef sig ⟨S_, .i32⟩) (.of main_call7_v6 : StableHlo.TRef sig ⟨S523776, .i32⟩) (broadcastInDim S523776 ![] bcast_S_S523776),
    StableHlo.TRef.binary (.of main_v35 : StableHlo.TRef sig ⟨S523776, .i32⟩) (.of main_call7_v6 : StableHlo.TRef sig ⟨S523776, .i32⟩) (.of main_call7_v7 : StableHlo.TRef sig ⟨S523776, .i32⟩) Host.remsi,
    StableHlo.TRef.nullary (.of main_call7_c : StableHlo.TRef sig ⟨S_, .i32⟩) (constantI S_ 32 0#32),
    StableHlo.TRef.unary (.of main_call7_c : StableHlo.TRef sig ⟨S_, .i32⟩) (.of main_call7_v8 : StableHlo.TRef sig ⟨S523776, .i32⟩) (broadcastInDim S523776 ![] bcast_S_S523776),
    StableHlo.TRef.binary (.of main_call7_v7 : StableHlo.TRef sig ⟨S523776, .i32⟩) (.of main_call7_v8 : StableHlo.TRef sig ⟨S523776, .i32⟩) (.of main_call7_v9 : StableHlo.TRef sig ⟨S523776, .i1⟩) (cmpi .ne),
    StableHlo.TRef.binary (.of main_call7_v5 : StableHlo.TRef sig ⟨S523776, .i1⟩) (.of main_call7_v9 : StableHlo.TRef sig ⟨S523776, .i1⟩) (.of main_call7_v10 : StableHlo.TRef sig ⟨S523776, .i1⟩) andi,
    StableHlo.TRef.nullary (.of main_call7_c_0 : StableHlo.TRef sig ⟨S_, .i32⟩) (constantI S_ 32 1#32),
    StableHlo.TRef.unary (.of main_call7_c_0 : StableHlo.TRef sig ⟨S_, .i32⟩) (.of main_call7_v11 : StableHlo.TRef sig ⟨S523776, .i32⟩) (broadcastInDim S523776 ![] bcast_S_S523776),
    StableHlo.TRef.binary (.of main_call7_v1 : StableHlo.TRef sig ⟨S523776, .i32⟩) (.of main_call7_v11 : StableHlo.TRef sig ⟨S523776, .i32⟩) (.of main_call7_v12 : StableHlo.TRef sig ⟨S523776, .i32⟩) subi,
    StableHlo.TRef.ternary (.of main_call7_v10 : StableHlo.TRef sig ⟨S523776, .i1⟩) (.of main_call7_v12 : StableHlo.TRef sig ⟨S523776, .i32⟩) (.of main_call7_v1 : StableHlo.TRef sig ⟨S523776, .i32⟩) (.of main_v38 : StableHlo.TRef sig ⟨S523776, .i32⟩) select ]
theorem opsColQuot_sub : (opsColQuot : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem opsColQuot_fresh : (opsColQuot : List (HloOp τ sig (Elt F))).Forall fun op => op.fresh = ∅ :=
  ⟨rfl, rfl, rfl, rfl, rfl, rfl, rfl, rfl, rfl, rfl, rfl, rfl, rfl, rfl, rfl, rfl, rfl⟩
/-- The references `opsColQuot` writes, one per operation, in order. -/
abbrev wColQuot : List (Ref sig .tc) :=
  [main_c_10, main_call7_v0, main_call7_v1, main_call7_v2, main_call7_v3, main_call7_v4, main_call7_v5, main_call7_v6, main_call7_v7, main_call7_c, main_call7_v8, main_call7_v9, main_call7_v10, main_call7_c_0, main_call7_v11, main_call7_v12, main_v38]

/-- That quotient modulo `1024`: the pair's column `j`. (22 operations.) -/
abbrev opsColIndex : List (HloOp τ sig (Elt F)) :=
  [ StableHlo.nullary main_c_11 (constantI S_ 32 1024#32),
    StableHlo.TRef.unary (.of main_c_11 : StableHlo.TRef sig ⟨S_, .i32⟩) (.of main_call8_v0 : StableHlo.TRef sig ⟨S_, .i32⟩) id,
    StableHlo.TRef.nullary (.of main_call8_c : StableHlo.TRef sig ⟨S_, .i32⟩) (constantI S_ 32 0#32),
    StableHlo.TRef.binary (.of main_call8_v0 : StableHlo.TRef sig ⟨S_, .i32⟩) (.of main_call8_c : StableHlo.TRef sig ⟨S_, .i32⟩) (.of main_call8_v1 : StableHlo.TRef sig ⟨S_, .i1⟩) (cmpi .eq),
    StableHlo.TRef.nullary (.of main_call8_c_0 : StableHlo.TRef sig ⟨S_, .i32⟩) (constantI S_ 32 1#32),
    StableHlo.TRef.ternary (.of main_call8_v1 : StableHlo.TRef sig ⟨S_, .i1⟩) (.of main_call8_c_0 : StableHlo.TRef sig ⟨S_, .i32⟩) (.of main_call8_v0 : StableHlo.TRef sig ⟨S_, .i32⟩) (.of main_call8_v2 : StableHlo.TRef sig ⟨S_, .i32⟩) select,
    StableHlo.TRef.unary (.of main_call8_v2 : StableHlo.TRef sig ⟨S_, .i32⟩) (.of main_call8_v3 : StableHlo.TRef sig ⟨S523776, .i32⟩) (broadcastInDim S523776 ![] bcast_S_S523776),
    StableHlo.TRef.binary (.of main_v38 : StableHlo.TRef sig ⟨S523776, .i32⟩) (.of main_call8_v3 : StableHlo.TRef sig ⟨S523776, .i32⟩) (.of main_call8_v4 : StableHlo.TRef sig ⟨S523776, .i32⟩) Host.remsi,
    StableHlo.TRef.nullary (.of main_call8_c_1 : StableHlo.TRef sig ⟨S_, .i32⟩) (constantI S_ 32 0#32),
    StableHlo.TRef.unary (.of main_call8_c_1 : StableHlo.TRef sig ⟨S_, .i32⟩) (.of main_call8_v5 : StableHlo.TRef sig ⟨S523776, .i32⟩) (broadcastInDim S523776 ![] bcast_S_S523776),
    StableHlo.TRef.binary (.of main_call8_v4 : StableHlo.TRef sig ⟨S523776, .i32⟩) (.of main_call8_v5 : StableHlo.TRef sig ⟨S523776, .i32⟩) (.of main_call8_v6 : StableHlo.TRef sig ⟨S523776, .i1⟩) (cmpi .ne),
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v7 : StableHlo.TRef sig ⟨S523776, .i32⟩) (broadcastInDim S523776 ![] bcast_S_S523776),
    StableHlo.TRef.binary (.of main_call8_v4 : StableHlo.TRef sig ⟨S523776, .i32⟩) (.of main_call8_v7 : StableHlo.TRef sig ⟨S523776, .i32⟩) (.of main_call8_v8 : StableHlo.TRef sig ⟨S523776, .i1⟩) (cmpi .slt),
    StableHlo.TRef.nullary (.of main_call8_c_3 : StableHlo.TRef sig ⟨S_, .i32⟩) (constantI S_ 32 0#32),
    StableHlo.TRef.binary (.of main_call8_v2 : StableHlo.TRef sig ⟨S_, .i32⟩) (.of main_call8_c_3 : StableHlo.TRef sig ⟨S_, .i32⟩) (.of main_call8_v9 : StableHlo.TRef sig ⟨S_, .i1⟩) (cmpi .slt),
    StableHlo.TRef.unary (.of main_call8_v9 : StableHlo.TRef sig ⟨S_, .i1⟩) (.of main_call8_v10 : StableHlo.TRef sig ⟨S523776, .i1⟩) (broadcastInDim S523776 ![] bcast_S_S523776),
    StableHlo.TRef.binary (.of main_call8_v8 : StableHlo.TRef sig ⟨S523776, .i1⟩) (.of main_call8_v10 : StableHlo.TRef sig ⟨S523776, .i1⟩) (.of main_call8_v11 : StableHlo.TRef sig ⟨S523776, .i1⟩) (cmpi .ne),
    StableHlo.TRef.binary (.of main_call8_v11 : StableHlo.TRef sig ⟨S523776, .i1⟩) (.of main_call8_v6 : StableHlo.TRef sig ⟨S523776, .i1⟩) (.of main_call8_v12 : StableHlo.TRef sig ⟨S523776, .i1⟩) andi,
    StableHlo.TRef.unary (.of main_call8_v2 : StableHlo.TRef sig ⟨S_, .i32⟩) (.of main_call8_v13 : StableHlo.TRef sig ⟨S523776, .i32⟩) (broadcastInDim S523776 ![] bcast_S_S523776),
    StableHlo.TRef.binary (.of main_call8_v4 : StableHlo.TRef sig ⟨S523776, .i32⟩) (.of main_call8_v13 : StableHlo.TRef sig ⟨S523776, .i32⟩) (.of main_call8_v14 : StableHlo.TRef sig ⟨S523776, .i32⟩) addi,
    StableHlo.TRef.ternary (.of main_call8_v12 : StableHlo.TRef sig ⟨S523776, .i1⟩) (.of main_call8_v14 : StableHlo.TRef sig ⟨S523776, .i32⟩) (.of main_call8_v4 : StableHlo.TRef sig ⟨S523776, .i32⟩) (.of main_v39 : StableHlo.TRef sig ⟨S523776, .i32⟩) select ]
theorem opsColIndex_sub : (opsColIndex : List (HloOp τ sig (Elt F))).Forall fun op => op.bufs ⊆ StableHlo.tcRefs τ sig :=
  ⟨StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem opsColIndex_fresh : (opsColIndex : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
/-- The references `opsColIndex` writes, one per operation, in order. -/
abbrev wColIndex : List (Ref sig .tc) :=
  [main_c_11, main_call8_v0, main_call8_c, main_call8_v1, main_call8_c_0, main_call8_v2, main_call8_v3, main_call8_v4, main_call8_c_1, main_call8_v5, main_call8_v6, main_call8_c_2, main_call8_v7, main_call8_v8, main_call8_c_3, main_call8_v9, main_call8_v10, main_call8_v11, main_call8_v12, main_call8_v13, main_call8_v14, main_v39]

/-- The pairs `(i, j)` as a two-column table: the fourth result. (3 operations.) -/
abbrev opsPairIndex : List (HloOp τ sig (Elt F)) :=
  [ StableHlo.unary main_v37 main_v40 (broadcastInDim S523776x1 ![0] bcast_S523776_S523776x1_0 : (⟨S523776, .i32⟩ : BufTy).Contents (Elt F) → (⟨S523776x1, .i32⟩ : BufTy).Contents (Elt F)),
    StableHlo.unary main_v39 main_v41 (broadcastInDim S523776x1 ![0] bcast_S523776_S523776x1_0 : (⟨S523776, .i32⟩ : BufTy).Contents (Elt F) → (⟨S523776x1, .i32⟩ : BufTy).Contents (Elt F)),
    StableHlo.binary main_v40 main_v41 main_v42 ((fun a b => concatenate S523776x2 1 [⟨S523776x1, a⟩, ⟨S523776x1, b⟩] concatenates_S523776x1_S523776x1_S523776x2_d1) : (⟨S523776x1, .i32⟩ : BufTy).Contents (Elt F) → (⟨S523776x1, .i32⟩ : BufTy).Contents (Elt F) → (⟨S523776x2, .i32⟩ : BufTy).Contents (Elt F)) ]
theorem opsPairIndex_sub : (opsPairIndex : List (HloOp τ sig (Elt F))).Forall fun op => op.bufs ⊆ StableHlo.tcRefs τ sig :=
  ⟨StableHlo.unary_bufs_sub .., StableHlo.unary_bufs_sub .., StableHlo.binary_bufs_sub ..⟩
theorem opsPairIndex_fresh : (opsPairIndex : List (HloOp τ sig (Elt F))).Forall fun op => op.fresh = ∅ :=
  ⟨rfl, rfl, rfl⟩
/-- The references `opsPairIndex` writes, one per operation, in order. -/
abbrev wPairIndex : List (Ref sig .tc) :=
  [main_v40, main_v41, main_v42]

/-- Whether a row index is negative (the test of the wrap before a gather). (3 operations.) -/
abbrev opsRowNegative : List (HloOp τ sig (Elt F)) :=
  [ StableHlo.nullary main_c_12 (constantI S_ 32 0#32),
    StableHlo.unary main_c_12 main_v43 (broadcastInDim S523776 ![] bcast_S_S523776 : (⟨S_, .i32⟩ : BufTy).Contents (Elt F) → (⟨S523776, .i32⟩ : BufTy).Contents (Elt F)),
    StableHlo.binary main_v37 main_v43 main_v44 (cmpi .slt : (⟨S523776, .i32⟩ : BufTy).Contents (Elt F) → (⟨S523776, .i32⟩ : BufTy).Contents (Elt F) → (⟨S523776, .i1⟩ : BufTy).Contents (Elt F)) ]
theorem opsRowNegative_sub : (opsRowNegative : List (HloOp τ sig (Elt F))).Forall fun op => op.bufs ⊆ StableHlo.tcRefs τ sig :=
  ⟨StableHlo.nullary_bufs_sub .., StableHlo.unary_bufs_sub .., StableHlo.binary_bufs_sub ..⟩
theorem opsRowNegative_fresh : (opsRowNegative : List (HloOp τ sig (Elt F))).Forall fun op => op.fresh = ∅ :=
  ⟨rfl, rfl, rfl⟩
/-- The references `opsRowNegative` writes, one per operation, in order. -/
abbrev wRowNegative : List (Ref sig .tc) :=
  [main_c_12, main_v43, main_v44]

/-- The rows `h[i]`: a negative index wrapped by `1024`, then the gather of whole rows. (6 operations.) -/
abbrev opsGatherRow : List (HloOp τ sig (Elt F)) :=
  [ StableHlo.nullary main_c_13 (constantI S_ 32 1024#32),
    StableHlo.unary main_c_13 main_v45 (broadcastInDim S523776 ![] bcast_S_S523776 : (⟨S_, .i32⟩ : BufTy).Contents (Elt F) → (⟨S523776, .i32⟩ : BufTy).Contents (Elt F)),
    StableHlo.binary main_v37 main_v45 main_v46 (addi : (⟨S523776, .i32⟩ : BufTy).Contents (Elt F) → (⟨S523776, .i32⟩ : BufTy).Contents (Elt F) → (⟨S523776, .i32⟩ : BufTy).Contents (Elt F)),
    StableHlo.ternary main_v44 main_v46 main_v37 main_v47 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    StableHlo.unary main_v47 main_v48 (broadcastInDim S523776x1 ![0] bcast_S523776_S523776x1_0 : (⟨S523776, .i32⟩ : BufTy).Contents (Elt F) → (⟨S523776x1, .i32⟩ : BufTy).Contents (Elt F)),
    StableHlo.binary main_arg0 main_v48 main_v49 ((fun x i => Host.gather gather_S1024x256_S523776x1_S523776x256_1_0_n_n_0_1_1256 x i) : (⟨S1024x256, .f32⟩ : BufTy).Contents (Elt F) → (⟨S523776x1, .i32⟩ : BufTy).Contents (Elt F) → (⟨S523776x256, .f32⟩ : BufTy).Contents (Elt F)) ]
theorem opsGatherRow_sub : (opsGatherRow : List (HloOp τ sig (Elt F))).Forall fun op => op.bufs ⊆ StableHlo.tcRefs τ sig :=
  ⟨StableHlo.nullary_bufs_sub .., StableHlo.unary_bufs_sub .., StableHlo.binary_bufs_sub .., StableHlo.ternary_bufs_sub .., StableHlo.unary_bufs_sub .., StableHlo.binary_bufs_sub ..⟩
theorem opsGatherRow_fresh : (opsGatherRow : List (HloOp τ sig (Elt F))).Forall fun op => op.fresh = ∅ :=
  ⟨rfl, rfl, rfl, rfl, rfl, rfl⟩
/-- The references `opsGatherRow` writes, one per operation, in order. -/
abbrev wGatherRow : List (Ref sig .tc) :=
  [main_c_13, main_v45, main_v46, main_v47, main_v48, main_v49]

/-- `h[i] · Wb1[0:256]`. (2 operations.) -/
abbrev opsRowProj : List (HloOp τ sig (Elt F)) :=
  [ StableHlo.unary main_arg7 main_v50 ((extractStridedSlice S256x256 ![0, 0] · slices_S512x256_S256x256_0_0) : (⟨S512x256, .f32⟩ : BufTy).Contents (Elt F) → (⟨S256x256, .f32⟩ : BufTy).Contents (Elt F)),
    StableHlo.binary main_v49 main_v50 main_v51 ((fun l r => Host.dotGeneral dot_S523776x256_S256x256_S523776x256_1_0_0_1_n_n none l r) : (⟨S523776x256, .f32⟩ : BufTy).Contents (Elt F) → (⟨S256x256, .f32⟩ : BufTy).Contents (Elt F) → (⟨S523776x256, .f32⟩ : BufTy).Contents (Elt F)) ]
theorem opsRowProj_sub : (opsRowProj : List (HloOp τ sig (Elt F))).Forall fun op => op.bufs ⊆ StableHlo.tcRefs τ sig :=
  ⟨StableHlo.unary_bufs_sub .., StableHlo.binary_bufs_sub ..⟩
theorem opsRowProj_fresh : (opsRowProj : List (HloOp τ sig (Elt F))).Forall fun op => op.fresh = ∅ :=
  ⟨rfl, rfl⟩
/-- The references `opsRowProj` writes, one per operation, in order. -/
abbrev wRowProj : List (Ref sig .tc) :=
  [main_v50, main_v51]

/-- The rows `h[j]`, wrapped and gathered likewise. (9 operations.) -/
abbrev opsGatherCol : List (HloOp τ sig (Elt F)) :=
  [ StableHlo.nullary main_c_14 (constantI S_ 32 0#32),
    StableHlo.unary main_c_14 main_v52 (broadcastInDim S523776 ![] bcast_S_S523776 : (⟨S_, .i32⟩ : BufTy).Contents (Elt F) → (⟨S523776, .i32⟩ : BufTy).Contents (Elt F)),
    StableHlo.binary main_v39 main_v52 main_v53 (cmpi .slt : (⟨S523776, .i32⟩ : BufTy).Contents (Elt F) → (⟨S523776, .i32⟩ : BufTy).Contents (Elt F) → (⟨S523776, .i1⟩ : BufTy).Contents (Elt F)),
    StableHlo.nullary main_c_15 (constantI S_ 32 1024#32),
    StableHlo.unary main_c_15 main_v54 (broadcastInDim S523776 ![] bcast_S_S523776 : (⟨S_, .i32⟩ : BufTy).Contents (Elt F) → (⟨S523776, .i32⟩ : BufTy).Contents (Elt F)),
    StableHlo.binary main_v39 main_v54 main_v55 (addi : (⟨S523776, .i32⟩ : BufTy).Contents (Elt F) → (⟨S523776, .i32⟩ : BufTy).Contents (Elt F) → (⟨S523776, .i32⟩ : BufTy).Contents (Elt F)),
    StableHlo.ternary main_v53 main_v55 main_v39 main_v56 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    StableHlo.unary main_v56 main_v57 (broadcastInDim S523776x1 ![0] bcast_S523776_S523776x1_0 : (⟨S523776, .i32⟩ : BufTy).Contents (Elt F) → (⟨S523776x1, .i32⟩ : BufTy).Contents (Elt F)),
    StableHlo.binary main_arg0 main_v57 main_v58 ((fun x i => Host.gather gather_S1024x256_S523776x1_S523776x256_1_0_n_n_0_1_1256 x i) : (⟨S1024x256, .f32⟩ : BufTy).Contents (Elt F) → (⟨S523776x1, .i32⟩ : BufTy).Contents (Elt F) → (⟨S523776x256, .f32⟩ : BufTy).Contents (Elt F)) ]
theorem opsGatherCol_sub : (opsGatherCol : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
theorem opsGatherCol_fresh : (opsGatherCol : List (HloOp τ sig (Elt F))).Forall fun op => op.fresh = ∅ :=
  ⟨rfl, rfl, rfl, rfl, rfl, rfl, rfl, rfl, rfl⟩
/-- The references `opsGatherCol` writes, one per operation, in order. -/
abbrev wGatherCol : List (Ref sig .tc) :=
  [main_c_14, main_v52, main_v53, main_c_15, main_v54, main_v55, main_v56, main_v57, main_v58]

/-- `h[j] · Wb1[256:512]`. (2 operations.) -/
abbrev opsColProj : List (HloOp τ sig (Elt F)) :=
  [ StableHlo.unary main_arg7 main_v59 ((extractStridedSlice S256x256 ![256, 0] · slices_S512x256_S256x256_256_0) : (⟨S512x256, .f32⟩ : BufTy).Contents (Elt F) → (⟨S256x256, .f32⟩ : BufTy).Contents (Elt F)),
    StableHlo.binary main_v58 main_v59 main_v60 ((fun l r => Host.dotGeneral dot_S523776x256_S256x256_S523776x256_1_0_0_1_n_n none l r) : (⟨S523776x256, .f32⟩ : BufTy).Contents (Elt F) → (⟨S256x256, .f32⟩ : BufTy).Contents (Elt F) → (⟨S523776x256, .f32⟩ : BufTy).Contents (Elt F)) ]
theorem opsColProj_sub : (opsColProj : List (HloOp τ sig (Elt F))).Forall fun op => op.bufs ⊆ StableHlo.tcRefs τ sig :=
  ⟨StableHlo.unary_bufs_sub .., StableHlo.binary_bufs_sub ..⟩
theorem opsColProj_fresh : (opsColProj : List (HloOp τ sig (Elt F))).Forall fun op => op.fresh = ∅ :=
  ⟨rfl, rfl⟩
/-- The references `opsColProj` writes, one per operation, in order. -/
abbrev wColProj : List (Ref sig .tc) :=
  [main_v59, main_v60]

/-- The bond head's hidden pre-activation: the two products added, plus `bb1` broadcast along rows. (4 operations.) -/
abbrev opsBondHidden : List (HloOp τ sig (Elt F)) :=
  [ StableHlo.binary main_v51 main_v60 main_v61 (addf : (⟨S523776x256, .f32⟩ : BufTy).Contents (Elt F) → (⟨S523776x256, .f32⟩ : BufTy).Contents (Elt F) → (⟨S523776x256, .f32⟩ : BufTy).Contents (Elt F)),
    StableHlo.unary main_arg8 main_v62 (broadcastInDim S1x256 ![1] bcast_S256_S1x256_1 : (⟨S256, .f32⟩ : BufTy).Contents (Elt F) → (⟨S1x256, .f32⟩ : BufTy).Contents (Elt F)),
    StableHlo.unary main_v62 main_v63 (broadcastInDim S523776x256 ![0, 1] bcast_S1x256_S523776x256_0_1 : (⟨S1x256, .f32⟩ : BufTy).Contents (Elt F) → (⟨S523776x256, .f32⟩ : BufTy).Contents (Elt F)),
    StableHlo.binary main_v61 main_v63 main_v64 (addf : (⟨S523776x256, .f32⟩ : BufTy).Contents (Elt F) → (⟨S523776x256, .f32⟩ : BufTy).Contents (Elt F) → (⟨S523776x256, .f32⟩ : BufTy).Contents (Elt F)) ]
theorem opsBondHidden_sub : (opsBondHidden : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
theorem opsBondHidden_fresh : (opsBondHidden : List (HloOp τ sig (Elt F))).Forall fun op => op.fresh = ∅ :=
  ⟨rfl, rfl, rfl, rfl⟩
/-- The references `opsBondHidden` writes, one per operation, in order. -/
abbrev wBondHidden : List (Ref sig .tc) :=
  [main_v61, main_v62, main_v63, main_v64]

/-- `silu` of it. (9 operations.) -/
abbrev opsBondSilu : List (HloOp τ sig (Elt F)) :=
  [ StableHlo.TRef.unary (.of main_v64 : StableHlo.TRef sig ⟨S523776x256, .f32⟩) (.of main_call9_v0 : StableHlo.TRef sig ⟨S523776x256, .f32⟩) Host.negf,
    StableHlo.TRef.unary (.of main_call9_v0 : StableHlo.TRef sig ⟨S523776x256, .f32⟩) (.of main_call9_v1 : StableHlo.TRef sig ⟨S523776x256, .f32⟩) Host.exp,
    StableHlo.TRef.nullary (.of main_call9_cst : StableHlo.TRef sig ⟨S_, .f32⟩) (constant S_ .f32 0x3F800000#32),
    StableHlo.TRef.unary (.of main_call9_cst : StableHlo.TRef sig ⟨S_, .f32⟩) (.of main_call9_v2 : StableHlo.TRef sig ⟨S523776x256, .f32⟩) (broadcastInDim S523776x256 ![] bcast_S_S523776x256),
    StableHlo.TRef.binary (.of main_call9_v2 : StableHlo.TRef sig ⟨S523776x256, .f32⟩) (.of main_call9_v1 : StableHlo.TRef sig ⟨S523776x256, .f32⟩) (.of main_call9_v3 : StableHlo.TRef sig ⟨S523776x256, .f32⟩) addf,
    StableHlo.TRef.nullary (.of main_call9_cst_0 : StableHlo.TRef sig ⟨S_, .f32⟩) (constant S_ .f32 0x3F800000#32),
    StableHlo.TRef.unary (.of main_call9_cst_0 : StableHlo.TRef sig ⟨S_, .f32⟩) (.of main_call9_v4 : StableHlo.TRef sig ⟨S523776x256, .f32⟩) (broadcastInDim S523776x256 ![] bcast_S_S523776x256),
    StableHlo.TRef.binary (.of main_call9_v4 : StableHlo.TRef sig ⟨S523776x256, .f32⟩) (.of main_call9_v3 : StableHlo.TRef sig ⟨S523776x256, .f32⟩) (.of main_call9_v5 : StableHlo.TRef sig ⟨S523776x256, .f32⟩) Host.divf,
    StableHlo.TRef.binary (.of main_v64 : StableHlo.TRef sig ⟨S523776x256, .f32⟩) (.of main_call9_v5 : StableHlo.TRef sig ⟨S523776x256, .f32⟩) (.of main_v65 : StableHlo.TRef sig ⟨S523776x256, .f32⟩) mulf ]
theorem opsBondSilu_sub : (opsBondSilu : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩
theorem opsBondSilu_fresh : (opsBondSilu : List (HloOp τ sig (Elt F))).Forall fun op => op.fresh = ∅ :=
  ⟨rfl, rfl, rfl, rfl, rfl, rfl, rfl, rfl, rfl⟩
/-- The references `opsBondSilu` writes, one per operation, in order. -/
abbrev wBondSilu : List (Ref sig .tc) :=
  [main_call9_v0, main_call9_v1, main_call9_cst, main_call9_v2, main_call9_v3, main_call9_cst_0, main_call9_v4, main_call9_v5, main_v65]

/-- The bond logits `silu(…) · Wb2 + bb2`: the second result. (4 operations.) -/
abbrev opsBondLogits : List (HloOp τ sig (Elt F)) :=
  [ StableHlo.binary main_v65 main_arg9 main_v66 ((fun l r => Host.dotGeneral dot_S523776x256_S256x5_S523776x5_1_0_0_1_n_n none l r) : (⟨S523776x256, .f32⟩ : BufTy).Contents (Elt F) → (⟨S256x5, .f32⟩ : BufTy).Contents (Elt F) → (⟨S523776x5, .f32⟩ : BufTy).Contents (Elt F)),
    StableHlo.unary main_arg10 main_v67 (broadcastInDim S1x5 ![1] bcast_S5_S1x5_1 : (⟨S5, .f32⟩ : BufTy).Contents (Elt F) → (⟨S1x5, .f32⟩ : BufTy).Contents (Elt F)),
    StableHlo.unary main_v67 main_v68 (broadcastInDim S523776x5 ![0, 1] bcast_S1x5_S523776x5_0_1 : (⟨S1x5, .f32⟩ : BufTy).Contents (Elt F) → (⟨S523776x5, .f32⟩ : BufTy).Contents (Elt F)),
    StableHlo.binary main_v66 main_v68 main_v69 (addf : (⟨S523776x5, .f32⟩ : BufTy).Contents (Elt F) → (⟨S523776x5, .f32⟩ : BufTy).Contents (Elt F) → (⟨S523776x5, .f32⟩ : BufTy).Contents (Elt F)) ]
theorem opsBondLogits_sub : (opsBondLogits : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
theorem opsBondLogits_fresh : (opsBondLogits : List (HloOp τ sig (Elt F))).Forall fun op => op.fresh = ∅ :=
  ⟨rfl, rfl, rfl, rfl⟩
/-- The references `opsBondLogits` writes, one per operation, in order. -/
abbrev wBondLogits : List (Ref sig .tc) :=
  [main_v66, main_v67, main_v68, main_v69]

/-- The valency head's hidden pre-activation `h · Wv1[0:256] + softmax · Wv1[256:375] + bv1`. (8 operations.) -/
abbrev opsValencyHidden : List (HloOp τ sig (Elt F)) :=
  [ StableHlo.unary main_arg11 main_v70 ((extractStridedSlice S256x256 ![0, 0] · slices_S375x256_S256x256_0_0) : (⟨S375x256, .f32⟩ : BufTy).Contents (Elt F) → (⟨S256x256, .f32⟩ : BufTy).Contents (Elt F)),
    StableHlo.binary main_arg0 main_v70 main_v71 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_arg11 main_v72 ((extractStridedSlice S119x256 ![256, 0] · slices_S375x256_S119x256_256_0) : (⟨S375x256, .f32⟩ : BufTy).Contents (Elt F) → (⟨S119x256, .f32⟩ : BufTy).Contents (Elt F)),
    StableHlo.binary main_v19 main_v72 main_v73 ((fun l r => Host.dotGeneral dot_S1024x119_S119x256_S1024x256_1_0_0_1_n_n none l r) : (⟨S1024x119, .f32⟩ : BufTy).Contents (Elt F) → (⟨S119x256, .f32⟩ : BufTy).Contents (Elt F) → (⟨S1024x256, .f32⟩ : BufTy).Contents (Elt F)),
    StableHlo.binary main_v71 main_v73 main_v74 (addf : (⟨S1024x256, .f32⟩ : BufTy).Contents (Elt F) → (⟨S1024x256, .f32⟩ : BufTy).Contents (Elt F) → (⟨S1024x256, .f32⟩ : BufTy).Contents (Elt F)),
    StableHlo.unary main_arg12 main_v75 (broadcastInDim S1x256 ![1] bcast_S256_S1x256_1 : (⟨S256, .f32⟩ : BufTy).Contents (Elt F) → (⟨S1x256, .f32⟩ : BufTy).Contents (Elt F)),
    StableHlo.unary main_v75 main_v76 (broadcastInDim S1024x256 ![0, 1] bcast_S1x256_S1024x256_0_1 : (⟨S1x256, .f32⟩ : BufTy).Contents (Elt F) → (⟨S1024x256, .f32⟩ : BufTy).Contents (Elt F)),
    StableHlo.binary main_v74 main_v76 main_v77 (addf : (⟨S1024x256, .f32⟩ : BufTy).Contents (Elt F) → (⟨S1024x256, .f32⟩ : BufTy).Contents (Elt F) → (⟨S1024x256, .f32⟩ : BufTy).Contents (Elt F)) ]
theorem opsValencyHidden_sub : (opsValencyHidden : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub ..⟩
theorem opsValencyHidden_fresh : (opsValencyHidden : List (HloOp τ sig (Elt F))).Forall fun op => op.fresh = ∅ :=
  ⟨rfl, rfl, rfl, rfl, rfl, rfl, rfl, rfl⟩
/-- The references `opsValencyHidden` writes, one per operation, in order. -/
abbrev wValencyHidden : List (Ref sig .tc) :=
  [main_v70, main_v71, main_v72, main_v73, main_v74, main_v75, main_v76, main_v77]

/-- `silu` of it. (9 operations.) -/
abbrev opsValencySilu : List (HloOp τ sig (Elt F)) :=
  [ StableHlo.TRef.unary (.of main_v77 : StableHlo.TRef sig ⟨S1024x256, .f32⟩) (.of main_call10_v0 : StableHlo.TRef sig ⟨S1024x256, .f32⟩) Host.negf,
    StableHlo.TRef.unary (.of main_call10_v0 : StableHlo.TRef sig ⟨S1024x256, .f32⟩) (.of main_call10_v1 : StableHlo.TRef sig ⟨S1024x256, .f32⟩) Host.exp,
    StableHlo.TRef.nullary (.of main_call10_cst : StableHlo.TRef sig ⟨S_, .f32⟩) (constant S_ .f32 0x3F800000#32),
    StableHlo.TRef.unary (.of main_call10_cst : StableHlo.TRef sig ⟨S_, .f32⟩) (.of main_call10_v2 : StableHlo.TRef sig ⟨S1024x256, .f32⟩) (broadcastInDim S1024x256 ![] bcast_S_S1024x256),
    StableHlo.TRef.binary (.of main_call10_v2 : StableHlo.TRef sig ⟨S1024x256, .f32⟩) (.of main_call10_v1 : StableHlo.TRef sig ⟨S1024x256, .f32⟩) (.of main_call10_v3 : StableHlo.TRef sig ⟨S1024x256, .f32⟩) addf,
    StableHlo.TRef.nullary (.of main_call10_cst_0 : StableHlo.TRef sig ⟨S_, .f32⟩) (constant S_ .f32 0x3F800000#32),
    StableHlo.TRef.unary (.of main_call10_cst_0 : StableHlo.TRef sig ⟨S_, .f32⟩) (.of main_call10_v4 : StableHlo.TRef sig ⟨S1024x256, .f32⟩) (broadcastInDim S1024x256 ![] bcast_S_S1024x256),
    StableHlo.TRef.binary (.of main_call10_v4 : StableHlo.TRef sig ⟨S1024x256, .f32⟩) (.of main_call10_v3 : StableHlo.TRef sig ⟨S1024x256, .f32⟩) (.of main_call10_v5 : StableHlo.TRef sig ⟨S1024x256, .f32⟩) Host.divf,
    StableHlo.TRef.binary (.of main_v77 : StableHlo.TRef sig ⟨S1024x256, .f32⟩) (.of main_call10_v5 : StableHlo.TRef sig ⟨S1024x256, .f32⟩) (.of main_v78 : StableHlo.TRef sig ⟨S1024x256, .f32⟩) mulf ]
theorem opsValencySilu_sub : (opsValencySilu : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩
theorem opsValencySilu_fresh : (opsValencySilu : List (HloOp τ sig (Elt F))).Forall fun op => op.fresh = ∅ :=
  ⟨rfl, rfl, rfl, rfl, rfl, rfl, rfl, rfl, rfl⟩
/-- The references `opsValencySilu` writes, one per operation, in order. -/
abbrev wValencySilu : List (Ref sig .tc) :=
  [main_call10_v0, main_call10_v1, main_call10_cst, main_call10_v2, main_call10_v3, main_call10_cst_0, main_call10_v4, main_call10_v5, main_v78]

/-- The valency scores `silu(…) · Wv2 + bv2`: the third result. (4 operations.) -/
abbrev opsValency : List (HloOp τ sig (Elt F)) :=
  [ StableHlo.binary main_v78 main_arg13 main_v79 ((fun l r => Host.dotGeneral dot_S1024x256_S256x1_S1024x1_1_0_0_1_n_n none l r) : (⟨S1024x256, .f32⟩ : BufTy).Contents (Elt F) → (⟨S256x1, .f32⟩ : BufTy).Contents (Elt F) → (⟨S1024x1, .f32⟩ : BufTy).Contents (Elt F)),
    StableHlo.unary main_arg14 main_v80 (broadcastInDim S1x1 ![1] bcast_S1_S1x1_1 : (⟨S1, .f32⟩ : BufTy).Contents (Elt F) → (⟨S1x1, .f32⟩ : BufTy).Contents (Elt F)),
    StableHlo.unary main_v80 main_v81 (broadcastInDim S1024x1 ![0, 1] bcast_S1x1_S1024x1_0_1 : (⟨S1x1, .f32⟩ : BufTy).Contents (Elt F) → (⟨S1024x1, .f32⟩ : BufTy).Contents (Elt F)),
    StableHlo.binary main_v79 main_v81 main_v82 (addf : (⟨S1024x1, .f32⟩ : BufTy).Contents (Elt F) → (⟨S1024x1, .f32⟩ : BufTy).Contents (Elt F) → (⟨S1024x1, .f32⟩ : BufTy).Contents (Elt F)) ]
theorem opsValency_sub : (opsValency : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
theorem opsValency_fresh : (opsValency : List (HloOp τ sig (Elt F))).Forall fun op => op.fresh = ∅ :=
  ⟨rfl, rfl, rfl, rfl⟩
/-- The references `opsValency` writes, one per operation, in order. -/
abbrev wValency : List (Ref sig .tc) :=
  [main_v79, main_v80, main_v81, main_v82]

/-- The operations of @main's statements 1 … 60 (its first printed window), 18 stretches. -/
abbrev ops0 : List (HloOp τ sig (Elt F)) :=
  opsAtomHidden ++ (opsAtomSilu ++ (opsAtomLogits ++ (opsSoftmax ++ (opsOnes ++ (opsTriu ++ (opsTriuMask ++ (opsCumsumMask ++ (opsScatterInit ++ (opsClip ++ (opsScatter ++ (opsCumsumScatter ++ (opsRowQuot ++ (opsRowIndex ++ (opsColQuot ++ (opsColIndex ++ (opsPairIndex ++ opsRowNegative))))))))))))))))
/-- The operations of @main's statements 61 … 102 (its second printed window), 10 stretches. -/
abbrev ops1 : List (HloOp τ sig (Elt F)) :=
  opsGatherRow ++ (opsRowProj ++ (opsGatherCol ++ (opsColProj ++ (opsBondHidden ++ (opsBondSilu ++ (opsBondLogits ++ (opsValencyHidden ++ (opsValencySilu ++ opsValency))))))))
/-- @main's 211 operations, in program order. -/
abbrev ops : List (HloOp τ sig (Elt F)) := ops0 ++ ops1

/-- Every reference @main writes: one per operation, in program order. -/
abbrev written : List (Ref sig .tc) :=
  wAtomHidden ++ (wAtomSilu ++ (wAtomLogits ++ (wSoftmax ++ (wOnes ++ (wTriu ++ (wTriuMask ++ (wCumsumMask ++ (wScatterInit ++ (wClip ++ (wScatter ++ (wCumsumScatter ++ (wRowQuot ++ (wRowIndex ++ (wColQuot ++ (wColIndex ++ (wPairIndex ++ (wRowNegative ++ (wGatherRow ++ (wRowProj ++ (wGatherCol ++ (wColProj ++ (wBondHidden ++ (wBondSilu ++ (wBondLogits ++ (wValencyHidden ++ (wValencySilu ++ wValency))))))))))))))))))))))))))

end Cert.ReferenceIdeal.Hand

end
-- ==== Proof.ReferenceRun.Eq.lean ====
/- @main is its operations run in order. A program here is a tree of effect requests and sequencing grafts the
   continuation onto every leaf, so a call of a module-local function followed by the rest of @main IS the callee's
   statements followed by the rest: unfolding each callee at its call (the call's record of buffers at its fields)
   and reassociating the sequencing leaves one chain of operation steps, the chain `seq` unfolds to over the list.
   The printed program is two windows run one after the other; each is proved equal to its own list, and the
   two lists' concatenation run as one line is the two lines in a row (`seq_append`). -/
import proofs.«122468_j35184372089134_1_alg».proof.Proof.ReferenceRun.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- one hundred and fifty-four steps re-associated: the rewrite under the chain recurses once per step
set_option maxRecDepth 16384 in
set_option maxHeartbeats 4000000 in
/-- The first window (statements 1 … 60, nine calls, six of them calling a further function) is the line of its 154 operations. -/
theorem main_part0_eq (c : Dev nD) : main_part0 (F := F) c = seq ops0 := by
  simp only [main_part0, fn_silu.body, fn_triu.body, fn_cumsum.body, fn_cumsum_0.body, fn_clip.body, fn_cumsum_1.body,
    fn_cumsum_2.body, fn_floor_divide.body, fn_where.body, fn_remainder.body, fn_where_3.body, bind_assoc, pure_bind]
  rfl

set_option maxRecDepth 16384 in
set_option maxHeartbeats 4000000 in
/-- The second window (statements 61 … 102, two calls) is the line of its 57 operations. -/
theorem main_part1_eq (c : Dev nD) : main_part1 (F := F) c = seq ops1 := by
  simp only [main_part1, fn_silu_4.body, fn_silu_5.body, bind_assoc, pure_bind]
  rfl

/-- @main is the line of its 211 operations. -/
theorem main_eq (c : Dev nD) : main (F := F) c = seq ops :=
  show main_part0 (F := F) c >>= (fun _ => main_part1 (F := F) c) = seq (ops0 ++ ops1) by
    rw [seq_append, main_part0_eq, main_part1_eq]

end Cert.ReferenceIdeal.Hand

end
-- ==== Proof.ReferenceRun.Writes.lean ====
/- What the reference's operations write. Each operation writes exactly one buffer, that of the value it defines;
   listed stretch by stretch these are the lists `w…` beside the operations. A buffer outside a stretch's list is
   therefore left as it was by the whole stretch, and one outside every list — each of the fifteen arguments — by
   the whole program. -/
import proofs.«122468_j35184372089134_1_alg».proof.Proof.ReferenceRun.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The singleton of a reference's device buffer: what an operation defining one value writes. -/
abbrev single (y : Ref sig .tc) : Finset (DevRef τ sig) := {Proc.devRef (τ := τ) .tc y}

/-- If the operations of a line write, one by one, the singletons of the references of a list, then every
    operation's written set lies in the list (as a set of device buffers). -/
theorem writes_sub_of_map_eq {l : List (HloOp τ sig (Elt F))} {W : List (Ref sig .tc)}
    (h : l.map HloOp.writes = W.map single) :
    l.Forall fun op => op.writes ⊆ (W.map (Proc.devRef (τ := τ) .tc)).toFinset := by
  rw [List.forall_iff_forall_mem]
  intro op hop
  have hmem : op.writes ∈ W.map single := h ▸ List.mem_map_of_mem hop
  obtain ⟨y, hy, hyw⟩ := List.mem_map.mp hmem
  rw [← hyw]
  exact Finset.singleton_subset_iff.mpr (List.mem_toFinset.mpr (List.mem_map_of_mem hy))

/-- A reference outside the list a line writes keeps its contents through the line. -/
theorem kept_of_writes {l : List (HloOp τ sig (Elt F))} {W : List (Ref sig .tc)}
    (h : l.map HloOp.writes = W.map single) {r : Ref sig .tc} (hr : r ∉ W) (V : Valuation τ sig (Elt F)) :
    after l V (r : DevRef τ sig) = V (r : DevRef τ sig) :=
  after_of_writes_sub l V (writes_sub_of_map_eq h) hr

/-! ## Stretch by stretch: operation `k` writes reference `k` (each side computes to the same literal list) -/

theorem opsAtomHidden_writes : (opsAtomHidden : List (HloOp τ sig (Elt F))).map HloOp.writes = wAtomHidden.map single := rfl
theorem opsAtomSilu_writes : (opsAtomSilu : List (HloOp τ sig (Elt F))).map HloOp.writes = wAtomSilu.map single := rfl
theorem opsAtomLogits_writes : (opsAtomLogits : List (HloOp τ sig (Elt F))).map HloOp.writes = wAtomLogits.map single := rfl
theorem opsSoftmax_writes : (opsSoftmax : List (HloOp τ sig (Elt F))).map HloOp.writes = wSoftmax.map single := rfl
theorem opsOnes_writes : (opsOnes : List (HloOp τ sig (Elt F))).map HloOp.writes = wOnes.map single := rfl
theorem opsTriu_writes : (opsTriu : List (HloOp τ sig (Elt F))).map HloOp.writes = wTriu.map single := rfl
theorem opsTriuMask_writes : (opsTriuMask : List (HloOp τ sig (Elt F))).map HloOp.writes = wTriuMask.map single := rfl
theorem opsCumsumMask_writes : (opsCumsumMask : List (HloOp τ sig (Elt F))).map HloOp.writes = wCumsumMask.map single := rfl
theorem opsScatterInit_writes : (opsScatterInit : List (HloOp τ sig (Elt F))).map HloOp.writes = wScatterInit.map single := rfl
theorem opsClip_writes : (opsClip : List (HloOp τ sig (Elt F))).map HloOp.writes = wClip.map single := rfl
theorem opsScatter_writes : (opsScatter : List (HloOp τ sig (Elt F))).map HloOp.writes = wScatter.map single := rfl
theorem opsCumsumScatter_writes : (opsCumsumScatter : List (HloOp τ sig (Elt F))).map HloOp.writes = wCumsumScatter.map single := rfl
theorem opsRowQuot_writes : (opsRowQuot : List (HloOp τ sig (Elt F))).map HloOp.writes = wRowQuot.map single := rfl
theorem opsRowIndex_writes : (opsRowIndex : List (HloOp τ sig (Elt F))).map HloOp.writes = wRowIndex.map single := rfl
theorem opsColQuot_writes : (opsColQuot : List (HloOp τ sig (Elt F))).map HloOp.writes = wColQuot.map single := rfl
theorem opsColIndex_writes : (opsColIndex : List (HloOp τ sig (Elt F))).map HloOp.writes = wColIndex.map single := rfl
theorem opsPairIndex_writes : (opsPairIndex : List (HloOp τ sig (Elt F))).map HloOp.writes = wPairIndex.map single := rfl
theorem opsRowNegative_writes : (opsRowNegative : List (HloOp τ sig (Elt F))).map HloOp.writes = wRowNegative.map single := rfl
theorem opsGatherRow_writes : (opsGatherRow : List (HloOp τ sig (Elt F))).map HloOp.writes = wGatherRow.map single := rfl
theorem opsRowProj_writes : (opsRowProj : List (HloOp τ sig (Elt F))).map HloOp.writes = wRowProj.map single := rfl
theorem opsGatherCol_writes : (opsGatherCol : List (HloOp τ sig (Elt F))).map HloOp.writes = wGatherCol.map single := rfl
theorem opsColProj_writes : (opsColProj : List (HloOp τ sig (Elt F))).map HloOp.writes = wColProj.map single := rfl
theorem opsBondHidden_writes : (opsBondHidden : List (HloOp τ sig (Elt F))).map HloOp.writes = wBondHidden.map single := rfl
theorem opsBondSilu_writes : (opsBondSilu : List (HloOp τ sig (Elt F))).map HloOp.writes = wBondSilu.map single := rfl
theorem opsBondLogits_writes : (opsBondLogits : List (HloOp τ sig (Elt F))).map HloOp.writes = wBondLogits.map single := rfl
theorem opsValencyHidden_writes : (opsValencyHidden : List (HloOp τ sig (Elt F))).map HloOp.writes = wValencyHidden.map single := rfl
theorem opsValencySilu_writes : (opsValencySilu : List (HloOp τ sig (Elt F))).map HloOp.writes = wValencySilu.map single := rfl
theorem opsValency_writes : (opsValency : List (HloOp τ sig (Elt F))).map HloOp.writes = wValency.map single := rfl

/-! ## A reference a stretch does not write passes through it -/

theorem opsAtomHidden_kept {r : Ref sig .tc} (hr : r ∉ wAtomHidden) (V : Valuation τ sig (Elt F)) :
    after opsAtomHidden V (r : DevRef τ sig) = V (r : DevRef τ sig) := kept_of_writes opsAtomHidden_writes hr V
theorem opsAtomSilu_kept {r : Ref sig .tc} (hr : r ∉ wAtomSilu) (V : Valuation τ sig (Elt F)) :
    after opsAtomSilu V (r : DevRef τ sig) = V (r : DevRef τ sig) := kept_of_writes opsAtomSilu_writes hr V
theorem opsAtomLogits_kept {r : Ref sig .tc} (hr : r ∉ wAtomLogits) (V : Valuation τ sig (Elt F)) :
    after opsAtomLogits V (r : DevRef τ sig) = V (r : DevRef τ sig) := kept_of_writes opsAtomLogits_writes hr V
theorem opsSoftmax_kept {r : Ref sig .tc} (hr : r ∉ wSoftmax) (V : Valuation τ sig (Elt F)) :
    after opsSoftmax V (r : DevRef τ sig) = V (r : DevRef τ sig) := kept_of_writes opsSoftmax_writes hr V
theorem opsOnes_kept {r : Ref sig .tc} (hr : r ∉ wOnes) (V : Valuation τ sig (Elt F)) :
    after opsOnes V (r : DevRef τ sig) = V (r : DevRef τ sig) := kept_of_writes opsOnes_writes hr V
theorem opsTriu_kept {r : Ref sig .tc} (hr : r ∉ wTriu) (V : Valuation τ sig (Elt F)) :
    after opsTriu V (r : DevRef τ sig) = V (r : DevRef τ sig) := kept_of_writes opsTriu_writes hr V
theorem opsTriuMask_kept {r : Ref sig .tc} (hr : r ∉ wTriuMask) (V : Valuation τ sig (Elt F)) :
    after opsTriuMask V (r : DevRef τ sig) = V (r : DevRef τ sig) := kept_of_writes opsTriuMask_writes hr V
theorem opsCumsumMask_kept {r : Ref sig .tc} (hr : r ∉ wCumsumMask) (V : Valuation τ sig (Elt F)) :
    after opsCumsumMask V (r : DevRef τ sig) = V (r : DevRef τ sig) := kept_of_writes opsCumsumMask_writes hr V
theorem opsScatterInit_kept {r : Ref sig .tc} (hr : r ∉ wScatterInit) (V : Valuation τ sig (Elt F)) :
    after opsScatterInit V (r : DevRef τ sig) = V (r : DevRef τ sig) := kept_of_writes opsScatterInit_writes hr V
theorem opsClip_kept {r : Ref sig .tc} (hr : r ∉ wClip) (V : Valuation τ sig (Elt F)) :
    after opsClip V (r : DevRef τ sig) = V (r : DevRef τ sig) := kept_of_writes opsClip_writes hr V
theorem opsScatter_kept {r : Ref sig .tc} (hr : r ∉ wScatter) (V : Valuation τ sig (Elt F)) :
    after opsScatter V (r : DevRef τ sig) = V (r : DevRef τ sig) := kept_of_writes opsScatter_writes hr V
theorem opsCumsumScatter_kept {r : Ref sig .tc} (hr : r ∉ wCumsumScatter) (V : Valuation τ sig (Elt F)) :
    after opsCumsumScatter V (r : DevRef τ sig) = V (r : DevRef τ sig) := kept_of_writes opsCumsumScatter_writes hr V
theorem opsRowQuot_kept {r : Ref sig .tc} (hr : r ∉ wRowQuot) (V : Valuation τ sig (Elt F)) :
    after opsRowQuot V (r : DevRef τ sig) = V (r : DevRef τ sig) := kept_of_writes opsRowQuot_writes hr V
theorem opsRowIndex_kept {r : Ref sig .tc} (hr : r ∉ wRowIndex) (V : Valuation τ sig (Elt F)) :
    after opsRowIndex V (r : DevRef τ sig) = V (r : DevRef τ sig) := kept_of_writes opsRowIndex_writes hr V
theorem opsColQuot_kept {r : Ref sig .tc} (hr : r ∉ wColQuot) (V : Valuation τ sig (Elt F)) :
    after opsColQuot V (r : DevRef τ sig) = V (r : DevRef τ sig) := kept_of_writes opsColQuot_writes hr V
theorem opsColIndex_kept {r : Ref sig .tc} (hr : r ∉ wColIndex) (V : Valuation τ sig (Elt F)) :
    after opsColIndex V (r : DevRef τ sig) = V (r : DevRef τ sig) := kept_of_writes opsColIndex_writes hr V
theorem opsPairIndex_kept {r : Ref sig .tc} (hr : r ∉ wPairIndex) (V : Valuation τ sig (Elt F)) :
    after opsPairIndex V (r : DevRef τ sig) = V (r : DevRef τ sig) := kept_of_writes opsPairIndex_writes hr V
theorem opsRowNegative_kept {r : Ref sig .tc} (hr : r ∉ wRowNegative) (V : Valuation τ sig (Elt F)) :
    after opsRowNegative V (r : DevRef τ sig) = V (r : DevRef τ sig) := kept_of_writes opsRowNegative_writes hr V
theorem opsGatherRow_kept {r : Ref sig .tc} (hr : r ∉ wGatherRow) (V : Valuation τ sig (Elt F)) :
    after opsGatherRow V (r : DevRef τ sig) = V (r : DevRef τ sig) := kept_of_writes opsGatherRow_writes hr V
theorem opsRowProj_kept {r : Ref sig .tc} (hr : r ∉ wRowProj) (V : Valuation τ sig (Elt F)) :
    after opsRowProj V (r : DevRef τ sig) = V (r : DevRef τ sig) := kept_of_writes opsRowProj_writes hr V
theorem opsGatherCol_kept {r : Ref sig .tc} (hr : r ∉ wGatherCol) (V : Valuation τ sig (Elt F)) :
    after opsGatherCol V (r : DevRef τ sig) = V (r : DevRef τ sig) := kept_of_writes opsGatherCol_writes hr V
theorem opsColProj_kept {r : Ref sig .tc} (hr : r ∉ wColProj) (V : Valuation τ sig (Elt F)) :
    after opsColProj V (r : DevRef τ sig) = V (r : DevRef τ sig) := kept_of_writes opsColProj_writes hr V
theorem opsBondHidden_kept {r : Ref sig .tc} (hr : r ∉ wBondHidden) (V : Valuation τ sig (Elt F)) :
    after opsBondHidden V (r : DevRef τ sig) = V (r : DevRef τ sig) := kept_of_writes opsBondHidden_writes hr V
theorem opsBondSilu_kept {r : Ref sig .tc} (hr : r ∉ wBondSilu) (V : Valuation τ sig (Elt F)) :
    after opsBondSilu V (r : DevRef τ sig) = V (r : DevRef τ sig) := kept_of_writes opsBondSilu_writes hr V
theorem opsBondLogits_kept {r : Ref sig .tc} (hr : r ∉ wBondLogits) (V : Valuation τ sig (Elt F)) :
    after opsBondLogits V (r : DevRef τ sig) = V (r : DevRef τ sig) := kept_of_writes opsBondLogits_writes hr V
theorem opsValencyHidden_kept {r : Ref sig .tc} (hr : r ∉ wValencyHidden) (V : Valuation τ sig (Elt F)) :
    after opsValencyHidden V (r : DevRef τ sig) = V (r : DevRef τ sig) := kept_of_writes opsValencyHidden_writes hr V
theorem opsValencySilu_kept {r : Ref sig .tc} (hr : r ∉ wValencySilu) (V : Valuation τ sig (Elt F)) :
    after opsValencySilu V (r : DevRef τ sig) = V (r : DevRef τ sig) := kept_of_writes opsValencySilu_writes hr V
theorem opsValency_kept {r : Ref sig .tc} (hr : r ∉ wValency) (V : Valuation τ sig (Elt F)) :
    after opsValency V (r : DevRef τ sig) = V (r : DevRef τ sig) := kept_of_writes opsValency_writes hr V

/-! ## The whole program -/

/-- Operation `k` of @main writes reference `k` of `written`. -/
theorem ops_writes : (ops : List (HloOp τ sig (Elt F))).map HloOp.writes = written.map single := by
  simp only [ops, ops0, ops1, written, List.map_append, List.append_assoc,
    opsAtomHidden_writes, opsAtomSilu_writes, opsAtomLogits_writes, opsSoftmax_writes, opsOnes_writes,
    opsTriu_writes, opsTriuMask_writes, opsCumsumMask_writes, opsScatterInit_writes, opsClip_writes,
    opsScatter_writes, opsCumsumScatter_writes, opsRowQuot_writes, opsRowIndex_writes, opsColQuot_writes,
    opsColIndex_writes, opsPairIndex_writes, opsRowNegative_writes, opsGatherRow_writes, opsRowProj_writes,
    opsGatherCol_writes, opsColProj_writes, opsBondHidden_writes, opsBondSilu_writes, opsBondLogits_writes,
    opsValencyHidden_writes, opsValencySilu_writes, opsValency_writes]

/-- A reference @main never writes holds at the end what it held at launch. -/
theorem kept_of_not_written {r : Ref sig .tc} (hr : r ∉ written) (V : Valuation τ sig (Elt F)) :
    after ops V (r : DevRef τ sig) = V (r : DevRef τ sig) := kept_of_writes ops_writes hr V

/-! ## The arguments: no value @main defines is one of them -/

theorem arg0_kept (V : Valuation τ sig (Elt F)) :
    after ops V (main_arg0 : DevRef τ sig) = V (main_arg0 : DevRef τ sig) := kept_of_not_written (by decide) V
theorem arg1_kept (V : Valuation τ sig (Elt F)) :
    after ops V (main_arg1 : DevRef τ sig) = V (main_arg1 : DevRef τ sig) := kept_of_not_written (by decide) V
theorem arg2_kept (V : Valuation τ sig (Elt F)) :
    after ops V (main_arg2 : DevRef τ sig) = V (main_arg2 : DevRef τ sig) := kept_of_not_written (by decide) V
theorem arg3_kept (V : Valuation τ sig (Elt F)) :
    after ops V (main_arg3 : DevRef τ sig) = V (main_arg3 : DevRef τ sig) := kept_of_not_written (by decide) V
theorem arg4_kept (V : Valuation τ sig (Elt F)) :
    after ops V (main_arg4 : DevRef τ sig) = V (main_arg4 : DevRef τ sig) := kept_of_not_written (by decide) V
theorem arg5_kept (V : Valuation τ sig (Elt F)) :
    after ops V (main_arg5 : DevRef τ sig) = V (main_arg5 : DevRef τ sig) := kept_of_not_written (by decide) V
theorem arg6_kept (V : Valuation τ sig (Elt F)) :
    after ops V (main_arg6 : DevRef τ sig) = V (main_arg6 : DevRef τ sig) := kept_of_not_written (by decide) V
theorem arg7_kept (V : Valuation τ sig (Elt F)) :
    after ops V (main_arg7 : DevRef τ sig) = V (main_arg7 : DevRef τ sig) := kept_of_not_written (by decide) V
theorem arg8_kept (V : Valuation τ sig (Elt F)) :
    after ops V (main_arg8 : DevRef τ sig) = V (main_arg8 : DevRef τ sig) := kept_of_not_written (by decide) V
theorem arg9_kept (V : Valuation τ sig (Elt F)) :
    after ops V (main_arg9 : DevRef τ sig) = V (main_arg9 : DevRef τ sig) := kept_of_not_written (by decide) V
theorem arg10_kept (V : Valuation τ sig (Elt F)) :
    after ops V (main_arg10 : DevRef τ sig) = V (main_arg10 : DevRef τ sig) := kept_of_not_written (by decide) V
theorem arg11_kept (V : Valuation τ sig (Elt F)) :
    after ops V (main_arg11 : DevRef τ sig) = V (main_arg11 : DevRef τ sig) := kept_of_not_written (by decide) V
theorem arg12_kept (V : Valuation τ sig (Elt F)) :
    after ops V (main_arg12 : DevRef τ sig) = V (main_arg12 : DevRef τ sig) := kept_of_not_written (by decide) V
theorem arg13_kept (V : Valuation τ sig (Elt F)) :
    after ops V (main_arg13 : DevRef τ sig) = V (main_arg13 : DevRef τ sig) := kept_of_not_written (by decide) V
theorem arg14_kept (V : Valuation τ sig (Elt F)) :
    after ops V (main_arg14 : DevRef τ sig) = V (main_arg14 : DevRef τ sig) := kept_of_not_written (by decide) V

end Cert.ReferenceIdeal.Hand

end
-- ==== Proof.ReferenceRun.lean ====
/- The run of the reference program. Its @main is a straight line of host operations once each call of a
   module-local function is replaced by the callee's body over the call's buffers (`ReferenceRun/Ops.lean` lists
   them, `ReferenceRun/Eq.lean` proves @main is that line). A straight line over tensor values runs to the end
   from any memory with zero counters and leaves each buffer at the fold of the operations' results over the launch
   contents (`run_seq`); a buffer no operation writes keeps its launch contents (`ReferenceRun/Writes.lean`), and
   the fifteen arguments are such buffers. -/
import proofs.«122468_j35184372089134_1_alg».proof.Proof.ReferenceRun.Eq
import proofs.«122468_j35184372089134_1_alg».proof.Proof.ReferenceRun.Writes

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The side conditions of the run -/

/-- Every operation of @main touches TensorCore references only: the operations of each stretch do, and @main's are the
    stretches' in a row. -/
theorem ops_sub : (ops : List (HloOp τ sig (Elt F))).Forall fun op => op.bufs ⊆ tcRefs τ sig := by
  simp only [ops, ops0, ops1, List.forall_append, and_assoc]
  exact ⟨opsAtomHidden_sub, opsAtomSilu_sub, opsAtomLogits_sub, opsSoftmax_sub, opsOnes_sub, opsTriu_sub,
    opsTriuMask_sub, opsCumsumMask_sub, opsScatterInit_sub, opsClip_sub, opsScatter_sub, opsCumsumScatter_sub,
    opsRowQuot_sub, opsRowIndex_sub, opsColQuot_sub, opsColIndex_sub, opsPairIndex_sub, opsRowNegative_sub,
    opsGatherRow_sub, opsRowProj_sub, opsGatherCol_sub, opsColProj_sub, opsBondHidden_sub, opsBondSilu_sub,
    opsBondLogits_sub, opsValencyHidden_sub, opsValencySilu_sub, opsValency_sub⟩

/-- No operation of @main allocates a buffer: each determines its result from its operands. -/
theorem ops_fresh : (ops : List (HloOp τ sig (Elt F))).Forall fun op => op.fresh = ∅ := by
  simp only [ops, ops0, ops1, List.forall_append, and_assoc]
  exact ⟨opsAtomHidden_fresh, opsAtomSilu_fresh, opsAtomLogits_fresh, opsSoftmax_fresh, opsOnes_fresh, opsTriu_fresh,
    opsTriuMask_fresh, opsCumsumMask_fresh, opsScatterInit_fresh, opsClip_fresh, opsScatter_fresh,
    opsCumsumScatter_fresh, opsRowQuot_fresh, opsRowIndex_fresh, opsColQuot_fresh, opsColIndex_fresh,
    opsPairIndex_fresh, opsRowNegative_fresh, opsGatherRow_fresh, opsRowProj_fresh, opsGatherCol_fresh,
    opsColProj_fresh, opsBondHidden_fresh, opsBondSilu_fresh, opsBondLogits_fresh, opsValencyHidden_fresh,
    opsValencySilu_fresh, opsValency_fresh⟩

/-- The signature scopes no TensorCore buffer (every buffer is a tensor value's, live across the program). -/
theorem scopedRefs_eq : (Finset.univ.filter fun b : Ref sig .tc => b.isScoped) = ∅ := by decide
/-- The signature has no semaphore. -/
theorem scopedSems_eq : (Finset.univ.filter fun sm : SemLoc sig => sm.isScoped .tc) = ∅ := by decide

/-! ## The run -/

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-- The frame: the run ends, and each of the fifteen arguments holds at the end what it held at launch. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c main_arg0).trans (arg0_kept _),
     (h c main_arg1).trans (arg1_kept _),
     (h c main_arg2).trans (arg2_kept _),
     (h c main_arg3).trans (arg3_kept _),
     (h c main_arg4).trans (arg4_kept _),
     (h c main_arg5).trans (arg5_kept _),
     (h c main_arg6).trans (arg6_kept _),
     (h c main_arg7).trans (arg7_kept _),
     (h c main_arg8).trans (arg8_kept _),
     (h c main_arg9).trans (arg9_kept _),
     (h c main_arg10).trans (arg10_kept _),
     (h c main_arg11).trans (arg11_kept _),
     (h c main_arg12).trans (arg12_kept _),
     (h c main_arg13).trans (arg13_kept _),
     (h c main_arg14).trans (arg14_kept _)⟩)
    (run_main m ρ)

end Cert.ReferenceIdeal.Hand

end
-- ==== Proof.BondScore.lean ====
/-
  The bond score of an ordered pair of atoms, over the extended reals.

  With h the 1024 × 256 atom features, W₁ the 512 × 256 first-layer weights (rows 0–255 act on the first atom of a pair,
  rows 256–511 on the second), b₁ its bias, W₂ the 256 × 5 second-layer weights and b₂ its bias, the score of pair (i, j) in
  bond class k is

      ∑_d silu ((∑_e h[i, e] · W₁[e, d]  +  b₁[d])  +  ∑_e h[j, e] · W₁[256 + e, d]) · W₂[d, k]  +  b₂[k].

  Adding the bias to the first atom's projection before the second atom's projection, or after both, is the same number:
  addition of extended reals is commutative and associative also at ±∞, so no finiteness is needed for that step.
-/
import Idealize.ShloMosaic.PureOps.Ideal
import Idealize.ShloMosaic.Lib.ValueIdx

noncomputable section

namespace Cert.BondScore

open Idealize.ShloMosaic Idealize.ShloMosaic.ValueIdx

/-- silu on the extended reals: x · 1 / (1 + e^(−x)). -/
def silu (x : EReal) : EReal := x * Ideal.logistic x

/-- Atom i's features projected by 256 consecutive rows of the first-layer weights, starting at row `off`. -/
def proj (h : (⟨2, ![1024, 256]⟩ : Shape).Idx → EReal) (W₁ : (⟨2, ![512, 256]⟩ : Shape).Idx → EReal) (off : Nat) (hoff : off + 256 ≤ 512)
    (i : Fin 1024) (d : Fin 256) : EReal :=
  ∑ e : Fin 256, h (ix2 i e) * W₁ (ix2 ⟨off + e.val, by have := e.isLt; omega⟩ d)

/-- The score of pair (i, j) in class k, the bias joined to the first atom's projection. -/
def score (h : (⟨2, ![1024, 256]⟩ : Shape).Idx → EReal) (W₁ : (⟨2, ![512, 256]⟩ : Shape).Idx → EReal) (b₁ : (⟨1, ![256]⟩ : Shape).Idx → EReal)
    (W₂ : (⟨2, ![256, 5]⟩ : Shape).Idx → EReal) (b₂ : (⟨1, ![5]⟩ : Shape).Idx → EReal) (i j : Fin 1024) (k : Fin 5) : EReal :=
  (∑ d : Fin 256, silu ((proj h W₁ 0 (by omega) i d + b₁ (ix1 d)) + proj h W₁ 256 (by omega) j d) * W₂ (ix2 d k)) + b₂ (ix1 k)

/-- The same score with the bias joined after both projections. -/
theorem score_eq_late_bias (h : (⟨2, ![1024, 256]⟩ : Shape).Idx → EReal) (W₁ : (⟨2, ![512, 256]⟩ : Shape).Idx → EReal)
    (b₁ : (⟨1, ![256]⟩ : Shape).Idx → EReal) (W₂ : (⟨2, ![256, 5]⟩ : Shape).Idx → EReal) (b₂ : (⟨1, ![5]⟩ : Shape).Idx → EReal)
    (i j : Fin 1024) (k : Fin 5) :
    score h W₁ b₁ W₂ b₂ i j k
      = (∑ d : Fin 256, silu ((proj h W₁ 0 (by omega) i d + proj h W₁ 256 (by omega) j d) + b₁ (ix1 d)) * W₂ (ix2 d k)) + b₂ (ix1 k) := by
  unfold score
  congr 1
  refine Finset.sum_congr rfl fun d _ => ?_
  rw [add_right_comm]

end Cert.BondScore

end
-- ==== Proof.BondBlock.lean ====
/-
  One block of the pairwise bond scores, entry by entry, over the extended reals.

  A block takes 32 rows `x0` of the first projection, 128 rows `x1` of the second, the 256 × 5 output weights `x2` and the
  output bias `x3`. Its entry at (a, b, k) is

      ∑_d silu (x0[a, d] + x1[b, d]) · x2[d, k]  +  x3[0, k],        silu x = x · 1 / (1 + e^(−x)).

  The body reaches it through layout steps only: the two row blocks are spread along a new middle / leading axis and added,
  silu is taken pointwise, the 32 × 128 pairs are flattened to 4096 rows (row 128·a + b), multiplied into the weights with a
  zero accumulator, the bias row is added to every row, and the rows are unflattened. A change of float format is the
  identity on the extended reals, and the matrix product is the plain sum over the 256 hidden coordinates.
-/
import proofs.«122468_j35184372089134_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«122468_j35184372089134_1_alg».proof.Proof.BondScore

noncomputable section

namespace Cert.KernelIdeal.BondBlock

open Idealize.ShloMosaic Idealize.ShloMosaic.ValueIdx Cert.KernelIdeal Cert.KernelIdeal.Gen Cert.BondScore

variable {α : Type}

/-- Row 128·a + b of the flattened pair axis: pair (a, b) of a 32 × 128 block. -/
def pairRow (a : Fin 32) (b : Fin 128) : Fin 4096 := ⟨128 * a.val + b.val, by omega⟩

/-- Unflattening 4096 rows into 32 × 128 pairs reads row 128·a + b at pair (a, b). -/
theorem unflatten_apply (v : S4096x5.Idx → α) (h : S4096x5.ShapeCasts S32x128x5) (a : Fin 32) (b : Fin 128) (k : Fin 5) :
    shapeCast S32x128x5 v h (ix3 a b k) = v (ix2 (pairRow a b) k) := by
  refine shapeCast_apply v h _ _ ?_
  rw [Shape.rowMajor_val_two, Shape.rowMajor_val_three]
  show (128 * a.val + b.val) * 5 + k.val = (a.val * 128 + b.val) * 5 + k.val
  omega

/-- Flattening 32 × 128 pairs into 4096 rows puts pair (a, b) at row 128·a + b. -/
theorem flatten_apply (v : S32x128x256.Idx → α) (h : S32x128x256.ShapeCasts S4096x256) (a : Fin 32) (b : Fin 128) (d : Fin 256) :
    shapeCast S4096x256 v h (ix2 (pairRow a b) d) = v (ix3 a b d) := by
  refine shapeCast_apply v h _ _ ?_
  rw [Shape.rowMajor_val_two, Shape.rowMajor_val_three]
  show (a.val * 128 + b.val) * 256 + d.val = (128 * a.val + b.val) * 256 + d.val
  omega

/-- A unit middle axis added to 32 rows of 256: entry (a, 0, d) is entry (a, d). -/
theorem rowAxis_apply (v : S32x256.Idx → α) (h : S32x256.ShapeCasts S32x1x256) (a : Fin 32) (d : Fin 256) :
    shapeCast S32x1x256 v h (ix3 a 0 d) = v (ix2 a d) := by
  refine shapeCast_apply v h _ _ ?_
  rw [Shape.rowMajor_val_two, Shape.rowMajor_val_three]
  show a.val * 256 + d.val = (a.val * 1 + 0) * 256 + d.val
  omega

/-- A unit leading axis added to 128 rows of 256: entry (0, b, d) is entry (b, d). -/
theorem colAxis_apply (v : S128x256.Idx → α) (h : S128x256.ShapeCasts S1x128x256) (b : Fin 128) (d : Fin 256) :
    shapeCast S1x128x256 v h (ix3 0 b d) = v (ix2 b d) := by
  refine shapeCast_apply v h _ _ ?_
  rw [Shape.rowMajor_val_two, Shape.rowMajor_val_three]
  show b.val * 256 + d.val = (0 * 128 + b.val) * 256 + d.val
  omega

/-- Spreading along the unit middle axis forgets the middle coordinate. -/
theorem spreadRows_apply (v : S32x1x256.Idx → α) (h : S32x1x256.Broadcasts S32x128x256) (a : Fin 32) (b : Fin 128) (d : Fin 256) :
    broadcastTo S32x128x256 v h (ix3 a b d) = v (ix3 a 0 d) := by
  refine broadcastTo_apply v h _ _ fun x => ?_
  match x with
  | ⟨0, _⟩ => rfl
  | ⟨1, _⟩ => rfl
  | ⟨2, _⟩ => rfl

/-- Spreading along the unit leading axis forgets the leading coordinate. -/
theorem spreadCols_apply (v : S1x128x256.Idx → α) (h : S1x128x256.Broadcasts S32x128x256) (a : Fin 32) (b : Fin 128) (d : Fin 256) :
    broadcastTo S32x128x256 v h (ix3 a b d) = v (ix3 0 b d) := by
  refine broadcastTo_apply v h _ _ fun x => ?_
  match x with
  | ⟨0, _⟩ => rfl
  | ⟨1, _⟩ => rfl
  | ⟨2, _⟩ => rfl

/-- The bias row spread over all 4096 rows: every row reads row 0. -/
theorem spreadBias_apply (v : S1x5.Idx → α) (h : S1x5.Broadcasts S4096x5) (r : Fin 4096) (k : Fin 5) :
    broadcastTo S4096x5 v h (ix2 r k) = v (ix2 0 k) := by
  refine broadcastTo_apply v h _ _ fun x => ?_
  match x with
  | ⟨0, _⟩ => rfl
  | ⟨1, _⟩ => rfl

/-- The block's matrix product into a zero accumulator is the plain sum over the 256 hidden coordinates: the contraction
    index has one axis of extent 256, the left operand is read at (r, d) and the right one at (d, k). -/
theorem product_apply (L : FVec Ideal S4096x256 .bf16) (R : FVec Ideal S256x5 .bf16) (r : Fin 4096) (k : Fin 5) :
    matmul dot_S4096x256_S256x5_S4096x5_1_0_0_1_n_n none L R (constant S4096x5 .f32 0x00000000#32) (ix2 r k)
      = ∑ d : Fin 256, L (ix2 r d) * R (ix2 d k) := by
  simp only [matmul]
  rw [Ideal.matmul_constant_zero_apply]
  refine Fintype.sum_equiv (contrEquiv1 dot_S4096x256_S256x5_S4096x5_1_0_0_1_n_n 256 rfl rfl) _ _ fun q => ?_
  have hl : dot_S4096x256_S256x5_S4096x5_1_0_0_1_n_n.lhsIdx (ix2 r k) q
      = ix2 r ((contrEquiv1 dot_S4096x256_S256x5_S4096x5_1_0_0_1_n_n 256 rfl rfl) q) := by
    funext x
    match x with
    | ⟨0, _⟩ => rfl
    | ⟨1, _⟩ => rfl
  have hr : dot_S4096x256_S256x5_S4096x5_1_0_0_1_n_n.rhsIdx (ix2 r k) q
      = ix2 ((contrEquiv1 dot_S4096x256_S256x5_S4096x5_1_0_0_1_n_n 256 rfl rfl) q) k := by
    funext x
    match x with
    | ⟨0, _⟩ => rfl
    | ⟨1, _⟩ => rfl
  rw [hl, hr]

/-- Entry (a, b, k) of a block: the weighted sum of silu of the summed rows, plus the bias. -/
def entry (x0 : Vec Ideal S32x256 .f32) (x1 : Vec Ideal S128x256 .f32) (x2 : Vec Ideal S256x5 .f32) (x3 : Vec Ideal S1x5 .f32)
    (a : Fin 32) (b : Fin 128) (k : Fin 5) : EReal :=
  (∑ d : Fin 256, silu (x0 (ix2 a d) + x1 (ix2 b d)) * x2 (ix2 d k)) + x3 (ix2 0 k)

/-- What the body stores, read at (a, b, k), is that entry. -/
theorem pay_apply (x0 : Vec Ideal S32x256 .f32) (x1 : Vec Ideal S128x256 .f32) (x2 : Vec Ideal S256x5 .f32) (x3 : Vec Ideal S1x5 .f32)
    (a : Fin 32) (b : Fin 128) (k : Fin 5) :
    k0_pay1 (F := Ideal) x0 x1 x2 x3 (ix3 a b k) = entry x0 x1 x2 x3 a b k := by
  unfold k0_pay1
  simp only [shapeCast_self]
  refine (unflatten_apply _ _ a b k).trans ?_
  rw [addf_apply, product_apply, spreadBias_apply]
  unfold entry
  congr 1
  refine Finset.sum_congr rfl fun d _ => ?_
  rw [flatten_apply, truncf_apply, truncf_apply, mulf_apply]
  simp only [logistic]
  rw [addf_apply, spreadRows_apply, spreadCols_apply, rowAxis_apply, colAxis_apply]
  rfl

end Cert.KernelIdeal.BondBlock

end
-- ==== Proof.BondArrayIndex.lean ====
/-
  The dense pair tensor and the geometry of the grid that fills it.

  The grid has 32 × 8 points; point (g₀, g₁) reads rows 32·g₀ … 32·g₀ + 31 of the first projection, rows 128·g₁ … 128·g₁ + 127
  of the second, the whole weight and bias, and writes block (g₀, g₁, 0) of the 1024 × 1024 × 5 result. Entry (i, j, k) of
  the dense tensor is the block entry formula with the rows i of the first projection and j of the second.
-/
import proofs.«122468_j35184372089134_1_alg».proof.Proof.KernelIdealFrame
import proofs.«122468_j35184372089134_1_alg».proof.Proof.BondBlock

set_option maxRecDepth 16384

noncomputable section

namespace Cert.KernelIdeal.BondArray

open Idealize.ShloMosaic Idealize.ShloMosaic.TcCoe Idealize.ShloMosaic.ValueIdx Idealize.SL.Sem
open Cert.KernelIdeal Cert.KernelIdeal.Gen Cert.BondScore

/-- Entry (i, j, k) of the dense pair tensor over projections P (first atom, bias included) and Q (second atom). -/
def denseAt (P Q : S1024x256.Idx → EReal) (W : S256x5.Idx → EReal) (bias : S1x5.Idx → EReal) (i j : Fin 1024) (k : Fin 5) : EReal :=
  (∑ d : Fin 256, silu (P (ix2 i d) + Q (ix2 j d)) * W (ix2 d k)) + bias (ix2 0 k)

/-- The dense pair tensor as an array. -/
def dense (P Q : S1024x256.Idx → EReal) (W : S256x5.Idx → EReal) (bias : S1x5.Idx → EReal) : S1024x1024x5.Idx → EReal :=
  fun x => denseAt P Q W bias (x 0) (x 1) (x 2)

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the grid: the first projection's block moves with the result's first block index, the second
    projection's with its second, weight and bias stay, the result's third block index is 0, and the result's block
    indices range over 32 × 8. -/
theorem idx_facts : ∀ t : Fin cfg0.N, win0_0.index t (0 : Fin 2) = win0_4.index t (0 : Fin 3)
    ∧ win0_0.index t (1 : Fin 2) = 0
    ∧ win0_1.index t (0 : Fin 2) = win0_4.index t (1 : Fin 3)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (2 : Fin 3) = 0
    ∧ win0_4.index t (0 : Fin 3) ≤ 31 ∧ win0_4.index t (1 : Fin 3) ≤ 7 :=
  (by decide +kernel : ∀ t : Fin grid0.N, _)

/-- Every block of the result is some point's. -/
theorem idx_onto : ∀ (q0 : Fin 32) (q1 : Fin 8), ∃ t : Fin cfg0.N, win0_4.index t = ![q0.val, q1.val, 0] :=
  (by decide +kernel : ∀ (q0 : Fin 32) (q1 : Fin 8), ∃ t : Fin grid0.N, win0_4.index t = ![q0.val, q1.val, 0])

end Cert.KernelIdeal.BondArray

end
-- ==== Proof.BondArray.lean ====
/-
  The result array of the pairwise kernel is the dense pair tensor.

  Point t of the 32 × 8 grid stores one 32 × 128 × 5 block whose entry (a, b, k) is the block formula over the rows it loaded;
  those rows are rows 32·g₀ + a of the first projection and 128·g₁ + b of the second, so the block is the restriction of the
  dense tensor to the block's rectangle. The rectangles of the 256 points tile the 1024 × 1024 × 5 array — entry (i, j, k) lies
  in the block of the point with block indices (i / 32, j / 128) — hence the array ends as the dense tensor everywhere.
-/
import proofs.«122468_j35184372089134_1_alg».proof.Proof.BondArrayIndex

set_option maxRecDepth 16384

noncomputable section

namespace Cert.KernelIdeal.BondArray

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Hand Cert.KernelIdeal.BondBlock Cert.BondScore

variable (m : (ℓ : Loc nD τ sig) → Buf (Elt Ideal) ℓ)

set_option maxHeartbeats 4000000 in
/-- What point t writes back is block t of the dense tensor over the projections, weight and bias as the region finds them. -/
theorem flushed_eq (c : Dev nD) (t : Fin cfg0.N) :
    (dats m 0 c).flushed 4 t = ((cfg0.win 4).blk t).view.read (Elt Ideal)
      (dense (V m c main_v24) (V m c main_v26) (V m c main_arg9) (V m c main_v27)) := by
  show (cfg0.win 4).cut (grid0.coords t) ((dats m 0 c).after 4 t) = _
  rw [after0_4]
  unfold bondBlock
  rw [View.canon_unit_zero hz3]
  simp only [View.ld_unit_zero (S := S32x256) hz2, View.ld_unit_zero (S := S128x256) hz2, View.ld_unit_zero (S := S256x5) hz2, View.ld_unit_zero (S := S1x5) hz2]
  obtain ⟨e0, e1, e2, e3, e4, e5, e6, e7, e8, e9, e10⟩ := idx_facts t
  refine funext fun (j : S32x128x5.Idx) => ?_
  obtain ⟨a, b, k, rfl⟩ : ∃ (a : Fin 32) (b : Fin 128) (k : Fin 5), j = ix3 a b k := ⟨j 0, j 1, j 2, eq_ix3 j⟩
  show k0_pay1 (F := Ideal) (iblk m c 0 t) (iblk m c 1 t) (iblk m c 2 t) (iblk m c 3 t) (ix3 a b k)
      = dense (V m c main_v24) (V m c main_v26) (V m c main_arg9) (V m c main_v27) (((cfg0.win 4).blk t).view.emb (ix3 a b k))
  rw [pay_apply]
  unfold entry dense denseAt
  have hP : ∀ d : Fin 256, iblk m c 0 t (ix2 a d) = V m c main_v24 (ix2 ((((cfg0.win 4).blk t).view.emb (ix3 a b k)) 0) d) := fun d => by
    show V m c main_v24 (((cfg0.win 0).blk t).view.emb (ix2 a d)) = _
    refine congrArg (V m c main_v24) (funext fun x => Fin.ext ?_)
    match x with
    | ⟨0, _⟩ => show win0_0.index t (0 : Fin 2) * 32 + 1 * a.val = win0_4.index t (0 : Fin 3) * 32 + 1 * a.val; omega
    | ⟨1, _⟩ => show win0_0.index t (1 : Fin 2) * 256 + 1 * d.val = d.val; omega
  have hQ : ∀ d : Fin 256, iblk m c 1 t (ix2 b d) = V m c main_v26 (ix2 ((((cfg0.win 4).blk t).view.emb (ix3 a b k)) 1) d) := fun d => by
    show V m c main_v26 (((cfg0.win 1).blk t).view.emb (ix2 b d)) = _
    refine congrArg (V m c main_v26) (funext fun x => Fin.ext ?_)
    match x with
    | ⟨0, _⟩ => show win0_1.index t (0 : Fin 2) * 128 + 1 * b.val = win0_4.index t (1 : Fin 3) * 128 + 1 * b.val; omega
    | ⟨1, _⟩ => show win0_1.index t (1 : Fin 2) * 256 + 1 * d.val = d.val; omega
  have hW : ∀ d : Fin 256, iblk m c 2 t (ix2 d k) = V m c main_arg9 (ix2 d ((((cfg0.win 4).blk t).view.emb (ix3 a b k)) 2)) := fun d => by
    show V m c main_arg9 (((cfg0.win 2).blk t).view.emb (ix2 d k)) = _
    refine congrArg (V m c main_arg9) (funext fun x => Fin.ext ?_)
    match x with
    | ⟨0, _⟩ => show win0_2.index t (0 : Fin 2) * 256 + 1 * d.val = d.val; omega
    | ⟨1, _⟩ => show win0_2.index t (1 : Fin 2) * 5 + 1 * k.val = win0_4.index t (2 : Fin 3) * 5 + 1 * k.val; omega
  have hB : iblk m c 3 t (ix2 0 k) = V m c main_v27 (ix2 0 ((((cfg0.win 4).blk t).view.emb (ix3 a b k)) 2)) := by
    show V m c main_v27 (((cfg0.win 3).blk t).view.emb (ix2 0 k)) = _
    refine congrArg (V m c main_v27) (funext fun x => Fin.ext ?_)
    match x with
    | ⟨0, _⟩ => show win0_3.index t (0 : Fin 2) * 1 + 1 * 0 = 0; omega
    | ⟨1, _⟩ => show win0_3.index t (1 : Fin 2) * 5 + 1 * k.val = win0_4.index t (2 : Fin 3) * 5 + 1 * k.val; omega
  rw [hB]
  congr 1
  exact Finset.sum_congr rfl fun d _ => by rw [hP d, hQ d, hW d]

/-- An index of the result is in point t's block iff each coordinate is in the block's range on its axis. -/
theorem mem_blk (t : Fin cfg0.N) (i : S1024x1024x5.Idx) :
    i ∈ ((cfg0.win 4).blk t).view.set ↔ ∀ a : Fin 3, win0_4.index t a * S32x128x5.size a ≤ (i a).val ∧ (i a).val < win0_4.index t a * S32x128x5.size a + S32x128x5.size a := by
  show i ∈ ((View.whole main_v28).slice (win0_4.rect t)).set ↔ _
  rw [View.set_slice_whole, Rect.mem_set_unit]
  exact Iff.rfl

/-- The blocks fill the result: entry (i, j, k) lies in the block of the point with block indices (i / 32, j / 128). -/
theorem covered (i : S1024x1024x5.Idx) : ∃ t : Fin cfg0.N, (cfg0.win 4).flush t = true ∧ i ∈ ((cfg0.win 4).blk t).view.set := by
  have hi0 : (i 0).val < 1024 := (i 0).isLt
  have hi1 : (i 1).val < 1024 := (i 1).isLt
  have hi2 : (i 2).val < 5 := (i 2).isLt
  obtain ⟨t, ht⟩ := idx_onto ⟨(i 0).val / 32, by omega⟩ ⟨(i 1).val / 128, by omega⟩
  have q0 : win0_4.index t (0 : Fin 3) = (i 0).val / 32 := congrFun ht 0
  have q1 : win0_4.index t (1 : Fin 3) = (i 1).val / 128 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 32 ≤ (i 0).val ∧ (i 0).val < win0_4.index t (0 : Fin 3) * 32 + 32; omega
  | ⟨1, _⟩ => show win0_4.index t (1 : Fin 3) * 128 ≤ (i 1).val ∧ (i 1).val < win0_4.index t (1 : Fin 3) * 128 + 128; omega
  | ⟨2, _⟩ => show win0_4.index t (2 : Fin 3) * 5 ≤ (i 2).val ∧ (i 2).val < win0_4.index t (2 : Fin 3) * 5 + 5; omega

/-- The result array after the region is the dense tensor. -/
theorem final (c : Dev nD) : (dats m 0 c).arrAt 4 cfg0.N
    = dense (V m c main_v24) (V m c main_v26) (V m c main_arg9) (V m c main_v27) :=
  (dats m 0 c).arrAt_eq_of_cover 4 _ (fun t _ => flushed_eq m c t) covered

end Cert.KernelIdeal.BondArray
end
-- ==== Proof.PairIndex.Steps.lean ====
import proofs.«122468_j35184372089134_1_alg».proof.Proof.Gen.KernelIdeal.Launch
import proofs.«122468_j35184372089134_1_alg».proof.Proof.KernelIdealFrame.Writes
import proofs.«122468_j35184372089134_1_alg».proof.Proof.ReferenceRun.Ops
import Idealize.ShloMosaic.Lib.StableHlo.Run
import Idealize.ShloMosaic.PureOps.Ideal

noncomputable section

namespace Cert.PairIndex

open Idealize.ShloMosaic Idealize.ShloMosaic.TcCoe Idealize.ShloMosaic.StableHlo
open Idealize.SL Idealize.SL.Sem

/-- Buffer contents of the kernel program and of the reference program, at the exact reals. -/
abbrev KV := Valuation Cert.KernelIdeal.τ Cert.KernelIdeal.sig (Elt Ideal)
abbrev RV := Valuation Cert.ReferenceIdeal.τ Cert.ReferenceIdeal.sig (Elt Ideal)

/-! # The two programs' integer chains, stretch by stretch

Both programs list the pairs `i < j` of the 1024 atoms the same way: the strict upper triangle's mask, its running count,
the count scattered back to flat positions, prefix sums, and the flat position split into row and column. The operations
agree one by one; only the buffers' names differ. Each lemma here runs one stretch of each program from contents that
agree on the stretch's inputs and concludes that they agree on its output. -/

/-- Running two lines one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- An operation whose one written buffer is the reference `y`, a member of the list `W`, writes within `W`. -/
theorem writes_sub_of_mem {τ : Topo} {sig : RefSig} {Val : EltTy → Type} {W : List (Ref sig .tc)} {op : HloOp τ sig Val} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-! ## What the reference program's stretches write -/

theorem opsOnes_writes : (Cert.ReferenceIdeal.Hand.opsOnes : List (HloOp Cert.ReferenceIdeal.τ Cert.ReferenceIdeal.sig (Elt Ideal))).Forall fun op => op.writes ⊆ ((Cert.ReferenceIdeal.Hand.wOnes).map (Proc.devRef (τ := Cert.ReferenceIdeal.τ) .tc)).toFinset :=
  ⟨writes_sub_of_mem (y := Cert.ReferenceIdeal.main_cst_2) rfl (by decide),
   writes_sub_of_mem (y := Cert.ReferenceIdeal.main_v20) rfl (by decide)⟩

theorem opsTriu_writes : (Cert.ReferenceIdeal.Hand.opsTriu : List (HloOp Cert.ReferenceIdeal.τ Cert.ReferenceIdeal.sig (Elt Ideal))).Forall fun op => op.writes ⊆ ((Cert.ReferenceIdeal.Hand.wTriu).map (Proc.devRef (τ := Cert.ReferenceIdeal.τ) .tc)).toFinset :=
  ⟨writes_sub_of_mem (y := Cert.ReferenceIdeal.main_call1_v0) rfl (by decide),
   writes_sub_of_mem (y := Cert.ReferenceIdeal.main_call1_c) rfl (by decide),
   writes_sub_of_mem (y := Cert.ReferenceIdeal.main_call1_v1) rfl (by decide),
   writes_sub_of_mem (y := Cert.ReferenceIdeal.main_call1_v2) rfl (by decide),
   writes_sub_of_mem (y := Cert.ReferenceIdeal.main_call1_v3) rfl (by decide),
   writes_sub_of_mem (y := Cert.ReferenceIdeal.main_call1_v4) rfl (by decide),
   writes_sub_of_mem (y := Cert.ReferenceIdeal.main_call1_cst) rfl (by decide),
   writes_sub_of_mem (y := Cert.ReferenceIdeal.main_call1_v5) rfl (by decide),
   writes_sub_of_mem (y := Cert.ReferenceIdeal.main_v21) rfl (by decide)⟩

theorem opsTriuMask_writes : (Cert.ReferenceIdeal.Hand.opsTriuMask : List (HloOp Cert.ReferenceIdeal.τ Cert.ReferenceIdeal.sig (Elt Ideal))).Forall fun op => op.writes ⊆ ((Cert.ReferenceIdeal.Hand.wTriuMask).map (Proc.devRef (τ := Cert.ReferenceIdeal.τ) .tc)).toFinset :=
  ⟨writes_sub_of_mem (y := Cert.ReferenceIdeal.main_cst_3) rfl (by decide),
   writes_sub_of_mem (y := Cert.ReferenceIdeal.main_v22) rfl (by decide),
   writes_sub_of_mem (y := Cert.ReferenceIdeal.main_v23) rfl (by decide)⟩

theorem opsCumsumMask_writes : (Cert.ReferenceIdeal.Hand.opsCumsumMask : List (HloOp Cert.ReferenceIdeal.τ Cert.ReferenceIdeal.sig (Elt Ideal))).Forall fun op => op.writes ⊆ ((Cert.ReferenceIdeal.Hand.wCumsumMask).map (Proc.devRef (τ := Cert.ReferenceIdeal.τ) .tc)).toFinset :=
  ⟨writes_sub_of_mem (y := Cert.ReferenceIdeal.main_call2_v0) rfl (by decide),
   writes_sub_of_mem (y := Cert.ReferenceIdeal.main_call2_v1) rfl (by decide),
   writes_sub_of_mem (y := Cert.ReferenceIdeal.main_call2_call0_c) rfl (by decide),
   writes_sub_of_mem (y := Cert.ReferenceIdeal.main_call2_call0_v0) rfl (by decide),
   writes_sub_of_mem (y := Cert.ReferenceIdeal.main_v24) rfl (by decide)⟩

theorem opsScatterInit_writes : (Cert.ReferenceIdeal.Hand.opsScatterInit : List (HloOp Cert.ReferenceIdeal.τ Cert.ReferenceIdeal.sig (Elt Ideal))).Forall fun op => op.writes ⊆ ((Cert.ReferenceIdeal.Hand.wScatterInit).map (Proc.devRef (τ := Cert.ReferenceIdeal.τ) .tc)).toFinset :=
  ⟨writes_sub_of_mem (y := Cert.ReferenceIdeal.main_c) rfl (by decide),
   writes_sub_of_mem (y := Cert.ReferenceIdeal.main_v25) rfl (by decide),
   writes_sub_of_mem (y := Cert.ReferenceIdeal.main_c_4) rfl (by decide)⟩

theorem opsClip_writes : (Cert.ReferenceIdeal.Hand.opsClip : List (HloOp Cert.ReferenceIdeal.τ Cert.ReferenceIdeal.sig (Elt Ideal))).Forall fun op => op.writes ⊆ ((Cert.ReferenceIdeal.Hand.wClip).map (Proc.devRef (τ := Cert.ReferenceIdeal.τ) .tc)).toFinset :=
  ⟨writes_sub_of_mem (y := Cert.ReferenceIdeal.main_call3_v0) rfl (by decide),
   writes_sub_of_mem (y := Cert.ReferenceIdeal.main_call3_v1) rfl (by decide),
   writes_sub_of_mem (y := Cert.ReferenceIdeal.main_v26) rfl (by decide)⟩

theorem opsScatter_writes : (Cert.ReferenceIdeal.Hand.opsScatter : List (HloOp Cert.ReferenceIdeal.τ Cert.ReferenceIdeal.sig (Elt Ideal))).Forall fun op => op.writes ⊆ ((Cert.ReferenceIdeal.Hand.wScatter).map (Proc.devRef (τ := Cert.ReferenceIdeal.τ) .tc)).toFinset :=
  ⟨writes_sub_of_mem (y := Cert.ReferenceIdeal.main_c_5) rfl (by decide),
   writes_sub_of_mem (y := Cert.ReferenceIdeal.main_v27) rfl (by decide),
   writes_sub_of_mem (y := Cert.ReferenceIdeal.main_v28) rfl (by decide),
   writes_sub_of_mem (y := Cert.ReferenceIdeal.main_c_6) rfl (by decide),
   writes_sub_of_mem (y := Cert.ReferenceIdeal.main_v29) rfl (by decide),
   writes_sub_of_mem (y := Cert.ReferenceIdeal.main_v30) rfl (by decide),
   writes_sub_of_mem (y := Cert.ReferenceIdeal.main_v31) rfl (by decide),
   writes_sub_of_mem (y := Cert.ReferenceIdeal.main_v32) rfl (by decide),
   writes_sub_of_mem (y := Cert.ReferenceIdeal.main_c_7) rfl (by decide),
   writes_sub_of_mem (y := Cert.ReferenceIdeal.main_v33) rfl (by decide),
   writes_sub_of_mem (y := Cert.ReferenceIdeal.main_v34) rfl (by decide)⟩

theorem opsCumsumScatter_writes : (Cert.ReferenceIdeal.Hand.opsCumsumScatter : List (HloOp Cert.ReferenceIdeal.τ Cert.ReferenceIdeal.sig (Elt Ideal))).Forall fun op => op.writes ⊆ ((Cert.ReferenceIdeal.Hand.wCumsumScatter).map (Proc.devRef (τ := Cert.ReferenceIdeal.τ) .tc)).toFinset :=
  ⟨writes_sub_of_mem (y := Cert.ReferenceIdeal.main_call4_call0_c) rfl (by decide),
   writes_sub_of_mem (y := Cert.ReferenceIdeal.main_call4_call0_v0) rfl (by decide),
   writes_sub_of_mem (y := Cert.ReferenceIdeal.main_v35) rfl (by decide)⟩

theorem opsRowQuot_writes : (Cert.ReferenceIdeal.Hand.opsRowQuot : List (HloOp Cert.ReferenceIdeal.τ Cert.ReferenceIdeal.sig (Elt Ideal))).Forall fun op => op.writes ⊆ ((Cert.ReferenceIdeal.Hand.wRowQuot).map (Proc.devRef (τ := Cert.ReferenceIdeal.τ) .tc)).toFinset :=
  ⟨writes_sub_of_mem (y := Cert.ReferenceIdeal.main_c_8) rfl (by decide),
   writes_sub_of_mem (y := Cert.ReferenceIdeal.main_call5_v0) rfl (by decide),
   writes_sub_of_mem (y := Cert.ReferenceIdeal.main_call5_v1) rfl (by decide),
   writes_sub_of_mem (y := Cert.ReferenceIdeal.main_call5_v2) rfl (by decide),
   writes_sub_of_mem (y := Cert.ReferenceIdeal.main_call5_v3) rfl (by decide),
   writes_sub_of_mem (y := Cert.ReferenceIdeal.main_call5_v4) rfl (by decide),
   writes_sub_of_mem (y := Cert.ReferenceIdeal.main_call5_v5) rfl (by decide),
   writes_sub_of_mem (y := Cert.ReferenceIdeal.main_call5_v6) rfl (by decide),
   writes_sub_of_mem (y := Cert.ReferenceIdeal.main_call5_v7) rfl (by decide),
   writes_sub_of_mem (y := Cert.ReferenceIdeal.main_call5_c) rfl (by decide),
   writes_sub_of_mem (y := Cert.ReferenceIdeal.main_call5_v8) rfl (by decide),
   writes_sub_of_mem (y := Cert.ReferenceIdeal.main_call5_v9) rfl (by decide),
   writes_sub_of_mem (y := Cert.ReferenceIdeal.main_call5_v10) rfl (by decide),
   writes_sub_of_mem (y := Cert.ReferenceIdeal.main_call5_c_0) rfl (by decide),
   writes_sub_of_mem (y := Cert.ReferenceIdeal.main_call5_v11) rfl (by decide),
   writes_sub_of_mem (y := Cert.ReferenceIdeal.main_call5_v12) rfl (by decide),
   writes_sub_of_mem (y := Cert.ReferenceIdeal.main_v36) rfl (by decide)⟩

theorem opsRowIndex_writes : (Cert.ReferenceIdeal.Hand.opsRowIndex : List (HloOp Cert.ReferenceIdeal.τ Cert.ReferenceIdeal.sig (Elt Ideal))).Forall fun op => op.writes ⊆ ((Cert.ReferenceIdeal.Hand.wRowIndex).map (Proc.devRef (τ := Cert.ReferenceIdeal.τ) .tc)).toFinset :=
  ⟨writes_sub_of_mem (y := Cert.ReferenceIdeal.main_c_9) rfl (by decide),
   writes_sub_of_mem (y := Cert.ReferenceIdeal.main_call6_v0) rfl (by decide),
   writes_sub_of_mem (y := Cert.ReferenceIdeal.main_call6_c) rfl (by decide),
   writes_sub_of_mem (y := Cert.ReferenceIdeal.main_call6_v1) rfl (by decide),
   writes_sub_of_mem (y := Cert.ReferenceIdeal.main_call6_c_0) rfl (by decide),
   writes_sub_of_mem (y := Cert.ReferenceIdeal.main_call6_v2) rfl (by decide),
   writes_sub_of_mem (y := Cert.ReferenceIdeal.main_call6_v3) rfl (by decide),
   writes_sub_of_mem (y := Cert.ReferenceIdeal.main_call6_v4) rfl (by decide),
   writes_sub_of_mem (y := Cert.ReferenceIdeal.main_call6_c_1) rfl (by decide),
   writes_sub_of_mem (y := Cert.ReferenceIdeal.main_call6_v5) rfl (by decide),
   writes_sub_of_mem (y := Cert.ReferenceIdeal.main_call6_v6) rfl (by decide),
   writes_sub_of_mem (y := Cert.ReferenceIdeal.main_call6_c_2) rfl (by decide),
   writes_sub_of_mem (y := Cert.ReferenceIdeal.main_call6_v7) rfl (by decide),
   writes_sub_of_mem (y := Cert.ReferenceIdeal.main_call6_v8) rfl (by decide),
   writes_sub_of_mem (y := Cert.ReferenceIdeal.main_call6_c_3) rfl (by decide),
   writes_sub_of_mem (y := Cert.ReferenceIdeal.main_call6_v9) rfl (by decide),
   writes_sub_of_mem (y := Cert.ReferenceIdeal.main_call6_v10) rfl (by decide),
   writes_sub_of_mem (y := Cert.ReferenceIdeal.main_call6_v11) rfl (by decide),
   writes_sub_of_mem (y := Cert.ReferenceIdeal.main_call6_v12) rfl (by decide),
   writes_sub_of_mem (y := Cert.ReferenceIdeal.main_call6_v13) rfl (by decide),
   writes_sub_of_mem (y := Cert.ReferenceIdeal.main_call6_v14) rfl (by decide),
   writes_sub_of_mem (y := Cert.ReferenceIdeal.main_v37) rfl (by decide)⟩

theorem opsColQuot_writes : (Cert.ReferenceIdeal.Hand.opsColQuot : List (HloOp Cert.ReferenceIdeal.τ Cert.ReferenceIdeal.sig (Elt Ideal))).Forall fun op => op.writes ⊆ ((Cert.ReferenceIdeal.Hand.wColQuot).map (Proc.devRef (τ := Cert.ReferenceIdeal.τ) .tc)).toFinset :=
  ⟨writes_sub_of_mem (y := Cert.ReferenceIdeal.main_c_10) rfl (by decide),
   writes_sub_of_mem (y := Cert.ReferenceIdeal.main_call7_v0) rfl (by decide),
   writes_sub_of_mem (y := Cert.ReferenceIdeal.main_call7_v1) rfl (by decide),
   writes_sub_of_mem (y := Cert.ReferenceIdeal.main_call7_v2) rfl (by decide),
   writes_sub_of_mem (y := Cert.ReferenceIdeal.main_call7_v3) rfl (by decide),
   writes_sub_of_mem (y := Cert.ReferenceIdeal.main_call7_v4) rfl (by decide),
   writes_sub_of_mem (y := Cert.ReferenceIdeal.main_call7_v5) rfl (by decide),
   writes_sub_of_mem (y := Cert.ReferenceIdeal.main_call7_v6) rfl (by decide),
   writes_sub_of_mem (y := Cert.ReferenceIdeal.main_call7_v7) rfl (by decide),
   writes_sub_of_mem (y := Cert.ReferenceIdeal.main_call7_c) rfl (by decide),
   writes_sub_of_mem (y := Cert.ReferenceIdeal.main_call7_v8) rfl (by decide),
   writes_sub_of_mem (y := Cert.ReferenceIdeal.main_call7_v9) rfl (by decide),
   writes_sub_of_mem (y := Cert.ReferenceIdeal.main_call7_v10) rfl (by decide),
   writes_sub_of_mem (y := Cert.ReferenceIdeal.main_call7_c_0) rfl (by decide),
   writes_sub_of_mem (y := Cert.ReferenceIdeal.main_call7_v11) rfl (by decide),
   writes_sub_of_mem (y := Cert.ReferenceIdeal.main_call7_v12) rfl (by decide),
   writes_sub_of_mem (y := Cert.ReferenceIdeal.main_v38) rfl (by decide)⟩

theorem opsColIndex_writes : (Cert.ReferenceIdeal.Hand.opsColIndex : List (HloOp Cert.ReferenceIdeal.τ Cert.ReferenceIdeal.sig (Elt Ideal))).Forall fun op => op.writes ⊆ ((Cert.ReferenceIdeal.Hand.wColIndex).map (Proc.devRef (τ := Cert.ReferenceIdeal.τ) .tc)).toFinset :=
  ⟨writes_sub_of_mem (y := Cert.ReferenceIdeal.main_c_11) rfl (by decide),
   writes_sub_of_mem (y := Cert.ReferenceIdeal.main_call8_v0) rfl (by decide),
   writes_sub_of_mem (y := Cert.ReferenceIdeal.main_call8_c) rfl (by decide),
   writes_sub_of_mem (y := Cert.ReferenceIdeal.main_call8_v1) rfl (by decide),
   writes_sub_of_mem (y := Cert.ReferenceIdeal.main_call8_c_0) rfl (by decide),
   writes_sub_of_mem (y := Cert.ReferenceIdeal.main_call8_v2) rfl (by decide),
   writes_sub_of_mem (y := Cert.ReferenceIdeal.main_call8_v3) rfl (by decide),
   writes_sub_of_mem (y := Cert.ReferenceIdeal.main_call8_v4) rfl (by decide),
   writes_sub_of_mem (y := Cert.ReferenceIdeal.main_call8_c_1) rfl (by decide),
   writes_sub_of_mem (y := Cert.ReferenceIdeal.main_call8_v5) rfl (by decide),
   writes_sub_of_mem (y := Cert.ReferenceIdeal.main_call8_v6) rfl (by decide),
   writes_sub_of_mem (y := Cert.ReferenceIdeal.main_call8_c_2) rfl (by decide),
   writes_sub_of_mem (y := Cert.ReferenceIdeal.main_call8_v7) rfl (by decide),
   writes_sub_of_mem (y := Cert.ReferenceIdeal.main_call8_v8) rfl (by decide),
   writes_sub_of_mem (y := Cert.ReferenceIdeal.main_call8_c_3) rfl (by decide),
   writes_sub_of_mem (y := Cert.ReferenceIdeal.main_call8_v9) rfl (by decide),
   writes_sub_of_mem (y := Cert.ReferenceIdeal.main_call8_v10) rfl (by decide),
   writes_sub_of_mem (y := Cert.ReferenceIdeal.main_call8_v11) rfl (by decide),
   writes_sub_of_mem (y := Cert.ReferenceIdeal.main_call8_v12) rfl (by decide),
   writes_sub_of_mem (y := Cert.ReferenceIdeal.main_call8_v13) rfl (by decide),
   writes_sub_of_mem (y := Cert.ReferenceIdeal.main_call8_v14) rfl (by decide),
   writes_sub_of_mem (y := Cert.ReferenceIdeal.main_v39) rfl (by decide)⟩

theorem opsPairIndex_writes : (Cert.ReferenceIdeal.Hand.opsPairIndex : List (HloOp Cert.ReferenceIdeal.τ Cert.ReferenceIdeal.sig (Elt Ideal))).Forall fun op => op.writes ⊆ ((Cert.ReferenceIdeal.Hand.wPairIndex).map (Proc.devRef (τ := Cert.ReferenceIdeal.τ) .tc)).toFinset :=
  ⟨writes_sub_of_mem (y := Cert.ReferenceIdeal.main_v40) rfl (by decide),
   writes_sub_of_mem (y := Cert.ReferenceIdeal.main_v41) rfl (by decide),
   writes_sub_of_mem (y := Cert.ReferenceIdeal.main_v42) rfl (by decide)⟩

/-! ## The stretches, pair by pair -/

/-- The all-ones matrix: a constant, broadcast. -/
theorem ones_step (Vk : KV) (Vr : RV) :
    after (Cert.KernelIdeal.Gen.hostOps1 (F := Ideal)) Vk (Cert.KernelIdeal.main_v29 : DevRef _ _)
      = after (Cert.ReferenceIdeal.Hand.opsOnes (F := Ideal)) Vr (Cert.ReferenceIdeal.main_v20 : DevRef _ _) := by
  simp only [Cert.KernelIdeal.Gen.hostOps1, Cert.ReferenceIdeal.Hand.opsOnes]
  after_results_simp
  all_goals rfl

/-- Its strict upper triangle, from the same matrix. -/
theorem triu_step (Vk : KV) (Vr : RV) (h0 : Vk (Cert.KernelIdeal.main_v29 : DevRef _ _) = Vr (Cert.ReferenceIdeal.main_v20 : DevRef _ _)) :
    after (Cert.KernelIdeal.Gen.hostOps1_1 (F := Ideal)) Vk (Cert.KernelIdeal.main_v30 : DevRef _ _)
      = after (Cert.ReferenceIdeal.Hand.opsTriu (F := Ideal)) Vr (Cert.ReferenceIdeal.main_v21 : DevRef _ _) := by
  simp only [Cert.KernelIdeal.Gen.hostOps1_1, Cert.ReferenceIdeal.Hand.opsTriu]
  after_results_simp
  all_goals (try simp only [h0])
  all_goals rfl

/-- The mask of the triangle's nonzero entries. -/
theorem triuMask_step (Vk : KV) (Vr : RV) (h0 : Vk (Cert.KernelIdeal.main_v30 : DevRef _ _) = Vr (Cert.ReferenceIdeal.main_v21 : DevRef _ _)) :
    after (Cert.KernelIdeal.Gen.hostOps1_2 (F := Ideal)) Vk (Cert.KernelIdeal.main_v32 : DevRef _ _)
      = after (Cert.ReferenceIdeal.Hand.opsTriuMask (F := Ideal)) Vr (Cert.ReferenceIdeal.main_v23 : DevRef _ _) := by
  simp only [Cert.KernelIdeal.Gen.hostOps1_2, Cert.ReferenceIdeal.Hand.opsTriuMask]
  after_results_simp
  all_goals (try simp only [h0])
  all_goals rfl

/-- The running count of the mask in row-major order. -/
theorem cumsumMask_step (Vk : KV) (Vr : RV) (h0 : Vk (Cert.KernelIdeal.main_v32 : DevRef _ _) = Vr (Cert.ReferenceIdeal.main_v23 : DevRef _ _)) :
    after (Cert.KernelIdeal.Gen.hostOps1_3 (F := Ideal)) Vk (Cert.KernelIdeal.main_v33 : DevRef _ _)
      = after (Cert.ReferenceIdeal.Hand.opsCumsumMask (F := Ideal)) Vr (Cert.ReferenceIdeal.main_v24 : DevRef _ _) := by
  simp only [Cert.KernelIdeal.Gen.hostOps1_3, Cert.ReferenceIdeal.Hand.opsCumsumMask]
  after_results_simp
  all_goals (try simp only [h0])
  all_goals rfl

/-- The zero vector the pair positions are counted into. -/
theorem scatterInit_zeros (Vk : KV) (Vr : RV) :
    after (Cert.KernelIdeal.Gen.hostOps1_4 (F := Ideal)) Vk (Cert.KernelIdeal.main_v34 : DevRef _ _)
      = after (Cert.ReferenceIdeal.Hand.opsScatterInit (F := Ideal)) Vr (Cert.ReferenceIdeal.main_v25 : DevRef _ _) := by
  simp only [Cert.KernelIdeal.Gen.hostOps1_4, Cert.ReferenceIdeal.Hand.opsScatterInit]
  after_results_simp
  all_goals rfl

/-- The lower clipping bound. -/
theorem scatterInit_bound (Vk : KV) (Vr : RV) :
    after (Cert.KernelIdeal.Gen.hostOps1_4 (F := Ideal)) Vk (Cert.KernelIdeal.main_c_4 : DevRef _ _)
      = after (Cert.ReferenceIdeal.Hand.opsScatterInit (F := Ideal)) Vr (Cert.ReferenceIdeal.main_c_4 : DevRef _ _) := by
  simp only [Cert.KernelIdeal.Gen.hostOps1_4, Cert.ReferenceIdeal.Hand.opsScatterInit]
  after_results_simp
  all_goals rfl

/-- The running count clipped below, from the same bound and count. -/
theorem clip_step (Vk : KV) (Vr : RV) (h0 : Vk (Cert.KernelIdeal.main_c_4 : DevRef _ _) = Vr (Cert.ReferenceIdeal.main_c_4 : DevRef _ _)) (h1 : Vk (Cert.KernelIdeal.main_v33 : DevRef _ _) = Vr (Cert.ReferenceIdeal.main_v24 : DevRef _ _)) :
    after (Cert.KernelIdeal.Gen.hostOps1_5 (F := Ideal)) Vk (Cert.KernelIdeal.main_v35 : DevRef _ _)
      = after (Cert.ReferenceIdeal.Hand.opsClip (F := Ideal)) Vr (Cert.ReferenceIdeal.main_v26 : DevRef _ _) := by
  simp only [Cert.KernelIdeal.Gen.hostOps1_5, Cert.ReferenceIdeal.Hand.opsClip]
  after_results_simp
  all_goals (try simp only [h0, h1])
  all_goals rfl

/-- The count of flat positions per pair number, from the same clipped count and zero vector. -/
theorem scatter_step (Vk : KV) (Vr : RV) (h0 : Vk (Cert.KernelIdeal.main_v35 : DevRef _ _) = Vr (Cert.ReferenceIdeal.main_v26 : DevRef _ _)) (h1 : Vk (Cert.KernelIdeal.main_v34 : DevRef _ _) = Vr (Cert.ReferenceIdeal.main_v25 : DevRef _ _)) :
    after (Cert.KernelIdeal.Gen.hostOps1_6 (F := Ideal)) Vk (Cert.KernelIdeal.main_v43 : DevRef _ _)
      = after (Cert.ReferenceIdeal.Hand.opsScatter (F := Ideal)) Vr (Cert.ReferenceIdeal.main_v34 : DevRef _ _) := by
  simp only [Cert.KernelIdeal.Gen.hostOps1_6, Cert.ReferenceIdeal.Hand.opsScatter]
  after_results_simp
  all_goals (try simp only [h0, h1])
  all_goals rfl

/-- The prefix sums of those counts: each pair's flat position. -/
theorem cumsumScatter_step (Vk : KV) (Vr : RV) (h0 : Vk (Cert.KernelIdeal.main_v43 : DevRef _ _) = Vr (Cert.ReferenceIdeal.main_v34 : DevRef _ _)) :
    after (Cert.KernelIdeal.Gen.hostOps1_7 (F := Ideal)) Vk (Cert.KernelIdeal.main_v44 : DevRef _ _)
      = after (Cert.ReferenceIdeal.Hand.opsCumsumScatter (F := Ideal)) Vr (Cert.ReferenceIdeal.main_v35 : DevRef _ _) := by
  simp only [Cert.KernelIdeal.Gen.hostOps1_7, Cert.ReferenceIdeal.Hand.opsCumsumScatter]
  after_results_simp
  all_goals (try simp only [h0])
  all_goals rfl

/-- The flat position floor-divided by the row length. -/
theorem rowQuot_step (Vk : KV) (Vr : RV) (h0 : Vk (Cert.KernelIdeal.main_v44 : DevRef _ _) = Vr (Cert.ReferenceIdeal.main_v35 : DevRef _ _)) :
    after (Cert.KernelIdeal.Gen.hostOps1_9 (F := Ideal)) (after (Cert.KernelIdeal.Gen.hostOps1_8 (F := Ideal)) Vk) (Cert.KernelIdeal.main_v45 : DevRef _ _)
      = after (Cert.ReferenceIdeal.Hand.opsRowQuot (F := Ideal)) Vr (Cert.ReferenceIdeal.main_v36 : DevRef _ _) := by
  simp only [Cert.KernelIdeal.Gen.hostOps1_8, Cert.KernelIdeal.Gen.hostOps1_9, Cert.ReferenceIdeal.Hand.opsRowQuot]
  after_results_simp
  all_goals (try simp only [h0])
  all_goals rfl

/-- That quotient modulo the row count: the pair's row. -/
theorem rowIndex_step (Vk : KV) (Vr : RV) (h0 : Vk (Cert.KernelIdeal.main_v45 : DevRef _ _) = Vr (Cert.ReferenceIdeal.main_v36 : DevRef _ _)) :
    after (Cert.KernelIdeal.Gen.hostOps1_11 (F := Ideal)) (after (Cert.KernelIdeal.Gen.hostOps1_10 (F := Ideal)) Vk) (Cert.KernelIdeal.main_v46 : DevRef _ _)
      = after (Cert.ReferenceIdeal.Hand.opsRowIndex (F := Ideal)) Vr (Cert.ReferenceIdeal.main_v37 : DevRef _ _) := by
  simp only [Cert.KernelIdeal.Gen.hostOps1_10, Cert.KernelIdeal.Gen.hostOps1_11, Cert.ReferenceIdeal.Hand.opsRowIndex]
  after_results_simp
  all_goals (try simp only [h0])
  all_goals rfl

/-- The flat position floor-divided by one. -/
theorem colQuot_step (Vk : KV) (Vr : RV) (h0 : Vk (Cert.KernelIdeal.main_v44 : DevRef _ _) = Vr (Cert.ReferenceIdeal.main_v35 : DevRef _ _)) :
    after (Cert.KernelIdeal.Gen.hostOps1_13 (F := Ideal)) (after (Cert.KernelIdeal.Gen.hostOps1_12 (F := Ideal)) Vk) (Cert.KernelIdeal.main_v47 : DevRef _ _)
      = after (Cert.ReferenceIdeal.Hand.opsColQuot (F := Ideal)) Vr (Cert.ReferenceIdeal.main_v38 : DevRef _ _) := by
  simp only [Cert.KernelIdeal.Gen.hostOps1_12, Cert.KernelIdeal.Gen.hostOps1_13, Cert.ReferenceIdeal.Hand.opsColQuot]
  after_results_simp
  all_goals (try simp only [h0])
  all_goals rfl

/-- That quotient modulo the row length: the pair's column. -/
theorem colIndex_step (Vk : KV) (Vr : RV) (h0 : Vk (Cert.KernelIdeal.main_v47 : DevRef _ _) = Vr (Cert.ReferenceIdeal.main_v38 : DevRef _ _)) :
    after (Cert.KernelIdeal.Gen.hostOps1_15 (F := Ideal)) (after (Cert.KernelIdeal.Gen.hostOps1_14 (F := Ideal)) Vk) (Cert.KernelIdeal.main_v48 : DevRef _ _)
      = after (Cert.ReferenceIdeal.Hand.opsColIndex (F := Ideal)) Vr (Cert.ReferenceIdeal.main_v39 : DevRef _ _) := by
  simp only [Cert.KernelIdeal.Gen.hostOps1_14, Cert.KernelIdeal.Gen.hostOps1_15, Cert.ReferenceIdeal.Hand.opsColIndex]
  after_results_simp
  all_goals (try simp only [h0])
  all_goals rfl

/-- A two-piece concatenation depends on its pieces only (its side condition speaks of their shapes). -/
theorem concatenate_pair_congr {α : Type} {t s₁ s₂ : Shape} (a : Fin t.rank) {x₁ x₁' : s₁.Idx → α} {x₂ x₂' : s₂.Idx → α}
    (h : Shape.Concatenates (([⟨s₁, x₁⟩, ⟨s₂, x₂⟩] : List ((s : Shape) × (s.Idx → α))).map (·.1)) t a)
    (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

/-- THE PAIR LIST: the two index columns side by side. The kernel program's long stretch computes it in its first three operations and writes it no more. -/
theorem pairList_eq (Vk : KV) (Vr : RV) (h0 : Vk (Cert.KernelIdeal.main_v46 : DevRef _ _) = Vr (Cert.ReferenceIdeal.main_v37 : DevRef _ _)) (h1 : Vk (Cert.KernelIdeal.main_v48 : DevRef _ _) = Vr (Cert.ReferenceIdeal.main_v39 : DevRef _ _)) :
    after (Cert.KernelIdeal.Gen.hostOps1_16 (F := Ideal)) Vk (Cert.KernelIdeal.main_v51 : DevRef _ _)
      = after (Cert.ReferenceIdeal.Hand.opsPairIndex (F := Ideal)) Vr (Cert.ReferenceIdeal.main_v42 : DevRef _ _) := by
  simp only [Cert.KernelIdeal.Gen.hostOps1_16, Cert.ReferenceIdeal.Hand.opsPairIndex]
  after_results_simp
  -- each side is the concatenation of two columns, each column still written as what the first two operations leave:
  -- the row indices broadcast to a column, the column indices broadcast to a column
  refine Eq.trans
    (concatenate_pair_congr _ _
      (x₁' := broadcastInDim Cert.KernelIdeal.S523776x1 ![0] Cert.KernelIdeal.Gen.bcast_S523776_S523776x1_0 (Vr (Cert.ReferenceIdeal.main_v37 : DevRef _ _)))
      (x₂' := broadcastInDim Cert.KernelIdeal.S523776x1 ![0] Cert.KernelIdeal.Gen.bcast_S523776_S523776x1_0 (Vr (Cert.ReferenceIdeal.main_v39 : DevRef _ _))) ?_ ?_)
    (Eq.trans ?_ (Eq.symm (concatenate_pair_congr _ _
      (x₁' := broadcastInDim Cert.ReferenceIdeal.S523776x1 ![0] Cert.ReferenceIdeal.Gen.bcast_S523776_S523776x1_0 (Vr (Cert.ReferenceIdeal.main_v37 : DevRef _ _)))
      (x₂' := broadcastInDim Cert.ReferenceIdeal.S523776x1 ![0] Cert.ReferenceIdeal.Gen.bcast_S523776_S523776x1_0 (Vr (Cert.ReferenceIdeal.main_v39 : DevRef _ _))) ?_ ?_)))
  · simp (disch := decide) only [unary_result', unary_result_ne', h0]
  · simp (disch := decide) only [unary_result', unary_result_ne', h1]
  · rfl
  · simp (disch := decide) only [unary_result', unary_result_ne']
  · simp (disch := decide) only [unary_result', unary_result_ne']

end Cert.PairIndex

end
-- ==== Proof.PairIndex.lean ====
import proofs.«122468_j35184372089134_1_alg».proof.Proof.PairIndex.Steps

noncomputable section

namespace Cert.PairIndex

open Idealize.ShloMosaic Idealize.ShloMosaic.TcCoe Idealize.ShloMosaic.StableHlo
open Idealize.SL Idealize.SL.Sem

/-! # The pair indices of the two programs are the same arrays

The integer chain starts from constants, so from ANY contents the two programs end it with the same row indices and
the same column indices; the stretch lemmas are chained through the buffers each later stretch reads, a buffer passing
unchanged through every stretch that does not write it. -/

/-- The kernel program's integer chain: the sixteen stretches after the region that compute the pair indices. -/
abbrev kIndexOps : List (HloOp Cert.KernelIdeal.τ Cert.KernelIdeal.sig (Elt Ideal)) :=
  Cert.KernelIdeal.Gen.hostOps1 ++ Cert.KernelIdeal.Gen.hostOps1_1 ++ Cert.KernelIdeal.Gen.hostOps1_2 ++ Cert.KernelIdeal.Gen.hostOps1_3 ++ Cert.KernelIdeal.Gen.hostOps1_4 ++ Cert.KernelIdeal.Gen.hostOps1_5 ++ Cert.KernelIdeal.Gen.hostOps1_6 ++ Cert.KernelIdeal.Gen.hostOps1_7 ++ Cert.KernelIdeal.Gen.hostOps1_8 ++ Cert.KernelIdeal.Gen.hostOps1_9 ++ Cert.KernelIdeal.Gen.hostOps1_10 ++ Cert.KernelIdeal.Gen.hostOps1_11 ++ Cert.KernelIdeal.Gen.hostOps1_12 ++ Cert.KernelIdeal.Gen.hostOps1_13 ++ Cert.KernelIdeal.Gen.hostOps1_14 ++ Cert.KernelIdeal.Gen.hostOps1_15
/-- The reference program's: twelve stretches (a called function's operations are part of its caller's stretch there). -/
abbrev rIndexOps : List (HloOp Cert.ReferenceIdeal.τ Cert.ReferenceIdeal.sig (Elt Ideal)) :=
  Cert.ReferenceIdeal.Hand.opsOnes ++ Cert.ReferenceIdeal.Hand.opsTriu ++ Cert.ReferenceIdeal.Hand.opsTriuMask ++ Cert.ReferenceIdeal.Hand.opsCumsumMask ++ Cert.ReferenceIdeal.Hand.opsScatterInit ++ Cert.ReferenceIdeal.Hand.opsClip ++ Cert.ReferenceIdeal.Hand.opsScatter ++ Cert.ReferenceIdeal.Hand.opsCumsumScatter ++ Cert.ReferenceIdeal.Hand.opsRowQuot ++ Cert.ReferenceIdeal.Hand.opsRowIndex ++ Cert.ReferenceIdeal.Hand.opsColQuot ++ Cert.ReferenceIdeal.Hand.opsColIndex

/-- Each pair's flat row-major position, after the first eight stretches of each program. -/
theorem flatIndex_chain (Vk : KV) (Vr : RV) :
    after (Cert.KernelIdeal.Gen.hostOps1_7 (F := Ideal)) (after (Cert.KernelIdeal.Gen.hostOps1_6 (F := Ideal)) (after (Cert.KernelIdeal.Gen.hostOps1_5 (F := Ideal)) (after (Cert.KernelIdeal.Gen.hostOps1_4 (F := Ideal)) (after (Cert.KernelIdeal.Gen.hostOps1_3 (F := Ideal)) (after (Cert.KernelIdeal.Gen.hostOps1_2 (F := Ideal)) (after (Cert.KernelIdeal.Gen.hostOps1_1 (F := Ideal)) (after (Cert.KernelIdeal.Gen.hostOps1 (F := Ideal)) Vk))))))) (Cert.KernelIdeal.main_v44 : DevRef _ _)
      = after (Cert.ReferenceIdeal.Hand.opsCumsumScatter (F := Ideal)) (after (Cert.ReferenceIdeal.Hand.opsScatter (F := Ideal)) (after (Cert.ReferenceIdeal.Hand.opsClip (F := Ideal)) (after (Cert.ReferenceIdeal.Hand.opsScatterInit (F := Ideal)) (after (Cert.ReferenceIdeal.Hand.opsCumsumMask (F := Ideal)) (after (Cert.ReferenceIdeal.Hand.opsTriuMask (F := Ideal)) (after (Cert.ReferenceIdeal.Hand.opsTriu (F := Ideal)) (after (Cert.ReferenceIdeal.Hand.opsOnes (F := Ideal)) Vr))))))) (Cert.ReferenceIdeal.main_v35 : DevRef _ _) := by
  apply cumsumScatter_step
  apply scatter_step
  · -- the clipped running count
    apply clip_step
    · exact scatterInit_bound _ _
    · -- the running count passes through the stretch that makes the zero vector and the bound
      rw [after_of_writes_sub (r := Cert.KernelIdeal.main_v33) _ _ (Cert.KernelIdeal.Hand.hostOps1_4_writes (F := Ideal)) (by decide), after_of_writes_sub (r := Cert.ReferenceIdeal.main_v24) _ _ opsScatterInit_writes (by decide)]
      apply cumsumMask_step
      apply triuMask_step
      apply triu_step
      exact ones_step _ _
  · -- the zero vector passes through the clipping stretch
    rw [after_of_writes_sub (r := Cert.KernelIdeal.main_v34) _ _ (Cert.KernelIdeal.Hand.hostOps1_5_writes (F := Ideal)) (by decide), after_of_writes_sub (r := Cert.ReferenceIdeal.main_v25) _ _ opsClip_writes (by decide)]
    exact scatterInit_zeros _ _

/-- THE ROW INDICES agree: from any contents, the kernel program's `main_v46` after its integer chain is the reference
    program's `main_v37` after its. -/
theorem rowIndex_eq (Vk : KV) (Vr : RV) :
    after kIndexOps Vk (Cert.KernelIdeal.main_v46 : DevRef _ _) = after rIndexOps Vr (Cert.ReferenceIdeal.main_v37 : DevRef _ _) := by
  simp only [kIndexOps, rIndexOps, after_append]
  -- the row indices pass through the stretches that compute the column indices
  rw [after_of_writes_sub (r := Cert.KernelIdeal.main_v46) _ _ (Cert.KernelIdeal.Hand.hostOps1_15_writes (F := Ideal)) (by decide), after_of_writes_sub (r := Cert.KernelIdeal.main_v46) _ _ (Cert.KernelIdeal.Hand.hostOps1_14_writes (F := Ideal)) (by decide),
    after_of_writes_sub (r := Cert.KernelIdeal.main_v46) _ _ (Cert.KernelIdeal.Hand.hostOps1_13_writes (F := Ideal)) (by decide), after_of_writes_sub (r := Cert.KernelIdeal.main_v46) _ _ (Cert.KernelIdeal.Hand.hostOps1_12_writes (F := Ideal)) (by decide),
    after_of_writes_sub (r := Cert.ReferenceIdeal.main_v37) _ _ opsColIndex_writes (by decide), after_of_writes_sub (r := Cert.ReferenceIdeal.main_v37) _ _ opsColQuot_writes (by decide)]
  apply rowIndex_step
  apply rowQuot_step
  exact flatIndex_chain Vk Vr

/-- THE COLUMN INDICES agree: `main_v48` of the kernel program, `main_v39` of the reference. -/
theorem colIndex_eq (Vk : KV) (Vr : RV) :
    after kIndexOps Vk (Cert.KernelIdeal.main_v48 : DevRef _ _) = after rIndexOps Vr (Cert.ReferenceIdeal.main_v39 : DevRef _ _) := by
  simp only [kIndexOps, rIndexOps, after_append]
  apply colIndex_step
  apply colQuot_step
  -- the flat positions pass through the stretches that compute the row indices
  rw [after_of_writes_sub (r := Cert.KernelIdeal.main_v44) _ _ (Cert.KernelIdeal.Hand.hostOps1_11_writes (F := Ideal)) (by decide), after_of_writes_sub (r := Cert.KernelIdeal.main_v44) _ _ (Cert.KernelIdeal.Hand.hostOps1_10_writes (F := Ideal)) (by decide),
    after_of_writes_sub (r := Cert.KernelIdeal.main_v44) _ _ (Cert.KernelIdeal.Hand.hostOps1_9_writes (F := Ideal)) (by decide), after_of_writes_sub (r := Cert.KernelIdeal.main_v44) _ _ (Cert.KernelIdeal.Hand.hostOps1_8_writes (F := Ideal)) (by decide),
    after_of_writes_sub (r := Cert.ReferenceIdeal.main_v35) _ _ opsRowIndex_writes (by decide), after_of_writes_sub (r := Cert.ReferenceIdeal.main_v35) _ _ opsRowQuot_writes (by decide)]
  exact flatIndex_chain Vk Vr

/-! ## What the kernel program's integer chain leaves alone -/

/-- The references its sixteen stretches write, stretch by stretch. -/
abbrev kIndexWs : List (List (Ref Cert.KernelIdeal.sig .tc)) := [Cert.KernelIdeal.Hand.hostOps1_W, Cert.KernelIdeal.Hand.hostOps1_1_W, Cert.KernelIdeal.Hand.hostOps1_2_W, Cert.KernelIdeal.Hand.hostOps1_3_W, Cert.KernelIdeal.Hand.hostOps1_4_W, Cert.KernelIdeal.Hand.hostOps1_5_W, Cert.KernelIdeal.Hand.hostOps1_6_W, Cert.KernelIdeal.Hand.hostOps1_7_W, Cert.KernelIdeal.Hand.hostOps1_8_W, Cert.KernelIdeal.Hand.hostOps1_9_W, Cert.KernelIdeal.Hand.hostOps1_10_W, Cert.KernelIdeal.Hand.hostOps1_11_W, Cert.KernelIdeal.Hand.hostOps1_12_W, Cert.KernelIdeal.Hand.hostOps1_13_W, Cert.KernelIdeal.Hand.hostOps1_14_W, Cert.KernelIdeal.Hand.hostOps1_15_W]
/-- All of them. -/
abbrev kIndexW : List (Ref Cert.KernelIdeal.sig .tc) := kIndexWs.flatten

theorem kIndex_writes : Cert.KernelIdeal.Hand.WritesWithin (Val := Elt Ideal) [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15] kIndexWs :=
  .cons Cert.KernelIdeal.Hand.hostOps1_writes (.cons Cert.KernelIdeal.Hand.hostOps1_1_writes (.cons Cert.KernelIdeal.Hand.hostOps1_2_writes (.cons Cert.KernelIdeal.Hand.hostOps1_3_writes (.cons Cert.KernelIdeal.Hand.hostOps1_4_writes (.cons Cert.KernelIdeal.Hand.hostOps1_5_writes (.cons Cert.KernelIdeal.Hand.hostOps1_6_writes (.cons Cert.KernelIdeal.Hand.hostOps1_7_writes (.cons Cert.KernelIdeal.Hand.hostOps1_8_writes (.cons Cert.KernelIdeal.Hand.hostOps1_9_writes (.cons Cert.KernelIdeal.Hand.hostOps1_10_writes (.cons Cert.KernelIdeal.Hand.hostOps1_11_writes (.cons Cert.KernelIdeal.Hand.hostOps1_12_writes (.cons Cert.KernelIdeal.Hand.hostOps1_13_writes (.cons Cert.KernelIdeal.Hand.hostOps1_14_writes (.cons Cert.KernelIdeal.Hand.hostOps1_15_writes (.nil))))))))))))))))

/-- The chain is its stretches run in order. -/
theorem kIndexOps_eq : kIndexOps = List.flatten [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15] := by
  simp only [kIndexOps, List.flatten_cons, List.flatten_nil, List.append_nil, List.append_assoc]

/-- A buffer none of the sixteen stretches writes keeps its contents through the chain (the region's output, the atom
    head's results, the arguments). -/
theorem kIndex_kept {r : Ref Cert.KernelIdeal.sig .tc} (hr : r ∉ kIndexW) (Vk : KV) :
    after kIndexOps Vk (r : DevRef _ _) = Vk (r : DevRef _ _) := by
  rw [kIndexOps_eq]
  exact Cert.KernelIdeal.Hand.after_flatten_of_not_mem kIndex_writes hr Vk

end Cert.PairIndex

end
-- ==== Proof.TailStart.lean ====
/-
  The kernel program's buffer contents at the moment its host operations after the region start.

  They are the region-entry contents (the launch contents run through the host operations before the region), with each array
  of the pipeline replaced by what it holds after the last grid point: an input array is unchanged, and the result array is the
  dense pair tensor over the two projections, the output weights and the output bias row as the region found them.
-/
import proofs.«122468_j35184372089134_1_alg».proof.Proof.KernelIdealPost
import proofs.«122468_j35184372089134_1_alg».proof.Proof.BondArray
import proofs.«122468_j35184372089134_1_alg».proof.Proof.PairIndex

noncomputable section

namespace Cert.Assemble

open Idealize.ShloMosaic Idealize.ShloMosaic.TcCoe Idealize.ShloMosaic.StableHlo Idealize.ShloMosaic.ValueIdx
open Idealize.SL Idealize.SL.Sem
open Cert.PairIndex (KV RV)

variable (m : (ℓ : Loc Cert.KernelIdeal.nD Cert.KernelIdeal.τ Cert.KernelIdeal.sig) → Buf (Elt Ideal) ℓ)

/-- Core c's launch contents, as a valuation of the kernel program's buffers. -/
abbrev launchK (c : Dev Cert.KernelIdeal.nD) : KV := fun b => m (c, b)

/-- The contents when the host operations after the region start. -/
def tailStart (c : Dev Cert.KernelIdeal.nD) : KV :=
  Pipeline.withArrays Cert.KernelIdeal.spec0 c (Cert.KernelIdeal.Hand.V0 m c)
    (fun w => (Cert.KernelIdeal.Hand.dats m 0 c).arrAt w Cert.KernelIdeal.cfg0.N)

/-- A buffer after the whole program is that start run through the later host operations. -/
theorem afterTail_eq (c : Dev Cert.KernelIdeal.nD) (b : Ref Cert.KernelIdeal.sig .tc) :
    Pipeline.afterTail₀ Cert.KernelIdeal.cfgs (Cert.KernelIdeal.Hand.dats m) 0 (Cert.KernelIdeal.Hand.V0 m) Cert.KernelIdeal.Hand.tailOps c b
      = after (List.flatten (Cert.KernelIdeal.Hand.tailOps (F := Ideal))) (tailStart m c) (Proc.devRef .tc b) := rfl

/-- A buffer that is no array of the pipeline holds its region-entry contents there. -/
theorem tailStart_rest (c : Dev Cert.KernelIdeal.nD) (b : Ref Cert.KernelIdeal.sig .tc) (hb : ∀ w, Pipeline.arrRef Cert.KernelIdeal.spec0 w ≠ b) :
    tailStart m c (Proc.devRef .tc b) = Cert.KernelIdeal.Hand.V m c b :=
  Pipeline.withArrays_of_ne _ c (Cert.KernelIdeal.Hand.V0 m c) _ b hb

/-- The result array holds the dense pair tensor there. -/
theorem tailStart_out (c : Dev Cert.KernelIdeal.nD) :
    tailStart m c (Proc.devRef .tc Cert.KernelIdeal.main_v28)
      = Cert.KernelIdeal.BondArray.dense (Cert.KernelIdeal.Hand.V m c Cert.KernelIdeal.main_v24) (Cert.KernelIdeal.Hand.V m c Cert.KernelIdeal.main_v26)
          (Cert.KernelIdeal.Hand.V m c Cert.KernelIdeal.main_arg9) (Cert.KernelIdeal.Hand.V m c Cert.KernelIdeal.main_v27) :=
  (Pipeline.withArrays_arr Cert.KernelIdeal.spec0 Cert.KernelIdeal.Gen.launch0.win.arr_inj c _ _ 4).trans (Cert.KernelIdeal.BondArray.final m c)

/-- The region-entry contents are the launch contents run through the three host stretches before the region. -/
theorem V_nest (c : Dev Cert.KernelIdeal.nD) (b : Ref Cert.KernelIdeal.sig .tc) :
    Cert.KernelIdeal.Hand.V m c b
      = after (Cert.KernelIdeal.Gen.hostOps0_2 (F := Ideal)) (after (Cert.KernelIdeal.Gen.hostOps0_1 (F := Ideal)) (after (Cert.KernelIdeal.Gen.hostOps0 (F := Ideal)) (launchK m c))) (Proc.devRef .tc b) := by
  show after (List.flatten (Cert.KernelIdeal.Hand.preOps (F := Ideal))) (launchK m c) (Proc.devRef .tc b) = _
  simp only [Cert.KernelIdeal.Hand.preOps, List.flatten_cons, List.flatten_nil, List.append_nil, Cert.PairIndex.after_append]

end Cert.Assemble

end
-- ==== Proof.BondChains.lean ====
import proofs.«122468_j35184372089134_1_alg».proof.Proof.PairIndex.Steps

noncomputable section

namespace Cert.BondChains

open Idealize.ShloMosaic Idealize.ShloMosaic.TcCoe Idealize.ShloMosaic.StableHlo
open Idealize.SL Idealize.SL.Sem
open Cert.PairIndex (KV RV after_append concatenate_pair_congr)

/-! # The two evaluations behind the bond logits

The kernel program reads the pairs' logits out of the dense tensor the region leaves, by one gather at the table of
the pairs' (wrapped) indices. The reference program computes them pair by pair: the two atoms' rows gathered, each
through its half of the first weight matrix, summed with the bias, through x·σ(x), through the second weight matrix,
plus its bias. Each evaluation is stated as a closed expression over the contents the stretch starts from; the index
arrays stay the buffers they are. -/

namespace K

/-- An index as a gather reads it: a negative one counts from the end (1024 rows). -/
def wrapIndex (I : IVec Cert.KernelIdeal.S523776 32) : IVec Cert.KernelIdeal.S523776 32 :=
  select (cmpi .slt I (broadcastInDim Cert.KernelIdeal.S523776 ![] Cert.KernelIdeal.Gen.bcast_S_S523776 (constantI Cert.KernelIdeal.S_ 32 0#32)))
    (addi I (broadcastInDim Cert.KernelIdeal.S523776 ![] Cert.KernelIdeal.Gen.bcast_S_S523776 (constantI Cert.KernelIdeal.S_ 32 1024#32))) I

end K

/-- THE KERNEL PROGRAM'S PAIR LOGITS: the dense tensor gathered at the two-column table of the wrapped row and column
    indices. (Operations 4 to 21 of the long stretch; the operations after them write other buffers.) -/
theorem gatherPairs_eq (Vk : KV) :
    after (Cert.KernelIdeal.Gen.hostOps1_16 (F := Ideal)) Vk (Cert.KernelIdeal.main_v65 : DevRef Cert.KernelIdeal.τ Cert.KernelIdeal.sig)
      = Host.gather Cert.KernelIdeal.gather_S1024x1024x5_S523776x2_S523776x5_1_01_n_n_01_1_115 (Vk (Cert.KernelIdeal.main_v28 : DevRef Cert.KernelIdeal.τ Cert.KernelIdeal.sig))
          (concatenate Cert.KernelIdeal.S523776x2 1
            [⟨Cert.KernelIdeal.S523776x1, broadcastInDim Cert.KernelIdeal.S523776x1 ![0] Cert.KernelIdeal.Gen.bcast_S523776_S523776x1_0 (K.wrapIndex (Vk (Cert.KernelIdeal.main_v46 : DevRef Cert.KernelIdeal.τ Cert.KernelIdeal.sig)))⟩,
             ⟨Cert.KernelIdeal.S523776x1, broadcastInDim Cert.KernelIdeal.S523776x1 ![0] Cert.KernelIdeal.Gen.bcast_S523776_S523776x1_0 (K.wrapIndex (Vk (Cert.KernelIdeal.main_v48 : DevRef Cert.KernelIdeal.τ Cert.KernelIdeal.sig)))⟩]
            Cert.KernelIdeal.Gen.concatenates_S523776x1_S523776x1_S523776x2_d1) := by
  simp only [Cert.KernelIdeal.Gen.hostOps1_16]
  after_results_simp
  -- the table's two columns are still written as what the earlier operations leave: evaluate each on its own
  refine congrArg (Host.gather Cert.KernelIdeal.gather_S1024x1024x5_S523776x2_S523776x5_1_01_n_n_01_1_115 (Vk (Cert.KernelIdeal.main_v28 : DevRef Cert.KernelIdeal.τ Cert.KernelIdeal.sig)))
    (concatenate_pair_congr _ _ ?_ ?_)
  · simp (disch := decide) only [nullary_result', unary_result', binary_result', ternary_result',
      nullary_result_ne', unary_result_ne', binary_result_ne', ternary_result_ne', K.wrapIndex]
  · simp (disch := decide) only [nullary_result', unary_result', binary_result', ternary_result',
      nullary_result_ne', unary_result_ne', binary_result_ne', ternary_result_ne', K.wrapIndex]

namespace R

/-- An index as a gather reads it: a negative one counts from the end (1024 rows). -/
def wrapIndex (I : IVec Cert.ReferenceIdeal.S523776 32) : IVec Cert.ReferenceIdeal.S523776 32 :=
  select (cmpi .slt I (broadcastInDim Cert.ReferenceIdeal.S523776 ![] Cert.ReferenceIdeal.Gen.bcast_S_S523776 (constantI Cert.ReferenceIdeal.S_ 32 0#32)))
    (addi I (broadcastInDim Cert.ReferenceIdeal.S523776 ![] Cert.ReferenceIdeal.Gen.bcast_S_S523776 (constantI Cert.ReferenceIdeal.S_ 32 1024#32))) I

/-- The rows of `h` at the wrapped indices `I`: one row per pair. -/
def gatherRows (h : FVec Ideal Cert.ReferenceIdeal.S1024x256 .f32) (I : IVec Cert.ReferenceIdeal.S523776 32) : FVec Ideal Cert.ReferenceIdeal.S523776x256 .f32 :=
  Host.gather Cert.ReferenceIdeal.gather_S1024x256_S523776x1_S523776x256_1_0_n_n_0_1_1256 h
    (broadcastInDim Cert.ReferenceIdeal.S523776x1 ![0] Cert.ReferenceIdeal.Gen.bcast_S523776_S523776x1_0 (wrapIndex I))

/-- The bond head's hidden pre-activation, pair by pair: `h[i] · W[0:256] + h[j] · W[256:512] + b`. -/
def hidden (h : FVec Ideal Cert.ReferenceIdeal.S1024x256 .f32) (W : FVec Ideal Cert.ReferenceIdeal.S512x256 .f32) (b : FVec Ideal Cert.ReferenceIdeal.S256 .f32)
    (I J : IVec Cert.ReferenceIdeal.S523776 32) : FVec Ideal Cert.ReferenceIdeal.S523776x256 .f32 :=
  addf
    (addf
      (Host.dotGeneral Cert.ReferenceIdeal.dot_S523776x256_S256x256_S523776x256_1_0_0_1_n_n none (gatherRows h I)
        (extractStridedSlice Cert.ReferenceIdeal.S256x256 ![0, 0] W Cert.ReferenceIdeal.Gen.slices_S512x256_S256x256_0_0))
      (Host.dotGeneral Cert.ReferenceIdeal.dot_S523776x256_S256x256_S523776x256_1_0_0_1_n_n none (gatherRows h J)
        (extractStridedSlice Cert.ReferenceIdeal.S256x256 ![256, 0] W Cert.ReferenceIdeal.Gen.slices_S512x256_S256x256_256_0)))
    (broadcastInDim Cert.ReferenceIdeal.S523776x256 ![0, 1] Cert.ReferenceIdeal.Gen.bcast_S1x256_S523776x256_0_1
      (broadcastInDim Cert.ReferenceIdeal.S1x256 ![1] Cert.ReferenceIdeal.Gen.bcast_S256_S1x256_1 b))

/-- `x · (1 / (1 + exp (−x)))`, element by element, in the host's order of operations. -/
def hostSilu (x : FVec Ideal Cert.ReferenceIdeal.S523776x256 .f32) : FVec Ideal Cert.ReferenceIdeal.S523776x256 .f32 :=
  mulf x
    (Host.divf (broadcastInDim Cert.ReferenceIdeal.S523776x256 ![] Cert.ReferenceIdeal.Gen.bcast_S_S523776x256 (constant Cert.ReferenceIdeal.S_ .f32 0x3F800000#32))
      (addf (broadcastInDim Cert.ReferenceIdeal.S523776x256 ![] Cert.ReferenceIdeal.Gen.bcast_S_S523776x256 (constant Cert.ReferenceIdeal.S_ .f32 0x3F800000#32))
        (Host.exp (Host.negf x))))

end R

/-- The reference program's bond stretches, in order (the stretch that makes the pair table sits before them in the
    program and writes no buffer they read). -/
abbrev rBondOps : List (HloOp Cert.ReferenceIdeal.τ Cert.ReferenceIdeal.sig (Elt Ideal)) :=
  Cert.ReferenceIdeal.Hand.opsRowNegative ++ (Cert.ReferenceIdeal.Hand.opsGatherRow ++ (Cert.ReferenceIdeal.Hand.opsRowProj ++ (Cert.ReferenceIdeal.Hand.opsGatherCol ++ (Cert.ReferenceIdeal.Hand.opsColProj ++ (Cert.ReferenceIdeal.Hand.opsBondHidden ++ (Cert.ReferenceIdeal.Hand.opsBondSilu ++ Cert.ReferenceIdeal.Hand.opsBondLogits))))))

/-- THE REFERENCE PROGRAM'S PAIR LOGITS: `silu (hidden) · W₂ + b₂`, the hidden layer from the two gathered rows. -/
theorem bondLogits_eq (Vr : RV) :
    after rBondOps Vr (Cert.ReferenceIdeal.main_v69 : DevRef Cert.ReferenceIdeal.τ Cert.ReferenceIdeal.sig)
      = addf (F := Ideal)
          (Host.dotGeneral (φ₂ := .f32) Cert.ReferenceIdeal.dot_S523776x256_S256x5_S523776x5_1_0_0_1_n_n none
            (R.hostSilu (R.hidden (Vr (Cert.ReferenceIdeal.main_arg0 : DevRef Cert.ReferenceIdeal.τ Cert.ReferenceIdeal.sig)) (Vr (Cert.ReferenceIdeal.main_arg7 : DevRef Cert.ReferenceIdeal.τ Cert.ReferenceIdeal.sig)) (Vr (Cert.ReferenceIdeal.main_arg8 : DevRef Cert.ReferenceIdeal.τ Cert.ReferenceIdeal.sig))
              (Vr (Cert.ReferenceIdeal.main_v37 : DevRef Cert.ReferenceIdeal.τ Cert.ReferenceIdeal.sig)) (Vr (Cert.ReferenceIdeal.main_v39 : DevRef Cert.ReferenceIdeal.τ Cert.ReferenceIdeal.sig))))
            (Vr (Cert.ReferenceIdeal.main_arg9 : DevRef Cert.ReferenceIdeal.τ Cert.ReferenceIdeal.sig)))
          (broadcastInDim Cert.ReferenceIdeal.S523776x5 ![0, 1] Cert.ReferenceIdeal.Gen.bcast_S1x5_S523776x5_0_1
            (broadcastInDim Cert.ReferenceIdeal.S1x5 ![1] Cert.ReferenceIdeal.Gen.bcast_S5_S1x5_1 (Vr (Cert.ReferenceIdeal.main_arg10 : DevRef Cert.ReferenceIdeal.τ Cert.ReferenceIdeal.sig)))) := by
  simp only [rBondOps, after_append, Cert.ReferenceIdeal.Hand.opsRowNegative, Cert.ReferenceIdeal.Hand.opsGatherRow, Cert.ReferenceIdeal.Hand.opsRowProj, Cert.ReferenceIdeal.Hand.opsGatherCol,
    Cert.ReferenceIdeal.Hand.opsColProj, Cert.ReferenceIdeal.Hand.opsBondHidden, Cert.ReferenceIdeal.Hand.opsBondSilu, Cert.ReferenceIdeal.Hand.opsBondLogits]
  after_results_simp
  rfl

end Cert.BondChains

end
-- ==== Proof.Nests.lean ====
import proofs.«122468_j35184372089134_1_alg».proof.Proof.PairIndex
import proofs.«122468_j35184372089134_1_alg».proof.Proof.BondChains

noncomputable section

namespace Cert.Nests

open Idealize.ShloMosaic Idealize.ShloMosaic.TcCoe Idealize.ShloMosaic.StableHlo
open Idealize.SL Idealize.SL.Sem
open Cert.PairIndex (KV RV after_append kIndexOps rIndexOps)
open Cert.BondChains (rBondOps)

/-! # The two runs as nests of their parts

Running a concatenation of stretches is running them one after the other, so each program's run of host operations
is the nest of the parts the other modules speak of: the integer chain, the long stretch, the valency's two last
stretches for the kernel program's tail; the atom head, the integer chain, the pair table, the bond stretches and the
valency's three for the reference program. -/

/-- The kernel program's stretches after the region, run in order, are its integer chain, then the long stretch, then
    the valency's two last stretches. -/
theorem tail_nest (W : KV) :
    after (List.flatten (Cert.KernelIdeal.Hand.tailOps (F := Ideal))) W
      = after (Cert.KernelIdeal.Gen.hostOps1_18 (F := Ideal)) (after (Cert.KernelIdeal.Gen.hostOps1_17 (F := Ideal)) (after (Cert.KernelIdeal.Gen.hostOps1_16 (F := Ideal)) (after kIndexOps W))) := by
  simp only [Cert.KernelIdeal.Hand.tailOps, kIndexOps, List.flatten_cons, List.flatten_nil, List.append_nil, after_append]

/-- The reference program's atom head: hidden layer, x·σ(x), logits, softmax. -/
abbrev rHeadOps : List (HloOp Cert.ReferenceIdeal.τ Cert.ReferenceIdeal.sig (Elt Ideal)) :=
  Cert.ReferenceIdeal.Hand.opsAtomHidden ++ (Cert.ReferenceIdeal.Hand.opsAtomSilu ++ (Cert.ReferenceIdeal.Hand.opsAtomLogits ++ Cert.ReferenceIdeal.Hand.opsSoftmax))

/-- The reference program's operations, run in program order, are the atom head, the integer chain, the pair table,
    the bond stretches, and the valency's three stretches. -/
theorem ref_nest (V : RV) :
    after (Cert.ReferenceIdeal.Hand.ops (F := Ideal)) V
      = after (Cert.ReferenceIdeal.Hand.opsValency (F := Ideal)) (after (Cert.ReferenceIdeal.Hand.opsValencySilu (F := Ideal)) (after (Cert.ReferenceIdeal.Hand.opsValencyHidden (F := Ideal))
          (after rBondOps (after (Cert.ReferenceIdeal.Hand.opsPairIndex (F := Ideal)) (after rIndexOps (after rHeadOps V)))))) := by
  simp only [Cert.ReferenceIdeal.Hand.ops, Cert.ReferenceIdeal.Hand.ops0, Cert.ReferenceIdeal.Hand.ops1, rBondOps, rIndexOps, rHeadOps, after_append]

end Cert.Nests

end
-- ==== Proof.SharedFloat.Steps.lean ====
/- The float chains the two programs share, stretch by stretch. Three of the four results are computed by the
   same jax code in both programs — the atom head (two linear layers around a `silu`), its row softmax, and the
   valency head over the features and that softmax — so the operations agree one by one and only the buffers' names
   differ. Each lemma runs one stretch of each program from contents that agree on the stretch's inputs and
   concludes that they agree on its output: both folds are evaluated in the one goal, the inputs rewritten, and the
   two sides are then the same term up to the programs' separately declared but literally equal shapes, dimension
   records and side conditions. -/
import proofs.«122468_j35184372089134_1_alg».proof.Proof.Gen.KernelIdeal.Launch
import proofs.«122468_j35184372089134_1_alg».proof.Proof.KernelIdealFrame.Writes
import proofs.«122468_j35184372089134_1_alg».proof.Proof.ReferenceRun.Ops
import Idealize.ShloMosaic.Lib.StableHlo.Run
import Idealize.ShloMosaic.PureOps.Ideal

noncomputable section

namespace Cert.SharedFloat

open Idealize.ShloMosaic Idealize.ShloMosaic.TcCoe Idealize.ShloMosaic.StableHlo
open Idealize.SL Idealize.SL.Sem
open Cert.KernelIdeal.Gen (hostOps0 hostOps0_1 hostOps0_2 hostOps1_16 hostOps1_17 hostOps1_18)
open Cert.ReferenceIdeal.Hand (opsAtomHidden opsAtomSilu opsAtomLogits opsSoftmax opsValencyHidden opsValencySilu opsValency)

/-- Buffer contents of the kernel program and of the reference program, at the exact reals. -/
abbrev KV := Valuation Cert.KernelIdeal.τ Cert.KernelIdeal.sig (Elt Ideal)
abbrev RV := Valuation Cert.ReferenceIdeal.τ Cert.ReferenceIdeal.sig (Elt Ideal)

/-- The atom head's hidden pre-activation, from the same features, weights and bias. -/
theorem atomHidden_step (Vk : KV) (Vr : RV) (h0 : Vk (Cert.KernelIdeal.main_arg0 : DevRef _ _) = Vr (Cert.ReferenceIdeal.main_arg0 : DevRef _ _)) (h3 : Vk (Cert.KernelIdeal.main_arg3 : DevRef _ _) = Vr (Cert.ReferenceIdeal.main_arg3 : DevRef _ _)) (h4 : Vk (Cert.KernelIdeal.main_arg4 : DevRef _ _) = Vr (Cert.ReferenceIdeal.main_arg4 : DevRef _ _)) :
    after (hostOps0 (F := Ideal)) Vk (Cert.KernelIdeal.main_v3 : DevRef _ _)
      = after (opsAtomHidden (F := Ideal)) Vr (Cert.ReferenceIdeal.main_v3 : DevRef _ _) := by
  simp only [hostOps0, opsAtomHidden]
  after_results_simp
  all_goals (try simp only [h0, h3, h4])
  all_goals rfl

/-- `silu` of the same matrix. -/
theorem atomSilu_step (Vk : KV) (Vr : RV) (h : Vk (Cert.KernelIdeal.main_v3 : DevRef _ _) = Vr (Cert.ReferenceIdeal.main_v3 : DevRef _ _)) :
    after (hostOps0_1 (F := Ideal)) Vk (Cert.KernelIdeal.main_v4 : DevRef _ _)
      = after (opsAtomSilu (F := Ideal)) Vr (Cert.ReferenceIdeal.main_v4 : DevRef _ _) := by
  simp only [hostOps0_1, opsAtomSilu]
  after_results_simp
  all_goals (try simp only [h])
  all_goals rfl

/-- The atom logits, from the same activations, weights and bias. -/
theorem atomLogits_step (Vk : KV) (Vr : RV) (h : Vk (Cert.KernelIdeal.main_v4 : DevRef _ _) = Vr (Cert.ReferenceIdeal.main_v4 : DevRef _ _)) (h5 : Vk (Cert.KernelIdeal.main_arg5 : DevRef _ _) = Vr (Cert.ReferenceIdeal.main_arg5 : DevRef _ _)) (h6 : Vk (Cert.KernelIdeal.main_arg6 : DevRef _ _) = Vr (Cert.ReferenceIdeal.main_arg6 : DevRef _ _)) :
    after (hostOps0_2 (F := Ideal)) Vk (Cert.KernelIdeal.main_v8 : DevRef _ _)
      = after (opsAtomLogits (F := Ideal)) Vr (Cert.ReferenceIdeal.main_v8 : DevRef _ _) := by
  simp only [hostOps0_2, opsAtomLogits]
  after_results_simp
  all_goals (try simp only [h, h5, h6])
  all_goals rfl

/-- The row softmax of the atom logits, from the same activations, weights and bias (the kernel program's long stretch computes logits and softmax in a row). -/
theorem softmax_step (Vk : KV) (Vr : RV) (h : Vk (Cert.KernelIdeal.main_v4 : DevRef _ _) = Vr (Cert.ReferenceIdeal.main_v4 : DevRef _ _)) (h5 : Vk (Cert.KernelIdeal.main_arg5 : DevRef _ _) = Vr (Cert.ReferenceIdeal.main_arg5 : DevRef _ _)) (h6 : Vk (Cert.KernelIdeal.main_arg6 : DevRef _ _) = Vr (Cert.ReferenceIdeal.main_arg6 : DevRef _ _)) :
    after (hostOps0_2 (F := Ideal)) Vk (Cert.KernelIdeal.main_v19 : DevRef _ _)
      = after (opsSoftmax (F := Ideal)) (after (opsAtomLogits (F := Ideal)) Vr) (Cert.ReferenceIdeal.main_v19 : DevRef _ _) := by
  simp only [hostOps0_2, opsAtomLogits, opsSoftmax]
  after_results_simp
  all_goals (try simp only [h, h5, h6])
  all_goals rfl

/-- The valency head's hidden pre-activation, from the same features, softmax, weights and bias (the last eight operations of the kernel program's long stretch). -/
theorem valencyHidden_step (Vk : KV) (Vr : RV) (h0 : Vk (Cert.KernelIdeal.main_arg0 : DevRef _ _) = Vr (Cert.ReferenceIdeal.main_arg0 : DevRef _ _)) (h11 : Vk (Cert.KernelIdeal.main_arg11 : DevRef _ _) = Vr (Cert.ReferenceIdeal.main_arg11 : DevRef _ _)) (h12 : Vk (Cert.KernelIdeal.main_arg12 : DevRef _ _) = Vr (Cert.ReferenceIdeal.main_arg12 : DevRef _ _)) (hp : Vk (Cert.KernelIdeal.main_v19 : DevRef _ _) = Vr (Cert.ReferenceIdeal.main_v19 : DevRef _ _)) :
    after (hostOps1_16 (F := Ideal)) Vk (Cert.KernelIdeal.main_v73 : DevRef _ _)
      = after (opsValencyHidden (F := Ideal)) Vr (Cert.ReferenceIdeal.main_v77 : DevRef _ _) := by
  simp only [hostOps1_16, opsValencyHidden]
  after_results_simp
  all_goals (try simp only [h0, h11, h12, hp])
  all_goals rfl

/-- `silu` of the same matrix. -/
theorem valencySilu_step (Vk : KV) (Vr : RV) (h : Vk (Cert.KernelIdeal.main_v73 : DevRef _ _) = Vr (Cert.ReferenceIdeal.main_v77 : DevRef _ _)) :
    after (hostOps1_17 (F := Ideal)) Vk (Cert.KernelIdeal.main_v74 : DevRef _ _)
      = after (opsValencySilu (F := Ideal)) Vr (Cert.ReferenceIdeal.main_v78 : DevRef _ _) := by
  simp only [hostOps1_17, opsValencySilu]
  after_results_simp
  all_goals (try simp only [h])
  all_goals rfl

/-- The valency scores, from the same activations, weights and bias. -/
theorem valency_step (Vk : KV) (Vr : RV) (h : Vk (Cert.KernelIdeal.main_v74 : DevRef _ _) = Vr (Cert.ReferenceIdeal.main_v78 : DevRef _ _)) (h13 : Vk (Cert.KernelIdeal.main_arg13 : DevRef _ _) = Vr (Cert.ReferenceIdeal.main_arg13 : DevRef _ _)) (h14 : Vk (Cert.KernelIdeal.main_arg14 : DevRef _ _) = Vr (Cert.ReferenceIdeal.main_arg14 : DevRef _ _)) :
    after (hostOps1_18 (F := Ideal)) Vk (Cert.KernelIdeal.main_v78 : DevRef _ _)
      = after (opsValency (F := Ideal)) Vr (Cert.ReferenceIdeal.main_v82 : DevRef _ _) := by
  simp only [hostOps1_18, opsValency]
  after_results_simp
  all_goals (try simp only [h, h13, h14])
  all_goals rfl

end Cert.SharedFloat

end
-- ==== Proof.SharedFloat.lean ====
/- The float chains the two programs share, end to end. The stretch lemmas of `SharedFloat/Steps.lean` are chained
   along each program's own order of stretches: a stretch's output agrees because its inputs do, and an argument
   reaches a later stretch unchanged because no operation writes it. What comes out: from contents that agree on
   the arguments, the two programs agree on the atom logits, on their softmax, and on the valency scores. The kernel
   program's first three stretches also prepare three operands of its kernel; those are read off here as explicit
   terms of the arguments. -/
import proofs.«122468_j35184372089134_1_alg».proof.Proof.SharedFloat.Steps
import proofs.«122468_j35184372089134_1_alg».proof.Proof.ReferenceRun.Writes

noncomputable section

namespace Cert.SharedFloat

open Idealize.ShloMosaic Idealize.ShloMosaic.TcCoe Idealize.ShloMosaic.StableHlo
open Idealize.SL Idealize.SL.Sem
open Cert.KernelIdeal.Gen (hostOps0 hostOps0_1 hostOps0_2 hostOps1_16 hostOps1_17 hostOps1_18)
open Cert.ReferenceIdeal.Hand (opsAtomHidden opsAtomSilu opsAtomLogits opsSoftmax opsValencyHidden opsValencySilu opsValency)

/-- Running two lines one after the other is running their concatenation. -/
theorem after_app {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ## A buffer a kernel-program stretch does not write passes through it -/

theorem k0_kept {r : Ref Cert.KernelIdeal.sig .tc} (hr : r ∉ Cert.KernelIdeal.Hand.hostOps0_W) (V : KV) :
    after (hostOps0 (F := Ideal)) V (r : DevRef _ _) = V (r : DevRef _ _) :=
  after_of_writes_sub _ V Cert.KernelIdeal.Hand.hostOps0_writes hr
theorem k0_1_kept {r : Ref Cert.KernelIdeal.sig .tc} (hr : r ∉ Cert.KernelIdeal.Hand.hostOps0_1_W) (V : KV) :
    after (hostOps0_1 (F := Ideal)) V (r : DevRef _ _) = V (r : DevRef _ _) :=
  after_of_writes_sub _ V Cert.KernelIdeal.Hand.hostOps0_1_writes hr
theorem k0_2_kept {r : Ref Cert.KernelIdeal.sig .tc} (hr : r ∉ Cert.KernelIdeal.Hand.hostOps0_2_W) (V : KV) :
    after (hostOps0_2 (F := Ideal)) V (r : DevRef _ _) = V (r : DevRef _ _) :=
  after_of_writes_sub _ V Cert.KernelIdeal.Hand.hostOps0_2_writes hr
theorem k1_16_kept {r : Ref Cert.KernelIdeal.sig .tc} (hr : r ∉ Cert.KernelIdeal.Hand.hostOps1_16_W) (V : KV) :
    after (hostOps1_16 (F := Ideal)) V (r : DevRef _ _) = V (r : DevRef _ _) :=
  after_of_writes_sub _ V Cert.KernelIdeal.Hand.hostOps1_16_writes hr
theorem k1_17_kept {r : Ref Cert.KernelIdeal.sig .tc} (hr : r ∉ Cert.KernelIdeal.Hand.hostOps1_17_W) (V : KV) :
    after (hostOps1_17 (F := Ideal)) V (r : DevRef _ _) = V (r : DevRef _ _) :=
  after_of_writes_sub _ V Cert.KernelIdeal.Hand.hostOps1_17_writes hr
theorem k1_18_kept {r : Ref Cert.KernelIdeal.sig .tc} (hr : r ∉ Cert.KernelIdeal.Hand.hostOps1_18_W) (V : KV) :
    after (hostOps1_18 (F := Ideal)) V (r : DevRef _ _) = V (r : DevRef _ _) :=
  after_of_writes_sub _ V Cert.KernelIdeal.Hand.hostOps1_18_writes hr

/-! ## The atom head and its softmax -/

/-- The kernel program's host operations before its kernel: the atom head, its softmax, and the kernel's operands. -/
abbrev kPreOps : List (HloOp Cert.KernelIdeal.τ Cert.KernelIdeal.sig (Elt Ideal)) := hostOps0 ++ hostOps0_1 ++ hostOps0_2
/-- The reference program's atom head and softmax. -/
abbrev rHeadOps : List (HloOp Cert.ReferenceIdeal.τ Cert.ReferenceIdeal.sig (Elt Ideal)) :=
  opsAtomHidden ++ opsAtomSilu ++ opsAtomLogits ++ opsSoftmax

/-- After the first two stretches of each program the activations agree. -/
theorem atomAct_eq (Vk : KV) (Vr : RV) (h0 : Vk (Cert.KernelIdeal.main_arg0 : DevRef _ _) = Vr (Cert.ReferenceIdeal.main_arg0 : DevRef _ _))
    (h3 : Vk (Cert.KernelIdeal.main_arg3 : DevRef _ _) = Vr (Cert.ReferenceIdeal.main_arg3 : DevRef _ _)) (h4 : Vk (Cert.KernelIdeal.main_arg4 : DevRef _ _) = Vr (Cert.ReferenceIdeal.main_arg4 : DevRef _ _)) :
    after (hostOps0_1 (F := Ideal)) (after (hostOps0 (F := Ideal)) Vk) (Cert.KernelIdeal.main_v4 : DevRef _ _)
      = after (opsAtomSilu (F := Ideal)) (after (opsAtomHidden (F := Ideal)) Vr) (Cert.ReferenceIdeal.main_v4 : DevRef _ _) :=
  atomSilu_step _ _ (atomHidden_step Vk Vr h0 h3 h4)

/-- The second layer's weights reach the third stretch unchanged, in both programs. -/
theorem atomAct_arg5 (Vk : KV) (Vr : RV) (h : Vk (Cert.KernelIdeal.main_arg5 : DevRef _ _) = Vr (Cert.ReferenceIdeal.main_arg5 : DevRef _ _)) :
    after (hostOps0_1 (F := Ideal)) (after (hostOps0 (F := Ideal)) Vk) (Cert.KernelIdeal.main_arg5 : DevRef _ _)
      = after (opsAtomSilu (F := Ideal)) (after (opsAtomHidden (F := Ideal)) Vr) (Cert.ReferenceIdeal.main_arg5 : DevRef _ _) := by
  rw [k0_1_kept (r := Cert.KernelIdeal.main_arg5) (by decide),
    k0_kept (r := Cert.KernelIdeal.main_arg5) (by decide),
    Cert.ReferenceIdeal.Hand.opsAtomSilu_kept (r := Cert.ReferenceIdeal.main_arg5) (by decide),
    Cert.ReferenceIdeal.Hand.opsAtomHidden_kept (r := Cert.ReferenceIdeal.main_arg5) (by decide)]
  exact h

/-- So does its bias. -/
theorem atomAct_arg6 (Vk : KV) (Vr : RV) (h : Vk (Cert.KernelIdeal.main_arg6 : DevRef _ _) = Vr (Cert.ReferenceIdeal.main_arg6 : DevRef _ _)) :
    after (hostOps0_1 (F := Ideal)) (after (hostOps0 (F := Ideal)) Vk) (Cert.KernelIdeal.main_arg6 : DevRef _ _)
      = after (opsAtomSilu (F := Ideal)) (after (opsAtomHidden (F := Ideal)) Vr) (Cert.ReferenceIdeal.main_arg6 : DevRef _ _) := by
  rw [k0_1_kept (r := Cert.KernelIdeal.main_arg6) (by decide),
    k0_kept (r := Cert.KernelIdeal.main_arg6) (by decide),
    Cert.ReferenceIdeal.Hand.opsAtomSilu_kept (r := Cert.ReferenceIdeal.main_arg6) (by decide),
    Cert.ReferenceIdeal.Hand.opsAtomHidden_kept (r := Cert.ReferenceIdeal.main_arg6) (by decide)]
  exact h

/-- THE ATOM LOGITS agree: the first result. -/
theorem atomLogits_eq (Vk : KV) (Vr : RV) (h0 : Vk (Cert.KernelIdeal.main_arg0 : DevRef _ _) = Vr (Cert.ReferenceIdeal.main_arg0 : DevRef _ _))
    (h3 : Vk (Cert.KernelIdeal.main_arg3 : DevRef _ _) = Vr (Cert.ReferenceIdeal.main_arg3 : DevRef _ _)) (h4 : Vk (Cert.KernelIdeal.main_arg4 : DevRef _ _) = Vr (Cert.ReferenceIdeal.main_arg4 : DevRef _ _))
    (h5 : Vk (Cert.KernelIdeal.main_arg5 : DevRef _ _) = Vr (Cert.ReferenceIdeal.main_arg5 : DevRef _ _)) (h6 : Vk (Cert.KernelIdeal.main_arg6 : DevRef _ _) = Vr (Cert.ReferenceIdeal.main_arg6 : DevRef _ _)) :
    after (hostOps0_2 (F := Ideal)) (after (hostOps0_1 (F := Ideal)) (after (hostOps0 (F := Ideal)) Vk)) (Cert.KernelIdeal.main_v8 : DevRef _ _)
      = after (opsSoftmax (F := Ideal)) (after (opsAtomLogits (F := Ideal)) (after (opsAtomSilu (F := Ideal)) (after (opsAtomHidden (F := Ideal)) Vr))) (Cert.ReferenceIdeal.main_v8 : DevRef _ _) := by
  rw [Cert.ReferenceIdeal.Hand.opsSoftmax_kept (r := Cert.ReferenceIdeal.main_v8) (by decide)]
  exact atomLogits_step _ _ (atomAct_eq Vk Vr h0 h3 h4) (atomAct_arg5 Vk Vr h5) (atomAct_arg6 Vk Vr h6)

/-- THE ATOM PROBABILITIES agree: the softmax both valency heads read. -/
theorem atomProbs_eq (Vk : KV) (Vr : RV) (h0 : Vk (Cert.KernelIdeal.main_arg0 : DevRef _ _) = Vr (Cert.ReferenceIdeal.main_arg0 : DevRef _ _))
    (h3 : Vk (Cert.KernelIdeal.main_arg3 : DevRef _ _) = Vr (Cert.ReferenceIdeal.main_arg3 : DevRef _ _)) (h4 : Vk (Cert.KernelIdeal.main_arg4 : DevRef _ _) = Vr (Cert.ReferenceIdeal.main_arg4 : DevRef _ _))
    (h5 : Vk (Cert.KernelIdeal.main_arg5 : DevRef _ _) = Vr (Cert.ReferenceIdeal.main_arg5 : DevRef _ _)) (h6 : Vk (Cert.KernelIdeal.main_arg6 : DevRef _ _) = Vr (Cert.ReferenceIdeal.main_arg6 : DevRef _ _)) :
    after (hostOps0_2 (F := Ideal)) (after (hostOps0_1 (F := Ideal)) (after (hostOps0 (F := Ideal)) Vk)) (Cert.KernelIdeal.main_v19 : DevRef _ _)
      = after (opsSoftmax (F := Ideal)) (after (opsAtomLogits (F := Ideal)) (after (opsAtomSilu (F := Ideal)) (after (opsAtomHidden (F := Ideal)) Vr))) (Cert.ReferenceIdeal.main_v19 : DevRef _ _) :=
  softmax_step _ _ (atomAct_eq Vk Vr h0 h3 h4) (atomAct_arg5 Vk Vr h5) (atomAct_arg6 Vk Vr h6)

/-- The same two statements with each program's stretches concatenated into one line. -/
theorem atomLogits_eq_app (Vk : KV) (Vr : RV) (h0 : Vk (Cert.KernelIdeal.main_arg0 : DevRef _ _) = Vr (Cert.ReferenceIdeal.main_arg0 : DevRef _ _))
    (h3 : Vk (Cert.KernelIdeal.main_arg3 : DevRef _ _) = Vr (Cert.ReferenceIdeal.main_arg3 : DevRef _ _)) (h4 : Vk (Cert.KernelIdeal.main_arg4 : DevRef _ _) = Vr (Cert.ReferenceIdeal.main_arg4 : DevRef _ _))
    (h5 : Vk (Cert.KernelIdeal.main_arg5 : DevRef _ _) = Vr (Cert.ReferenceIdeal.main_arg5 : DevRef _ _)) (h6 : Vk (Cert.KernelIdeal.main_arg6 : DevRef _ _) = Vr (Cert.ReferenceIdeal.main_arg6 : DevRef _ _)) :
    after kPreOps Vk (Cert.KernelIdeal.main_v8 : DevRef _ _) = after rHeadOps Vr (Cert.ReferenceIdeal.main_v8 : DevRef _ _) := by
  simp only [kPreOps, rHeadOps, after_app]
  exact atomLogits_eq Vk Vr h0 h3 h4 h5 h6
theorem atomProbs_eq_app (Vk : KV) (Vr : RV) (h0 : Vk (Cert.KernelIdeal.main_arg0 : DevRef _ _) = Vr (Cert.ReferenceIdeal.main_arg0 : DevRef _ _))
    (h3 : Vk (Cert.KernelIdeal.main_arg3 : DevRef _ _) = Vr (Cert.ReferenceIdeal.main_arg3 : DevRef _ _)) (h4 : Vk (Cert.KernelIdeal.main_arg4 : DevRef _ _) = Vr (Cert.ReferenceIdeal.main_arg4 : DevRef _ _))
    (h5 : Vk (Cert.KernelIdeal.main_arg5 : DevRef _ _) = Vr (Cert.ReferenceIdeal.main_arg5 : DevRef _ _)) (h6 : Vk (Cert.KernelIdeal.main_arg6 : DevRef _ _) = Vr (Cert.ReferenceIdeal.main_arg6 : DevRef _ _)) :
    after kPreOps Vk (Cert.KernelIdeal.main_v19 : DevRef _ _) = after rHeadOps Vr (Cert.ReferenceIdeal.main_v19 : DevRef _ _) := by
  simp only [kPreOps, rHeadOps, after_app]
  exact atomProbs_eq Vk Vr h0 h3 h4 h5 h6

/-! ## The valency head -/

/-- The output layer's weights reach the last stretch unchanged, in both programs. -/
theorem valencyAct_arg13 (Vk : KV) (Vr : RV) (h : Vk (Cert.KernelIdeal.main_arg13 : DevRef _ _) = Vr (Cert.ReferenceIdeal.main_arg13 : DevRef _ _)) :
    after (hostOps1_17 (F := Ideal)) (after (hostOps1_16 (F := Ideal)) Vk) (Cert.KernelIdeal.main_arg13 : DevRef _ _)
      = after (opsValencySilu (F := Ideal)) (after (opsValencyHidden (F := Ideal)) Vr) (Cert.ReferenceIdeal.main_arg13 : DevRef _ _) := by
  rw [k1_17_kept (r := Cert.KernelIdeal.main_arg13) (by decide),
    k1_16_kept (r := Cert.KernelIdeal.main_arg13) (by decide),
    Cert.ReferenceIdeal.Hand.opsValencySilu_kept (r := Cert.ReferenceIdeal.main_arg13) (by decide),
    Cert.ReferenceIdeal.Hand.opsValencyHidden_kept (r := Cert.ReferenceIdeal.main_arg13) (by decide)]
  exact h

/-- So does its bias. -/
theorem valencyAct_arg14 (Vk : KV) (Vr : RV) (h : Vk (Cert.KernelIdeal.main_arg14 : DevRef _ _) = Vr (Cert.ReferenceIdeal.main_arg14 : DevRef _ _)) :
    after (hostOps1_17 (F := Ideal)) (after (hostOps1_16 (F := Ideal)) Vk) (Cert.KernelIdeal.main_arg14 : DevRef _ _)
      = after (opsValencySilu (F := Ideal)) (after (opsValencyHidden (F := Ideal)) Vr) (Cert.ReferenceIdeal.main_arg14 : DevRef _ _) := by
  rw [k1_17_kept (r := Cert.KernelIdeal.main_arg14) (by decide),
    k1_16_kept (r := Cert.KernelIdeal.main_arg14) (by decide),
    Cert.ReferenceIdeal.Hand.opsValencySilu_kept (r := Cert.ReferenceIdeal.main_arg14) (by decide),
    Cert.ReferenceIdeal.Hand.opsValencyHidden_kept (r := Cert.ReferenceIdeal.main_arg14) (by decide)]
  exact h

/-- THE VALENCY SCORES agree, from the same features, weights, biases and atom probabilities: the third result. (The
    kernel program's long stretch before its `silu` also lists the pairs and gathers the kernel's output; only its last
    eight operations feed the scores.) -/
theorem valency_eq (Vk : KV) (Vr : RV) (h0 : Vk (Cert.KernelIdeal.main_arg0 : DevRef _ _) = Vr (Cert.ReferenceIdeal.main_arg0 : DevRef _ _))
    (h11 : Vk (Cert.KernelIdeal.main_arg11 : DevRef _ _) = Vr (Cert.ReferenceIdeal.main_arg11 : DevRef _ _)) (h12 : Vk (Cert.KernelIdeal.main_arg12 : DevRef _ _) = Vr (Cert.ReferenceIdeal.main_arg12 : DevRef _ _))
    (h13 : Vk (Cert.KernelIdeal.main_arg13 : DevRef _ _) = Vr (Cert.ReferenceIdeal.main_arg13 : DevRef _ _)) (h14 : Vk (Cert.KernelIdeal.main_arg14 : DevRef _ _) = Vr (Cert.ReferenceIdeal.main_arg14 : DevRef _ _))
    (hp : Vk (Cert.KernelIdeal.main_v19 : DevRef _ _) = Vr (Cert.ReferenceIdeal.main_v19 : DevRef _ _)) :
    after (hostOps1_18 (F := Ideal)) (after (hostOps1_17 (F := Ideal)) (after (hostOps1_16 (F := Ideal)) Vk)) (Cert.KernelIdeal.main_v78 : DevRef _ _)
      = after (opsValency (F := Ideal)) (after (opsValencySilu (F := Ideal)) (after (opsValencyHidden (F := Ideal)) Vr)) (Cert.ReferenceIdeal.main_v82 : DevRef _ _) :=
  valency_step _ _ (valencySilu_step _ _ (valencyHidden_step Vk Vr h0 h11 h12 hp))
    (valencyAct_arg13 Vk Vr h13) (valencyAct_arg14 Vk Vr h14)

/-! ## The kernel's operands the host prepares -/

/-- The first half of the bond layer applied to every atom, plus the bias: `h · Wb1[0:256] + bb1`. -/
theorem topProj_eq (Vk : KV) :
    after (hostOps0_2 (F := Ideal)) (after (hostOps0_1 (F := Ideal)) (after (hostOps0 (F := Ideal)) Vk)) (Cert.KernelIdeal.main_v24 : DevRef _ _)
      = (addf (Host.dotGeneral (F := Ideal) (φ₁ := .f32) (φ₂ := .f32) Cert.KernelIdeal.dot_S1024x256_S256x256_S1024x256_1_0_0_1_n_n none (Vk (Proc.devRef .tc Cert.KernelIdeal.main_arg0) : FVec Ideal Cert.KernelIdeal.S1024x256 .f32)
            (extractStridedSlice (α := Ideal .f32) Cert.KernelIdeal.S256x256 ![0, 0] (Vk (Proc.devRef .tc Cert.KernelIdeal.main_arg7) : FVec Ideal Cert.KernelIdeal.S512x256 .f32) Cert.KernelIdeal.Gen.slices_S512x256_S256x256_0_0))
          (broadcastInDim Cert.KernelIdeal.S1024x256 ![0, 1] Cert.KernelIdeal.Gen.bcast_S1x256_S1024x256_0_1
            (broadcastInDim Cert.KernelIdeal.S1x256 ![1] Cert.KernelIdeal.Gen.bcast_S256_S1x256_1 (Vk (Proc.devRef .tc Cert.KernelIdeal.main_arg8) : FVec Ideal Cert.KernelIdeal.S256 .f32))) :
          FVec Ideal Cert.KernelIdeal.S1024x256 .f32) := by
  simp only [hostOps0_2]
  after_results_simp

/-- The second half of the bond layer applied to every atom: `h · Wb1[256:512]`. -/
theorem botProj_eq (Vk : KV) :
    after (hostOps0_2 (F := Ideal)) (after (hostOps0_1 (F := Ideal)) (after (hostOps0 (F := Ideal)) Vk)) (Cert.KernelIdeal.main_v26 : DevRef _ _)
      = (Host.dotGeneral (F := Ideal) (φ₁ := .f32) (φ₂ := .f32) Cert.KernelIdeal.dot_S1024x256_S256x256_S1024x256_1_0_0_1_n_n none (Vk (Proc.devRef .tc Cert.KernelIdeal.main_arg0) : FVec Ideal Cert.KernelIdeal.S1024x256 .f32)
          (extractStridedSlice (α := Ideal .f32) Cert.KernelIdeal.S256x256 ![256, 0] (Vk (Proc.devRef .tc Cert.KernelIdeal.main_arg7) : FVec Ideal Cert.KernelIdeal.S512x256 .f32) Cert.KernelIdeal.Gen.slices_S512x256_S256x256_256_0) :
          FVec Ideal Cert.KernelIdeal.S1024x256 .f32) := by
  simp only [hostOps0_2]
  after_results_simp

/-- The bond output bias as a one-row matrix. -/
theorem biasRow_eq (Vk : KV) :
    after (hostOps0_2 (F := Ideal)) (after (hostOps0_1 (F := Ideal)) (after (hostOps0 (F := Ideal)) Vk)) (Cert.KernelIdeal.main_v27 : DevRef _ _)
      = ((fun i => shapeCast Cert.KernelIdeal.S1x5 (Vk (Proc.devRef .tc Cert.KernelIdeal.main_arg10) : FVec Ideal Cert.KernelIdeal.S5 .f32) Cert.KernelIdeal.Gen.shapeCasts_S5_S1x5 i) : FVec Ideal Cert.KernelIdeal.S1x5 .f32) := by
  simp only [hostOps0_2]
  after_results_simp
  rfl

end Cert.SharedFloat

end
-- ==== Proof.AssembleFloat.lean ====
/- The float results of the two whole runs agree. The kernel program runs its host operations after the region from the
   contents the region leaves; the reference program runs all of its operations from its launch contents. Two of the
   float results are untouched by everything that differs between the programs:
   the atom logits are finished before the kernel program's region and written by nothing after it, so at the end they
   are what the three stretches before the region made of the launch contents, and in the reference program they pass
   through every stretch after the atom head; the valency scores are computed at the very end of both programs from the
   arguments and the atom probabilities, which reach that point unchanged in both. The shared stretches themselves
   are compared in `SharedFloat.lean`; here each side is peeled down to them. -/
import proofs.«122468_j35184372089134_1_alg».proof.Proof.TailStart
import proofs.«122468_j35184372089134_1_alg».proof.Proof.Nests
import proofs.«122468_j35184372089134_1_alg».proof.Proof.SharedFloat
import proofs.«122468_j35184372089134_1_alg».proof.Proof.BondChains

noncomputable section

namespace Cert.Assemble

open Idealize.ShloMosaic Idealize.ShloMosaic.TcCoe Idealize.ShloMosaic.StableHlo
open Idealize.SL Idealize.SL.Sem
open Cert.PairIndex (KV RV kIndexOps rIndexOps kIndex_kept)
open Cert.BondChains (rBondOps)
open Cert.KernelIdeal.Gen (hostOps0 hostOps0_1 hostOps0_2 hostOps1_16 hostOps1_17 hostOps1_18)
open Cert.ReferenceIdeal.Hand (opsAtomHidden opsAtomSilu opsAtomLogits opsSoftmax opsPairIndex opsValencyHidden opsValencySilu opsValency single)

variable (m : (ℓ : Loc Cert.KernelIdeal.nD Cert.KernelIdeal.τ Cert.KernelIdeal.sig) → Buf (Elt Ideal) ℓ)

/-! ## The reference program: what its middle and its atom head leave alone -/

/-- The references written between the atom head and the valency head: by the integer chain, the pair table and the
    bond stretches. -/
abbrev rMidW : List (Ref Cert.ReferenceIdeal.sig .tc) :=
  Cert.ReferenceIdeal.Hand.wOnes ++ (Cert.ReferenceIdeal.Hand.wTriu ++ (Cert.ReferenceIdeal.Hand.wTriuMask ++
  (Cert.ReferenceIdeal.Hand.wCumsumMask ++ (Cert.ReferenceIdeal.Hand.wScatterInit ++ (Cert.ReferenceIdeal.Hand.wClip
  ++ (Cert.ReferenceIdeal.Hand.wScatter ++ (Cert.ReferenceIdeal.Hand.wCumsumScatter ++
  (Cert.ReferenceIdeal.Hand.wRowQuot ++ (Cert.ReferenceIdeal.Hand.wRowIndex ++ (Cert.ReferenceIdeal.Hand.wColQuot ++
  (Cert.ReferenceIdeal.Hand.wColIndex ++ (Cert.ReferenceIdeal.Hand.wPairIndex ++
  (Cert.ReferenceIdeal.Hand.wRowNegative ++ (Cert.ReferenceIdeal.Hand.wGatherRow ++
  (Cert.ReferenceIdeal.Hand.wRowProj ++ (Cert.ReferenceIdeal.Hand.wGatherCol ++ (Cert.ReferenceIdeal.Hand.wColProj
  ++ (Cert.ReferenceIdeal.Hand.wBondHidden ++ (Cert.ReferenceIdeal.Hand.wBondSilu ++
  Cert.ReferenceIdeal.Hand.wBondLogits)))))))))))))))))))

/-- Operation by operation, those stretches write those references. -/
theorem rMid_writes :
    (rIndexOps ++ (opsPairIndex (F := Ideal) ++ rBondOps)).map HloOp.writes = rMidW.map single := by
  simp only [rIndexOps, rBondOps, rMidW, List.map_append, List.append_assoc,
    Cert.ReferenceIdeal.Hand.opsOnes_writes, Cert.ReferenceIdeal.Hand.opsTriu_writes,
    Cert.ReferenceIdeal.Hand.opsTriuMask_writes, Cert.ReferenceIdeal.Hand.opsCumsumMask_writes,
    Cert.ReferenceIdeal.Hand.opsScatterInit_writes, Cert.ReferenceIdeal.Hand.opsClip_writes,
    Cert.ReferenceIdeal.Hand.opsScatter_writes, Cert.ReferenceIdeal.Hand.opsCumsumScatter_writes,
    Cert.ReferenceIdeal.Hand.opsRowQuot_writes, Cert.ReferenceIdeal.Hand.opsRowIndex_writes,
    Cert.ReferenceIdeal.Hand.opsColQuot_writes, Cert.ReferenceIdeal.Hand.opsColIndex_writes,
    Cert.ReferenceIdeal.Hand.opsPairIndex_writes, Cert.ReferenceIdeal.Hand.opsRowNegative_writes,
    Cert.ReferenceIdeal.Hand.opsGatherRow_writes, Cert.ReferenceIdeal.Hand.opsRowProj_writes,
    Cert.ReferenceIdeal.Hand.opsGatherCol_writes, Cert.ReferenceIdeal.Hand.opsColProj_writes,
    Cert.ReferenceIdeal.Hand.opsBondHidden_writes, Cert.ReferenceIdeal.Hand.opsBondSilu_writes,
    Cert.ReferenceIdeal.Hand.opsBondLogits_writes]

/-- A buffer none of them writes passes through the middle of the reference program. -/
theorem ref_mid_kept {r : Ref Cert.ReferenceIdeal.sig .tc} (hr : r ∉ rMidW) (V : RV) :
    after rBondOps (after (opsPairIndex (F := Ideal)) (after rIndexOps V)) (Proc.devRef .tc r) = V (Proc.devRef .tc r) := by
  have h := Cert.ReferenceIdeal.Hand.kept_of_writes rMid_writes hr V
  rwa [after_append rIndexOps, after_append opsPairIndex] at h

/-- The references the atom head writes. -/
abbrev rHeadW : List (Ref Cert.ReferenceIdeal.sig .tc) :=
  Cert.ReferenceIdeal.Hand.wAtomHidden ++ (Cert.ReferenceIdeal.Hand.wAtomSilu ++ (Cert.ReferenceIdeal.Hand.wAtomLogits ++ Cert.ReferenceIdeal.Hand.wSoftmax))

theorem rHead_writes : (Cert.Nests.rHeadOps).map HloOp.writes = rHeadW.map single := by
  simp only [Cert.Nests.rHeadOps, rHeadW, List.map_append, List.append_assoc,
    Cert.ReferenceIdeal.Hand.opsAtomHidden_writes, Cert.ReferenceIdeal.Hand.opsAtomSilu_writes, Cert.ReferenceIdeal.Hand.opsAtomLogits_writes, Cert.ReferenceIdeal.Hand.opsSoftmax_writes]

/-- A buffer the atom head does not write passes through it (the arguments of the later heads). -/
theorem ref_head_kept {r : Ref Cert.ReferenceIdeal.sig .tc} (hr : r ∉ rHeadW) (V : RV) :
    after Cert.Nests.rHeadOps V (Proc.devRef .tc r) = V (Proc.devRef .tc r) :=
  Cert.ReferenceIdeal.Hand.kept_of_writes rHead_writes hr V

/-- The atom head, stretch by stretch. -/
theorem rHead_nest (V : RV) :
    after Cert.Nests.rHeadOps V
      = after (opsSoftmax (F := Ideal)) (after (opsAtomLogits (F := Ideal)) (after (opsAtomSilu (F := Ideal)) (after (opsAtomHidden (F := Ideal)) V))) := by
  rw [show Cert.Nests.rHeadOps = opsAtomHidden (F := Ideal) ++ (opsAtomSilu ++ (opsAtomLogits ++ opsSoftmax)) from rfl,
    after_append, after_append, after_append]

/-! ## The kernel program: a buffer before the region, seen from after it -/

/-- A buffer that is no array of the pipeline holds, when the host operations after the region start, what the three
    stretches before the region made of the launch contents. -/
theorem tailStart_nest (c : Dev Cert.KernelIdeal.nD) (b : Ref Cert.KernelIdeal.sig .tc)
    (hb : ∀ w, Pipeline.arrRef Cert.KernelIdeal.spec0 w ≠ b) :
    tailStart m c (Proc.devRef .tc b)
      = after (hostOps0_2 (F := Ideal)) (after (hostOps0_1 (F := Ideal)) (after (hostOps0 (F := Ideal)) (launchK m c))) (Proc.devRef .tc b) :=
  (tailStart_rest m c b hb).trans (V_nest m c b)

/-! ## The atom logits -/

/-- THE ATOM LOGITS of the two whole runs agree, from launch contents that agree on the five arguments they read. -/
theorem atomLogits_run (c : Dev Cert.KernelIdeal.nD) (V' : RV) (a0 : launchK m c (Cert.KernelIdeal.main_arg0 : DevRef _ _) = V' (Cert.ReferenceIdeal.main_arg0 : DevRef _ _))
    (a3 : launchK m c (Cert.KernelIdeal.main_arg3 : DevRef _ _) = V' (Cert.ReferenceIdeal.main_arg3 : DevRef _ _)) (a4 : launchK m c (Cert.KernelIdeal.main_arg4 : DevRef _ _) = V' (Cert.ReferenceIdeal.main_arg4 : DevRef _ _))
    (a5 : launchK m c (Cert.KernelIdeal.main_arg5 : DevRef _ _) = V' (Cert.ReferenceIdeal.main_arg5 : DevRef _ _)) (a6 : launchK m c (Cert.KernelIdeal.main_arg6 : DevRef _ _) = V' (Cert.ReferenceIdeal.main_arg6 : DevRef _ _)) :
    after (List.flatten (Cert.KernelIdeal.Hand.tailOps (F := Ideal))) (tailStart m c) (Proc.devRef .tc Cert.KernelIdeal.main_v8)
      = after (Cert.ReferenceIdeal.Hand.ops (F := Ideal)) V' (Proc.devRef .tc Cert.ReferenceIdeal.main_v8) := by
  rw [Cert.KernelIdeal.Hand.after_flatten_of_not_mem (Cert.KernelIdeal.Hand.tail_writes (F := Ideal)) (r := Cert.KernelIdeal.main_v8) (by decide),
    tailStart_nest m c Cert.KernelIdeal.main_v8 (by decide), Cert.Nests.ref_nest,
    Cert.ReferenceIdeal.Hand.opsValency_kept (r := Cert.ReferenceIdeal.main_v8) (by decide), Cert.ReferenceIdeal.Hand.opsValencySilu_kept (r := Cert.ReferenceIdeal.main_v8) (by decide),
    Cert.ReferenceIdeal.Hand.opsValencyHidden_kept (r := Cert.ReferenceIdeal.main_v8) (by decide), ref_mid_kept (r := Cert.ReferenceIdeal.main_v8) (by decide), rHead_nest]
  exact Cert.SharedFloat.atomLogits_eq (launchK m c) V' a0 a3 a4 a5 a6

/-! ## The valency scores -/

/-- The atom probabilities reach the valency head unchanged in both programs, and agree. -/
theorem tail_probs (c : Dev Cert.KernelIdeal.nD) (V' : RV) (a0 : launchK m c (Cert.KernelIdeal.main_arg0 : DevRef _ _) = V' (Cert.ReferenceIdeal.main_arg0 : DevRef _ _))
    (a3 : launchK m c (Cert.KernelIdeal.main_arg3 : DevRef _ _) = V' (Cert.ReferenceIdeal.main_arg3 : DevRef _ _)) (a4 : launchK m c (Cert.KernelIdeal.main_arg4 : DevRef _ _) = V' (Cert.ReferenceIdeal.main_arg4 : DevRef _ _))
    (a5 : launchK m c (Cert.KernelIdeal.main_arg5 : DevRef _ _) = V' (Cert.ReferenceIdeal.main_arg5 : DevRef _ _)) (a6 : launchK m c (Cert.KernelIdeal.main_arg6 : DevRef _ _) = V' (Cert.ReferenceIdeal.main_arg6 : DevRef _ _)) :
    after kIndexOps (tailStart m c) (Cert.KernelIdeal.main_v19 : DevRef _ _)
      = after rBondOps (after (opsPairIndex (F := Ideal)) (after rIndexOps (after Cert.Nests.rHeadOps V'))) (Cert.ReferenceIdeal.main_v19 : DevRef _ _) := by
  rw [kIndex_kept (r := Cert.KernelIdeal.main_v19) (by decide), tailStart_nest m c Cert.KernelIdeal.main_v19 (by decide),
    ref_mid_kept (r := Cert.ReferenceIdeal.main_v19) (by decide), rHead_nest]
  exact Cert.SharedFloat.atomProbs_eq (launchK m c) V' a0 a3 a4 a5 a6

/-! Each argument the valency head reads reaches it unchanged in both programs: nothing before it writes an argument. -/

theorem tail_arg0 (c : Dev Cert.KernelIdeal.nD) (V' : RV) (a0 : launchK m c (Cert.KernelIdeal.main_arg0 : DevRef _ _) = V' (Cert.ReferenceIdeal.main_arg0 : DevRef _ _)) :
    after kIndexOps (tailStart m c) (Cert.KernelIdeal.main_arg0 : DevRef _ _)
      = after rBondOps (after (opsPairIndex (F := Ideal)) (after rIndexOps (after Cert.Nests.rHeadOps V'))) (Cert.ReferenceIdeal.main_arg0 : DevRef _ _) := by
  rw [kIndex_kept (r := Cert.KernelIdeal.main_arg0) (by decide), tailStart_rest m c Cert.KernelIdeal.main_arg0 (by decide),
    ref_mid_kept (r := Cert.ReferenceIdeal.main_arg0) (by decide), ref_head_kept (r := Cert.ReferenceIdeal.main_arg0) (by decide)]
  exact (Cert.KernelIdeal.Hand.V_main_arg0 (F := Ideal) m c).trans a0

theorem tail_arg11 (c : Dev Cert.KernelIdeal.nD) (V' : RV) (a11 : launchK m c (Cert.KernelIdeal.main_arg11 : DevRef _ _) = V' (Cert.ReferenceIdeal.main_arg11 : DevRef _ _)) :
    after kIndexOps (tailStart m c) (Cert.KernelIdeal.main_arg11 : DevRef _ _)
      = after rBondOps (after (opsPairIndex (F := Ideal)) (after rIndexOps (after Cert.Nests.rHeadOps V'))) (Cert.ReferenceIdeal.main_arg11 : DevRef _ _) := by
  rw [kIndex_kept (r := Cert.KernelIdeal.main_arg11) (by decide), tailStart_rest m c Cert.KernelIdeal.main_arg11 (by decide),
    ref_mid_kept (r := Cert.ReferenceIdeal.main_arg11) (by decide), ref_head_kept (r := Cert.ReferenceIdeal.main_arg11) (by decide)]
  exact (Cert.KernelIdeal.Hand.V_main_arg11 (F := Ideal) m c).trans a11

theorem tail_arg12 (c : Dev Cert.KernelIdeal.nD) (V' : RV) (a12 : launchK m c (Cert.KernelIdeal.main_arg12 : DevRef _ _) = V' (Cert.ReferenceIdeal.main_arg12 : DevRef _ _)) :
    after kIndexOps (tailStart m c) (Cert.KernelIdeal.main_arg12 : DevRef _ _)
      = after rBondOps (after (opsPairIndex (F := Ideal)) (after rIndexOps (after Cert.Nests.rHeadOps V'))) (Cert.ReferenceIdeal.main_arg12 : DevRef _ _) := by
  rw [kIndex_kept (r := Cert.KernelIdeal.main_arg12) (by decide), tailStart_rest m c Cert.KernelIdeal.main_arg12 (by decide),
    ref_mid_kept (r := Cert.ReferenceIdeal.main_arg12) (by decide), ref_head_kept (r := Cert.ReferenceIdeal.main_arg12) (by decide)]
  exact (Cert.KernelIdeal.Hand.V_main_arg12 (F := Ideal) m c).trans a12

theorem tail_arg13 (c : Dev Cert.KernelIdeal.nD) (V' : RV) (a13 : launchK m c (Cert.KernelIdeal.main_arg13 : DevRef _ _) = V' (Cert.ReferenceIdeal.main_arg13 : DevRef _ _)) :
    after kIndexOps (tailStart m c) (Cert.KernelIdeal.main_arg13 : DevRef _ _)
      = after rBondOps (after (opsPairIndex (F := Ideal)) (after rIndexOps (after Cert.Nests.rHeadOps V'))) (Cert.ReferenceIdeal.main_arg13 : DevRef _ _) := by
  rw [kIndex_kept (r := Cert.KernelIdeal.main_arg13) (by decide), tailStart_rest m c Cert.KernelIdeal.main_arg13 (by decide),
    ref_mid_kept (r := Cert.ReferenceIdeal.main_arg13) (by decide), ref_head_kept (r := Cert.ReferenceIdeal.main_arg13) (by decide)]
  exact (Cert.KernelIdeal.Hand.V_main_arg13 (F := Ideal) m c).trans a13

theorem tail_arg14 (c : Dev Cert.KernelIdeal.nD) (V' : RV) (a14 : launchK m c (Cert.KernelIdeal.main_arg14 : DevRef _ _) = V' (Cert.ReferenceIdeal.main_arg14 : DevRef _ _)) :
    after kIndexOps (tailStart m c) (Cert.KernelIdeal.main_arg14 : DevRef _ _)
      = after rBondOps (after (opsPairIndex (F := Ideal)) (after rIndexOps (after Cert.Nests.rHeadOps V'))) (Cert.ReferenceIdeal.main_arg14 : DevRef _ _) := by
  rw [kIndex_kept (r := Cert.KernelIdeal.main_arg14) (by decide), tailStart_rest m c Cert.KernelIdeal.main_arg14 (by decide),
    ref_mid_kept (r := Cert.ReferenceIdeal.main_arg14) (by decide), ref_head_kept (r := Cert.ReferenceIdeal.main_arg14) (by decide)]
  exact (Cert.KernelIdeal.Hand.V_main_arg14 (F := Ideal) m c).trans a14

/-- THE VALENCY SCORES of the two whole runs agree, from launch contents that agree on the nine arguments they read. -/
theorem valency_run (c : Dev Cert.KernelIdeal.nD) (V' : RV) (a0 : launchK m c (Cert.KernelIdeal.main_arg0 : DevRef _ _) = V' (Cert.ReferenceIdeal.main_arg0 : DevRef _ _))
    (a3 : launchK m c (Cert.KernelIdeal.main_arg3 : DevRef _ _) = V' (Cert.ReferenceIdeal.main_arg3 : DevRef _ _)) (a4 : launchK m c (Cert.KernelIdeal.main_arg4 : DevRef _ _) = V' (Cert.ReferenceIdeal.main_arg4 : DevRef _ _))
    (a5 : launchK m c (Cert.KernelIdeal.main_arg5 : DevRef _ _) = V' (Cert.ReferenceIdeal.main_arg5 : DevRef _ _)) (a6 : launchK m c (Cert.KernelIdeal.main_arg6 : DevRef _ _) = V' (Cert.ReferenceIdeal.main_arg6 : DevRef _ _))
    (a11 : launchK m c (Cert.KernelIdeal.main_arg11 : DevRef _ _) = V' (Cert.ReferenceIdeal.main_arg11 : DevRef _ _)) (a12 : launchK m c (Cert.KernelIdeal.main_arg12 : DevRef _ _) = V' (Cert.ReferenceIdeal.main_arg12 : DevRef _ _))
    (a13 : launchK m c (Cert.KernelIdeal.main_arg13 : DevRef _ _) = V' (Cert.ReferenceIdeal.main_arg13 : DevRef _ _)) (a14 : launchK m c (Cert.KernelIdeal.main_arg14 : DevRef _ _) = V' (Cert.ReferenceIdeal.main_arg14 : DevRef _ _)) :
    after (List.flatten (Cert.KernelIdeal.Hand.tailOps (F := Ideal))) (tailStart m c) (Proc.devRef .tc Cert.KernelIdeal.main_v78)
      = after (Cert.ReferenceIdeal.Hand.ops (F := Ideal)) V' (Proc.devRef .tc Cert.ReferenceIdeal.main_v82) := by
  rw [Cert.Nests.tail_nest, Cert.Nests.ref_nest]
  exact Cert.SharedFloat.valency_eq _ _ (tail_arg0 m c V' a0) (tail_arg11 m c V' a11) (tail_arg12 m c V' a12)
    (tail_arg13 m c V' a13) (tail_arg14 m c V' a14) (tail_probs m c V' a0 a3 a4 a5 a6)

end Cert.Assemble

end
-- ==== Proof.DenseScore.lean ====
/-
  The dense pair tensor over the two host projections is the bond score.

  If P[i, d] is the first atom's projection with its bias, Q[j, d] the second atom's projection and the bias row holds b₂, then
  entry (i, j, k) of the dense tensor is  ∑_d silu ((proj_top i d + b₁ d) + proj_bot j d) · W₂[d, k] + b₂[k],  the score with the
  bias joined to the first projection.
-/
import proofs.«122468_j35184372089134_1_alg».proof.Proof.BondArrayIndex
import proofs.«122468_j35184372089134_1_alg».proof.Proof.BondScore

noncomputable section

namespace Cert.KernelIdeal.BondArray

open Idealize.ShloMosaic Idealize.ShloMosaic.ValueIdx Cert.KernelIdeal Cert.BondScore

theorem dense_score (P Q : S1024x256.Idx → EReal) (W₂ : S256x5.Idx → EReal) (brow : S1x5.Idx → EReal)
    (h : S1024x256.Idx → EReal) (W : S512x256.Idx → EReal) (b : S256.Idx → EReal) (b₂ : S5.Idx → EReal)
    (hP : ∀ (i : Fin 1024) (d : Fin 256), P (ix2 i d) = proj h W 0 (by omega) i d + b (ix1 d))
    (hQ : ∀ (j : Fin 1024) (d : Fin 256), Q (ix2 j d) = proj h W 256 (by omega) j d)
    (hb : ∀ k : Fin 5, brow (ix2 0 k) = b₂ (ix1 k))
    (i j : Fin 1024) (k : Fin 5) :
    dense P Q W₂ brow (ix3 i j k) = score h W b W₂ b₂ i j k := by
  show denseAt P Q W₂ brow i j k = _
  unfold denseAt score
  rw [hb]
  congr 1
  exact Finset.sum_congr rfl fun d _ => by rw [hP, hQ]

end Cert.KernelIdeal.BondArray

end
-- ==== Proof.Projections.lean ====
/-
  The two first-layer projections and the output bias, read at an index.

  On the host the first atom's projection is the 1024 × 256 features times rows 0–255 of the 512 × 256 first-layer weights plus
  the bias spread over all rows; the second atom's is the features times rows 256–511. A host matrix product over the
  extended reals is the plain sum over the contracted coordinate; a slice shifts the row index by its offset; a broadcast
  forgets the coordinates it spreads over; reshaping a vector of 5 into a 1 × 5 row keeps the entries.
-/
import proofs.«122468_j35184372089134_1_alg».proof.Proof.Gen.KernelIdeal
import proofs.«122468_j35184372089134_1_alg».proof.Proof.BondScore
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Projections

open Idealize.ShloMosaic Idealize.ShloMosaic.ValueIdx Cert.KernelIdeal Cert.BondScore

/-- The host product of the 1024 × 256 features with a 256 × 256 weight block, read at (i, d): the sum over the 256 features. -/
theorem featDot_apply (L : FVec Ideal S1024x256 .f32) (R : FVec Ideal S256x256 .f32) (i : Fin 1024) (d : Fin 256) :
    Host.dotGeneral dot_S1024x256_S256x256_S1024x256_1_0_0_1_n_n none L R (ix2 i d) = ∑ e : Fin 256, L (ix2 i e) * R (ix2 e d) := by
  simp only [Host.dotGeneral]
  rw [Ideal.dotGeneral_apply]
  refine Fintype.sum_equiv (contrEquiv1 dot_S1024x256_S256x256_S1024x256_1_0_0_1_n_n 256 rfl rfl) _ _ fun q => ?_
  have hl : dot_S1024x256_S256x256_S1024x256_1_0_0_1_n_n.lhsIdx (ix2 i d) q
      = ix2 i ((contrEquiv1 dot_S1024x256_S256x256_S1024x256_1_0_0_1_n_n 256 rfl rfl) q) := by
    funext x
    match x with
    | ⟨0, _⟩ => rfl
    | ⟨1, _⟩ => rfl
  have hr : dot_S1024x256_S256x256_S1024x256_1_0_0_1_n_n.rhsIdx (ix2 i d) q
      = ix2 ((contrEquiv1 dot_S1024x256_S256x256_S1024x256_1_0_0_1_n_n 256 rfl rfl) q) d := by
    funext x
    match x with
    | ⟨0, _⟩ => rfl
    | ⟨1, _⟩ => rfl
  rw [hl, hr]

/-- Rows 0–255 of the first-layer weights. -/
theorem topRows_apply (W : S512x256.Idx → EReal) (h : S512x256.Slices ![0, 0] S256x256) (e d : Fin 256) :
    extractStridedSlice S256x256 ![0, 0] W h (ix2 e d) = W (ix2 ⟨0 + e.val, by have := e.isLt; omega⟩ d) := by
  refine extractStridedSlice_apply _ W h _ _ fun a => ?_
  match a with
  | ⟨0, _⟩ => rfl
  | ⟨1, _⟩ => show d.val = 0 + d.val; omega

/-- Rows 256–511 of the first-layer weights. -/
theorem botRows_apply (W : S512x256.Idx → EReal) (h : S512x256.Slices ![256, 0] S256x256) (e d : Fin 256) :
    extractStridedSlice S256x256 ![256, 0] W h (ix2 e d) = W (ix2 ⟨256 + e.val, by have := e.isLt; omega⟩ d) := by
  refine extractStridedSlice_apply _ W h _ _ fun a => ?_
  match a with
  | ⟨0, _⟩ => rfl
  | ⟨1, _⟩ => show d.val = 0 + d.val; omega

/-- The first-layer bias spread over all rows. -/
theorem biasRows_apply (b : S256.Idx → EReal) (h1 : S256.BroadcastsInDim S1x256 ![1]) (h2 : S1x256.BroadcastsInDim S1024x256 ![0, 1])
    (i : Fin 1024) (d : Fin 256) :
    broadcastInDim S1024x256 ![0, 1] h2 (broadcastInDim S1x256 ![1] h1 b) (ix2 i d) = b (ix1 d) := by
  refine (broadcastInDim_apply _ h2 _ (ix2 i d) (ix2 0 d) fun a => ?_).trans ?_
  · match a with
    | ⟨0, _⟩ => rfl
    | ⟨1, _⟩ => rfl
  · refine broadcastInDim_apply _ h1 b (ix2 0 d) (ix1 d) fun a => ?_
    match a with
    | ⟨0, _⟩ => rfl

/-- The second-layer bias as a 1 × 5 row. -/
theorem biasRow_apply (b : S5.Idx → EReal) (h : S5.ShapeCasts S1x5) (k : Fin 5) :
    shapeCast S1x5 b h (ix2 0 k) = b (ix1 k) := by
  refine shapeCast_apply b h _ _ ?_
  rw [Shape.rowMajor_val_one, Shape.rowMajor_val_two]
  show k.val = 0 * 5 + k.val
  omega

/-- The first atom's projection with its bias, read at (i, d). -/
theorem top_apply (h : FVec Ideal S1024x256 .f32) (W : FVec Ideal S512x256 .f32) (b : FVec Ideal S256 .f32)
    (hs : S512x256.Slices ![0, 0] S256x256) (h1 : S256.BroadcastsInDim S1x256 ![1]) (h2 : S1x256.BroadcastsInDim S1024x256 ![0, 1])
    (i : Fin 1024) (d : Fin 256) :
    addf (Host.dotGeneral dot_S1024x256_S256x256_S1024x256_1_0_0_1_n_n none h (extractStridedSlice S256x256 ![0, 0] W hs))
      (broadcastInDim S1024x256 ![0, 1] h2 (broadcastInDim S1x256 ![1] h1 b)) (ix2 i d)
      = proj h W 0 (by omega) i d + b (ix1 d) := by
  rw [addf_apply, featDot_apply, biasRows_apply]
  unfold proj
  congr 1
  exact Finset.sum_congr rfl fun e _ => by rw [topRows_apply]

/-- The second atom's projection, read at (j, d). -/
theorem bot_apply (h : FVec Ideal S1024x256 .f32) (W : FVec Ideal S512x256 .f32) (hs : S512x256.Slices ![256, 0] S256x256) (j : Fin 1024) (d : Fin 256) :
    Host.dotGeneral dot_S1024x256_S256x256_S1024x256_1_0_0_1_n_n none h (extractStridedSlice S256x256 ![256, 0] W hs) (ix2 j d)
      = proj h W 256 (by omega) j d := by
  rw [featDot_apply]
  unfold proj
  exact Finset.sum_congr rfl fun e _ => by rw [botRows_apply]

end Cert.KernelIdeal.Projections
end
-- ==== Proof.Consts.lean ====
/-
  The float constants the two programs spell, as the numbers their bit patterns denote on the extended reals.
-/
import Idealize.ShloMosaic.PureOps.Ideal

noncomputable section

namespace Cert.Consts

open Idealize.ShloMosaic

/-- The pattern 0x3F800000 (sign 0, exponent 127, mantissa 0) denotes the number one. -/
theorem ofBits_one_f32 : Ideal.ofBits .f32 0x3F800000#32 = 1 := by
  simp [Ideal.ofBits, Ideal.ieee, -EReal.coe_mul]; norm_num

end Cert.Consts

end
-- ==== Proof.BondBridge.lean ====
/-
  The pair logits of the two programs, read pair by pair, are the same bond score.

  Both programs hold, for pair number p, a row index I[p] and a column index J[p] (the strict upper triangle, in row-major
  order), read as signed integers, wrapped (a negative one counts from the end) and clamped into the 1024 rows by the gather.
  The kernel program gathers entry (I[p], J[p], k) of the dense 1024 × 1024 × 5 tensor. The reference gathers rows I[p] and J[p] of
  the features, projects each by its half of the first-layer weights, adds the two and then the bias, applies silu, multiplies by
  the output weights and adds the output bias. Index by index both are the bond score of BondScore, once with the bias joined
  to the first projection and once joined after both: the same extended real.
-/
import proofs.«122468_j35184372089134_1_alg».proof.Proof.BondChains
import proofs.«122468_j35184372089134_1_alg».proof.Proof.BondScore
import proofs.«122468_j35184372089134_1_alg».proof.Proof.Consts
import proofs.«122468_j35184372089134_1_alg».proof.Proof.Projections
import Idealize.ShloMosaic.Lib.ValueIdx
import Idealize.ShloMosaic.Lib.ValueLayout
import Idealize.ShloMosaic.Lib.Pipeline.Value
import Idealize.ShloMosaic.PureOps.Ideal.Laws

noncomputable section

namespace Cert.BondBridge

open Idealize.ShloMosaic Idealize.ShloMosaic.ValueIdx Cert.BondScore

variable {α : Type}

def clampRow (w : BitVec 32) : Fin 1024 := ⟨min w.toInt.toNat 1023, by omega⟩

local notation "gR" => Cert.ReferenceIdeal.gather_S1024x256_S523776x1_S523776x256_1_0_n_n_0_1_1256

theorem gatherRow_apply (x : Cert.ReferenceIdeal.S1024x256.Idx → α) (idx : IVec Cert.ReferenceIdeal.S523776x1 32) (p : Fin 523776) (e : Fin 256) :
    Host.gather gR x idx (ix2 p e) = x (ix2 (clampRow (idx (ix2 p 0))) e) := by
  unfold Host.gather
  congr 1
  funext a
  refine Fin.ext ?_
  show (GatherDims.start gR (ix2 p e) idx a + GatherDims.batchCoord gR (ix2 p e) a + GatherDims.offCoord gR (ix2 p e) a : ℕ) = _
  rw [GatherDims.batchCoord_eq_zero _ _ _ List.not_mem_nil, Nat.add_zero]
  have ha : a = (0 : Fin 2) ∨ a = (1 : Fin 2) := by
    rcases a with ⟨_ | _ | n, h⟩
    · exact Or.inl rfl
    · exact Or.inr rfl
    · exact absurd h (by show ¬ n + 2 < 2; omega)
  rcases ha with rfl | rfl
  ·
    rw [GatherDims.offCoord_eq_zero _ _ _ (fun h => ((GatherDims.mem_sKept _ _).mp h).1 (List.mem_singleton.mpr rfl)), Nat.add_zero]
    unfold GatherDims.start
    rw [dif_pos (show (0 : Fin 2) ∈ (gR).startIndexMap from List.mem_singleton.mpr rfl)]
    have hsi : (gR).siIdx (ix2 p e) ⟨List.idxOf (0 : Fin 2) (gR).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  · unfold GatherDims.start
    rw [dif_neg (show (1 : Fin 2) ∉ (gR).startIndexMap from by decide), Nat.zero_add]
    unfold GatherDims.offCoord
    rw [dif_pos (show (1 : Fin 2) ∈ (gR).sKept from by decide)]
    rfl

local notation "gK" => Cert.KernelIdeal.gather_S1024x1024x5_S523776x2_S523776x5_1_01_n_n_01_1_115

theorem gatherPair_apply (x : Cert.KernelIdeal.S1024x1024x5.Idx → α) (idx : IVec Cert.KernelIdeal.S523776x2 32) (p : Fin 523776) (k : Fin 5) :
    Host.gather gK x idx (ix2 p k) = x (ix3 (clampRow (idx (ix2 p 0))) (clampRow (idx (ix2 p 1))) k) := by
  unfold Host.gather
  congr 1
  funext a
  refine Fin.ext ?_
  show (GatherDims.start gK (ix2 p k) idx a + GatherDims.batchCoord gK (ix2 p k) a + GatherDims.offCoord gK (ix2 p k) a : ℕ) = _
  rw [GatherDims.batchCoord_eq_zero _ _ _ List.not_mem_nil, Nat.add_zero]
  have ha : a = (0 : Fin 3) ∨ a = (1 : Fin 3) ∨ a = (2 : Fin 3) := by
    rcases a with ⟨_ | _ | _ | n, h⟩
    · exact Or.inl rfl
    · exact Or.inr (Or.inl rfl)
    · exact Or.inr (Or.inr rfl)
    · exact absurd h (by show ¬ n + 3 < 3; omega)
  rcases ha with rfl | rfl | rfl
  · rw [GatherDims.offCoord_eq_zero _ _ _ (fun h => ((GatherDims.mem_sKept _ _).mp h).1 (by decide)), Nat.add_zero]
    unfold GatherDims.start
    rw [dif_pos (show (0 : Fin 3) ∈ (gK).startIndexMap from by decide)]
    have hsi : (gK).siIdx (ix2 p k) ⟨List.idxOf (0 : Fin 3) (gK).startIndexMap,
        List.idxOf_lt_length_iff.2 (by decide)⟩ = ix2 p 0 := by
      funext b; refine Fin.ext ?_
      match b with
      | ⟨0, _⟩ => rfl
      | ⟨1, _⟩ => rfl
    rw [hsi]
    rfl
  · rw [GatherDims.offCoord_eq_zero _ _ _ (fun h => ((GatherDims.mem_sKept _ _).mp h).1 (by decide)), Nat.add_zero]
    unfold GatherDims.start
    rw [dif_pos (show (1 : Fin 3) ∈ (gK).startIndexMap from by decide)]
    have hsi : (gK).siIdx (ix2 p k) ⟨List.idxOf (1 : Fin 3) (gK).startIndexMap,
        List.idxOf_lt_length_iff.2 (by decide)⟩ = ix2 p 1 := by
      funext b; refine Fin.ext ?_
      match b with
      | ⟨0, _⟩ => rfl
      | ⟨1, _⟩ => rfl
    rw [hsi]
    rfl
  · unfold GatherDims.start
    rw [dif_neg (show (2 : Fin 3) ∉ (gK).startIndexMap from by decide), Nat.zero_add]
    unfold GatherDims.offCoord
    rw [dif_pos (show (2 : Fin 3) ∈ (gK).sKept from by decide)]
    rfl

end Cert.BondBridge

namespace Cert.ReferenceIdeal.BondRead

open Idealize.ShloMosaic Idealize.ShloMosaic.ValueIdx Cert.ReferenceIdeal Cert.BondScore

/-- The pairs' gathered features times a 256 × 256 weight block, read at (p, d). -/
theorem pairDot_apply (L : FVec Ideal S523776x256 .f32) (R : FVec Ideal S256x256 .f32) (p : Fin 523776) (d : Fin 256) :
    Host.dotGeneral dot_S523776x256_S256x256_S523776x256_1_0_0_1_n_n none L R (ix2 p d) = ∑ e : Fin 256, L (ix2 p e) * R (ix2 e d) := by
  simp only [Host.dotGeneral]
  rw [Ideal.dotGeneral_apply]
  refine Fintype.sum_equiv (contrEquiv1 dot_S523776x256_S256x256_S523776x256_1_0_0_1_n_n 256 rfl rfl) _ _ fun q => ?_
  have hl : dot_S523776x256_S256x256_S523776x256_1_0_0_1_n_n.lhsIdx (ix2 p d) q
      = ix2 p ((contrEquiv1 dot_S523776x256_S256x256_S523776x256_1_0_0_1_n_n 256 rfl rfl) q) := by
    funext x
    match x with
    | ⟨0, _⟩ => rfl
    | ⟨1, _⟩ => rfl
  have hr : dot_S523776x256_S256x256_S523776x256_1_0_0_1_n_n.rhsIdx (ix2 p d) q
      = ix2 ((contrEquiv1 dot_S523776x256_S256x256_S523776x256_1_0_0_1_n_n 256 rfl rfl) q) d := by
    funext x
    match x with
    | ⟨0, _⟩ => rfl
    | ⟨1, _⟩ => rfl
  rw [hl, hr]

/-- The pairs' hidden activations times the 256 × 5 output weights, read at (p, k). -/
theorem outDot_apply (L : FVec Ideal S523776x256 .f32) (R : FVec Ideal S256x5 .f32) (p : Fin 523776) (k : Fin 5) :
    Host.dotGeneral dot_S523776x256_S256x5_S523776x5_1_0_0_1_n_n none L R (ix2 p k) = ∑ d : Fin 256, L (ix2 p d) * R (ix2 d k) := by
  simp only [Host.dotGeneral]
  rw [Ideal.dotGeneral_apply]
  refine Fintype.sum_equiv (contrEquiv1 dot_S523776x256_S256x5_S523776x5_1_0_0_1_n_n 256 rfl rfl) _ _ fun q => ?_
  have hl : dot_S523776x256_S256x5_S523776x5_1_0_0_1_n_n.lhsIdx (ix2 p k) q
      = ix2 p ((contrEquiv1 dot_S523776x256_S256x5_S523776x5_1_0_0_1_n_n 256 rfl rfl) q) := by
    funext x
    match x with
    | ⟨0, _⟩ => rfl
    | ⟨1, _⟩ => rfl
  have hr : dot_S523776x256_S256x5_S523776x5_1_0_0_1_n_n.rhsIdx (ix2 p k) q
      = ix2 ((contrEquiv1 dot_S523776x256_S256x5_S523776x5_1_0_0_1_n_n 256 rfl rfl) q) k := by
    funext x
    match x with
    | ⟨0, _⟩ => rfl
    | ⟨1, _⟩ => rfl
  rw [hl, hr]

/-- The first-layer bias spread over all pairs. -/
theorem hiddenBias_apply (b : S256.Idx → EReal) (h1 : S256.BroadcastsInDim S1x256 ![1]) (h2 : S1x256.BroadcastsInDim S523776x256 ![0, 1])
    (p : Fin 523776) (d : Fin 256) :
    broadcastInDim S523776x256 ![0, 1] h2 (broadcastInDim S1x256 ![1] h1 b) (ix2 p d) = b (ix1 d) := by
  refine (broadcastInDim_apply _ h2 _ (ix2 p d) (ix2 0 d) fun a => ?_).trans ?_
  · match a with
    | ⟨0, _⟩ => rfl
    | ⟨1, _⟩ => rfl
  · refine broadcastInDim_apply _ h1 b (ix2 0 d) (ix1 d) fun a => ?_
    match a with
    | ⟨0, _⟩ => rfl

/-- The output bias spread over all pairs. -/
theorem outBias_apply (b : S5.Idx → EReal) (h1 : S5.BroadcastsInDim S1x5 ![1]) (h2 : S1x5.BroadcastsInDim S523776x5 ![0, 1])
    (p : Fin 523776) (k : Fin 5) :
    broadcastInDim S523776x5 ![0, 1] h2 (broadcastInDim S1x5 ![1] h1 b) (ix2 p k) = b (ix1 k) := by
  refine (broadcastInDim_apply _ h2 _ (ix2 p k) (ix2 0 k) fun a => ?_).trans ?_
  · match a with
    | ⟨0, _⟩ => rfl
    | ⟨1, _⟩ => rfl
  · refine broadcastInDim_apply _ h1 b (ix2 0 k) (ix1 k) fun a => ?_
    match a with
    | ⟨0, _⟩ => rfl

/-- The host's expansion x · (1 / (1 + e^(−x))) is silu, pointwise. -/
theorem hostSilu_apply {s : Shape} (x : FVec Ideal s .f32) (h : S_.BroadcastsInDim s ![]) (i : s.Idx) :
    mulf x (Host.divf (broadcastInDim s ![] h (constant S_ .f32 0x3F800000#32))
      (addf (broadcastInDim s ![] h (constant S_ .f32 0x3F800000#32)) (Host.exp (Host.negf x)))) i = silu (x i) := by
  show x i * Ideal.div (Ideal.ofBits .f32 0x3F800000#32) (Ideal.ofBits .f32 0x3F800000#32 + Ideal.exp (-(x i))) = silu (x i)
  rw [Cert.Consts.ofBits_one_f32]
  rfl

end Cert.ReferenceIdeal.BondRead

namespace Cert.BondBridge

open Idealize.ShloMosaic Idealize.ShloMosaic.ValueIdx Cert.BondScore
open Cert.BondChains Cert.KernelIdeal.Projections Cert.ReferenceIdeal.BondRead

/-- A per-pair index vector spread into a one-column table reads back the vector. -/
theorem column_apply (I : IVec Cert.ReferenceIdeal.S523776 32) (h : Cert.ReferenceIdeal.S523776.BroadcastsInDim Cert.ReferenceIdeal.S523776x1 ![0]) (p : Fin 523776) :
    broadcastInDim Cert.ReferenceIdeal.S523776x1 ![0] h I (ix2 p 0) = I (ix1 p) := by
  refine broadcastInDim_apply _ h I (ix2 p 0) (ix1 p) fun a => ?_
  match a with
  | ⟨0, _⟩ => rfl

/-- The reference's gathered rows: row p is the feature row at the wrapped, clamped index. -/
theorem gatherRows_apply (h : FVec Ideal Cert.ReferenceIdeal.S1024x256 .f32) (I : IVec Cert.ReferenceIdeal.S523776 32) (p : Fin 523776) (e : Fin 256) :
    R.gatherRows h I (ix2 p e) = h (ix2 (clampRow (R.wrapIndex I (ix1 p))) e) := by
  unfold R.gatherRows
  rw [gatherRow_apply, column_apply]

/-- The reference's hidden pre-activation at (p, d): the two projections, then the bias. -/
theorem hidden_apply (h : FVec Ideal Cert.ReferenceIdeal.S1024x256 .f32) (W : FVec Ideal Cert.ReferenceIdeal.S512x256 .f32) (b : FVec Ideal Cert.ReferenceIdeal.S256 .f32)
    (I J : IVec Cert.ReferenceIdeal.S523776 32) (p : Fin 523776) (d : Fin 256) :
    R.hidden h W b I J (ix2 p d)
      = (proj h W 0 (by omega) (clampRow (R.wrapIndex I (ix1 p))) d + proj h W 256 (by omega) (clampRow (R.wrapIndex J (ix1 p))) d) + b (ix1 d) := by
  unfold R.hidden
  rw [addf_apply, addf_apply, pairDot_apply, pairDot_apply, hiddenBias_apply]
  unfold proj
  congr 2
  · exact Finset.sum_congr rfl fun e _ => by rw [gatherRows_apply, topRows_apply]
  · exact Finset.sum_congr rfl fun e _ => by rw [gatherRows_apply, botRows_apply]

/-- THE REFERENCE'S PAIR LOGITS at (p, k): the bond score of the pair of wrapped, clamped indices. -/
theorem reference_apply (h : FVec Ideal Cert.ReferenceIdeal.S1024x256 .f32) (W : FVec Ideal Cert.ReferenceIdeal.S512x256 .f32) (b : FVec Ideal Cert.ReferenceIdeal.S256 .f32)
    (W₂ : FVec Ideal Cert.ReferenceIdeal.S256x5 .f32) (b₂ : FVec Ideal Cert.ReferenceIdeal.S5 .f32)
    (I J : IVec Cert.ReferenceIdeal.S523776 32) (p : Fin 523776) (k : Fin 5) :
    addf (F := Ideal)
        (Host.dotGeneral (φ₂ := .f32) Cert.ReferenceIdeal.dot_S523776x256_S256x5_S523776x5_1_0_0_1_n_n none (R.hostSilu (R.hidden h W b I J)) W₂)
        (broadcastInDim Cert.ReferenceIdeal.S523776x5 ![0, 1] Cert.ReferenceIdeal.Gen.bcast_S1x5_S523776x5_0_1
          (broadcastInDim Cert.ReferenceIdeal.S1x5 ![1] Cert.ReferenceIdeal.Gen.bcast_S5_S1x5_1 b₂)) (ix2 p k)
      = score h W b W₂ b₂ (clampRow (R.wrapIndex I (ix1 p))) (clampRow (R.wrapIndex J (ix1 p))) k := by
  rw [score_eq_late_bias, addf_apply, outDot_apply, outBias_apply]
  congr 1
  refine Finset.sum_congr rfl fun d _ => ?_
  unfold R.hostSilu
  rw [hostSilu_apply, hidden_apply]

/-- THE KERNEL PROGRAM'S PAIR LOGITS at (p, k): the dense tensor's entry at the pair of wrapped, clamped indices. -/
theorem kernel_apply (T : Cert.KernelIdeal.S1024x1024x5.Idx → EReal) (I J : IVec Cert.KernelIdeal.S523776 32) (p : Fin 523776) (k : Fin 5) :
    Host.gather Cert.KernelIdeal.gather_S1024x1024x5_S523776x2_S523776x5_1_01_n_n_01_1_115 T
        (concatenate Cert.KernelIdeal.S523776x2 1
          [⟨Cert.KernelIdeal.S523776x1, broadcastInDim Cert.KernelIdeal.S523776x1 ![0] Cert.KernelIdeal.Gen.bcast_S523776_S523776x1_0 (K.wrapIndex I)⟩,
           ⟨Cert.KernelIdeal.S523776x1, broadcastInDim Cert.KernelIdeal.S523776x1 ![0] Cert.KernelIdeal.Gen.bcast_S523776_S523776x1_0 (K.wrapIndex J)⟩]
          Cert.KernelIdeal.Gen.concatenates_S523776x1_S523776x1_S523776x2_d1) (ix2 p k)
      = T (ix3 (clampRow (K.wrapIndex I (ix1 p))) (clampRow (K.wrapIndex J (ix1 p))) k) := by
  rw [gatherPair_apply]
  have h0 : concatenate Cert.KernelIdeal.S523776x2 1
          [⟨Cert.KernelIdeal.S523776x1, broadcastInDim Cert.KernelIdeal.S523776x1 ![0] Cert.KernelIdeal.Gen.bcast_S523776_S523776x1_0 (K.wrapIndex I)⟩,
           ⟨Cert.KernelIdeal.S523776x1, broadcastInDim Cert.KernelIdeal.S523776x1 ![0] Cert.KernelIdeal.Gen.bcast_S523776_S523776x1_0 (K.wrapIndex J)⟩]
          Cert.KernelIdeal.Gen.concatenates_S523776x1_S523776x1_S523776x2_d1 (ix2 p 0) = K.wrapIndex I (ix1 p) := by
    refine (concatenate_pair_apply_left (t := Cert.KernelIdeal.S523776x2) (s₁ := Cert.KernelIdeal.S523776x1) (s₂ := Cert.KernelIdeal.S523776x1) (1 : Fin 2) _ _ _ (ix2 p 0) rfl (ix2 p 0) fun b => ?_).trans (column_apply _ _ p)
    match b with
    | ⟨0, _⟩ => rfl
    | ⟨1, _⟩ => rfl
  have h1 : concatenate Cert.KernelIdeal.S523776x2 1
          [⟨Cert.KernelIdeal.S523776x1, broadcastInDim Cert.KernelIdeal.S523776x1 ![0] Cert.KernelIdeal.Gen.bcast_S523776_S523776x1_0 (K.wrapIndex I)⟩,
           ⟨Cert.KernelIdeal.S523776x1, broadcastInDim Cert.KernelIdeal.S523776x1 ![0] Cert.KernelIdeal.Gen.bcast_S523776_S523776x1_0 (K.wrapIndex J)⟩]
          Cert.KernelIdeal.Gen.concatenates_S523776x1_S523776x1_S523776x2_d1 (ix2 p 1) = K.wrapIndex J (ix1 p) := by
    refine (concatenate_pair_apply_right (t := Cert.KernelIdeal.S523776x2) (s₁ := Cert.KernelIdeal.S523776x1) (s₂ := Cert.KernelIdeal.S523776x1) (1 : Fin 2) _ _ _ (ix2 p 1) rfl rfl (ix2 p 0) (fun b hb => ?_) (by show (0 : ℕ) + 1 = 1; rfl)).trans (column_apply _ _ p)
    match b with
    | ⟨0, _⟩ => rfl
    | ⟨1, _⟩ => exact absurd rfl hb
  rw [h0, h1]

end Cert.BondBridge

end
-- ==== Proof.AssembleBond.lean ====
/-
  Two of the four results of the kernel program are the reference's: the pair list and the pair logits.

  The pair list. Both programs compute the strictly-upper-triangular pairs by the same integer chain from constants (a mask,
  a running count, a scatter, a second running count, quotient and remainder by 1024), so the two lists are equal whatever
  the inputs.

  The pair logits. The kernel program gathers the dense 1024 × 1024 × 5 tensor at the pairs; the reference gathers the feature rows
  and applies the two layers. Pair by pair both are the bond score at the wrapped, clamped row and column index: on the kernel side
  because the dense tensor's entry is that score over the two host projections, on the reference side by reading its operations at an
  index; the index arrays are the same by the first paragraph, and the arguments agree by hypothesis.
-/
import proofs.«122468_j35184372089134_1_alg».proof.Proof.TailStart
import proofs.«122468_j35184372089134_1_alg».proof.Proof.DenseScore
import proofs.«122468_j35184372089134_1_alg».proof.Proof.Projections
import proofs.«122468_j35184372089134_1_alg».proof.Proof.BondBridge
import proofs.«122468_j35184372089134_1_alg».proof.Proof.Nests
import proofs.«122468_j35184372089134_1_alg».proof.Proof.SharedFloat
import proofs.«122468_j35184372089134_1_alg».proof.Proof.ReferenceRun

noncomputable section

namespace Cert.Assemble

open Idealize.ShloMosaic Idealize.ShloMosaic.TcCoe Idealize.ShloMosaic.StableHlo Idealize.ShloMosaic.ValueIdx
open Idealize.SL Idealize.SL.Sem
open Cert.PairIndex (KV RV after_append kIndexOps rIndexOps)
open Cert.BondChains (rBondOps)
open Cert.Nests (rHeadOps)

variable (m : (ℓ : Loc Cert.KernelIdeal.nD Cert.KernelIdeal.τ Cert.KernelIdeal.sig) → Buf (Elt Ideal) ℓ)

/-! ## The pair list -/

/-- The kernel program's pair list is the reference's: both are the same integer chain from constants. -/
theorem pairs_eq (W : KV) (V' : RV) :
    after (List.flatten (Cert.KernelIdeal.Hand.tailOps (F := Ideal))) W (Proc.devRef .tc Cert.KernelIdeal.main_v51)
      = after (Cert.ReferenceIdeal.Hand.ops (F := Ideal)) V' (Proc.devRef .tc Cert.ReferenceIdeal.main_v42) := by
  rw [Cert.Nests.tail_nest, Cert.Nests.ref_nest]
  rw [after_of_writes_sub _ _ Cert.KernelIdeal.Hand.hostOps1_18_writes (by decide),
    after_of_writes_sub _ _ Cert.KernelIdeal.Hand.hostOps1_17_writes (by decide)]
  rw [Cert.ReferenceIdeal.Hand.opsValency_kept (by decide), Cert.ReferenceIdeal.Hand.opsValencySilu_kept (by decide),
    Cert.ReferenceIdeal.Hand.opsValencyHidden_kept (by decide)]
  simp only [rBondOps, Cert.PairIndex.after_append]
  rw [Cert.ReferenceIdeal.Hand.opsBondLogits_kept (by decide), Cert.ReferenceIdeal.Hand.opsBondSilu_kept (by decide),
    Cert.ReferenceIdeal.Hand.opsBondHidden_kept (by decide), Cert.ReferenceIdeal.Hand.opsColProj_kept (by decide),
    Cert.ReferenceIdeal.Hand.opsGatherCol_kept (by decide), Cert.ReferenceIdeal.Hand.opsRowProj_kept (by decide),
    Cert.ReferenceIdeal.Hand.opsGatherRow_kept (by decide), Cert.ReferenceIdeal.Hand.opsRowNegative_kept (by decide)]
  exact Cert.PairIndex.pairList_eq _ _ (Cert.PairIndex.rowIndex_eq _ _) (Cert.PairIndex.colIndex_eq _ _)

/-! ## The pair logits -/

/-- An argument buffer of the reference passes unchanged through its atom head, its integer chain and the pair table. -/
local macro "ref_arg_through" r:term : tactic =>
  `(tactic| simp only [Cert.PairIndex.rIndexOps, Cert.Nests.rHeadOps, Cert.PairIndex.after_append,
    Cert.ReferenceIdeal.Hand.opsAtomHidden_kept (r := $r) (by decide),
    Cert.ReferenceIdeal.Hand.opsAtomSilu_kept (r := $r) (by decide),
    Cert.ReferenceIdeal.Hand.opsAtomLogits_kept (r := $r) (by decide),
    Cert.ReferenceIdeal.Hand.opsSoftmax_kept (r := $r) (by decide),
    Cert.ReferenceIdeal.Hand.opsOnes_kept (r := $r) (by decide),
    Cert.ReferenceIdeal.Hand.opsTriu_kept (r := $r) (by decide),
    Cert.ReferenceIdeal.Hand.opsTriuMask_kept (r := $r) (by decide),
    Cert.ReferenceIdeal.Hand.opsCumsumMask_kept (r := $r) (by decide),
    Cert.ReferenceIdeal.Hand.opsScatterInit_kept (r := $r) (by decide),
    Cert.ReferenceIdeal.Hand.opsClip_kept (r := $r) (by decide),
    Cert.ReferenceIdeal.Hand.opsScatter_kept (r := $r) (by decide),
    Cert.ReferenceIdeal.Hand.opsCumsumScatter_kept (r := $r) (by decide),
    Cert.ReferenceIdeal.Hand.opsRowQuot_kept (r := $r) (by decide),
    Cert.ReferenceIdeal.Hand.opsRowIndex_kept (r := $r) (by decide),
    Cert.ReferenceIdeal.Hand.opsColQuot_kept (r := $r) (by decide),
    Cert.ReferenceIdeal.Hand.opsColIndex_kept (r := $r) (by decide),
    Cert.ReferenceIdeal.Hand.opsPairIndex_kept (r := $r) (by decide)])

/-- The kernel program's pair logits — the dense tensor gathered at the pair indices — are the reference's, pair by pair
    the same bond score. -/
theorem bond_run (c : Dev Cert.KernelIdeal.nD) (V' : RV)
    (a0 : launchK m c (Proc.devRef .tc Cert.KernelIdeal.main_arg0) = V' (Proc.devRef .tc Cert.ReferenceIdeal.main_arg0))
    (a7 : launchK m c (Proc.devRef .tc Cert.KernelIdeal.main_arg7) = V' (Proc.devRef .tc Cert.ReferenceIdeal.main_arg7))
    (a8 : launchK m c (Proc.devRef .tc Cert.KernelIdeal.main_arg8) = V' (Proc.devRef .tc Cert.ReferenceIdeal.main_arg8))
    (a9 : launchK m c (Proc.devRef .tc Cert.KernelIdeal.main_arg9) = V' (Proc.devRef .tc Cert.ReferenceIdeal.main_arg9))
    (a10 : launchK m c (Proc.devRef .tc Cert.KernelIdeal.main_arg10) = V' (Proc.devRef .tc Cert.ReferenceIdeal.main_arg10)) :
    after (List.flatten (Cert.KernelIdeal.Hand.tailOps (F := Ideal))) (tailStart m c) (Proc.devRef .tc Cert.KernelIdeal.main_v65)
      = after (Cert.ReferenceIdeal.Hand.ops (F := Ideal)) V' (Proc.devRef .tc Cert.ReferenceIdeal.main_v69) := by
  rw [Cert.Nests.tail_nest, Cert.Nests.ref_nest]
  rw [Cert.SharedFloat.k1_18_kept (by decide), Cert.SharedFloat.k1_17_kept (by decide)]
  rw [Cert.ReferenceIdeal.Hand.opsValency_kept (by decide), Cert.ReferenceIdeal.Hand.opsValencySilu_kept (by decide),
    Cert.ReferenceIdeal.Hand.opsValencyHidden_kept (by decide)]
  rw [Cert.BondChains.gatherPairs_eq, Cert.BondChains.bondLogits_eq]
  refine funext fun (x : Cert.KernelIdeal.S523776x5.Idx) => ?_
  obtain ⟨p, k, rfl⟩ : ∃ (p : Fin 523776) (k : Fin 5), x = ix2 p k := ⟨x 0, x 1, eq_ix2 x⟩
  rw [Cert.BondBridge.kernel_apply, Cert.BondBridge.reference_apply]
  have hT : after kIndexOps (tailStart m c) (Proc.devRef .tc Cert.KernelIdeal.main_v28)
      = Cert.KernelIdeal.BondArray.dense (Cert.KernelIdeal.Hand.V m c Cert.KernelIdeal.main_v24) (Cert.KernelIdeal.Hand.V m c Cert.KernelIdeal.main_v26)
          (Cert.KernelIdeal.Hand.V m c Cert.KernelIdeal.main_arg9) (Cert.KernelIdeal.Hand.V m c Cert.KernelIdeal.main_v27) :=
    (Cert.PairIndex.kIndex_kept (by decide) _).trans (tailStart_out m c)
  have hI : after kIndexOps (tailStart m c) (Proc.devRef .tc Cert.KernelIdeal.main_v46) = (after (Cert.ReferenceIdeal.Hand.opsPairIndex (F := Ideal)) (after rIndexOps (after rHeadOps V'))) (Proc.devRef .tc Cert.ReferenceIdeal.main_v37) :=
    (Cert.PairIndex.rowIndex_eq _ _).trans (Cert.ReferenceIdeal.Hand.opsPairIndex_kept (r := Cert.ReferenceIdeal.main_v37) (by decide) _).symm
  have hJ : after kIndexOps (tailStart m c) (Proc.devRef .tc Cert.KernelIdeal.main_v48) = (after (Cert.ReferenceIdeal.Hand.opsPairIndex (F := Ideal)) (after rIndexOps (after rHeadOps V'))) (Proc.devRef .tc Cert.ReferenceIdeal.main_v39) :=
    (Cert.PairIndex.colIndex_eq _ _).trans (Cert.ReferenceIdeal.Hand.opsPairIndex_kept (r := Cert.ReferenceIdeal.main_v39) (by decide) _).symm
  have z0 : (after (Cert.ReferenceIdeal.Hand.opsPairIndex (F := Ideal)) (after rIndexOps (after rHeadOps V'))) (Proc.devRef .tc Cert.ReferenceIdeal.main_arg0) = launchK m c (Proc.devRef .tc Cert.KernelIdeal.main_arg0) := by
    ref_arg_through Cert.ReferenceIdeal.main_arg0
    exact a0.symm
  have z7 : (after (Cert.ReferenceIdeal.Hand.opsPairIndex (F := Ideal)) (after rIndexOps (after rHeadOps V'))) (Proc.devRef .tc Cert.ReferenceIdeal.main_arg7) = launchK m c (Proc.devRef .tc Cert.KernelIdeal.main_arg7) := by
    ref_arg_through Cert.ReferenceIdeal.main_arg7
    exact a7.symm
  have z8 : (after (Cert.ReferenceIdeal.Hand.opsPairIndex (F := Ideal)) (after rIndexOps (after rHeadOps V'))) (Proc.devRef .tc Cert.ReferenceIdeal.main_arg8) = launchK m c (Proc.devRef .tc Cert.KernelIdeal.main_arg8) := by
    ref_arg_through Cert.ReferenceIdeal.main_arg8
    exact a8.symm
  have z9 : (after (Cert.ReferenceIdeal.Hand.opsPairIndex (F := Ideal)) (after rIndexOps (after rHeadOps V'))) (Proc.devRef .tc Cert.ReferenceIdeal.main_arg9) = launchK m c (Proc.devRef .tc Cert.KernelIdeal.main_arg9) := by
    ref_arg_through Cert.ReferenceIdeal.main_arg9
    exact a9.symm
  have z10 : (after (Cert.ReferenceIdeal.Hand.opsPairIndex (F := Ideal)) (after rIndexOps (after rHeadOps V'))) (Proc.devRef .tc Cert.ReferenceIdeal.main_arg10) = launchK m c (Proc.devRef .tc Cert.KernelIdeal.main_arg10) := by
    ref_arg_through Cert.ReferenceIdeal.main_arg10
    exact a10.symm
  have hP : ∀ (i : Fin 1024) (d : Fin 256), Cert.KernelIdeal.Hand.V m c Cert.KernelIdeal.main_v24 (ix2 i d)
      = Cert.BondScore.proj (launchK m c (Proc.devRef .tc Cert.KernelIdeal.main_arg0)) (launchK m c (Proc.devRef .tc Cert.KernelIdeal.main_arg7)) 0 (by omega) i d
        + (launchK m c (Proc.devRef .tc Cert.KernelIdeal.main_arg8)) (ix1 d) := fun i d => by
    rw [V_nest, Cert.SharedFloat.topProj_eq]
    exact Cert.KernelIdeal.Projections.top_apply _ _ _ _ _ _ i d
  have hQ : ∀ (j : Fin 1024) (d : Fin 256), Cert.KernelIdeal.Hand.V m c Cert.KernelIdeal.main_v26 (ix2 j d)
      = Cert.BondScore.proj (launchK m c (Proc.devRef .tc Cert.KernelIdeal.main_arg0)) (launchK m c (Proc.devRef .tc Cert.KernelIdeal.main_arg7)) 256 (by omega) j d := fun j d => by
    rw [V_nest, Cert.SharedFloat.botProj_eq]
    exact Cert.KernelIdeal.Projections.bot_apply _ _ _ j d
  have hb : ∀ k : Fin 5, Cert.KernelIdeal.Hand.V m c Cert.KernelIdeal.main_v27 (ix2 0 k) = (launchK m c (Proc.devRef .tc Cert.KernelIdeal.main_arg10)) (ix1 k) := fun k => by
    rw [V_nest, Cert.SharedFloat.biasRow_eq]
    exact Cert.KernelIdeal.Projections.biasRow_apply _ _ k
  rw [hT, hI, hJ, z0, z7, z8, z9, z10, Cert.KernelIdeal.Hand.V_main_arg9]
  exact Cert.KernelIdeal.BondArray.dense_score _ _ _ _ _ _ _ _ hP hQ hb _ _ k

end Cert.Assemble
end
-- ==== Proof.lean ====
/-
  The certificate of the pairwise bond-score kernel against its jnp reference.

  The kernel program computes, on the host, the two first-layer projections of the 1024 atom features, runs one grid of
  32 × 8 points that fills the dense 1024 × 1024 × 5 tensor of bond scores  ∑_d silu (top[i, d] + bot[j, d]) · W₂[d, k] + b₂[k],
  and gathers its entries at the strictly-upper-triangular pairs (i, j). The reference gathers the two feature rows of each
  pair first and applies the same two layers. Over the extended reals the two agree pair by pair: every operation is exact,
  a change of float format is the identity, the matrix products are plain sums, and the one place where the two programs
  group a sum differently — the first-layer bias joined before or after the second atom's projection — is commutativity and
  associativity of addition, which hold at ±∞ too, so the precondition (finite inputs) is not used by the value claims.
  The other three results (atom logits, valency scores, the pair list) are computed by the same host operations in both
  programs. The three frame claims: each program's host operations and the kernel's grid run to the end without a fault and
  leave the fifteen argument arrays as they were. The idealization rewrote nothing, so `preserves` is trivial.
-/
import proofs.«122468_j35184372089134_1_alg».proof.Defs
import proofs.«122468_j35184372089134_1_alg».proof.Proof.Gen.Kernel
import proofs.«122468_j35184372089134_1_alg».proof.Proof.Gen.KernelIdeal
import proofs.«122468_j35184372089134_1_alg».proof.Proof.Gen.ReferenceIdeal
import proofs.«122468_j35184372089134_1_alg».proof.Proof.Gen.Pre_finite_inputs
import proofs.«122468_j35184372089134_1_alg».proof.Proof.KernelFrame
import proofs.«122468_j35184372089134_1_alg».proof.Proof.KernelIdealFrame
import proofs.«122468_j35184372089134_1_alg».proof.Proof.KernelIdealPost
import proofs.«122468_j35184372089134_1_alg».proof.Proof.ReferenceRun
import proofs.«122468_j35184372089134_1_alg».proof.Proof.TailStart
import proofs.«122468_j35184372089134_1_alg».proof.Proof.AssembleFloat
import proofs.«122468_j35184372089134_1_alg».proof.Proof.AssembleBond
import Idealize.ShloMosaic.Adequacy
import Idealize.ShloMosaic.Init

noncomputable section

namespace Cert.Proof

open Idealize.ShloMosaic Idealize.ShloMosaic.TcCoe Idealize.ShloMosaic.StableHlo Idealize.SL.Sem

/-- The word-level program runs to the end, faults nowhere, and leaves its arguments unchanged. -/
theorem frame_kernel : Cert.frame_Kernel (hKernel := Cert.Kernel.Gen.facts) (hPre_finite_inputs := Cert.Pre_finite_inputs.Gen.facts) :=
  fun m ρ _ => Cert.Kernel.Hand.frame m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- And so does the reference. -/
theorem frame_reference : Cert.frame_ReferenceIdeal (hReferenceIdeal := Cert.ReferenceIdeal.Gen.facts) (hPre_finite_inputs := Cert.Pre_finite_inputs.Gen.facts) :=
  fun m ρ _ => Cert.ReferenceIdeal.Hand.frame (F := Ideal) m ρ

/-- From memories that agree on the fifteen arguments the two programs end with the same four results. The witnesses are the
    reference's results; the kernel program's are equal to them one by one. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m g m' g' _ hagree
  refine ⟨fun c => after (Cert.ReferenceIdeal.Hand.ops (F := Ideal)) (launchContents m' c) (Proc.devRef .tc Cert.ReferenceIdeal.main_v8),
    fun c => after (Cert.ReferenceIdeal.Hand.ops (F := Ideal)) (launchContents m' c) (Proc.devRef .tc Cert.ReferenceIdeal.main_v69),
    fun c => after (Cert.ReferenceIdeal.Hand.ops (F := Ideal)) (launchContents m' c) (Proc.devRef .tc Cert.ReferenceIdeal.main_v82),
    fun c => after (Cert.ReferenceIdeal.Hand.ops (F := Ideal)) (launchContents m' c) (Proc.devRef .tc Cert.ReferenceIdeal.main_v42), ?_, ?_⟩
  · refine (θ_run (Cert.KernelIdeal.defs (F := Ideal)) _ _).mono (fun r h c => ?_) (Cert.KernelIdeal.Hand.run_main (F := Ideal) m g)
    obtain ⟨a0, a1, a2, a3, a4, a5, a6, a7, a8, a9, a10, a11, a12, a13, a14⟩ := hagree c
    refine ⟨?_, ?_, ?_, ?_, Cert.KernelIdeal.Hand.args_of_post m (Cert.KernelIdeal.Hand.dats m) (Cert.KernelIdeal.Hand.A_eq m) r h c⟩
    · exact (Cert.KernelIdeal.Hand.rest_of_post m (Cert.KernelIdeal.Hand.dats m) r h c Cert.KernelIdeal.main_v8 (Pipeline.mem_restRefs_of _ (by decide) (by decide))).trans
        ((Cert.Assemble.afterTail_eq m c _).trans (Cert.Assemble.atomLogits_run m c _ a0.symm a3.symm a4.symm a5.symm a6.symm))
    · exact (Cert.KernelIdeal.Hand.rest_of_post m (Cert.KernelIdeal.Hand.dats m) r h c Cert.KernelIdeal.main_v65 (Pipeline.mem_restRefs_of _ (by decide) (by decide))).trans
        ((Cert.Assemble.afterTail_eq m c _).trans (Cert.Assemble.bond_run m c _ a0.symm a7.symm a8.symm a9.symm a10.symm))
    · exact (Cert.KernelIdeal.Hand.rest_of_post m (Cert.KernelIdeal.Hand.dats m) r h c Cert.KernelIdeal.main_v78 (Pipeline.mem_restRefs_of _ (by decide) (by decide))).trans
        ((Cert.Assemble.afterTail_eq m c _).trans (Cert.Assemble.valency_run m c _ a0.symm a3.symm a4.symm a5.symm a6.symm a11.symm a12.symm a13.symm a14.symm))
    · exact (Cert.KernelIdeal.Hand.rest_of_post m (Cert.KernelIdeal.Hand.dats m) r h c Cert.KernelIdeal.main_v51 (Pipeline.mem_restRefs_of _ (by decide) (by decide))).trans
        ((Cert.Assemble.afterTail_eq m c _).trans (Cert.Assemble.pairs_eq _ _))
  · refine (θ_run (Cert.ReferenceIdeal.defs (F := Ideal)) _ _).mono (fun r h c => ?_) (Cert.ReferenceIdeal.Hand.run_main (F := Ideal) m' g')
    exact ⟨h c Cert.ReferenceIdeal.main_v8, h c Cert.ReferenceIdeal.main_v69, h c Cert.ReferenceIdeal.main_v82, h c Cert.ReferenceIdeal.main_v42,
      (h c Cert.ReferenceIdeal.main_arg0).trans (Cert.ReferenceIdeal.Hand.arg0_kept _),
      (h c Cert.ReferenceIdeal.main_arg1).trans (Cert.ReferenceIdeal.Hand.arg1_kept _),
      (h c Cert.ReferenceIdeal.main_arg2).trans (Cert.ReferenceIdeal.Hand.arg2_kept _),
      (h c Cert.ReferenceIdeal.main_arg3).trans (Cert.ReferenceIdeal.Hand.arg3_kept _),
      (h c Cert.ReferenceIdeal.main_arg4).trans (Cert.ReferenceIdeal.Hand.arg4_kept _),
      (h c Cert.ReferenceIdeal.main_arg5).trans (Cert.ReferenceIdeal.Hand.arg5_kept _),
      (h c Cert.ReferenceIdeal.main_arg6).trans (Cert.ReferenceIdeal.Hand.arg6_kept _),
      (h c Cert.ReferenceIdeal.main_arg7).trans (Cert.ReferenceIdeal.Hand.arg7_kept _),
      (h c Cert.ReferenceIdeal.main_arg8).trans (Cert.ReferenceIdeal.Hand.arg8_kept _),
      (h c Cert.ReferenceIdeal.main_arg9).trans (Cert.ReferenceIdeal.Hand.arg9_kept _),
      (h c Cert.ReferenceIdeal.main_arg10).trans (Cert.ReferenceIdeal.Hand.arg10_kept _),
      (h c Cert.ReferenceIdeal.main_arg11).trans (Cert.ReferenceIdeal.Hand.arg11_kept _),
      (h c Cert.ReferenceIdeal.main_arg12).trans (Cert.ReferenceIdeal.Hand.arg12_kept _),
      (h c Cert.ReferenceIdeal.main_arg13).trans (Cert.ReferenceIdeal.Hand.arg13_kept _),
      (h c Cert.ReferenceIdeal.main_arg14).trans (Cert.ReferenceIdeal.Hand.arg14_kept _)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
